-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v298)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v298) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S2048x2048 : Shape := ⟨2, ![2048, 2048]⟩
abbrev S2048 : Shape := ⟨1, ![2048]⟩
abbrev S7 : Shape := ⟨1, ![7]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S16x1024x2048 .f32) (main_arg1 : FVec F S2048x2048 .f32) (main_arg2 : FVec F S2048 .f32) (main_arg3 : FVec F S7 .f32) (main_arg4 : FVec F S7 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg4 main_v13 main_v16
-- ==== Kernel.lean ====
abbrev S16x1024x2048 : Shape := ⟨3, ![16, 1024, 2048]⟩
abbrev S2048x2048 : Shape := ⟨2, ![2048, 2048]⟩
abbrev S2048 : Shape := ⟨1, ![2048]⟩
abbrev S7 : Shape := ⟨1, ![7]⟩
abbrev S_ : Shape := ⟨0, ![]⟩
abbrev S1 : Shape := ⟨1, ![1]⟩
abbrev S1024x2x1024x2 : Shape := ⟨4, ![1024, 2, 1024, 2]⟩
abbrev S1024x1024x2x2 : Shape := ⟨4, ![1024, 1024, 2, 2]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x2x1 : Shape := ⟨3, ![2, 2, 1]⟩
abbrev S2x2x2 : Shape := ⟨3, ![2, 2, 2]⟩
abbrev S1024x1024x2 : Shape := ⟨3, ![1024, 1024, 2]⟩
abbrev S512x4x512x4 : Shape := ⟨4, ![512, 4, 512, 4]⟩
abbrev S512x512x4x4 : Shape := ⟨4, ![512, 512, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x4x1 : Shape := ⟨3, ![4, 4, 1]⟩
abbrev S4x4x2 : Shape := ⟨3, ![4, 4, 2]⟩
abbrev S512x512x4 : Shape := ⟨3, ![512, 512, 4]⟩
abbrev S256x8x256x8 : Shape := ⟨4, ![256, 8, 256, 8]⟩
abbrev S256x256x8x8 : Shape := ⟨4, ![256, 256, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S8x8x2 : Shape := ⟨3, ![8, 8, 2]⟩
abbrev S256x256x8 : Shape := ⟨3, ![256, 256, 8]⟩
abbrev S128x16x128x16 : Shape := ⟨4, ![128, 16, 128, 16]⟩
abbrev S128x128x16x16 : Shape := ⟨4, ![128, 128, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x16x2 : Shape := ⟨3, ![16, 16, 2]⟩
abbrev S128x128x16 : Shape := ⟨3, ![128, 128, 16]⟩
abbrev S64x32x64x32 : Shape := ⟨4, ![64, 32, 64, 32]⟩
abbrev S64x64x32x32 : Shape := ⟨4, ![64, 64, 32, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S32x32x2 : Shape := ⟨3, ![32, 32, 2]⟩
abbrev S64x64x32 : Shape := ⟨3, ![64, 64, 32]⟩
abbrev S32x64x32x64 : Shape := ⟨4, ![32, 64, 32, 64]⟩
abbrev S32x32x64x64 : Shape := ⟨4, ![32, 32, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S32x32x64 : Shape := ⟨3, ![32, 32, 64]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 608
  | .vmem => 6
  | .smem => 0
  | _ => 0

abbrev hbmTy0_0 (i : Nat) : BufTy := match i % 128 with
  | 0 => ⟨S16x1024x2048, .f32⟩
  | 1 => ⟨S2048x2048, .f32⟩
  | 2 => ⟨S2048, .f32⟩
  | 3 => ⟨S7, .f32⟩
  | 4 => ⟨S7, .f32⟩
  | 5 => ⟨S7, .f32⟩
  | 6 => ⟨S_, .f32⟩
  | 7 => ⟨S7, .f32⟩
  | 8 => ⟨S7, .f32⟩
  | 9 => ⟨S_, .f32⟩
  | 10 => ⟨S_, .f32⟩
  | 11 => ⟨S_, .f32⟩
  | 12 => ⟨S_, .f32⟩
  | 13 => ⟨S1, .f32⟩
  | 14 => ⟨S7, .f32⟩
  | 15 => ⟨S7, .f32⟩
  | 16 => ⟨S7, .f32⟩
  | 17 => ⟨S_, .f32⟩
  | 18 => ⟨S_, .f32⟩
  | 19 => ⟨S1, .f32⟩
  | 20 => ⟨S7, .f32⟩
  | 21 => ⟨S7, .f32⟩
  | 22 => ⟨S1, .f32⟩
  | 23 => ⟨S_, .f32⟩
  | 24 => ⟨S2048x2048, .f32⟩
  | 25 => ⟨S2048x2048, .f32⟩
  | 26 => ⟨S1, .f32⟩
  | 27 => ⟨S_, .f32⟩
  | 28 => ⟨S1024x2x1024x2, .f32⟩
  | 29 => ⟨S1024x1024x2x2, .f32⟩
  | 30 => ⟨S2, .i32⟩
  | 31 => ⟨S2x1, .i32⟩
  | 32 => ⟨S2, .i32⟩
  | 33 => ⟨S1x2, .i32⟩
  | 34 => ⟨S2x2, .i32⟩
  | 35 => ⟨S2x2, .i32⟩
  | 36 => ⟨S2x2, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2x2, .i32⟩
  | 44 => ⟨S2x2, .i32⟩
  | 45 => ⟨S_, .i32⟩
  | 46 => ⟨S2x2, .i32⟩
  | 47 => ⟨S2x2, .i1⟩
  | 48 => ⟨S_, .i32⟩
  | 49 => ⟨S2x2, .i32⟩
  | 50 => ⟨S2x2, .i1⟩
  | 51 => ⟨S_, .i32⟩
  | 52 => ⟨S_, .i1⟩
  | 53 => ⟨S2x2, .i1⟩
  | 54 => ⟨S2x2, .i1⟩
  | 55 => ⟨S2x2, .i1⟩
  | 56 => ⟨S2x2, .i32⟩
  | 57 => ⟨S2x2, .i32⟩
  | 58 => ⟨S2x2, .i32⟩
  | 59 => ⟨S_, .i32⟩
  | 60 => ⟨S2x1, .i32⟩
  | 61 => ⟨S2x1, .i1⟩
  | 62 => ⟨S_, .i32⟩
  | 63 => ⟨S2x1, .i32⟩
  | 64 => ⟨S2x1, .i32⟩
  | 65 => ⟨S2x1, .i32⟩
  | 66 => ⟨S_, .i32⟩
  | 67 => ⟨S2x2, .i32⟩
  | 68 => ⟨S2x2, .i1⟩
  | 69 => ⟨S_, .i32⟩
  | 70 => ⟨S2x2, .i32⟩
  | 71 => ⟨S2x2, .i32⟩
  | 72 => ⟨S2x2, .i32⟩
  | 73 => ⟨S2x2, .i32⟩
  | 74 => ⟨S2x2x1, .i32⟩
  | 75 => ⟨S2x2x1, .i32⟩
  | 76 => ⟨S2x2x2, .i32⟩
  | 77 => ⟨S1024x1024x2x2, .f32⟩
  | 78 => ⟨S_, .f32⟩
  | 79 => ⟨S1024x1024x2, .f32⟩
  | 80 => ⟨S_, .f32⟩
  | 81 => ⟨S1024x1024x2, .f32⟩
  | 82 => ⟨S1024x1024x2, .f32⟩
  | 83 => ⟨S2x2, .i32⟩
  | 84 => ⟨S2x2, .i32⟩
  | 85 => ⟨S2x2, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S2x2, .i32⟩
  | 93 => ⟨S2x2, .i32⟩
  | 94 => ⟨S_, .i32⟩
  | 95 => ⟨S2x2, .i32⟩
  | 96 => ⟨S2x2, .i1⟩
  | 97 => ⟨S_, .i32⟩
  | 98 => ⟨S2x2, .i32⟩
  | 99 => ⟨S2x2, .i1⟩
  | 100 => ⟨S_, .i32⟩
  | 101 => ⟨S_, .i1⟩
  | 102 => ⟨S2x2, .i1⟩
  | 103 => ⟨S2x2, .i1⟩
  | 104 => ⟨S2x2, .i1⟩
  | 105 => ⟨S2x2, .i32⟩
  | 106 => ⟨S2x2, .i32⟩
  | 107 => ⟨S2x2, .i32⟩
  | 108 => ⟨S_, .i32⟩
  | 109 => ⟨S2x2, .i32⟩
  | 110 => ⟨S2x2, .i1⟩
  | 111 => ⟨S_, .i32⟩
  | 112 => ⟨S2x2, .i32⟩
  | 113 => ⟨S2x2, .i32⟩
  | 114 => ⟨S2x2, .i32⟩
  | 115 => ⟨S2x2x1, .i32⟩
  | 116 => ⟨S1024x1024x2x2, .f32⟩
  | 117 => ⟨S1024x2x1024x2, .f32⟩
  | 118 => ⟨S2048x2048, .f32⟩
  | 119 => ⟨S2048x2048, .f32⟩
  | 120 => ⟨S2048x2048, .f32⟩
  | 121 => ⟨S2048x2048, .f32⟩
  | 122 => ⟨S1, .f32⟩
  | 123 => ⟨S_, .f32⟩
  | 124 => ⟨S512x4x512x4, .f32⟩
  | 125 => ⟨S512x512x4x4, .f32⟩
  | 126 => ⟨S4, .i32⟩
  | 127 => ⟨S4x1, .i32⟩
  | _ => ⟨S16x1024x2048, .f32⟩

abbrev hbmTy0_1 (i : Nat) : BufTy := match i % 128 with
  | 0 => ⟨S4, .i32⟩
  | 1 => ⟨S1x4, .i32⟩
  | 2 => ⟨S4x4, .i32⟩
  | 3 => ⟨S4x4, .i32⟩
  | 4 => ⟨S4x4, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S4x4, .i32⟩
  | 12 => ⟨S4x4, .i32⟩
  | 13 => ⟨S_, .i32⟩
  | 14 => ⟨S4x4, .i32⟩
  | 15 => ⟨S4x4, .i1⟩
  | 16 => ⟨S_, .i32⟩
  | 17 => ⟨S4x4, .i32⟩
  | 18 => ⟨S4x4, .i1⟩
  | 19 => ⟨S_, .i32⟩
  | 20 => ⟨S_, .i1⟩
  | 21 => ⟨S4x4, .i1⟩
  | 22 => ⟨S4x4, .i1⟩
  | 23 => ⟨S4x4, .i1⟩
  | 24 => ⟨S4x4, .i32⟩
  | 25 => ⟨S4x4, .i32⟩
  | 26 => ⟨S4x4, .i32⟩
  | 27 => ⟨S_, .i32⟩
  | 28 => ⟨S4x1, .i32⟩
  | 29 => ⟨S4x1, .i1⟩
  | 30 => ⟨S_, .i32⟩
  | 31 => ⟨S4x1, .i32⟩
  | 32 => ⟨S4x1, .i32⟩
  | 33 => ⟨S4x1, .i32⟩
  | 34 => ⟨S_, .i32⟩
  | 35 => ⟨S4x4, .i32⟩
  | 36 => ⟨S4x4, .i1⟩
  | 37 => ⟨S_, .i32⟩
  | 38 => ⟨S4x4, .i32⟩
  | 39 => ⟨S4x4, .i32⟩
  | 40 => ⟨S4x4, .i32⟩
  | 41 => ⟨S4x4, .i32⟩
  | 42 => ⟨S4x4x1, .i32⟩
  | 43 => ⟨S4x4x1, .i32⟩
  | 44 => ⟨S4x4x2, .i32⟩
  | 45 => ⟨S512x512x4x4, .f32⟩
  | 46 => ⟨S_, .f32⟩
  | 47 => ⟨S512x512x4, .f32⟩
  | 48 => ⟨S_, .f32⟩
  | 49 => ⟨S512x512x4, .f32⟩
  | 50 => ⟨S512x512x4, .f32⟩
  | 51 => ⟨S4x4, .i32⟩
  | 52 => ⟨S4x4, .i32⟩
  | 53 => ⟨S4x4, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S4x4, .i32⟩
  | 61 => ⟨S4x4, .i32⟩
  | 62 => ⟨S_, .i32⟩
  | 63 => ⟨S4x4, .i32⟩
  | 64 => ⟨S4x4, .i1⟩
  | 65 => ⟨S_, .i32⟩
  | 66 => ⟨S4x4, .i32⟩
  | 67 => ⟨S4x4, .i1⟩
  | 68 => ⟨S_, .i32⟩
  | 69 => ⟨S_, .i1⟩
  | 70 => ⟨S4x4, .i1⟩
  | 71 => ⟨S4x4, .i1⟩
  | 72 => ⟨S4x4, .i1⟩
  | 73 => ⟨S4x4, .i32⟩
  | 74 => ⟨S4x4, .i32⟩
  | 75 => ⟨S4x4, .i32⟩
  | 76 => ⟨S_, .i32⟩
  | 77 => ⟨S4x4, .i32⟩
  | 78 => ⟨S4x4, .i1⟩
  | 79 => ⟨S_, .i32⟩
  | 80 => ⟨S4x4, .i32⟩
  | 81 => ⟨S4x4, .i32⟩
  | 82 => ⟨S4x4, .i32⟩
  | 83 => ⟨S4x4x1, .i32⟩
  | 84 => ⟨S512x512x4x4, .f32⟩
  | 85 => ⟨S512x4x512x4, .f32⟩
  | 86 => ⟨S2048x2048, .f32⟩
  | 87 => ⟨S2048x2048, .f32⟩
  | 88 => ⟨S2048x2048, .f32⟩
  | 89 => ⟨S2048x2048, .f32⟩
  | 90 => ⟨S1, .f32⟩
  | 91 => ⟨S_, .f32⟩
  | 92 => ⟨S256x8x256x8, .f32⟩
  | 93 => ⟨S256x256x8x8, .f32⟩
  | 94 => ⟨S8, .i32⟩
  | 95 => ⟨S8x1, .i32⟩
  | 96 => ⟨S8, .i32⟩
  | 97 => ⟨S1x8, .i32⟩
  | 98 => ⟨S8x8, .i32⟩
  | 99 => ⟨S8x8, .i32⟩
  | 100 => ⟨S8x8, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S8x8, .i32⟩
  | 108 => ⟨S8x8, .i32⟩
  | 109 => ⟨S_, .i32⟩
  | 110 => ⟨S8x8, .i32⟩
  | 111 => ⟨S8x8, .i1⟩
  | 112 => ⟨S_, .i32⟩
  | 113 => ⟨S8x8, .i32⟩
  | 114 => ⟨S8x8, .i1⟩
  | 115 => ⟨S_, .i32⟩
  | 116 => ⟨S_, .i1⟩
  | 117 => ⟨S8x8, .i1⟩
  | 118 => ⟨S8x8, .i1⟩
  | 119 => ⟨S8x8, .i1⟩
  | 120 => ⟨S8x8, .i32⟩
  | 121 => ⟨S8x8, .i32⟩
  | 122 => ⟨S8x8, .i32⟩
  | 123 => ⟨S_, .i32⟩
  | 124 => ⟨S8x1, .i32⟩
  | 125 => ⟨S8x1, .i1⟩
  | 126 => ⟨S_, .i32⟩
  | 127 => ⟨S8x1, .i32⟩
  | _ => ⟨S16x1024x2048, .f32⟩

abbrev hbmTy0_2 (i : Nat) : BufTy := match i % 128 with
  | 0 => ⟨S8x1, .i32⟩
  | 1 => ⟨S8x1, .i32⟩
  | 2 => ⟨S_, .i32⟩
  | 3 => ⟨S8x8, .i32⟩
  | 4 => ⟨S8x8, .i1⟩
  | 5 => ⟨S_, .i32⟩
  | 6 => ⟨S8x8, .i32⟩
  | 7 => ⟨S8x8, .i32⟩
  | 8 => ⟨S8x8, .i32⟩
  | 9 => ⟨S8x8, .i32⟩
  | 10 => ⟨S8x8x1, .i32⟩
  | 11 => ⟨S8x8x1, .i32⟩
  | 12 => ⟨S8x8x2, .i32⟩
  | 13 => ⟨S256x256x8x8, .f32⟩
  | 14 => ⟨S_, .f32⟩
  | 15 => ⟨S256x256x8, .f32⟩
  | 16 => ⟨S_, .f32⟩
  | 17 => ⟨S256x256x8, .f32⟩
  | 18 => ⟨S256x256x8, .f32⟩
  | 19 => ⟨S8x8, .i32⟩
  | 20 => ⟨S8x8, .i32⟩
  | 21 => ⟨S8x8, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S8x8, .i32⟩
  | 29 => ⟨S8x8, .i32⟩
  | 30 => ⟨S_, .i32⟩
  | 31 => ⟨S8x8, .i32⟩
  | 32 => ⟨S8x8, .i1⟩
  | 33 => ⟨S_, .i32⟩
  | 34 => ⟨S8x8, .i32⟩
  | 35 => ⟨S8x8, .i1⟩
  | 36 => ⟨S_, .i32⟩
  | 37 => ⟨S_, .i1⟩
  | 38 => ⟨S8x8, .i1⟩
  | 39 => ⟨S8x8, .i1⟩
  | 40 => ⟨S8x8, .i1⟩
  | 41 => ⟨S8x8, .i32⟩
  | 42 => ⟨S8x8, .i32⟩
  | 43 => ⟨S8x8, .i32⟩
  | 44 => ⟨S_, .i32⟩
  | 45 => ⟨S8x8, .i32⟩
  | 46 => ⟨S8x8, .i1⟩
  | 47 => ⟨S_, .i32⟩
  | 48 => ⟨S8x8, .i32⟩
  | 49 => ⟨S8x8, .i32⟩
  | 50 => ⟨S8x8, .i32⟩
  | 51 => ⟨S8x8x1, .i32⟩
  | 52 => ⟨S256x256x8x8, .f32⟩
  | 53 => ⟨S256x8x256x8, .f32⟩
  | 54 => ⟨S2048x2048, .f32⟩
  | 55 => ⟨S2048x2048, .f32⟩
  | 56 => ⟨S2048x2048, .f32⟩
  | 57 => ⟨S2048x2048, .f32⟩
  | 58 => ⟨S1, .f32⟩
  | 59 => ⟨S_, .f32⟩
  | 60 => ⟨S128x16x128x16, .f32⟩
  | 61 => ⟨S128x128x16x16, .f32⟩
  | 62 => ⟨S16, .i32⟩
  | 63 => ⟨S16x1, .i32⟩
  | 64 => ⟨S16, .i32⟩
  | 65 => ⟨S1x16, .i32⟩
  | 66 => ⟨S16x16, .i32⟩
  | 67 => ⟨S16x16, .i32⟩
  | 68 => ⟨S16x16, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S16x16, .i32⟩
  | 76 => ⟨S16x16, .i32⟩
  | 77 => ⟨S_, .i32⟩
  | 78 => ⟨S16x16, .i32⟩
  | 79 => ⟨S16x16, .i1⟩
  | 80 => ⟨S_, .i32⟩
  | 81 => ⟨S16x16, .i32⟩
  | 82 => ⟨S16x16, .i1⟩
  | 83 => ⟨S_, .i32⟩
  | 84 => ⟨S_, .i1⟩
  | 85 => ⟨S16x16, .i1⟩
  | 86 => ⟨S16x16, .i1⟩
  | 87 => ⟨S16x16, .i1⟩
  | 88 => ⟨S16x16, .i32⟩
  | 89 => ⟨S16x16, .i32⟩
  | 90 => ⟨S16x16, .i32⟩
  | 91 => ⟨S_, .i32⟩
  | 92 => ⟨S16x1, .i32⟩
  | 93 => ⟨S16x1, .i1⟩
  | 94 => ⟨S_, .i32⟩
  | 95 => ⟨S16x1, .i32⟩
  | 96 => ⟨S16x1, .i32⟩
  | 97 => ⟨S16x1, .i32⟩
  | 98 => ⟨S_, .i32⟩
  | 99 => ⟨S16x16, .i32⟩
  | 100 => ⟨S16x16, .i1⟩
  | 101 => ⟨S_, .i32⟩
  | 102 => ⟨S16x16, .i32⟩
  | 103 => ⟨S16x16, .i32⟩
  | 104 => ⟨S16x16, .i32⟩
  | 105 => ⟨S16x16, .i32⟩
  | 106 => ⟨S16x16x1, .i32⟩
  | 107 => ⟨S16x16x1, .i32⟩
  | 108 => ⟨S16x16x2, .i32⟩
  | 109 => ⟨S128x128x16x16, .f32⟩
  | 110 => ⟨S_, .f32⟩
  | 111 => ⟨S128x128x16, .f32⟩
  | 112 => ⟨S_, .f32⟩
  | 113 => ⟨S128x128x16, .f32⟩
  | 114 => ⟨S128x128x16, .f32⟩
  | 115 => ⟨S16x16, .i32⟩
  | 116 => ⟨S16x16, .i32⟩
  | 117 => ⟨S16x16, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S16x16, .i32⟩
  | 125 => ⟨S16x16, .i32⟩
  | 126 => ⟨S_, .i32⟩
  | 127 => ⟨S16x16, .i32⟩
  | _ => ⟨S16x1024x2048, .f32⟩

abbrev hbmTy0_3 (i : Nat) : BufTy := match i % 128 with
  | 0 => ⟨S16x16, .i1⟩
  | 1 => ⟨S_, .i32⟩
  | 2 => ⟨S16x16, .i32⟩
  | 3 => ⟨S16x16, .i1⟩
  | 4 => ⟨S_, .i32⟩
  | 5 => ⟨S_, .i1⟩
  | 6 => ⟨S16x16, .i1⟩
  | 7 => ⟨S16x16, .i1⟩
  | 8 => ⟨S16x16, .i1⟩
  | 9 => ⟨S16x16, .i32⟩
  | 10 => ⟨S16x16, .i32⟩
  | 11 => ⟨S16x16, .i32⟩
  | 12 => ⟨S_, .i32⟩
  | 13 => ⟨S16x16, .i32⟩
  | 14 => ⟨S16x16, .i1⟩
  | 15 => ⟨S_, .i32⟩
  | 16 => ⟨S16x16, .i32⟩
  | 17 => ⟨S16x16, .i32⟩
  | 18 => ⟨S16x16, .i32⟩
  | 19 => ⟨S16x16x1, .i32⟩
  | 20 => ⟨S128x128x16x16, .f32⟩
  | 21 => ⟨S128x16x128x16, .f32⟩
  | 22 => ⟨S2048x2048, .f32⟩
  | 23 => ⟨S2048x2048, .f32⟩
  | 24 => ⟨S2048x2048, .f32⟩
  | 25 => ⟨S2048x2048, .f32⟩
  | 26 => ⟨S1, .f32⟩
  | 27 => ⟨S_, .f32⟩
  | 28 => ⟨S64x32x64x32, .f32⟩
  | 29 => ⟨S64x64x32x32, .f32⟩
  | 30 => ⟨S32, .i32⟩
  | 31 => ⟨S32x1, .i32⟩
  | 32 => ⟨S32, .i32⟩
  | 33 => ⟨S1x32, .i32⟩
  | 34 => ⟨S32x32, .i32⟩
  | 35 => ⟨S32x32, .i32⟩
  | 36 => ⟨S32x32, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S32x32, .i32⟩
  | 44 => ⟨S32x32, .i32⟩
  | 45 => ⟨S_, .i32⟩
  | 46 => ⟨S32x32, .i32⟩
  | 47 => ⟨S32x32, .i1⟩
  | 48 => ⟨S_, .i32⟩
  | 49 => ⟨S32x32, .i32⟩
  | 50 => ⟨S32x32, .i1⟩
  | 51 => ⟨S_, .i32⟩
  | 52 => ⟨S_, .i1⟩
  | 53 => ⟨S32x32, .i1⟩
  | 54 => ⟨S32x32, .i1⟩
  | 55 => ⟨S32x32, .i1⟩
  | 56 => ⟨S32x32, .i32⟩
  | 57 => ⟨S32x32, .i32⟩
  | 58 => ⟨S32x32, .i32⟩
  | 59 => ⟨S_, .i32⟩
  | 60 => ⟨S32x1, .i32⟩
  | 61 => ⟨S32x1, .i1⟩
  | 62 => ⟨S_, .i32⟩
  | 63 => ⟨S32x1, .i32⟩
  | 64 => ⟨S32x1, .i32⟩
  | 65 => ⟨S32x1, .i32⟩
  | 66 => ⟨S_, .i32⟩
  | 67 => ⟨S32x32, .i32⟩
  | 68 => ⟨S32x32, .i1⟩
  | 69 => ⟨S_, .i32⟩
  | 70 => ⟨S32x32, .i32⟩
  | 71 => ⟨S32x32, .i32⟩
  | 72 => ⟨S32x32, .i32⟩
  | 73 => ⟨S32x32, .i32⟩
  | 74 => ⟨S32x32x1, .i32⟩
  | 75 => ⟨S32x32x1, .i32⟩
  | 76 => ⟨S32x32x2, .i32⟩
  | 77 => ⟨S64x64x32x32, .f32⟩
  | 78 => ⟨S_, .f32⟩
  | 79 => ⟨S64x64x32, .f32⟩
  | 80 => ⟨S_, .f32⟩
  | 81 => ⟨S64x64x32, .f32⟩
  | 82 => ⟨S64x64x32, .f32⟩
  | 83 => ⟨S32x32, .i32⟩
  | 84 => ⟨S32x32, .i32⟩
  | 85 => ⟨S32x32, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S32x32, .i32⟩
  | 93 => ⟨S32x32, .i32⟩
  | 94 => ⟨S_, .i32⟩
  | 95 => ⟨S32x32, .i32⟩
  | 96 => ⟨S32x32, .i1⟩
  | 97 => ⟨S_, .i32⟩
  | 98 => ⟨S32x32, .i32⟩
  | 99 => ⟨S32x32, .i1⟩
  | 100 => ⟨S_, .i32⟩
  | 101 => ⟨S_, .i1⟩
  | 102 => ⟨S32x32, .i1⟩
  | 103 => ⟨S32x32, .i1⟩
  | 104 => ⟨S32x32, .i1⟩
  | 105 => ⟨S32x32, .i32⟩
  | 106 => ⟨S32x32, .i32⟩
  | 107 => ⟨S32x32, .i32⟩
  | 108 => ⟨S_, .i32⟩
  | 109 => ⟨S32x32, .i32⟩
  | 110 => ⟨S32x32, .i1⟩
  | 111 => ⟨S_, .i32⟩
  | 112 => ⟨S32x32, .i32⟩
  | 113 => ⟨S32x32, .i32⟩
  | 114 => ⟨S32x32, .i32⟩
  | 115 => ⟨S32x32x1, .i32⟩
  | 116 => ⟨S64x64x32x32, .f32⟩
  | 117 => ⟨S64x32x64x32, .f32⟩
  | 118 => ⟨S2048x2048, .f32⟩
  | 119 => ⟨S2048x2048, .f32⟩
  | 120 => ⟨S2048x2048, .f32⟩
  | 121 => ⟨S2048x2048, .f32⟩
  | 122 => ⟨S1, .f32⟩
  | 123 => ⟨S_, .f32⟩
  | 124 => ⟨S32x64x32x64, .f32⟩
  | 125 => ⟨S32x32x64x64, .f32⟩
  | 126 => ⟨S64, .i32⟩
  | 127 => ⟨S64x1, .i32⟩
  | _ => ⟨S16x1024x2048, .f32⟩

abbrev hbmTy0_4 (i : Nat) : BufTy := match i % 128 with
  | 0 => ⟨S64, .i32⟩
  | 1 => ⟨S1x64, .i32⟩
  | 2 => ⟨S64x64, .i32⟩
  | 3 => ⟨S64x64, .i32⟩
  | 4 => ⟨S64x64, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S64x64, .i32⟩
  | 12 => ⟨S64x64, .i32⟩
  | 13 => ⟨S_, .i32⟩
  | 14 => ⟨S64x64, .i32⟩
  | 15 => ⟨S64x64, .i1⟩
  | 16 => ⟨S_, .i32⟩
  | 17 => ⟨S64x64, .i32⟩
  | 18 => ⟨S64x64, .i1⟩
  | 19 => ⟨S_, .i32⟩
  | 20 => ⟨S_, .i1⟩
  | 21 => ⟨S64x64, .i1⟩
  | 22 => ⟨S64x64, .i1⟩
  | 23 => ⟨S64x64, .i1⟩
  | 24 => ⟨S64x64, .i32⟩
  | 25 => ⟨S64x64, .i32⟩
  | 26 => ⟨S64x64, .i32⟩
  | 27 => ⟨S_, .i32⟩
  | 28 => ⟨S64x1, .i32⟩
  | 29 => ⟨S64x1, .i1⟩
  | 30 => ⟨S_, .i32⟩
  | 31 => ⟨S64x1, .i32⟩
  | 32 => ⟨S64x1, .i32⟩
  | 33 => ⟨S64x1, .i32⟩
  | 34 => ⟨S_, .i32⟩
  | 35 => ⟨S64x64, .i32⟩
  | 36 => ⟨S64x64, .i1⟩
  | 37 => ⟨S_, .i32⟩
  | 38 => ⟨S64x64, .i32⟩
  | 39 => ⟨S64x64, .i32⟩
  | 40 => ⟨S64x64, .i32⟩
  | 41 => ⟨S64x64, .i32⟩
  | 42 => ⟨S64x64x1, .i32⟩
  | 43 => ⟨S64x64x1, .i32⟩
  | 44 => ⟨S64x64x2, .i32⟩
  | 45 => ⟨S32x32x64x64, .f32⟩
  | 46 => ⟨S_, .f32⟩
  | 47 => ⟨S32x32x64, .f32⟩
  | 48 => ⟨S_, .f32⟩
  | 49 => ⟨S32x32x64, .f32⟩
  | 50 => ⟨S32x32x64, .f32⟩
  | 51 => ⟨S64x64, .i32⟩
  | 52 => ⟨S64x64, .i32⟩
  | 53 => ⟨S64x64, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i1⟩
  | 65 => ⟨S_, .i32⟩
  | 66 => ⟨S64x64, .i32⟩
  | 67 => ⟨S64x64, .i1⟩
  | 68 => ⟨S_, .i32⟩
  | 69 => ⟨S_, .i1⟩
  | 70 => ⟨S64x64, .i1⟩
  | 71 => ⟨S64x64, .i1⟩
  | 72 => ⟨S64x64, .i1⟩
  | 73 => ⟨S64x64, .i32⟩
  | 74 => ⟨S64x64, .i32⟩
  | 75 => ⟨S64x64, .i32⟩
  | 76 => ⟨S_, .i32⟩
  | 77 => ⟨S64x64, .i32⟩
  | 78 => ⟨S64x64, .i1⟩
  | 79 => ⟨S_, .i32⟩
  | 80 => ⟨S64x64, .i32⟩
  | 81 => ⟨S64x64, .i32⟩
  | 82 => ⟨S64x64, .i32⟩
  | 83 => ⟨S64x64x1, .i32⟩
  | 84 => ⟨S32x32x64x64, .f32⟩
  | 85 => ⟨S32x64x32x64, .f32⟩
  | 86 => ⟨S2048x2048, .f32⟩
  | 87 => ⟨S2048x2048, .f32⟩
  | 88 => ⟨S2048x2048, .f32⟩
  | 89 => ⟨S2048x2048, .f32⟩
  | 90 => ⟨S2048x2048, .f32⟩
  | 91 => ⟨S2048x2048, .bf16⟩
  | 92 => ⟨S1x2048, .f32⟩
  | 93 => ⟨S16384x2048, .f32⟩
  | 94 => ⟨S16384x2048, .f32⟩
  | 95 => ⟨S16x1024x2048, .f32⟩
  | _ => ⟨S16x1024x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x1024x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v28 : Ref sig .tc := ⟨.hbm, 58, rfl⟩
abbrev main_c_3 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_9 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_c_1 : Ref sig .tc := ⟨.hbm, 94, rfl⟩
abbrev main_call1_v5 : Ref sig .tc := ⟨.hbm, 95, rfl⟩
abbrev main_call1_v6 : Ref sig .tc := ⟨.hbm, 96, rfl⟩
abbrev main_call1_c_2 : Ref sig .tc := ⟨.hbm, 97, rfl⟩
abbrev main_call1_v7 : Ref sig .tc := ⟨.hbm, 98, rfl⟩
abbrev main_call1_v8 : Ref sig .tc := ⟨.hbm, 99, rfl⟩
abbrev main_call1_c_3 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_v50 : Ref sig .tc := ⟨.hbm, 107, rfl⟩
abbrev main_c_10 : Ref sig .tc := ⟨.hbm, 108, rfl⟩
abbrev main_v51 : Ref sig .tc := ⟨.hbm, 109, rfl⟩
abbrev main_v52 : Ref sig .tc := ⟨.hbm, 110, rfl⟩
abbrev main_c_11 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_12 : Ref sig .tc := ⟨.hbm, 133, rfl⟩
abbrev main_call2_v0 : Ref sig .tc := ⟨.hbm, 134, rfl⟩
abbrev main_call2_c : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_c_1 : Ref sig .tc := ⟨.hbm, 141, rfl⟩
abbrev main_call2_v5 : Ref sig .tc := ⟨.hbm, 142, rfl⟩
abbrev main_call2_v6 : Ref sig .tc := ⟨.hbm, 143, rfl⟩
abbrev main_call2_c_2 : Ref sig .tc := ⟨.hbm, 144, rfl⟩
abbrev main_call2_v7 : Ref sig .tc := ⟨.hbm, 145, rfl⟩
abbrev main_call2_v8 : Ref sig .tc := ⟨.hbm, 146, rfl⟩
abbrev main_call2_c_3 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_v12 : Ref sig .tc := ⟨.hbm, 151, rfl⟩
abbrev main_call2_v13 : Ref sig .tc := ⟨.hbm, 152, rfl⟩
abbrev main_call2_v14 : Ref sig .tc := ⟨.hbm, 153, rfl⟩
abbrev main_v74 : Ref sig .tc := ⟨.hbm, 154, rfl⟩
abbrev main_c_13 : Ref sig .tc := ⟨.hbm, 155, rfl⟩
abbrev main_v75 : Ref sig .tc := ⟨.hbm, 156, rfl⟩
abbrev main_v76 : Ref sig .tc := ⟨.hbm, 157, rfl⟩
abbrev main_c_14 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_c_15 : Ref sig .tc := ⟨.hbm, 162, rfl⟩
abbrev main_v80 : Ref sig .tc := ⟨.hbm, 163, rfl⟩
abbrev main_v81 : Ref sig .tc := ⟨.hbm, 164, rfl⟩
abbrev main_c_16 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_17 : Ref sig .tc := ⟨.hbm, 174, rfl⟩
abbrev main_v90 : Ref sig .tc := ⟨.hbm, 175, rfl⟩
abbrev main_cst_18 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_c_19 : Ref sig .tc := ⟨.hbm, 182, rfl⟩
abbrev main_call3_v0 : Ref sig .tc := ⟨.hbm, 183, rfl⟩
abbrev main_call3_c : Ref sig .tc := ⟨.hbm, 184, rfl⟩
abbrev main_call3_v1 : Ref sig .tc := ⟨.hbm, 185, rfl⟩
abbrev main_call3_c_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_c_1 : Ref sig .tc := ⟨.hbm, 190, rfl⟩
abbrev main_call3_v5 : Ref sig .tc := ⟨.hbm, 191, rfl⟩
abbrev main_call3_v6 : Ref sig .tc := ⟨.hbm, 192, rfl⟩
abbrev main_call3_c_2 : Ref sig .tc := ⟨.hbm, 193, rfl⟩
abbrev main_call3_v7 : Ref sig .tc := ⟨.hbm, 194, rfl⟩
abbrev main_call3_v8 : Ref sig .tc := ⟨.hbm, 195, rfl⟩
abbrev main_call3_c_3 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_v12 : Ref sig .tc := ⟨.hbm, 200, rfl⟩
abbrev main_call3_v13 : Ref sig .tc := ⟨.hbm, 201, rfl⟩
abbrev main_call3_v14 : Ref sig .tc := ⟨.hbm, 202, rfl⟩
abbrev main_v96 : Ref sig .tc := ⟨.hbm, 203, rfl⟩
abbrev main_c_20 : Ref sig .tc := ⟨.hbm, 204, rfl⟩
abbrev main_v97 : Ref sig .tc := ⟨.hbm, 205, rfl⟩
abbrev main_v98 : Ref sig .tc := ⟨.hbm, 206, rfl⟩
abbrev main_c_21 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_c_22 : Ref sig .tc := ⟨.hbm, 229, rfl⟩
abbrev main_call4_v0 : Ref sig .tc := ⟨.hbm, 230, rfl⟩
abbrev main_call4_c : Ref sig .tc := ⟨.hbm, 231, rfl⟩
abbrev main_call4_v1 : Ref sig .tc := ⟨.hbm, 232, rfl⟩
abbrev main_call4_c_0 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_c_1 : Ref sig .tc := ⟨.hbm, 237, rfl⟩
abbrev main_call4_v5 : Ref sig .tc := ⟨.hbm, 238, rfl⟩
abbrev main_call4_v6 : Ref sig .tc := ⟨.hbm, 239, rfl⟩
abbrev main_call4_c_2 : Ref sig .tc := ⟨.hbm, 240, rfl⟩
abbrev main_call4_v7 : Ref sig .tc := ⟨.hbm, 241, rfl⟩
abbrev main_call4_v8 : Ref sig .tc := ⟨.hbm, 242, rfl⟩
abbrev main_call4_c_3 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_v12 : Ref sig .tc := ⟨.hbm, 247, rfl⟩
abbrev main_call4_v13 : Ref sig .tc := ⟨.hbm, 248, rfl⟩
abbrev main_call4_v14 : Ref sig .tc := ⟨.hbm, 249, rfl⟩
abbrev main_v120 : Ref sig .tc := ⟨.hbm, 250, rfl⟩
abbrev main_c_23 : Ref sig .tc := ⟨.hbm, 251, rfl⟩
abbrev main_v121 : Ref sig .tc := ⟨.hbm, 252, rfl⟩
abbrev main_v122 : Ref sig .tc := ⟨.hbm, 253, rfl⟩
abbrev main_c_24 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_c_25 : Ref sig .tc := ⟨.hbm, 258, rfl⟩
abbrev main_v126 : Ref sig .tc := ⟨.hbm, 259, rfl⟩
abbrev main_v127 : Ref sig .tc := ⟨.hbm, 260, rfl⟩
abbrev main_c_26 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_cst_27 : Ref sig .tc := ⟨.hbm, 270, rfl⟩
abbrev main_v136 : Ref sig .tc := ⟨.hbm, 271, rfl⟩
abbrev main_cst_28 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_c_29 : Ref sig .tc := ⟨.hbm, 278, rfl⟩
abbrev main_call5_v0 : Ref sig .tc := ⟨.hbm, 279, rfl⟩
abbrev main_call5_c : Ref sig .tc := ⟨.hbm, 280, rfl⟩
abbrev main_call5_v1 : Ref sig .tc := ⟨.hbm, 281, rfl⟩
abbrev main_call5_c_0 : Ref sig .tc := ⟨.hbm, 282, rfl⟩
abbrev main_call5_v2 : Ref sig .tc := ⟨.hbm, 283, rfl⟩
abbrev main_call5_v3 : Ref sig .tc := ⟨.hbm, 284, rfl⟩
abbrev main_call5_v4 : Ref sig .tc := ⟨.hbm, 285, rfl⟩
abbrev main_call5_c_1 : Ref sig .tc := ⟨.hbm, 286, rfl⟩
abbrev main_call5_v5 : Ref sig .tc := ⟨.hbm, 287, rfl⟩
abbrev main_call5_v6 : Ref sig .tc := ⟨.hbm, 288, rfl⟩
abbrev main_call5_c_2 : Ref sig .tc := ⟨.hbm, 289, rfl⟩
abbrev main_call5_v7 : Ref sig .tc := ⟨.hbm, 290, rfl⟩
abbrev main_call5_v8 : Ref sig .tc := ⟨.hbm, 291, rfl⟩
abbrev main_call5_c_3 : Ref sig .tc := ⟨.hbm, 292, rfl⟩
abbrev main_call5_v9 : Ref sig .tc := ⟨.hbm, 293, rfl⟩
abbrev main_call5_v10 : Ref sig .tc := ⟨.hbm, 294, rfl⟩
abbrev main_call5_v11 : Ref sig .tc := ⟨.hbm, 295, rfl⟩
abbrev main_call5_v12 : Ref sig .tc := ⟨.hbm, 296, rfl⟩
abbrev main_call5_v13 : Ref sig .tc := ⟨.hbm, 297, rfl⟩
abbrev main_call5_v14 : Ref sig .tc := ⟨.hbm, 298, rfl⟩
abbrev main_v142 : Ref sig .tc := ⟨.hbm, 299, rfl⟩
abbrev main_c_30 : Ref sig .tc := ⟨.hbm, 300, rfl⟩
abbrev main_v143 : Ref sig .tc := ⟨.hbm, 301, rfl⟩
abbrev main_v144 : Ref sig .tc := ⟨.hbm, 302, rfl⟩
abbrev main_c_31 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_v148 : Ref sig .tc := ⟨.hbm, 307, rfl⟩
abbrev main_v149 : Ref sig .tc := ⟨.hbm, 308, rfl⟩
abbrev main_v150 : Ref sig .tc := ⟨.hbm, 309, rfl⟩
abbrev main_v151 : Ref sig .tc := ⟨.hbm, 310, rfl⟩
abbrev main_v152 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_v165 : Ref sig .tc := ⟨.hbm, 324, rfl⟩
abbrev main_c_32 : Ref sig .tc := ⟨.hbm, 325, rfl⟩
abbrev main_call6_v0 : Ref sig .tc := ⟨.hbm, 326, rfl⟩
abbrev main_call6_c : Ref sig .tc := ⟨.hbm, 327, rfl⟩
abbrev main_call6_v1 : Ref sig .tc := ⟨.hbm, 328, rfl⟩
abbrev main_call6_c_0 : Ref sig .tc := ⟨.hbm, 329, rfl⟩
abbrev main_call6_v2 : Ref sig .tc := ⟨.hbm, 330, rfl⟩
abbrev main_call6_v3 : Ref sig .tc := ⟨.hbm, 331, rfl⟩
abbrev main_call6_v4 : Ref sig .tc := ⟨.hbm, 332, rfl⟩
abbrev main_call6_c_1 : Ref sig .tc := ⟨.hbm, 333, rfl⟩
abbrev main_call6_v5 : Ref sig .tc := ⟨.hbm, 334, rfl⟩
abbrev main_call6_v6 : Ref sig .tc := ⟨.hbm, 335, rfl⟩
abbrev main_call6_c_2 : Ref sig .tc := ⟨.hbm, 336, rfl⟩
abbrev main_call6_v7 : Ref sig .tc := ⟨.hbm, 337, rfl⟩
abbrev main_call6_v8 : Ref sig .tc := ⟨.hbm, 338, rfl⟩
abbrev main_call6_c_3 : Ref sig .tc := ⟨.hbm, 339, rfl⟩
abbrev main_call6_v9 : Ref sig .tc := ⟨.hbm, 340, rfl⟩
abbrev main_call6_v10 : Ref sig .tc := ⟨.hbm, 341, rfl⟩
abbrev main_call6_v11 : Ref sig .tc := ⟨.hbm, 342, rfl⟩
abbrev main_call6_v12 : Ref sig .tc := ⟨.hbm, 343, rfl⟩
abbrev main_call6_v13 : Ref sig .tc := ⟨.hbm, 344, rfl⟩
abbrev main_call6_v14 : Ref sig .tc := ⟨.hbm, 345, rfl⟩
abbrev main_v166 : Ref sig .tc := ⟨.hbm, 346, rfl⟩
abbrev main_c_33 : Ref sig .tc := ⟨.hbm, 347, rfl⟩
abbrev main_v167 : Ref sig .tc := ⟨.hbm, 348, rfl⟩
abbrev main_v168 : Ref sig .tc := ⟨.hbm, 349, rfl⟩
abbrev main_c_34 : Ref sig .tc := ⟨.hbm, 350, rfl⟩
abbrev main_v169 : Ref sig .tc := ⟨.hbm, 351, rfl⟩
abbrev main_v170 : Ref sig .tc := ⟨.hbm, 352, rfl⟩
abbrev main_v171 : Ref sig .tc := ⟨.hbm, 353, rfl⟩
abbrev main_c_35 : Ref sig .tc := ⟨.hbm, 354, rfl⟩
abbrev main_v172 : Ref sig .tc := ⟨.hbm, 355, rfl⟩
abbrev main_v173 : Ref sig .tc := ⟨.hbm, 356, rfl⟩
abbrev main_c_36 : Ref sig .tc := ⟨.hbm, 357, rfl⟩
abbrev main_v174 : Ref sig .tc := ⟨.hbm, 358, rfl⟩
abbrev main_v175 : Ref sig .tc := ⟨.hbm, 359, rfl⟩
abbrev main_v176 : Ref sig .tc := ⟨.hbm, 360, rfl⟩
abbrev main_v177 : Ref sig .tc := ⟨.hbm, 361, rfl⟩
abbrev main_v178 : Ref sig .tc := ⟨.hbm, 362, rfl⟩
abbrev main_v179 : Ref sig .tc := ⟨.hbm, 363, rfl⟩
abbrev main_v180 : Ref sig .tc := ⟨.hbm, 364, rfl⟩
abbrev main_v181 : Ref sig .tc := ⟨.hbm, 365, rfl⟩
abbrev main_cst_37 : Ref sig .tc := ⟨.hbm, 366, rfl⟩
abbrev main_v182 : Ref sig .tc := ⟨.hbm, 367, rfl⟩
abbrev main_cst_38 : Ref sig .tc := ⟨.hbm, 368, rfl⟩
abbrev main_v183 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩
abbrev main_c_39 : Ref sig .tc := ⟨.hbm, 374, rfl⟩
abbrev main_call7_v0 : Ref sig .tc := ⟨.hbm, 375, rfl⟩
abbrev main_call7_c : Ref sig .tc := ⟨.hbm, 376, rfl⟩
abbrev main_call7_v1 : Ref sig .tc := ⟨.hbm, 377, rfl⟩
abbrev main_call7_c_0 : Ref sig .tc := ⟨.hbm, 378, rfl⟩
abbrev main_call7_v2 : Ref sig .tc := ⟨.hbm, 379, rfl⟩
abbrev main_call7_v3 : Ref sig .tc := ⟨.hbm, 380, rfl⟩
abbrev main_call7_v4 : Ref sig .tc := ⟨.hbm, 381, rfl⟩
abbrev main_call7_c_1 : Ref sig .tc := ⟨.hbm, 382, rfl⟩
abbrev main_call7_v5 : Ref sig .tc := ⟨.hbm, 383, rfl⟩
abbrev main_call7_v6 : Ref sig .tc := ⟨.hbm, 384, rfl⟩
abbrev main_call7_c_2 : Ref sig .tc := ⟨.hbm, 385, rfl⟩
abbrev main_call7_v7 : Ref sig .tc := ⟨.hbm, 386, rfl⟩
abbrev main_call7_v8 : Ref sig .tc := ⟨.hbm, 387, rfl⟩
abbrev main_call7_c_3 : Ref sig .tc := ⟨.hbm, 388, rfl⟩
abbrev main_call7_v9 : Ref sig .tc := ⟨.hbm, 389, rfl⟩
abbrev main_call7_v10 : Ref sig .tc := ⟨.hbm, 390, rfl⟩
abbrev main_call7_v11 : Ref sig .tc := ⟨.hbm, 391, rfl⟩
abbrev main_call7_v12 : Ref sig .tc := ⟨.hbm, 392, rfl⟩
abbrev main_call7_v13 : Ref sig .tc := ⟨.hbm, 393, rfl⟩
abbrev main_call7_v14 : Ref sig .tc := ⟨.hbm, 394, rfl⟩
abbrev main_v188 : Ref sig .tc := ⟨.hbm, 395, rfl⟩
abbrev main_c_40 : Ref sig .tc := ⟨.hbm, 396, rfl⟩
abbrev main_v189 : Ref sig .tc := ⟨.hbm, 397, rfl⟩
abbrev main_v190 : Ref sig .tc := ⟨.hbm, 398, rfl⟩
abbrev main_c_41 : Ref sig .tc := ⟨.hbm, 399, rfl⟩
abbrev main_v191 : Ref sig .tc := ⟨.hbm, 400, rfl⟩
abbrev main_v192 : Ref sig .tc := ⟨.hbm, 401, rfl⟩
abbrev main_v193 : Ref sig .tc := ⟨.hbm, 402, rfl⟩
abbrev main_v194 : Ref sig .tc := ⟨.hbm, 403, rfl⟩
abbrev main_v195 : Ref sig .tc := ⟨.hbm, 404, rfl⟩
abbrev main_v196 : Ref sig .tc := ⟨.hbm, 405, rfl⟩
abbrev main_v197 : Ref sig .tc := ⟨.hbm, 406, rfl⟩
abbrev main_v198 : Ref sig .tc := ⟨.hbm, 407, rfl⟩
abbrev main_v199 : Ref sig .tc := ⟨.hbm, 408, rfl⟩
abbrev main_v200 : Ref sig .tc := ⟨.hbm, 409, rfl⟩
abbrev main_v201 : Ref sig .tc := ⟨.hbm, 410, rfl⟩
abbrev main_v202 : Ref sig .tc := ⟨.hbm, 411, rfl⟩
abbrev main_v203 : Ref sig .tc := ⟨.hbm, 412, rfl⟩
abbrev main_v204 : Ref sig .tc := ⟨.hbm, 413, rfl⟩
abbrev main_v205 : Ref sig .tc := ⟨.hbm, 414, rfl⟩
abbrev main_v206 : Ref sig .tc := ⟨.hbm, 415, rfl⟩
abbrev main_v207 : Ref sig .tc := ⟨.hbm, 416, rfl⟩
abbrev main_v208 : Ref sig .tc := ⟨.hbm, 417, rfl⟩
abbrev main_v209 : Ref sig .tc := ⟨.hbm, 418, rfl⟩
abbrev main_v210 : Ref sig .tc := ⟨.hbm, 419, rfl⟩
abbrev main_v211 : Ref sig .tc := ⟨.hbm, 420, rfl⟩
abbrev main_c_42 : Ref sig .tc := ⟨.hbm, 421, rfl⟩
abbrev main_call8_v0 : Ref sig .tc := ⟨.hbm, 422, rfl⟩
abbrev main_call8_c : Ref sig .tc := ⟨.hbm, 423, rfl⟩
abbrev main_call8_v1 : Ref sig .tc := ⟨.hbm, 424, rfl⟩
abbrev main_call8_c_0 : Ref sig .tc := ⟨.hbm, 425, rfl⟩
abbrev main_call8_v2 : Ref sig .tc := ⟨.hbm, 426, rfl⟩
abbrev main_call8_v3 : Ref sig .tc := ⟨.hbm, 427, rfl⟩
abbrev main_call8_v4 : Ref sig .tc := ⟨.hbm, 428, rfl⟩
abbrev main_call8_c_1 : Ref sig .tc := ⟨.hbm, 429, rfl⟩
abbrev main_call8_v5 : Ref sig .tc := ⟨.hbm, 430, rfl⟩
abbrev main_call8_v6 : Ref sig .tc := ⟨.hbm, 431, rfl⟩
abbrev main_call8_c_2 : Ref sig .tc := ⟨.hbm, 432, rfl⟩
abbrev main_call8_v7 : Ref sig .tc := ⟨.hbm, 433, rfl⟩
abbrev main_call8_v8 : Ref sig .tc := ⟨.hbm, 434, rfl⟩
abbrev main_call8_c_3 : Ref sig .tc := ⟨.hbm, 435, rfl⟩
abbrev main_call8_v9 : Ref sig .tc := ⟨.hbm, 436, rfl⟩
abbrev main_call8_v10 : Ref sig .tc := ⟨.hbm, 437, rfl⟩
abbrev main_call8_v11 : Ref sig .tc := ⟨.hbm, 438, rfl⟩
abbrev main_call8_v12 : Ref sig .tc := ⟨.hbm, 439, rfl⟩
abbrev main_call8_v13 : Ref sig .tc := ⟨.hbm, 440, rfl⟩
abbrev main_call8_v14 : Ref sig .tc := ⟨.hbm, 441, rfl⟩
abbrev main_v212 : Ref sig .tc := ⟨.hbm, 442, rfl⟩
abbrev main_c_43 : Ref sig .tc := ⟨.hbm, 443, rfl⟩
abbrev main_v213 : Ref sig .tc := ⟨.hbm, 444, rfl⟩
abbrev main_v214 : Ref sig .tc := ⟨.hbm, 445, rfl⟩
abbrev main_c_44 : Ref sig .tc := ⟨.hbm, 446, rfl⟩
abbrev main_v215 : Ref sig .tc := ⟨.hbm, 447, rfl⟩
abbrev main_v216 : Ref sig .tc := ⟨.hbm, 448, rfl⟩
abbrev main_v217 : Ref sig .tc := ⟨.hbm, 449, rfl⟩
abbrev main_c_45 : Ref sig .tc := ⟨.hbm, 450, rfl⟩
abbrev main_v218 : Ref sig .tc := ⟨.hbm, 451, rfl⟩
abbrev main_v219 : Ref sig .tc := ⟨.hbm, 452, rfl⟩
abbrev main_c_46 : Ref sig .tc := ⟨.hbm, 453, rfl⟩
abbrev main_v220 : Ref sig .tc := ⟨.hbm, 454, rfl⟩
abbrev main_v221 : Ref sig .tc := ⟨.hbm, 455, rfl⟩
abbrev main_v222 : Ref sig .tc := ⟨.hbm, 456, rfl⟩
abbrev main_v223 : Ref sig .tc := ⟨.hbm, 457, rfl⟩
abbrev main_v224 : Ref sig .tc := ⟨.hbm, 458, rfl⟩
abbrev main_v225 : Ref sig .tc := ⟨.hbm, 459, rfl⟩
abbrev main_v226 : Ref sig .tc := ⟨.hbm, 460, rfl⟩
abbrev main_v227 : Ref sig .tc := ⟨.hbm, 461, rfl⟩
abbrev main_cst_47 : Ref sig .tc := ⟨.hbm, 462, rfl⟩
abbrev main_v228 : Ref sig .tc := ⟨.hbm, 463, rfl⟩
abbrev main_cst_48 : Ref sig .tc := ⟨.hbm, 464, rfl⟩
abbrev main_v229 : Ref sig .tc := ⟨.hbm, 465, rfl⟩
abbrev main_v230 : Ref sig .tc := ⟨.hbm, 466, rfl⟩
abbrev main_v231 : Ref sig .tc := ⟨.hbm, 467, rfl⟩
abbrev main_v232 : Ref sig .tc := ⟨.hbm, 468, rfl⟩
abbrev main_v233 : Ref sig .tc := ⟨.hbm, 469, rfl⟩
abbrev main_c_49 : Ref sig .tc := ⟨.hbm, 470, rfl⟩
abbrev main_call9_v0 : Ref sig .tc := ⟨.hbm, 471, rfl⟩
abbrev main_call9_c : Ref sig .tc := ⟨.hbm, 472, rfl⟩
abbrev main_call9_v1 : Ref sig .tc := ⟨.hbm, 473, rfl⟩
abbrev main_call9_c_0 : Ref sig .tc := ⟨.hbm, 474, rfl⟩
abbrev main_call9_v2 : Ref sig .tc := ⟨.hbm, 475, rfl⟩
abbrev main_call9_v3 : Ref sig .tc := ⟨.hbm, 476, rfl⟩
abbrev main_call9_v4 : Ref sig .tc := ⟨.hbm, 477, rfl⟩
abbrev main_call9_c_1 : Ref sig .tc := ⟨.hbm, 478, rfl⟩
abbrev main_call9_v5 : Ref sig .tc := ⟨.hbm, 479, rfl⟩
abbrev main_call9_v6 : Ref sig .tc := ⟨.hbm, 480, rfl⟩
abbrev main_call9_c_2 : Ref sig .tc := ⟨.hbm, 481, rfl⟩
abbrev main_call9_v7 : Ref sig .tc := ⟨.hbm, 482, rfl⟩
abbrev main_call9_v8 : Ref sig .tc := ⟨.hbm, 483, rfl⟩
abbrev main_call9_c_3 : Ref sig .tc := ⟨.hbm, 484, rfl⟩
abbrev main_call9_v9 : Ref sig .tc := ⟨.hbm, 485, rfl⟩
abbrev main_call9_v10 : Ref sig .tc := ⟨.hbm, 486, rfl⟩
abbrev main_call9_v11 : Ref sig .tc := ⟨.hbm, 487, rfl⟩
abbrev main_call9_v12 : Ref sig .tc := ⟨.hbm, 488, rfl⟩
abbrev main_call9_v13 : Ref sig .tc := ⟨.hbm, 489, rfl⟩
abbrev main_call9_v14 : Ref sig .tc := ⟨.hbm, 490, rfl⟩
abbrev main_v234 : Ref sig .tc := ⟨.hbm, 491, rfl⟩
abbrev main_c_50 : Ref sig .tc := ⟨.hbm, 492, rfl⟩
abbrev main_v235 : Ref sig .tc := ⟨.hbm, 493, rfl⟩
abbrev main_v236 : Ref sig .tc := ⟨.hbm, 494, rfl⟩
abbrev main_c_51 : Ref sig .tc := ⟨.hbm, 495, rfl⟩
abbrev main_v237 : Ref sig .tc := ⟨.hbm, 496, rfl⟩
abbrev main_v238 : Ref sig .tc := ⟨.hbm, 497, rfl⟩
abbrev main_v239 : Ref sig .tc := ⟨.hbm, 498, rfl⟩
abbrev main_v240 : Ref sig .tc := ⟨.hbm, 499, rfl⟩
abbrev main_v241 : Ref sig .tc := ⟨.hbm, 500, rfl⟩
abbrev main_v242 : Ref sig .tc := ⟨.hbm, 501, rfl⟩
abbrev main_v243 : Ref sig .tc := ⟨.hbm, 502, rfl⟩
abbrev main_v244 : Ref sig .tc := ⟨.hbm, 503, rfl⟩
abbrev main_v245 : Ref sig .tc := ⟨.hbm, 504, rfl⟩
abbrev main_v246 : Ref sig .tc := ⟨.hbm, 505, rfl⟩
abbrev main_v247 : Ref sig .tc := ⟨.hbm, 506, rfl⟩
abbrev main_v248 : Ref sig .tc := ⟨.hbm, 507, rfl⟩
abbrev main_v249 : Ref sig .tc := ⟨.hbm, 508, rfl⟩
abbrev main_v250 : Ref sig .tc := ⟨.hbm, 509, rfl⟩
abbrev main_v251 : Ref sig .tc := ⟨.hbm, 510, rfl⟩
abbrev main_v252 : Ref sig .tc := ⟨.hbm, 511, rfl⟩
abbrev main_v253 : Ref sig .tc := ⟨.hbm, 512, rfl⟩
abbrev main_v254 : Ref sig .tc := ⟨.hbm, 513, rfl⟩
abbrev main_v255 : Ref sig .tc := ⟨.hbm, 514, rfl⟩
abbrev main_v256 : Ref sig .tc := ⟨.hbm, 515, rfl⟩
abbrev main_v257 : Ref sig .tc := ⟨.hbm, 516, rfl⟩
abbrev main_c_52 : Ref sig .tc := ⟨.hbm, 517, rfl⟩
abbrev main_call10_v0 : Ref sig .tc := ⟨.hbm, 518, rfl⟩
abbrev main_call10_c : Ref sig .tc := ⟨.hbm, 519, rfl⟩
abbrev main_call10_v1 : Ref sig .tc := ⟨.hbm, 520, rfl⟩
abbrev main_call10_c_0 : Ref sig .tc := ⟨.hbm, 521, rfl⟩
abbrev main_call10_v2 : Ref sig .tc := ⟨.hbm, 522, rfl⟩
abbrev main_call10_v3 : Ref sig .tc := ⟨.hbm, 523, rfl⟩
abbrev main_call10_v4 : Ref sig .tc := ⟨.hbm, 524, rfl⟩
abbrev main_call10_c_1 : Ref sig .tc := ⟨.hbm, 525, rfl⟩
abbrev main_call10_v5 : Ref sig .tc := ⟨.hbm, 526, rfl⟩
abbrev main_call10_v6 : Ref sig .tc := ⟨.hbm, 527, rfl⟩
abbrev main_call10_c_2 : Ref sig .tc := ⟨.hbm, 528, rfl⟩
abbrev main_call10_v7 : Ref sig .tc := ⟨.hbm, 529, rfl⟩
abbrev main_call10_v8 : Ref sig .tc := ⟨.hbm, 530, rfl⟩
abbrev main_call10_c_3 : Ref sig .tc := ⟨.hbm, 531, rfl⟩
abbrev main_call10_v9 : Ref sig .tc := ⟨.hbm, 532, rfl⟩
abbrev main_call10_v10 : Ref sig .tc := ⟨.hbm, 533, rfl⟩
abbrev main_call10_v11 : Ref sig .tc := ⟨.hbm, 534, rfl⟩
abbrev main_call10_v12 : Ref sig .tc := ⟨.hbm, 535, rfl⟩
abbrev main_call10_v13 : Ref sig .tc := ⟨.hbm, 536, rfl⟩
abbrev main_call10_v14 : Ref sig .tc := ⟨.hbm, 537, rfl⟩
abbrev main_v258 : Ref sig .tc := ⟨.hbm, 538, rfl⟩
abbrev main_c_53 : Ref sig .tc := ⟨.hbm, 539, rfl⟩
abbrev main_v259 : Ref sig .tc := ⟨.hbm, 540, rfl⟩
abbrev main_v260 : Ref sig .tc := ⟨.hbm, 541, rfl⟩
abbrev main_c_54 : Ref sig .tc := ⟨.hbm, 542, rfl⟩
abbrev main_v261 : Ref sig .tc := ⟨.hbm, 543, rfl⟩
abbrev main_v262 : Ref sig .tc := ⟨.hbm, 544, rfl⟩
abbrev main_v263 : Ref sig .tc := ⟨.hbm, 545, rfl⟩
abbrev main_c_55 : Ref sig .tc := ⟨.hbm, 546, rfl⟩
abbrev main_v264 : Ref sig .tc := ⟨.hbm, 547, rfl⟩
abbrev main_v265 : Ref sig .tc := ⟨.hbm, 548, rfl⟩
abbrev main_c_56 : Ref sig .tc := ⟨.hbm, 549, rfl⟩
abbrev main_v266 : Ref sig .tc := ⟨.hbm, 550, rfl⟩
abbrev main_v267 : Ref sig .tc := ⟨.hbm, 551, rfl⟩
abbrev main_v268 : Ref sig .tc := ⟨.hbm, 552, rfl⟩
abbrev main_v269 : Ref sig .tc := ⟨.hbm, 553, rfl⟩
abbrev main_v270 : Ref sig .tc := ⟨.hbm, 554, rfl⟩
abbrev main_v271 : Ref sig .tc := ⟨.hbm, 555, rfl⟩
abbrev main_v272 : Ref sig .tc := ⟨.hbm, 556, rfl⟩
abbrev main_v273 : Ref sig .tc := ⟨.hbm, 557, rfl⟩
abbrev main_cst_57 : Ref sig .tc := ⟨.hbm, 558, rfl⟩
abbrev main_v274 : Ref sig .tc := ⟨.hbm, 559, rfl⟩
abbrev main_cst_58 : Ref sig .tc := ⟨.hbm, 560, rfl⟩
abbrev main_v275 : Ref sig .tc := ⟨.hbm, 561, rfl⟩
abbrev main_v276 : Ref sig .tc := ⟨.hbm, 562, rfl⟩
abbrev main_v277 : Ref sig .tc := ⟨.hbm, 563, rfl⟩
abbrev main_v278 : Ref sig .tc := ⟨.hbm, 564, rfl⟩
abbrev main_v279 : Ref sig .tc := ⟨.hbm, 565, rfl⟩
abbrev main_c_59 : Ref sig .tc := ⟨.hbm, 566, rfl⟩
abbrev main_call11_v0 : Ref sig .tc := ⟨.hbm, 567, rfl⟩
abbrev main_call11_c : Ref sig .tc := ⟨.hbm, 568, rfl⟩
abbrev main_call11_v1 : Ref sig .tc := ⟨.hbm, 569, rfl⟩
abbrev main_call11_c_0 : Ref sig .tc := ⟨.hbm, 570, rfl⟩
abbrev main_call11_v2 : Ref sig .tc := ⟨.hbm, 571, rfl⟩
abbrev main_call11_v3 : Ref sig .tc := ⟨.hbm, 572, rfl⟩
abbrev main_call11_v4 : Ref sig .tc := ⟨.hbm, 573, rfl⟩
abbrev main_call11_c_1 : Ref sig .tc := ⟨.hbm, 574, rfl⟩
abbrev main_call11_v5 : Ref sig .tc := ⟨.hbm, 575, rfl⟩
abbrev main_call11_v6 : Ref sig .tc := ⟨.hbm, 576, rfl⟩
abbrev main_call11_c_2 : Ref sig .tc := ⟨.hbm, 577, rfl⟩
abbrev main_call11_v7 : Ref sig .tc := ⟨.hbm, 578, rfl⟩
abbrev main_call11_v8 : Ref sig .tc := ⟨.hbm, 579, rfl⟩
abbrev main_call11_c_3 : Ref sig .tc := ⟨.hbm, 580, rfl⟩
abbrev main_call11_v9 : Ref sig .tc := ⟨.hbm, 581, rfl⟩
abbrev main_call11_v10 : Ref sig .tc := ⟨.hbm, 582, rfl⟩
abbrev main_call11_v11 : Ref sig .tc := ⟨.hbm, 583, rfl⟩
abbrev main_call11_v12 : Ref sig .tc := ⟨.hbm, 584, rfl⟩
abbrev main_call11_v13 : Ref sig .tc := ⟨.hbm, 585, rfl⟩
abbrev main_call11_v14 : Ref sig .tc := ⟨.hbm, 586, rfl⟩
abbrev main_v280 : Ref sig .tc := ⟨.hbm, 587, rfl⟩
abbrev main_c_60 : Ref sig .tc := ⟨.hbm, 588, rfl⟩
abbrev main_v281 : Ref sig .tc := ⟨.hbm, 589, rfl⟩
abbrev main_v282 : Ref sig .tc := ⟨.hbm, 590, rfl⟩
abbrev main_c_61 : Ref sig .tc := ⟨.hbm, 591, rfl⟩
abbrev main_v283 : Ref sig .tc := ⟨.hbm, 592, rfl⟩
abbrev main_v284 : Ref sig .tc := ⟨.hbm, 593, rfl⟩
abbrev main_v285 : Ref sig .tc := ⟨.hbm, 594, rfl⟩
abbrev main_v286 : Ref sig .tc := ⟨.hbm, 595, rfl⟩
abbrev main_v287 : Ref sig .tc := ⟨.hbm, 596, rfl⟩
abbrev main_v288 : Ref sig .tc := ⟨.hbm, 597, rfl⟩
abbrev main_v289 : Ref sig .tc := ⟨.hbm, 598, rfl⟩
abbrev main_v290 : Ref sig .tc := ⟨.hbm, 599, rfl⟩
abbrev main_v291 : Ref sig .tc := ⟨.hbm, 600, rfl⟩
abbrev main_v292 : Ref sig .tc := ⟨.hbm, 601, rfl⟩
abbrev main_v293 : Ref sig .tc := ⟨.hbm, 602, rfl⟩
abbrev main_v294 : Ref sig .tc := ⟨.hbm, 603, rfl⟩
abbrev main_v295 : Ref sig .tc := ⟨.hbm, 604, rfl⟩
abbrev main_v296 : Ref sig .tc := ⟨.hbm, 605, rfl⟩
abbrev main_v297 : Ref sig .tc := ⟨.hbm, 606, rfl⟩
abbrev main_v298 : Ref sig .tc := ⟨.hbm, 607, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S7 : S_.BroadcastsInDim S7 (![] : Fin 0 → Fin S7.rank)
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  slices_S7_S1_0 : S7.Slices ![0] S1
  shapeCasts_S1_S_ : S1.ShapeCasts S_
  bcast_S_S2048x2048 : S_.BroadcastsInDim S2048x2048 (![] : Fin 0 → Fin S2048x2048.rank)
  slices_S7_S1_1 : S7.Slices ![1] S1
  shapeCasts_S2048x2048_S1024x2x1024x2 : S2048x2048.ShapeCasts S1024x2x1024x2
  transposes_S1024x2x1024x2_S1024x1024x2x2_0_2_1_3 : S1024x2x1024x2.Transposes [0, 2, 1, 3] S1024x1024x2x2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  bcast_S_S2x1 : S_.BroadcastsInDim S2x1 (![] : Fin 0 → Fin S2x1.rank)
  bcast_S2x2_S2x2x1_0_1 : S2x2.BroadcastsInDim S2x2x1 (![0, 1] : Fin 2 → Fin S2x2x1.rank)
  concatenates_S2x2x1_S2x2x1_S2x2x2_d2 : Shape.Concatenates [S2x2x1, S2x2x1] S2x2x2 2
  reducesTo_S1024x1024x2x2_S1024x1024x2_d2 : S1024x1024x2x2.ReducesTo [2] S1024x1024x2
  bcast_S_S1024x1024x2 : S_.BroadcastsInDim S1024x1024x2 (![] : Fin 0 → Fin S1024x1024x2.rank)
  transposes_S1024x1024x2x2_S1024x2x1024x2_0_2_1_3 : S1024x1024x2x2.Transposes [0, 2, 1, 3] S1024x2x1024x2
  shapeCasts_S1024x2x1024x2_S2048x2048 : S1024x2x1024x2.ShapeCasts S2048x2048
  slices_S7_S1_2 : S7.Slices ![2] S1
  shapeCasts_S2048x2048_S512x4x512x4 : S2048x2048.ShapeCasts S512x4x512x4
  transposes_S512x4x512x4_S512x512x4x4_0_2_1_3 : S512x4x512x4.Transposes [0, 2, 1, 3] S512x512x4x4
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S_S4x1 : S_.BroadcastsInDim S4x1 (![] : Fin 0 → Fin S4x1.rank)
  bcast_S4x4_S4x4x1_0_1 : S4x4.BroadcastsInDim S4x4x1 (![0, 1] : Fin 2 → Fin S4x4x1.rank)
  concatenates_S4x4x1_S4x4x1_S4x4x2_d2 : Shape.Concatenates [S4x4x1, S4x4x1] S4x4x2 2
  reducesTo_S512x512x4x4_S512x512x4_d2 : S512x512x4x4.ReducesTo [2] S512x512x4
  bcast_S_S512x512x4 : S_.BroadcastsInDim S512x512x4 (![] : Fin 0 → Fin S512x512x4.rank)
  transposes_S512x512x4x4_S512x4x512x4_0_2_1_3 : S512x512x4x4.Transposes [0, 2, 1, 3] S512x4x512x4
  shapeCasts_S512x4x512x4_S2048x2048 : S512x4x512x4.ShapeCasts S2048x2048
  slices_S7_S1_3 : S7.Slices ![3] S1
  shapeCasts_S2048x2048_S256x8x256x8 : S2048x2048.ShapeCasts S256x8x256x8
  transposes_S256x8x256x8_S256x256x8x8_0_2_1_3 : S256x8x256x8.Transposes [0, 2, 1, 3] S256x256x8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S_S8x1 : S_.BroadcastsInDim S8x1 (![] : Fin 0 → Fin S8x1.rank)
  bcast_S8x8_S8x8x1_0_1 : S8x8.BroadcastsInDim S8x8x1 (![0, 1] : Fin 2 → Fin S8x8x1.rank)
  concatenates_S8x8x1_S8x8x1_S8x8x2_d2 : Shape.Concatenates [S8x8x1, S8x8x1] S8x8x2 2
  reducesTo_S256x256x8x8_S256x256x8_d2 : S256x256x8x8.ReducesTo [2] S256x256x8
  bcast_S_S256x256x8 : S_.BroadcastsInDim S256x256x8 (![] : Fin 0 → Fin S256x256x8.rank)
  transposes_S256x256x8x8_S256x8x256x8_0_2_1_3 : S256x256x8x8.Transposes [0, 2, 1, 3] S256x8x256x8
  shapeCasts_S256x8x256x8_S2048x2048 : S256x8x256x8.ShapeCasts S2048x2048
  slices_S7_S1_4 : S7.Slices ![4] S1
  shapeCasts_S2048x2048_S128x16x128x16 : S2048x2048.ShapeCasts S128x16x128x16
  transposes_S128x16x128x16_S128x128x16x16_0_2_1_3 : S128x16x128x16.Transposes [0, 2, 1, 3] S128x128x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S_S16x1 : S_.BroadcastsInDim S16x1 (![] : Fin 0 → Fin S16x1.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  reducesTo_S128x128x16x16_S128x128x16_d2 : S128x128x16x16.ReducesTo [2] S128x128x16
  bcast_S_S128x128x16 : S_.BroadcastsInDim S128x128x16 (![] : Fin 0 → Fin S128x128x16.rank)
  transposes_S128x128x16x16_S128x16x128x16_0_2_1_3 : S128x128x16x16.Transposes [0, 2, 1, 3] S128x16x128x16
  shapeCasts_S128x16x128x16_S2048x2048 : S128x16x128x16.ShapeCasts S2048x2048
  slices_S7_S1_5 : S7.Slices ![5] S1
  shapeCasts_S2048x2048_S64x32x64x32 : S2048x2048.ShapeCasts S64x32x64x32
  transposes_S64x32x64x32_S64x64x32x32_0_2_1_3 : S64x32x64x32.Transposes [0, 2, 1, 3] S64x64x32x32
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S_S32x1 : S_.BroadcastsInDim S32x1 (![] : Fin 0 → Fin S32x1.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  reducesTo_S64x64x32x32_S64x64x32_d2 : S64x64x32x32.ReducesTo [2] S64x64x32
  bcast_S_S64x64x32 : S_.BroadcastsInDim S64x64x32 (![] : Fin 0 → Fin S64x64x32.rank)
  transposes_S64x64x32x32_S64x32x64x32_0_2_1_3 : S64x64x32x32.Transposes [0, 2, 1, 3] S64x32x64x32
  shapeCasts_S64x32x64x32_S2048x2048 : S64x32x64x32.ShapeCasts S2048x2048
  slices_S7_S1_6 : S7.Slices ![6] S1
  shapeCasts_S2048x2048_S32x64x32x64 : S2048x2048.ShapeCasts S32x64x32x64
  transposes_S32x64x32x64_S32x32x64x64_0_2_1_3 : S32x64x32x64.Transposes [0, 2, 1, 3] S32x32x64x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64x1 : S_.BroadcastsInDim S64x1 (![] : Fin 0 → Fin S64x1.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  reducesTo_S32x32x64x64_S32x32x64_d2 : S32x32x64x64.ReducesTo [2] S32x32x64
  bcast_S_S32x32x64 : S_.BroadcastsInDim S32x32x64 (![] : Fin 0 → Fin S32x32x64.rank)
  transposes_S32x32x64x64_S32x64x32x64_0_2_1_3 : S32x32x64x64.Transposes [0, 2, 1, 3] S32x64x32x64
  shapeCasts_S32x64x32x64_S2048x2048 : S32x64x32x64.ShapeCasts S2048x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  shapeCasts_S16x1024x2048_S16384x2048 : S16x1024x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S16x1024x2048 : S16384x2048.ShapeCasts S16x1024x2048
  gather_S1024x1024x2x2_S2x2x2_S1024x1024x2x2_01_23_n_n_23_2_1024102411_wf : GatherDims.WF S1024x1024x2x2 S2x2x2 S1024x1024x2x2 [0, 1] [2, 3] [] [2, 3] [] 2 ![1024, 1024, 1, 1]
  gather_S1024x1024x2_S2x2x1_S1024x1024x2x2_01_2_n_n_2_2_102410241_wf : GatherDims.WF S1024x1024x2 S2x2x1 S1024x1024x2x2 [0, 1] [2] [] [2] [] 2 ![1024, 1024, 1]
  gather_S512x512x4x4_S4x4x2_S512x512x4x4_01_23_n_n_23_2_51251211_wf : GatherDims.WF S512x512x4x4 S4x4x2 S512x512x4x4 [0, 1] [2, 3] [] [2, 3] [] 2 ![512, 512, 1, 1]
  gather_S512x512x4_S4x4x1_S512x512x4x4_01_2_n_n_2_2_5125121_wf : GatherDims.WF S512x512x4 S4x4x1 S512x512x4x4 [0, 1] [2] [] [2] [] 2 ![512, 512, 1]
  gather_S256x256x8x8_S8x8x2_S256x256x8x8_01_23_n_n_23_2_25625611_wf : GatherDims.WF S256x256x8x8 S8x8x2 S256x256x8x8 [0, 1] [2, 3] [] [2, 3] [] 2 ![256, 256, 1, 1]
  gather_S256x256x8_S8x8x1_S256x256x8x8_01_2_n_n_2_2_2562561_wf : GatherDims.WF S256x256x8 S8x8x1 S256x256x8x8 [0, 1] [2] [] [2] [] 2 ![256, 256, 1]
  gather_S128x128x16x16_S16x16x2_S128x128x16x16_01_23_n_n_23_2_12812811_wf : GatherDims.WF S128x128x16x16 S16x16x2 S128x128x16x16 [0, 1] [2, 3] [] [2, 3] [] 2 ![128, 128, 1, 1]
  gather_S128x128x16_S16x16x1_S128x128x16x16_01_2_n_n_2_2_1281281_wf : GatherDims.WF S128x128x16 S16x16x1 S128x128x16x16 [0, 1] [2] [] [2] [] 2 ![128, 128, 1]
  gather_S64x64x32x32_S32x32x2_S64x64x32x32_01_23_n_n_23_2_646411_wf : GatherDims.WF S64x64x32x32 S32x32x2 S64x64x32x32 [0, 1] [2, 3] [] [2, 3] [] 2 ![64, 64, 1, 1]
  gather_S64x64x32_S32x32x1_S64x64x32x32_01_2_n_n_2_2_64641_wf : GatherDims.WF S64x64x32 S32x32x1 S64x64x32x32 [0, 1] [2] [] [2] [] 2 ![64, 64, 1]
  gather_S32x32x64x64_S64x64x2_S32x32x64x64_01_23_n_n_23_2_323211_wf : GatherDims.WF S32x32x64x64 S64x64x2 S32x32x64x64 [0, 1] [2, 3] [] [2, 3] [] 2 ![32, 32, 1, 1]
  gather_S32x32x64_S64x64x1_S32x32x64x64_01_2_n_n_2_2_32321_wf : GatherDims.WF S32x32x64 S64x64x1 S32x32x64x64 [0, 1] [2] [] [2] [] 2 ![32, 32, 1]
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def gather_S1024x1024x2x2_S2x2x2_S1024x1024x2x2_01_23_n_n_23_2_1024102411 : GatherDims S1024x1024x2x2 S2x2x2 S1024x1024x2x2 where
  offsetDims := [0, 1]
  collapsedSliceDims := [2, 3]
  operandBatchingDims := []
  startIndicesBatchingDims := []
  startIndexMap := [2, 3]
  indexVectorDim := 2
  sliceSizes := ![1024, 1024, 1, 1]
  wf := gather_S1024x1024x2x2_S2x2x2_S1024x1024x2x2_01_23_n_n_23_2_1024102411_wf
def gather_S1024x1024x2_S2x2x1_S1024x1024x2x2_01_2_n_n_2_2_102410241 : GatherDims S1024x1024x2 S2x2x1 S1024x1024x2x2 where
  offsetDims := [0, 1]
  collapsedSliceDims := [2]
  operandBatchingDims := []
  startIndicesBatchingDims := []
  startIndexMap := [2]
  indexVectorDim := 2
  sliceSizes := ![1024, 1024, 1]
  wf := gather_S1024x1024x2_S2x2x1_S1024x1024x2x2_01_2_n_n_2_2_102410241_wf
def gather_S512x512x4x4_S4x4x2_S512x512x4x4_01_23_n_n_23_2_51251211 : GatherDims S512x512x4x4 S4x4x2 S512x512x4x4 where
  offsetDims := [0, 1]
  collapsedSliceDims := [2, 3]
  operandBatchingDims := []
  startIndicesBatchingDims := []
  startIndexMap := [2, 3]
  indexVectorDim := 2
  sliceSizes := ![512, 512, 1, 1]
  wf := gather_S512x512x4x4_S4x4x2_S512x512x4x4_01_23_n_n_23_2_51251211_wf
def gather_S512x512x4_S4x4x1_S512x512x4x4_01_2_n_n_2_2_5125121 : GatherDims S512x512x4 S4x4x1 S512x512x4x4 where
  offsetDims := [0, 1]
  collapsedSliceDims := [2]
  operandBatchingDims := []
  startIndicesBatchingDims := []
  startIndexMap := [2]
  indexVectorDim := 2
  sliceSizes := ![512, 512, 1]
  wf := gather_S512x512x4_S4x4x1_S512x512x4x4_01_2_n_n_2_2_5125121_wf
def gather_S256x256x8x8_S8x8x2_S256x256x8x8_01_23_n_n_23_2_25625611 : GatherDims S256x256x8x8 S8x8x2 S256x256x8x8 where
  offsetDims := [0, 1]
  collapsedSliceDims := [2, 3]
  operandBatchingDims := []
  startIndicesBatchingDims := []
  startIndexMap := [2, 3]
  indexVectorDim := 2
  sliceSizes := ![256, 256, 1, 1]
  wf := gather_S256x256x8x8_S8x8x2_S256x256x8x8_01_23_n_n_23_2_25625611_wf
def gather_S256x256x8_S8x8x1_S256x256x8x8_01_2_n_n_2_2_2562561 : GatherDims S256x256x8 S8x8x1 S256x256x8x8 where
  offsetDims := [0, 1]
  collapsedSliceDims := [2]
  operandBatchingDims := []
  startIndicesBatchingDims := []
  startIndexMap := [2]
  indexVectorDim := 2
  sliceSizes := ![256, 256, 1]
  wf := gather_S256x256x8_S8x8x1_S256x256x8x8_01_2_n_n_2_2_2562561_wf
def gather_S128x128x16x16_S16x16x2_S128x128x16x16_01_23_n_n_23_2_12812811 : GatherDims S128x128x16x16 S16x16x2 S128x128x16x16 where
  offsetDims := [0, 1]
  collapsedSliceDims := [2, 3]
  operandBatchingDims := []
  startIndicesBatchingDims := []
  startIndexMap := [2, 3]
  indexVectorDim := 2
  sliceSizes := ![128, 128, 1, 1]
  wf := gather_S128x128x16x16_S16x16x2_S128x128x16x16_01_23_n_n_23_2_12812811_wf
def gather_S128x128x16_S16x16x1_S128x128x16x16_01_2_n_n_2_2_1281281 : GatherDims S128x128x16 S16x16x1 S128x128x16x16 where
  offsetDims := [0, 1]
  collapsedSliceDims := [2]
  operandBatchingDims := []
  startIndicesBatchingDims := []
  startIndexMap := [2]
  indexVectorDim := 2
  sliceSizes := ![128, 128, 1]
  wf := gather_S128x128x16_S16x16x1_S128x128x16x16_01_2_n_n_2_2_1281281_wf
def gather_S64x64x32x32_S32x32x2_S64x64x32x32_01_23_n_n_23_2_646411 : GatherDims S64x64x32x32 S32x32x2 S64x64x32x32 where
  offsetDims := [0, 1]
  collapsedSliceDims := [2, 3]
  operandBatchingDims := []
  startIndicesBatchingDims := []
  startIndexMap := [2, 3]
  indexVectorDim := 2
  sliceSizes := ![64, 64, 1, 1]
  wf := gather_S64x64x32x32_S32x32x2_S64x64x32x32_01_23_n_n_23_2_646411_wf
def gather_S64x64x32_S32x32x1_S64x64x32x32_01_2_n_n_2_2_64641 : GatherDims S64x64x32 S32x32x1 S64x64x32x32 where
  offsetDims := [0, 1]
  collapsedSliceDims := [2]
  operandBatchingDims := []
  startIndicesBatchingDims := []
  startIndexMap := [2]
  indexVectorDim := 2
  sliceSizes := ![64, 64, 1]
  wf := gather_S64x64x32_S32x32x1_S64x64x32x32_01_2_n_n_2_2_64641_wf
def gather_S32x32x64x64_S64x64x2_S32x32x64x64_01_23_n_n_23_2_323211 : GatherDims S32x32x64x64 S64x64x2 S32x32x64x64 where
  offsetDims := [0, 1]
  collapsedSliceDims := [2, 3]
  operandBatchingDims := []
  startIndicesBatchingDims := []
  startIndexMap := [2, 3]
  indexVectorDim := 2
  sliceSizes := ![32, 32, 1, 1]
  wf := gather_S32x32x64x64_S64x64x2_S32x32x64x64_01_23_n_n_23_2_323211_wf
def gather_S32x32x64_S64x64x1_S32x32x64x64_01_2_n_n_2_2_32321 : GatherDims S32x32x64 S64x64x1 S32x32x64x64 where
  offsetDims := [0, 1]
  collapsedSliceDims := [2]
  operandBatchingDims := []
  startIndicesBatchingDims := []
  startIndexMap := [2]
  indexVectorDim := 2
  sliceSizes := ![32, 32, 1]
  wf := gather_S32x32x64_S64x64x1_S32x32x64x64_01_2_n_n_2_2_32321_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v296) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v294) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v295) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v297) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x2048 : Shape := ⟨3, ![16, 1024, 2048]⟩
abbrev S2048x2048 : Shape := ⟨2, ![2048, 2048]⟩
abbrev S2048 : Shape := ⟨1, ![2048]⟩
abbrev S7 : Shape := ⟨1, ![7]⟩
abbrev S_ : Shape := ⟨0, ![]⟩
abbrev S1 : Shape := ⟨1, ![1]⟩
abbrev S1024x2x1024x2 : Shape := ⟨4, ![1024, 2, 1024, 2]⟩
abbrev S1024x1024x2x2 : Shape := ⟨4, ![1024, 1024, 2, 2]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S2x2x1 : Shape := ⟨3, ![2, 2, 1]⟩
abbrev S2x2x2 : Shape := ⟨3, ![2, 2, 2]⟩
abbrev S1024x1024x2 : Shape := ⟨3, ![1024, 1024, 2]⟩
abbrev S512x4x512x4 : Shape := ⟨4, ![512, 4, 512, 4]⟩
abbrev S512x512x4x4 : Shape := ⟨4, ![512, 512, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S4x4x1 : Shape := ⟨3, ![4, 4, 1]⟩
abbrev S4x4x2 : Shape := ⟨3, ![4, 4, 2]⟩
abbrev S512x512x4 : Shape := ⟨3, ![512, 512, 4]⟩
abbrev S256x8x256x8 : Shape := ⟨4, ![256, 8, 256, 8]⟩
abbrev S256x256x8x8 : Shape := ⟨4, ![256, 256, 8, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S8x8x2 : Shape := ⟨3, ![8, 8, 2]⟩
abbrev S256x256x8 : Shape := ⟨3, ![256, 256, 8]⟩
abbrev S128x16x128x16 : Shape := ⟨4, ![128, 16, 128, 16]⟩
abbrev S128x128x16x16 : Shape := ⟨4, ![128, 128, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x16x2 : Shape := ⟨3, ![16, 16, 2]⟩
abbrev S128x128x16 : Shape := ⟨3, ![128, 128, 16]⟩
abbrev S64x32x64x32 : Shape := ⟨4, ![64, 32, 64, 32]⟩
abbrev S64x64x32x32 : Shape := ⟨4, ![64, 64, 32, 32]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S32x32x2 : Shape := ⟨3, ![32, 32, 2]⟩
abbrev S64x64x32 : Shape := ⟨3, ![64, 64, 32]⟩
abbrev S32x64x32x64 : Shape := ⟨4, ![32, 64, 32, 64]⟩
abbrev S32x32x64x64 : Shape := ⟨4, ![32, 32, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x64x1 : Shape := ⟨3, ![64, 64, 1]⟩
abbrev S64x64x2 : Shape := ⟨3, ![64, 64, 2]⟩
abbrev S32x32x64 : Shape := ⟨3, ![32, 32, 64]⟩
abbrev S1x1x2048 : Shape := ⟨3, ![1, 1, 2048]⟩

abbrev nBuf : Space → Nat
  | .hbm => 606
  | .vmem => 0
  | .smem => 0
  | _ => 0

abbrev hbmTy0_0 (i : Nat) : BufTy := match i % 128 with
  | 0 => ⟨S16x1024x2048, .f32⟩
  | 1 => ⟨S2048x2048, .f32⟩
  | 2 => ⟨S2048, .f32⟩
  | 3 => ⟨S7, .f32⟩
  | 4 => ⟨S7, .f32⟩
  | 5 => ⟨S7, .f32⟩
  | 6 => ⟨S_, .f32⟩
  | 7 => ⟨S7, .f32⟩
  | 8 => ⟨S7, .f32⟩
  | 9 => ⟨S_, .f32⟩
  | 10 => ⟨S_, .f32⟩
  | 11 => ⟨S_, .f32⟩
  | 12 => ⟨S_, .f32⟩
  | 13 => ⟨S1, .f32⟩
  | 14 => ⟨S7, .f32⟩
  | 15 => ⟨S7, .f32⟩
  | 16 => ⟨S7, .f32⟩
  | 17 => ⟨S_, .f32⟩
  | 18 => ⟨S_, .f32⟩
  | 19 => ⟨S1, .f32⟩
  | 20 => ⟨S7, .f32⟩
  | 21 => ⟨S7, .f32⟩
  | 22 => ⟨S1, .f32⟩
  | 23 => ⟨S_, .f32⟩
  | 24 => ⟨S2048x2048, .f32⟩
  | 25 => ⟨S2048x2048, .f32⟩
  | 26 => ⟨S1, .f32⟩
  | 27 => ⟨S_, .f32⟩
  | 28 => ⟨S1024x2x1024x2, .f32⟩
  | 29 => ⟨S1024x1024x2x2, .f32⟩
  | 30 => ⟨S2, .i32⟩
  | 31 => ⟨S2x1, .i32⟩
  | 32 => ⟨S2, .i32⟩
  | 33 => ⟨S1x2, .i32⟩
  | 34 => ⟨S2x2, .i32⟩
  | 35 => ⟨S2x2, .i32⟩
  | 36 => ⟨S2x2, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2x2, .i32⟩
  | 44 => ⟨S2x2, .i32⟩
  | 45 => ⟨S_, .i32⟩
  | 46 => ⟨S2x2, .i32⟩
  | 47 => ⟨S2x2, .i1⟩
  | 48 => ⟨S_, .i32⟩
  | 49 => ⟨S2x2, .i32⟩
  | 50 => ⟨S2x2, .i1⟩
  | 51 => ⟨S_, .i32⟩
  | 52 => ⟨S_, .i1⟩
  | 53 => ⟨S2x2, .i1⟩
  | 54 => ⟨S2x2, .i1⟩
  | 55 => ⟨S2x2, .i1⟩
  | 56 => ⟨S2x2, .i32⟩
  | 57 => ⟨S2x2, .i32⟩
  | 58 => ⟨S2x2, .i32⟩
  | 59 => ⟨S_, .i32⟩
  | 60 => ⟨S2x1, .i32⟩
  | 61 => ⟨S2x1, .i1⟩
  | 62 => ⟨S_, .i32⟩
  | 63 => ⟨S2x1, .i32⟩
  | 64 => ⟨S2x1, .i32⟩
  | 65 => ⟨S2x1, .i32⟩
  | 66 => ⟨S_, .i32⟩
  | 67 => ⟨S2x2, .i32⟩
  | 68 => ⟨S2x2, .i1⟩
  | 69 => ⟨S_, .i32⟩
  | 70 => ⟨S2x2, .i32⟩
  | 71 => ⟨S2x2, .i32⟩
  | 72 => ⟨S2x2, .i32⟩
  | 73 => ⟨S2x2, .i32⟩
  | 74 => ⟨S2x2x1, .i32⟩
  | 75 => ⟨S2x2x1, .i32⟩
  | 76 => ⟨S2x2x2, .i32⟩
  | 77 => ⟨S1024x1024x2x2, .f32⟩
  | 78 => ⟨S_, .f32⟩
  | 79 => ⟨S1024x1024x2, .f32⟩
  | 80 => ⟨S_, .f32⟩
  | 81 => ⟨S1024x1024x2, .f32⟩
  | 82 => ⟨S1024x1024x2, .f32⟩
  | 83 => ⟨S2x2, .i32⟩
  | 84 => ⟨S2x2, .i32⟩
  | 85 => ⟨S2x2, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S2x2, .i32⟩
  | 93 => ⟨S2x2, .i32⟩
  | 94 => ⟨S_, .i32⟩
  | 95 => ⟨S2x2, .i32⟩
  | 96 => ⟨S2x2, .i1⟩
  | 97 => ⟨S_, .i32⟩
  | 98 => ⟨S2x2, .i32⟩
  | 99 => ⟨S2x2, .i1⟩
  | 100 => ⟨S_, .i32⟩
  | 101 => ⟨S_, .i1⟩
  | 102 => ⟨S2x2, .i1⟩
  | 103 => ⟨S2x2, .i1⟩
  | 104 => ⟨S2x2, .i1⟩
  | 105 => ⟨S2x2, .i32⟩
  | 106 => ⟨S2x2, .i32⟩
  | 107 => ⟨S2x2, .i32⟩
  | 108 => ⟨S_, .i32⟩
  | 109 => ⟨S2x2, .i32⟩
  | 110 => ⟨S2x2, .i1⟩
  | 111 => ⟨S_, .i32⟩
  | 112 => ⟨S2x2, .i32⟩
  | 113 => ⟨S2x2, .i32⟩
  | 114 => ⟨S2x2, .i32⟩
  | 115 => ⟨S2x2x1, .i32⟩
  | 116 => ⟨S1024x1024x2x2, .f32⟩
  | 117 => ⟨S1024x2x1024x2, .f32⟩
  | 118 => ⟨S2048x2048, .f32⟩
  | 119 => ⟨S2048x2048, .f32⟩
  | 120 => ⟨S2048x2048, .f32⟩
  | 121 => ⟨S2048x2048, .f32⟩
  | 122 => ⟨S1, .f32⟩
  | 123 => ⟨S_, .f32⟩
  | 124 => ⟨S512x4x512x4, .f32⟩
  | 125 => ⟨S512x512x4x4, .f32⟩
  | 126 => ⟨S4, .i32⟩
  | 127 => ⟨S4x1, .i32⟩
  | _ => ⟨S16x1024x2048, .f32⟩

abbrev hbmTy0_1 (i : Nat) : BufTy := match i % 128 with
  | 0 => ⟨S4, .i32⟩
  | 1 => ⟨S1x4, .i32⟩
  | 2 => ⟨S4x4, .i32⟩
  | 3 => ⟨S4x4, .i32⟩
  | 4 => ⟨S4x4, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S4x4, .i32⟩
  | 12 => ⟨S4x4, .i32⟩
  | 13 => ⟨S_, .i32⟩
  | 14 => ⟨S4x4, .i32⟩
  | 15 => ⟨S4x4, .i1⟩
  | 16 => ⟨S_, .i32⟩
  | 17 => ⟨S4x4, .i32⟩
  | 18 => ⟨S4x4, .i1⟩
  | 19 => ⟨S_, .i32⟩
  | 20 => ⟨S_, .i1⟩
  | 21 => ⟨S4x4, .i1⟩
  | 22 => ⟨S4x4, .i1⟩
  | 23 => ⟨S4x4, .i1⟩
  | 24 => ⟨S4x4, .i32⟩
  | 25 => ⟨S4x4, .i32⟩
  | 26 => ⟨S4x4, .i32⟩
  | 27 => ⟨S_, .i32⟩
  | 28 => ⟨S4x1, .i32⟩
  | 29 => ⟨S4x1, .i1⟩
  | 30 => ⟨S_, .i32⟩
  | 31 => ⟨S4x1, .i32⟩
  | 32 => ⟨S4x1, .i32⟩
  | 33 => ⟨S4x1, .i32⟩
  | 34 => ⟨S_, .i32⟩
  | 35 => ⟨S4x4, .i32⟩
  | 36 => ⟨S4x4, .i1⟩
  | 37 => ⟨S_, .i32⟩
  | 38 => ⟨S4x4, .i32⟩
  | 39 => ⟨S4x4, .i32⟩
  | 40 => ⟨S4x4, .i32⟩
  | 41 => ⟨S4x4, .i32⟩
  | 42 => ⟨S4x4x1, .i32⟩
  | 43 => ⟨S4x4x1, .i32⟩
  | 44 => ⟨S4x4x2, .i32⟩
  | 45 => ⟨S512x512x4x4, .f32⟩
  | 46 => ⟨S_, .f32⟩
  | 47 => ⟨S512x512x4, .f32⟩
  | 48 => ⟨S_, .f32⟩
  | 49 => ⟨S512x512x4, .f32⟩
  | 50 => ⟨S512x512x4, .f32⟩
  | 51 => ⟨S4x4, .i32⟩
  | 52 => ⟨S4x4, .i32⟩
  | 53 => ⟨S4x4, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S4x4, .i32⟩
  | 61 => ⟨S4x4, .i32⟩
  | 62 => ⟨S_, .i32⟩
  | 63 => ⟨S4x4, .i32⟩
  | 64 => ⟨S4x4, .i1⟩
  | 65 => ⟨S_, .i32⟩
  | 66 => ⟨S4x4, .i32⟩
  | 67 => ⟨S4x4, .i1⟩
  | 68 => ⟨S_, .i32⟩
  | 69 => ⟨S_, .i1⟩
  | 70 => ⟨S4x4, .i1⟩
  | 71 => ⟨S4x4, .i1⟩
  | 72 => ⟨S4x4, .i1⟩
  | 73 => ⟨S4x4, .i32⟩
  | 74 => ⟨S4x4, .i32⟩
  | 75 => ⟨S4x4, .i32⟩
  | 76 => ⟨S_, .i32⟩
  | 77 => ⟨S4x4, .i32⟩
  | 78 => ⟨S4x4, .i1⟩
  | 79 => ⟨S_, .i32⟩
  | 80 => ⟨S4x4, .i32⟩
  | 81 => ⟨S4x4, .i32⟩
  | 82 => ⟨S4x4, .i32⟩
  | 83 => ⟨S4x4x1, .i32⟩
  | 84 => ⟨S512x512x4x4, .f32⟩
  | 85 => ⟨S512x4x512x4, .f32⟩
  | 86 => ⟨S2048x2048, .f32⟩
  | 87 => ⟨S2048x2048, .f32⟩
  | 88 => ⟨S2048x2048, .f32⟩
  | 89 => ⟨S2048x2048, .f32⟩
  | 90 => ⟨S1, .f32⟩
  | 91 => ⟨S_, .f32⟩
  | 92 => ⟨S256x8x256x8, .f32⟩
  | 93 => ⟨S256x256x8x8, .f32⟩
  | 94 => ⟨S8, .i32⟩
  | 95 => ⟨S8x1, .i32⟩
  | 96 => ⟨S8, .i32⟩
  | 97 => ⟨S1x8, .i32⟩
  | 98 => ⟨S8x8, .i32⟩
  | 99 => ⟨S8x8, .i32⟩
  | 100 => ⟨S8x8, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S8x8, .i32⟩
  | 108 => ⟨S8x8, .i32⟩
  | 109 => ⟨S_, .i32⟩
  | 110 => ⟨S8x8, .i32⟩
  | 111 => ⟨S8x8, .i1⟩
  | 112 => ⟨S_, .i32⟩
  | 113 => ⟨S8x8, .i32⟩
  | 114 => ⟨S8x8, .i1⟩
  | 115 => ⟨S_, .i32⟩
  | 116 => ⟨S_, .i1⟩
  | 117 => ⟨S8x8, .i1⟩
  | 118 => ⟨S8x8, .i1⟩
  | 119 => ⟨S8x8, .i1⟩
  | 120 => ⟨S8x8, .i32⟩
  | 121 => ⟨S8x8, .i32⟩
  | 122 => ⟨S8x8, .i32⟩
  | 123 => ⟨S_, .i32⟩
  | 124 => ⟨S8x1, .i32⟩
  | 125 => ⟨S8x1, .i1⟩
  | 126 => ⟨S_, .i32⟩
  | 127 => ⟨S8x1, .i32⟩
  | _ => ⟨S16x1024x2048, .f32⟩

abbrev hbmTy0_2 (i : Nat) : BufTy := match i % 128 with
  | 0 => ⟨S8x1, .i32⟩
  | 1 => ⟨S8x1, .i32⟩
  | 2 => ⟨S_, .i32⟩
  | 3 => ⟨S8x8, .i32⟩
  | 4 => ⟨S8x8, .i1⟩
  | 5 => ⟨S_, .i32⟩
  | 6 => ⟨S8x8, .i32⟩
  | 7 => ⟨S8x8, .i32⟩
  | 8 => ⟨S8x8, .i32⟩
  | 9 => ⟨S8x8, .i32⟩
  | 10 => ⟨S8x8x1, .i32⟩
  | 11 => ⟨S8x8x1, .i32⟩
  | 12 => ⟨S8x8x2, .i32⟩
  | 13 => ⟨S256x256x8x8, .f32⟩
  | 14 => ⟨S_, .f32⟩
  | 15 => ⟨S256x256x8, .f32⟩
  | 16 => ⟨S_, .f32⟩
  | 17 => ⟨S256x256x8, .f32⟩
  | 18 => ⟨S256x256x8, .f32⟩
  | 19 => ⟨S8x8, .i32⟩
  | 20 => ⟨S8x8, .i32⟩
  | 21 => ⟨S8x8, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S8x8, .i32⟩
  | 29 => ⟨S8x8, .i32⟩
  | 30 => ⟨S_, .i32⟩
  | 31 => ⟨S8x8, .i32⟩
  | 32 => ⟨S8x8, .i1⟩
  | 33 => ⟨S_, .i32⟩
  | 34 => ⟨S8x8, .i32⟩
  | 35 => ⟨S8x8, .i1⟩
  | 36 => ⟨S_, .i32⟩
  | 37 => ⟨S_, .i1⟩
  | 38 => ⟨S8x8, .i1⟩
  | 39 => ⟨S8x8, .i1⟩
  | 40 => ⟨S8x8, .i1⟩
  | 41 => ⟨S8x8, .i32⟩
  | 42 => ⟨S8x8, .i32⟩
  | 43 => ⟨S8x8, .i32⟩
  | 44 => ⟨S_, .i32⟩
  | 45 => ⟨S8x8, .i32⟩
  | 46 => ⟨S8x8, .i1⟩
  | 47 => ⟨S_, .i32⟩
  | 48 => ⟨S8x8, .i32⟩
  | 49 => ⟨S8x8, .i32⟩
  | 50 => ⟨S8x8, .i32⟩
  | 51 => ⟨S8x8x1, .i32⟩
  | 52 => ⟨S256x256x8x8, .f32⟩
  | 53 => ⟨S256x8x256x8, .f32⟩
  | 54 => ⟨S2048x2048, .f32⟩
  | 55 => ⟨S2048x2048, .f32⟩
  | 56 => ⟨S2048x2048, .f32⟩
  | 57 => ⟨S2048x2048, .f32⟩
  | 58 => ⟨S1, .f32⟩
  | 59 => ⟨S_, .f32⟩
  | 60 => ⟨S128x16x128x16, .f32⟩
  | 61 => ⟨S128x128x16x16, .f32⟩
  | 62 => ⟨S16, .i32⟩
  | 63 => ⟨S16x1, .i32⟩
  | 64 => ⟨S16, .i32⟩
  | 65 => ⟨S1x16, .i32⟩
  | 66 => ⟨S16x16, .i32⟩
  | 67 => ⟨S16x16, .i32⟩
  | 68 => ⟨S16x16, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S16x16, .i32⟩
  | 76 => ⟨S16x16, .i32⟩
  | 77 => ⟨S_, .i32⟩
  | 78 => ⟨S16x16, .i32⟩
  | 79 => ⟨S16x16, .i1⟩
  | 80 => ⟨S_, .i32⟩
  | 81 => ⟨S16x16, .i32⟩
  | 82 => ⟨S16x16, .i1⟩
  | 83 => ⟨S_, .i32⟩
  | 84 => ⟨S_, .i1⟩
  | 85 => ⟨S16x16, .i1⟩
  | 86 => ⟨S16x16, .i1⟩
  | 87 => ⟨S16x16, .i1⟩
  | 88 => ⟨S16x16, .i32⟩
  | 89 => ⟨S16x16, .i32⟩
  | 90 => ⟨S16x16, .i32⟩
  | 91 => ⟨S_, .i32⟩
  | 92 => ⟨S16x1, .i32⟩
  | 93 => ⟨S16x1, .i1⟩
  | 94 => ⟨S_, .i32⟩
  | 95 => ⟨S16x1, .i32⟩
  | 96 => ⟨S16x1, .i32⟩
  | 97 => ⟨S16x1, .i32⟩
  | 98 => ⟨S_, .i32⟩
  | 99 => ⟨S16x16, .i32⟩
  | 100 => ⟨S16x16, .i1⟩
  | 101 => ⟨S_, .i32⟩
  | 102 => ⟨S16x16, .i32⟩
  | 103 => ⟨S16x16, .i32⟩
  | 104 => ⟨S16x16, .i32⟩
  | 105 => ⟨S16x16, .i32⟩
  | 106 => ⟨S16x16x1, .i32⟩
  | 107 => ⟨S16x16x1, .i32⟩
  | 108 => ⟨S16x16x2, .i32⟩
  | 109 => ⟨S128x128x16x16, .f32⟩
  | 110 => ⟨S_, .f32⟩
  | 111 => ⟨S128x128x16, .f32⟩
  | 112 => ⟨S_, .f32⟩
  | 113 => ⟨S128x128x16, .f32⟩
  | 114 => ⟨S128x128x16, .f32⟩
  | 115 => ⟨S16x16, .i32⟩
  | 116 => ⟨S16x16, .i32⟩
  | 117 => ⟨S16x16, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S16x16, .i32⟩
  | 125 => ⟨S16x16, .i32⟩
  | 126 => ⟨S_, .i32⟩
  | 127 => ⟨S16x16, .i32⟩
  | _ => ⟨S16x1024x2048, .f32⟩

abbrev hbmTy0_3 (i : Nat) : BufTy := match i % 128 with
  | 0 => ⟨S16x16, .i1⟩
  | 1 => ⟨S_, .i32⟩
  | 2 => ⟨S16x16, .i32⟩
  | 3 => ⟨S16x16, .i1⟩
  | 4 => ⟨S_, .i32⟩
  | 5 => ⟨S_, .i1⟩
  | 6 => ⟨S16x16, .i1⟩
  | 7 => ⟨S16x16, .i1⟩
  | 8 => ⟨S16x16, .i1⟩
  | 9 => ⟨S16x16, .i32⟩
  | 10 => ⟨S16x16, .i32⟩
  | 11 => ⟨S16x16, .i32⟩
  | 12 => ⟨S_, .i32⟩
  | 13 => ⟨S16x16, .i32⟩
  | 14 => ⟨S16x16, .i1⟩
  | 15 => ⟨S_, .i32⟩
  | 16 => ⟨S16x16, .i32⟩
  | 17 => ⟨S16x16, .i32⟩
  | 18 => ⟨S16x16, .i32⟩
  | 19 => ⟨S16x16x1, .i32⟩
  | 20 => ⟨S128x128x16x16, .f32⟩
  | 21 => ⟨S128x16x128x16, .f32⟩
  | 22 => ⟨S2048x2048, .f32⟩
  | 23 => ⟨S2048x2048, .f32⟩
  | 24 => ⟨S2048x2048, .f32⟩
  | 25 => ⟨S2048x2048, .f32⟩
  | 26 => ⟨S1, .f32⟩
  | 27 => ⟨S_, .f32⟩
  | 28 => ⟨S64x32x64x32, .f32⟩
  | 29 => ⟨S64x64x32x32, .f32⟩
  | 30 => ⟨S32, .i32⟩
  | 31 => ⟨S32x1, .i32⟩
  | 32 => ⟨S32, .i32⟩
  | 33 => ⟨S1x32, .i32⟩
  | 34 => ⟨S32x32, .i32⟩
  | 35 => ⟨S32x32, .i32⟩
  | 36 => ⟨S32x32, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S32x32, .i32⟩
  | 44 => ⟨S32x32, .i32⟩
  | 45 => ⟨S_, .i32⟩
  | 46 => ⟨S32x32, .i32⟩
  | 47 => ⟨S32x32, .i1⟩
  | 48 => ⟨S_, .i32⟩
  | 49 => ⟨S32x32, .i32⟩
  | 50 => ⟨S32x32, .i1⟩
  | 51 => ⟨S_, .i32⟩
  | 52 => ⟨S_, .i1⟩
  | 53 => ⟨S32x32, .i1⟩
  | 54 => ⟨S32x32, .i1⟩
  | 55 => ⟨S32x32, .i1⟩
  | 56 => ⟨S32x32, .i32⟩
  | 57 => ⟨S32x32, .i32⟩
  | 58 => ⟨S32x32, .i32⟩
  | 59 => ⟨S_, .i32⟩
  | 60 => ⟨S32x1, .i32⟩
  | 61 => ⟨S32x1, .i1⟩
  | 62 => ⟨S_, .i32⟩
  | 63 => ⟨S32x1, .i32⟩
  | 64 => ⟨S32x1, .i32⟩
  | 65 => ⟨S32x1, .i32⟩
  | 66 => ⟨S_, .i32⟩
  | 67 => ⟨S32x32, .i32⟩
  | 68 => ⟨S32x32, .i1⟩
  | 69 => ⟨S_, .i32⟩
  | 70 => ⟨S32x32, .i32⟩
  | 71 => ⟨S32x32, .i32⟩
  | 72 => ⟨S32x32, .i32⟩
  | 73 => ⟨S32x32, .i32⟩
  | 74 => ⟨S32x32x1, .i32⟩
  | 75 => ⟨S32x32x1, .i32⟩
  | 76 => ⟨S32x32x2, .i32⟩
  | 77 => ⟨S64x64x32x32, .f32⟩
  | 78 => ⟨S_, .f32⟩
  | 79 => ⟨S64x64x32, .f32⟩
  | 80 => ⟨S_, .f32⟩
  | 81 => ⟨S64x64x32, .f32⟩
  | 82 => ⟨S64x64x32, .f32⟩
  | 83 => ⟨S32x32, .i32⟩
  | 84 => ⟨S32x32, .i32⟩
  | 85 => ⟨S32x32, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S32x32, .i32⟩
  | 93 => ⟨S32x32, .i32⟩
  | 94 => ⟨S_, .i32⟩
  | 95 => ⟨S32x32, .i32⟩
  | 96 => ⟨S32x32, .i1⟩
  | 97 => ⟨S_, .i32⟩
  | 98 => ⟨S32x32, .i32⟩
  | 99 => ⟨S32x32, .i1⟩
  | 100 => ⟨S_, .i32⟩
  | 101 => ⟨S_, .i1⟩
  | 102 => ⟨S32x32, .i1⟩
  | 103 => ⟨S32x32, .i1⟩
  | 104 => ⟨S32x32, .i1⟩
  | 105 => ⟨S32x32, .i32⟩
  | 106 => ⟨S32x32, .i32⟩
  | 107 => ⟨S32x32, .i32⟩
  | 108 => ⟨S_, .i32⟩
  | 109 => ⟨S32x32, .i32⟩
  | 110 => ⟨S32x32, .i1⟩
  | 111 => ⟨S_, .i32⟩
  | 112 => ⟨S32x32, .i32⟩
  | 113 => ⟨S32x32, .i32⟩
  | 114 => ⟨S32x32, .i32⟩
  | 115 => ⟨S32x32x1, .i32⟩
  | 116 => ⟨S64x64x32x32, .f32⟩
  | 117 => ⟨S64x32x64x32, .f32⟩
  | 118 => ⟨S2048x2048, .f32⟩
  | 119 => ⟨S2048x2048, .f32⟩
  | 120 => ⟨S2048x2048, .f32⟩
  | 121 => ⟨S2048x2048, .f32⟩
  | 122 => ⟨S1, .f32⟩
  | 123 => ⟨S_, .f32⟩
  | 124 => ⟨S32x64x32x64, .f32⟩
  | 125 => ⟨S32x32x64x64, .f32⟩
  | 126 => ⟨S64, .i32⟩
  | 127 => ⟨S64x1, .i32⟩
  | _ => ⟨S16x1024x2048, .f32⟩

abbrev hbmTy0_4 (i : Nat) : BufTy := match i % 128 with
  | 0 => ⟨S64, .i32⟩
  | 1 => ⟨S1x64, .i32⟩
  | 2 => ⟨S64x64, .i32⟩
  | 3 => ⟨S64x64, .i32⟩
  | 4 => ⟨S64x64, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S64x64, .i32⟩
  | 12 => ⟨S64x64, .i32⟩
  | 13 => ⟨S_, .i32⟩
  | 14 => ⟨S64x64, .i32⟩
  | 15 => ⟨S64x64, .i1⟩
  | 16 => ⟨S_, .i32⟩
  | 17 => ⟨S64x64, .i32⟩
  | 18 => ⟨S64x64, .i1⟩
  | 19 => ⟨S_, .i32⟩
  | 20 => ⟨S_, .i1⟩
  | 21 => ⟨S64x64, .i1⟩
  | 22 => ⟨S64x64, .i1⟩
  | 23 => ⟨S64x64, .i1⟩
  | 24 => ⟨S64x64, .i32⟩
  | 25 => ⟨S64x64, .i32⟩
  | 26 => ⟨S64x64, .i32⟩
  | 27 => ⟨S_, .i32⟩
  | 28 => ⟨S64x1, .i32⟩
  | 29 => ⟨S64x1, .i1⟩
  | 30 => ⟨S_, .i32⟩
  | 31 => ⟨S64x1, .i32⟩
  | 32 => ⟨S64x1, .i32⟩
  | 33 => ⟨S64x1, .i32⟩
  | 34 => ⟨S_, .i32⟩
  | 35 => ⟨S64x64, .i32⟩
  | 36 => ⟨S64x64, .i1⟩
  | 37 => ⟨S_, .i32⟩
  | 38 => ⟨S64x64, .i32⟩
  | 39 => ⟨S64x64, .i32⟩
  | 40 => ⟨S64x64, .i32⟩
  | 41 => ⟨S64x64, .i32⟩
  | 42 => ⟨S64x64x1, .i32⟩
  | 43 => ⟨S64x64x1, .i32⟩
  | 44 => ⟨S64x64x2, .i32⟩
  | 45 => ⟨S32x32x64x64, .f32⟩
  | 46 => ⟨S_, .f32⟩
  | 47 => ⟨S32x32x64, .f32⟩
  | 48 => ⟨S_, .f32⟩
  | 49 => ⟨S32x32x64, .f32⟩
  | 50 => ⟨S32x32x64, .f32⟩
  | 51 => ⟨S64x64, .i32⟩
  | 52 => ⟨S64x64, .i32⟩
  | 53 => ⟨S64x64, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S64x64, .i32⟩
  | 61 => ⟨S64x64, .i32⟩
  | 62 => ⟨S_, .i32⟩
  | 63 => ⟨S64x64, .i32⟩
  | 64 => ⟨S64x64, .i1⟩
  | 65 => ⟨S_, .i32⟩
  | 66 => ⟨S64x64, .i32⟩
  | 67 => ⟨S64x64, .i1⟩
  | 68 => ⟨S_, .i32⟩
  | 69 => ⟨S_, .i1⟩
  | 70 => ⟨S64x64, .i1⟩
  | 71 => ⟨S64x64, .i1⟩
  | 72 => ⟨S64x64, .i1⟩
  | 73 => ⟨S64x64, .i32⟩
  | 74 => ⟨S64x64, .i32⟩
  | 75 => ⟨S64x64, .i32⟩
  | 76 => ⟨S_, .i32⟩
  | 77 => ⟨S64x64, .i32⟩
  | 78 => ⟨S64x64, .i1⟩
  | 79 => ⟨S_, .i32⟩
  | 80 => ⟨S64x64, .i32⟩
  | 81 => ⟨S64x64, .i32⟩
  | 82 => ⟨S64x64, .i32⟩
  | 83 => ⟨S64x64x1, .i32⟩
  | 84 => ⟨S32x32x64x64, .f32⟩
  | 85 => ⟨S32x64x32x64, .f32⟩
  | 86 => ⟨S2048x2048, .f32⟩
  | 87 => ⟨S2048x2048, .f32⟩
  | 88 => ⟨S2048x2048, .f32⟩
  | 89 => ⟨S2048x2048, .f32⟩
  | 90 => ⟨S16x1024x2048, .f32⟩
  | 91 => ⟨S1x1x2048, .f32⟩
  | 92 => ⟨S16x1024x2048, .f32⟩
  | 93 => ⟨S16x1024x2048, .f32⟩
  | _ => ⟨S16x1024x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x1024x2048, .f32⟩

abbrev bufTy : (tb : Table) → Fin (tcTables nBuf tb) → BufTy
  | .hbm, ⟨i, _⟩ => hbmTy i
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v28 : Ref sig .tc := ⟨.hbm, 58, rfl⟩
abbrev main_c_3 : Ref sig .tc := ⟨.hbm, 59, rfl⟩
abbrev main_v29 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_9 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_c_1 : Ref sig .tc := ⟨.hbm, 94, rfl⟩
abbrev main_call1_v5 : Ref sig .tc := ⟨.hbm, 95, rfl⟩
abbrev main_call1_v6 : Ref sig .tc := ⟨.hbm, 96, rfl⟩
abbrev main_call1_c_2 : Ref sig .tc := ⟨.hbm, 97, rfl⟩
abbrev main_call1_v7 : Ref sig .tc := ⟨.hbm, 98, rfl⟩
abbrev main_call1_v8 : Ref sig .tc := ⟨.hbm, 99, rfl⟩
abbrev main_call1_c_3 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_v12 : Ref sig .tc := ⟨.hbm, 104, rfl⟩
abbrev main_call1_v13 : Ref sig .tc := ⟨.hbm, 105, rfl⟩
abbrev main_call1_v14 : Ref sig .tc := ⟨.hbm, 106, rfl⟩
abbrev main_v50 : Ref sig .tc := ⟨.hbm, 107, rfl⟩
abbrev main_c_10 : Ref sig .tc := ⟨.hbm, 108, rfl⟩
abbrev main_v51 : Ref sig .tc := ⟨.hbm, 109, rfl⟩
abbrev main_v52 : Ref sig .tc := ⟨.hbm, 110, rfl⟩
abbrev main_c_11 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_c_12 : Ref sig .tc := ⟨.hbm, 133, rfl⟩
abbrev main_call2_v0 : Ref sig .tc := ⟨.hbm, 134, rfl⟩
abbrev main_call2_c : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_c_1 : Ref sig .tc := ⟨.hbm, 141, rfl⟩
abbrev main_call2_v5 : Ref sig .tc := ⟨.hbm, 142, rfl⟩
abbrev main_call2_v6 : Ref sig .tc := ⟨.hbm, 143, rfl⟩
abbrev main_call2_c_2 : Ref sig .tc := ⟨.hbm, 144, rfl⟩
abbrev main_call2_v7 : Ref sig .tc := ⟨.hbm, 145, rfl⟩
abbrev main_call2_v8 : Ref sig .tc := ⟨.hbm, 146, rfl⟩
abbrev main_call2_c_3 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_v12 : Ref sig .tc := ⟨.hbm, 151, rfl⟩
abbrev main_call2_v13 : Ref sig .tc := ⟨.hbm, 152, rfl⟩
abbrev main_call2_v14 : Ref sig .tc := ⟨.hbm, 153, rfl⟩
abbrev main_v74 : Ref sig .tc := ⟨.hbm, 154, rfl⟩
abbrev main_c_13 : Ref sig .tc := ⟨.hbm, 155, rfl⟩
abbrev main_v75 : Ref sig .tc := ⟨.hbm, 156, rfl⟩
abbrev main_v76 : Ref sig .tc := ⟨.hbm, 157, rfl⟩
abbrev main_c_14 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_c_15 : Ref sig .tc := ⟨.hbm, 162, rfl⟩
abbrev main_v80 : Ref sig .tc := ⟨.hbm, 163, rfl⟩
abbrev main_v81 : Ref sig .tc := ⟨.hbm, 164, rfl⟩
abbrev main_c_16 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_cst_17 : Ref sig .tc := ⟨.hbm, 174, rfl⟩
abbrev main_v90 : Ref sig .tc := ⟨.hbm, 175, rfl⟩
abbrev main_cst_18 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_c_19 : Ref sig .tc := ⟨.hbm, 182, rfl⟩
abbrev main_call3_v0 : Ref sig .tc := ⟨.hbm, 183, rfl⟩
abbrev main_call3_c : Ref sig .tc := ⟨.hbm, 184, rfl⟩
abbrev main_call3_v1 : Ref sig .tc := ⟨.hbm, 185, rfl⟩
abbrev main_call3_c_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_c_1 : Ref sig .tc := ⟨.hbm, 190, rfl⟩
abbrev main_call3_v5 : Ref sig .tc := ⟨.hbm, 191, rfl⟩
abbrev main_call3_v6 : Ref sig .tc := ⟨.hbm, 192, rfl⟩
abbrev main_call3_c_2 : Ref sig .tc := ⟨.hbm, 193, rfl⟩
abbrev main_call3_v7 : Ref sig .tc := ⟨.hbm, 194, rfl⟩
abbrev main_call3_v8 : Ref sig .tc := ⟨.hbm, 195, rfl⟩
abbrev main_call3_c_3 : Ref sig .tc := ⟨.hbm, 196, rfl⟩
abbrev main_call3_v9 : Ref sig .tc := ⟨.hbm, 197, rfl⟩
abbrev main_call3_v10 : Ref sig .tc := ⟨.hbm, 198, rfl⟩
abbrev main_call3_v11 : Ref sig .tc := ⟨.hbm, 199, rfl⟩
abbrev main_call3_v12 : Ref sig .tc := ⟨.hbm, 200, rfl⟩
abbrev main_call3_v13 : Ref sig .tc := ⟨.hbm, 201, rfl⟩
abbrev main_call3_v14 : Ref sig .tc := ⟨.hbm, 202, rfl⟩
abbrev main_v96 : Ref sig .tc := ⟨.hbm, 203, rfl⟩
abbrev main_c_20 : Ref sig .tc := ⟨.hbm, 204, rfl⟩
abbrev main_v97 : Ref sig .tc := ⟨.hbm, 205, rfl⟩
abbrev main_v98 : Ref sig .tc := ⟨.hbm, 206, rfl⟩
abbrev main_c_21 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_c_22 : Ref sig .tc := ⟨.hbm, 229, rfl⟩
abbrev main_call4_v0 : Ref sig .tc := ⟨.hbm, 230, rfl⟩
abbrev main_call4_c : Ref sig .tc := ⟨.hbm, 231, rfl⟩
abbrev main_call4_v1 : Ref sig .tc := ⟨.hbm, 232, rfl⟩
abbrev main_call4_c_0 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_c_1 : Ref sig .tc := ⟨.hbm, 237, rfl⟩
abbrev main_call4_v5 : Ref sig .tc := ⟨.hbm, 238, rfl⟩
abbrev main_call4_v6 : Ref sig .tc := ⟨.hbm, 239, rfl⟩
abbrev main_call4_c_2 : Ref sig .tc := ⟨.hbm, 240, rfl⟩
abbrev main_call4_v7 : Ref sig .tc := ⟨.hbm, 241, rfl⟩
abbrev main_call4_v8 : Ref sig .tc := ⟨.hbm, 242, rfl⟩
abbrev main_call4_c_3 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_v12 : Ref sig .tc := ⟨.hbm, 247, rfl⟩
abbrev main_call4_v13 : Ref sig .tc := ⟨.hbm, 248, rfl⟩
abbrev main_call4_v14 : Ref sig .tc := ⟨.hbm, 249, rfl⟩
abbrev main_v120 : Ref sig .tc := ⟨.hbm, 250, rfl⟩
abbrev main_c_23 : Ref sig .tc := ⟨.hbm, 251, rfl⟩
abbrev main_v121 : Ref sig .tc := ⟨.hbm, 252, rfl⟩
abbrev main_v122 : Ref sig .tc := ⟨.hbm, 253, rfl⟩
abbrev main_c_24 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_c_25 : Ref sig .tc := ⟨.hbm, 258, rfl⟩
abbrev main_v126 : Ref sig .tc := ⟨.hbm, 259, rfl⟩
abbrev main_v127 : Ref sig .tc := ⟨.hbm, 260, rfl⟩
abbrev main_c_26 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_cst_27 : Ref sig .tc := ⟨.hbm, 270, rfl⟩
abbrev main_v136 : Ref sig .tc := ⟨.hbm, 271, rfl⟩
abbrev main_cst_28 : Ref sig .tc := ⟨.hbm, 272, rfl⟩
abbrev main_v137 : Ref sig .tc := ⟨.hbm, 273, rfl⟩
abbrev main_v138 : Ref sig .tc := ⟨.hbm, 274, rfl⟩
abbrev main_v139 : Ref sig .tc := ⟨.hbm, 275, rfl⟩
abbrev main_v140 : Ref sig .tc := ⟨.hbm, 276, rfl⟩
abbrev main_v141 : Ref sig .tc := ⟨.hbm, 277, rfl⟩
abbrev main_c_29 : Ref sig .tc := ⟨.hbm, 278, rfl⟩
abbrev main_call5_v0 : Ref sig .tc := ⟨.hbm, 279, rfl⟩
abbrev main_call5_c : Ref sig .tc := ⟨.hbm, 280, rfl⟩
abbrev main_call5_v1 : Ref sig .tc := ⟨.hbm, 281, rfl⟩
abbrev main_call5_c_0 : Ref sig .tc := ⟨.hbm, 282, rfl⟩
abbrev main_call5_v2 : Ref sig .tc := ⟨.hbm, 283, rfl⟩
abbrev main_call5_v3 : Ref sig .tc := ⟨.hbm, 284, rfl⟩
abbrev main_call5_v4 : Ref sig .tc := ⟨.hbm, 285, rfl⟩
abbrev main_call5_c_1 : Ref sig .tc := ⟨.hbm, 286, rfl⟩
abbrev main_call5_v5 : Ref sig .tc := ⟨.hbm, 287, rfl⟩
abbrev main_call5_v6 : Ref sig .tc := ⟨.hbm, 288, rfl⟩
abbrev main_call5_c_2 : Ref sig .tc := ⟨.hbm, 289, rfl⟩
abbrev main_call5_v7 : Ref sig .tc := ⟨.hbm, 290, rfl⟩
abbrev main_call5_v8 : Ref sig .tc := ⟨.hbm, 291, rfl⟩
abbrev main_call5_c_3 : Ref sig .tc := ⟨.hbm, 292, rfl⟩
abbrev main_call5_v9 : Ref sig .tc := ⟨.hbm, 293, rfl⟩
abbrev main_call5_v10 : Ref sig .tc := ⟨.hbm, 294, rfl⟩
abbrev main_call5_v11 : Ref sig .tc := ⟨.hbm, 295, rfl⟩
abbrev main_call5_v12 : Ref sig .tc := ⟨.hbm, 296, rfl⟩
abbrev main_call5_v13 : Ref sig .tc := ⟨.hbm, 297, rfl⟩
abbrev main_call5_v14 : Ref sig .tc := ⟨.hbm, 298, rfl⟩
abbrev main_v142 : Ref sig .tc := ⟨.hbm, 299, rfl⟩
abbrev main_c_30 : Ref sig .tc := ⟨.hbm, 300, rfl⟩
abbrev main_v143 : Ref sig .tc := ⟨.hbm, 301, rfl⟩
abbrev main_v144 : Ref sig .tc := ⟨.hbm, 302, rfl⟩
abbrev main_c_31 : Ref sig .tc := ⟨.hbm, 303, rfl⟩
abbrev main_v145 : Ref sig .tc := ⟨.hbm, 304, rfl⟩
abbrev main_v146 : Ref sig .tc := ⟨.hbm, 305, rfl⟩
abbrev main_v147 : Ref sig .tc := ⟨.hbm, 306, rfl⟩
abbrev main_v148 : Ref sig .tc := ⟨.hbm, 307, rfl⟩
abbrev main_v149 : Ref sig .tc := ⟨.hbm, 308, rfl⟩
abbrev main_v150 : Ref sig .tc := ⟨.hbm, 309, rfl⟩
abbrev main_v151 : Ref sig .tc := ⟨.hbm, 310, rfl⟩
abbrev main_v152 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_v159 : Ref sig .tc := ⟨.hbm, 318, rfl⟩
abbrev main_v160 : Ref sig .tc := ⟨.hbm, 319, rfl⟩
abbrev main_v161 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_v165 : Ref sig .tc := ⟨.hbm, 324, rfl⟩
abbrev main_c_32 : Ref sig .tc := ⟨.hbm, 325, rfl⟩
abbrev main_call6_v0 : Ref sig .tc := ⟨.hbm, 326, rfl⟩
abbrev main_call6_c : Ref sig .tc := ⟨.hbm, 327, rfl⟩
abbrev main_call6_v1 : Ref sig .tc := ⟨.hbm, 328, rfl⟩
abbrev main_call6_c_0 : Ref sig .tc := ⟨.hbm, 329, rfl⟩
abbrev main_call6_v2 : Ref sig .tc := ⟨.hbm, 330, rfl⟩
abbrev main_call6_v3 : Ref sig .tc := ⟨.hbm, 331, rfl⟩
abbrev main_call6_v4 : Ref sig .tc := ⟨.hbm, 332, rfl⟩
abbrev main_call6_c_1 : Ref sig .tc := ⟨.hbm, 333, rfl⟩
abbrev main_call6_v5 : Ref sig .tc := ⟨.hbm, 334, rfl⟩
abbrev main_call6_v6 : Ref sig .tc := ⟨.hbm, 335, rfl⟩
abbrev main_call6_c_2 : Ref sig .tc := ⟨.hbm, 336, rfl⟩
abbrev main_call6_v7 : Ref sig .tc := ⟨.hbm, 337, rfl⟩
abbrev main_call6_v8 : Ref sig .tc := ⟨.hbm, 338, rfl⟩
abbrev main_call6_c_3 : Ref sig .tc := ⟨.hbm, 339, rfl⟩
abbrev main_call6_v9 : Ref sig .tc := ⟨.hbm, 340, rfl⟩
abbrev main_call6_v10 : Ref sig .tc := ⟨.hbm, 341, rfl⟩
abbrev main_call6_v11 : Ref sig .tc := ⟨.hbm, 342, rfl⟩
abbrev main_call6_v12 : Ref sig .tc := ⟨.hbm, 343, rfl⟩
abbrev main_call6_v13 : Ref sig .tc := ⟨.hbm, 344, rfl⟩
abbrev main_call6_v14 : Ref sig .tc := ⟨.hbm, 345, rfl⟩
abbrev main_v166 : Ref sig .tc := ⟨.hbm, 346, rfl⟩
abbrev main_c_33 : Ref sig .tc := ⟨.hbm, 347, rfl⟩
abbrev main_v167 : Ref sig .tc := ⟨.hbm, 348, rfl⟩
abbrev main_v168 : Ref sig .tc := ⟨.hbm, 349, rfl⟩
abbrev main_c_34 : Ref sig .tc := ⟨.hbm, 350, rfl⟩
abbrev main_v169 : Ref sig .tc := ⟨.hbm, 351, rfl⟩
abbrev main_v170 : Ref sig .tc := ⟨.hbm, 352, rfl⟩
abbrev main_v171 : Ref sig .tc := ⟨.hbm, 353, rfl⟩
abbrev main_c_35 : Ref sig .tc := ⟨.hbm, 354, rfl⟩
abbrev main_v172 : Ref sig .tc := ⟨.hbm, 355, rfl⟩
abbrev main_v173 : Ref sig .tc := ⟨.hbm, 356, rfl⟩
abbrev main_c_36 : Ref sig .tc := ⟨.hbm, 357, rfl⟩
abbrev main_v174 : Ref sig .tc := ⟨.hbm, 358, rfl⟩
abbrev main_v175 : Ref sig .tc := ⟨.hbm, 359, rfl⟩
abbrev main_v176 : Ref sig .tc := ⟨.hbm, 360, rfl⟩
abbrev main_v177 : Ref sig .tc := ⟨.hbm, 361, rfl⟩
abbrev main_v178 : Ref sig .tc := ⟨.hbm, 362, rfl⟩
abbrev main_v179 : Ref sig .tc := ⟨.hbm, 363, rfl⟩
abbrev main_v180 : Ref sig .tc := ⟨.hbm, 364, rfl⟩
abbrev main_v181 : Ref sig .tc := ⟨.hbm, 365, rfl⟩
abbrev main_cst_37 : Ref sig .tc := ⟨.hbm, 366, rfl⟩
abbrev main_v182 : Ref sig .tc := ⟨.hbm, 367, rfl⟩
abbrev main_cst_38 : Ref sig .tc := ⟨.hbm, 368, rfl⟩
abbrev main_v183 : Ref sig .tc := ⟨.hbm, 369, rfl⟩
abbrev main_v184 : Ref sig .tc := ⟨.hbm, 370, rfl⟩
abbrev main_v185 : Ref sig .tc := ⟨.hbm, 371, rfl⟩
abbrev main_v186 : Ref sig .tc := ⟨.hbm, 372, rfl⟩
abbrev main_v187 : Ref sig .tc := ⟨.hbm, 373, rfl⟩
abbrev main_c_39 : Ref sig .tc := ⟨.hbm, 374, rfl⟩
abbrev main_call7_v0 : Ref sig .tc := ⟨.hbm, 375, rfl⟩
abbrev main_call7_c : Ref sig .tc := ⟨.hbm, 376, rfl⟩
abbrev main_call7_v1 : Ref sig .tc := ⟨.hbm, 377, rfl⟩
abbrev main_call7_c_0 : Ref sig .tc := ⟨.hbm, 378, rfl⟩
abbrev main_call7_v2 : Ref sig .tc := ⟨.hbm, 379, rfl⟩
abbrev main_call7_v3 : Ref sig .tc := ⟨.hbm, 380, rfl⟩
abbrev main_call7_v4 : Ref sig .tc := ⟨.hbm, 381, rfl⟩
abbrev main_call7_c_1 : Ref sig .tc := ⟨.hbm, 382, rfl⟩
abbrev main_call7_v5 : Ref sig .tc := ⟨.hbm, 383, rfl⟩
abbrev main_call7_v6 : Ref sig .tc := ⟨.hbm, 384, rfl⟩
abbrev main_call7_c_2 : Ref sig .tc := ⟨.hbm, 385, rfl⟩
abbrev main_call7_v7 : Ref sig .tc := ⟨.hbm, 386, rfl⟩
abbrev main_call7_v8 : Ref sig .tc := ⟨.hbm, 387, rfl⟩
abbrev main_call7_c_3 : Ref sig .tc := ⟨.hbm, 388, rfl⟩
abbrev main_call7_v9 : Ref sig .tc := ⟨.hbm, 389, rfl⟩
abbrev main_call7_v10 : Ref sig .tc := ⟨.hbm, 390, rfl⟩
abbrev main_call7_v11 : Ref sig .tc := ⟨.hbm, 391, rfl⟩
abbrev main_call7_v12 : Ref sig .tc := ⟨.hbm, 392, rfl⟩
abbrev main_call7_v13 : Ref sig .tc := ⟨.hbm, 393, rfl⟩
abbrev main_call7_v14 : Ref sig .tc := ⟨.hbm, 394, rfl⟩
abbrev main_v188 : Ref sig .tc := ⟨.hbm, 395, rfl⟩
abbrev main_c_40 : Ref sig .tc := ⟨.hbm, 396, rfl⟩
abbrev main_v189 : Ref sig .tc := ⟨.hbm, 397, rfl⟩
abbrev main_v190 : Ref sig .tc := ⟨.hbm, 398, rfl⟩
abbrev main_c_41 : Ref sig .tc := ⟨.hbm, 399, rfl⟩
abbrev main_v191 : Ref sig .tc := ⟨.hbm, 400, rfl⟩
abbrev main_v192 : Ref sig .tc := ⟨.hbm, 401, rfl⟩
abbrev main_v193 : Ref sig .tc := ⟨.hbm, 402, rfl⟩
abbrev main_v194 : Ref sig .tc := ⟨.hbm, 403, rfl⟩
abbrev main_v195 : Ref sig .tc := ⟨.hbm, 404, rfl⟩
abbrev main_v196 : Ref sig .tc := ⟨.hbm, 405, rfl⟩
abbrev main_v197 : Ref sig .tc := ⟨.hbm, 406, rfl⟩
abbrev main_v198 : Ref sig .tc := ⟨.hbm, 407, rfl⟩
abbrev main_v199 : Ref sig .tc := ⟨.hbm, 408, rfl⟩
abbrev main_v200 : Ref sig .tc := ⟨.hbm, 409, rfl⟩
abbrev main_v201 : Ref sig .tc := ⟨.hbm, 410, rfl⟩
abbrev main_v202 : Ref sig .tc := ⟨.hbm, 411, rfl⟩
abbrev main_v203 : Ref sig .tc := ⟨.hbm, 412, rfl⟩
abbrev main_v204 : Ref sig .tc := ⟨.hbm, 413, rfl⟩
abbrev main_v205 : Ref sig .tc := ⟨.hbm, 414, rfl⟩
abbrev main_v206 : Ref sig .tc := ⟨.hbm, 415, rfl⟩
abbrev main_v207 : Ref sig .tc := ⟨.hbm, 416, rfl⟩
abbrev main_v208 : Ref sig .tc := ⟨.hbm, 417, rfl⟩
abbrev main_v209 : Ref sig .tc := ⟨.hbm, 418, rfl⟩
abbrev main_v210 : Ref sig .tc := ⟨.hbm, 419, rfl⟩
abbrev main_v211 : Ref sig .tc := ⟨.hbm, 420, rfl⟩
abbrev main_c_42 : Ref sig .tc := ⟨.hbm, 421, rfl⟩
abbrev main_call8_v0 : Ref sig .tc := ⟨.hbm, 422, rfl⟩
abbrev main_call8_c : Ref sig .tc := ⟨.hbm, 423, rfl⟩
abbrev main_call8_v1 : Ref sig .tc := ⟨.hbm, 424, rfl⟩
abbrev main_call8_c_0 : Ref sig .tc := ⟨.hbm, 425, rfl⟩
abbrev main_call8_v2 : Ref sig .tc := ⟨.hbm, 426, rfl⟩
abbrev main_call8_v3 : Ref sig .tc := ⟨.hbm, 427, rfl⟩
abbrev main_call8_v4 : Ref sig .tc := ⟨.hbm, 428, rfl⟩
abbrev main_call8_c_1 : Ref sig .tc := ⟨.hbm, 429, rfl⟩
abbrev main_call8_v5 : Ref sig .tc := ⟨.hbm, 430, rfl⟩
abbrev main_call8_v6 : Ref sig .tc := ⟨.hbm, 431, rfl⟩
abbrev main_call8_c_2 : Ref sig .tc := ⟨.hbm, 432, rfl⟩
abbrev main_call8_v7 : Ref sig .tc := ⟨.hbm, 433, rfl⟩
abbrev main_call8_v8 : Ref sig .tc := ⟨.hbm, 434, rfl⟩
abbrev main_call8_c_3 : Ref sig .tc := ⟨.hbm, 435, rfl⟩
abbrev main_call8_v9 : Ref sig .tc := ⟨.hbm, 436, rfl⟩
abbrev main_call8_v10 : Ref sig .tc := ⟨.hbm, 437, rfl⟩
abbrev main_call8_v11 : Ref sig .tc := ⟨.hbm, 438, rfl⟩
abbrev main_call8_v12 : Ref sig .tc := ⟨.hbm, 439, rfl⟩
abbrev main_call8_v13 : Ref sig .tc := ⟨.hbm, 440, rfl⟩
abbrev main_call8_v14 : Ref sig .tc := ⟨.hbm, 441, rfl⟩
abbrev main_v212 : Ref sig .tc := ⟨.hbm, 442, rfl⟩
abbrev main_c_43 : Ref sig .tc := ⟨.hbm, 443, rfl⟩
abbrev main_v213 : Ref sig .tc := ⟨.hbm, 444, rfl⟩
abbrev main_v214 : Ref sig .tc := ⟨.hbm, 445, rfl⟩
abbrev main_c_44 : Ref sig .tc := ⟨.hbm, 446, rfl⟩
abbrev main_v215 : Ref sig .tc := ⟨.hbm, 447, rfl⟩
abbrev main_v216 : Ref sig .tc := ⟨.hbm, 448, rfl⟩
abbrev main_v217 : Ref sig .tc := ⟨.hbm, 449, rfl⟩
abbrev main_c_45 : Ref sig .tc := ⟨.hbm, 450, rfl⟩
abbrev main_v218 : Ref sig .tc := ⟨.hbm, 451, rfl⟩
abbrev main_v219 : Ref sig .tc := ⟨.hbm, 452, rfl⟩
abbrev main_c_46 : Ref sig .tc := ⟨.hbm, 453, rfl⟩
abbrev main_v220 : Ref sig .tc := ⟨.hbm, 454, rfl⟩
abbrev main_v221 : Ref sig .tc := ⟨.hbm, 455, rfl⟩
abbrev main_v222 : Ref sig .tc := ⟨.hbm, 456, rfl⟩
abbrev main_v223 : Ref sig .tc := ⟨.hbm, 457, rfl⟩
abbrev main_v224 : Ref sig .tc := ⟨.hbm, 458, rfl⟩
abbrev main_v225 : Ref sig .tc := ⟨.hbm, 459, rfl⟩
abbrev main_v226 : Ref sig .tc := ⟨.hbm, 460, rfl⟩
abbrev main_v227 : Ref sig .tc := ⟨.hbm, 461, rfl⟩
abbrev main_cst_47 : Ref sig .tc := ⟨.hbm, 462, rfl⟩
abbrev main_v228 : Ref sig .tc := ⟨.hbm, 463, rfl⟩
abbrev main_cst_48 : Ref sig .tc := ⟨.hbm, 464, rfl⟩
abbrev main_v229 : Ref sig .tc := ⟨.hbm, 465, rfl⟩
abbrev main_v230 : Ref sig .tc := ⟨.hbm, 466, rfl⟩
abbrev main_v231 : Ref sig .tc := ⟨.hbm, 467, rfl⟩
abbrev main_v232 : Ref sig .tc := ⟨.hbm, 468, rfl⟩
abbrev main_v233 : Ref sig .tc := ⟨.hbm, 469, rfl⟩
abbrev main_c_49 : Ref sig .tc := ⟨.hbm, 470, rfl⟩
abbrev main_call9_v0 : Ref sig .tc := ⟨.hbm, 471, rfl⟩
abbrev main_call9_c : Ref sig .tc := ⟨.hbm, 472, rfl⟩
abbrev main_call9_v1 : Ref sig .tc := ⟨.hbm, 473, rfl⟩
abbrev main_call9_c_0 : Ref sig .tc := ⟨.hbm, 474, rfl⟩
abbrev main_call9_v2 : Ref sig .tc := ⟨.hbm, 475, rfl⟩
abbrev main_call9_v3 : Ref sig .tc := ⟨.hbm, 476, rfl⟩
abbrev main_call9_v4 : Ref sig .tc := ⟨.hbm, 477, rfl⟩
abbrev main_call9_c_1 : Ref sig .tc := ⟨.hbm, 478, rfl⟩
abbrev main_call9_v5 : Ref sig .tc := ⟨.hbm, 479, rfl⟩
abbrev main_call9_v6 : Ref sig .tc := ⟨.hbm, 480, rfl⟩
abbrev main_call9_c_2 : Ref sig .tc := ⟨.hbm, 481, rfl⟩
abbrev main_call9_v7 : Ref sig .tc := ⟨.hbm, 482, rfl⟩
abbrev main_call9_v8 : Ref sig .tc := ⟨.hbm, 483, rfl⟩
abbrev main_call9_c_3 : Ref sig .tc := ⟨.hbm, 484, rfl⟩
abbrev main_call9_v9 : Ref sig .tc := ⟨.hbm, 485, rfl⟩
abbrev main_call9_v10 : Ref sig .tc := ⟨.hbm, 486, rfl⟩
abbrev main_call9_v11 : Ref sig .tc := ⟨.hbm, 487, rfl⟩
abbrev main_call9_v12 : Ref sig .tc := ⟨.hbm, 488, rfl⟩
abbrev main_call9_v13 : Ref sig .tc := ⟨.hbm, 489, rfl⟩
abbrev main_call9_v14 : Ref sig .tc := ⟨.hbm, 490, rfl⟩
abbrev main_v234 : Ref sig .tc := ⟨.hbm, 491, rfl⟩
abbrev main_c_50 : Ref sig .tc := ⟨.hbm, 492, rfl⟩
abbrev main_v235 : Ref sig .tc := ⟨.hbm, 493, rfl⟩
abbrev main_v236 : Ref sig .tc := ⟨.hbm, 494, rfl⟩
abbrev main_c_51 : Ref sig .tc := ⟨.hbm, 495, rfl⟩
abbrev main_v237 : Ref sig .tc := ⟨.hbm, 496, rfl⟩
abbrev main_v238 : Ref sig .tc := ⟨.hbm, 497, rfl⟩
abbrev main_v239 : Ref sig .tc := ⟨.hbm, 498, rfl⟩
abbrev main_v240 : Ref sig .tc := ⟨.hbm, 499, rfl⟩
abbrev main_v241 : Ref sig .tc := ⟨.hbm, 500, rfl⟩
abbrev main_v242 : Ref sig .tc := ⟨.hbm, 501, rfl⟩
abbrev main_v243 : Ref sig .tc := ⟨.hbm, 502, rfl⟩
abbrev main_v244 : Ref sig .tc := ⟨.hbm, 503, rfl⟩
abbrev main_v245 : Ref sig .tc := ⟨.hbm, 504, rfl⟩
abbrev main_v246 : Ref sig .tc := ⟨.hbm, 505, rfl⟩
abbrev main_v247 : Ref sig .tc := ⟨.hbm, 506, rfl⟩
abbrev main_v248 : Ref sig .tc := ⟨.hbm, 507, rfl⟩
abbrev main_v249 : Ref sig .tc := ⟨.hbm, 508, rfl⟩
abbrev main_v250 : Ref sig .tc := ⟨.hbm, 509, rfl⟩
abbrev main_v251 : Ref sig .tc := ⟨.hbm, 510, rfl⟩
abbrev main_v252 : Ref sig .tc := ⟨.hbm, 511, rfl⟩
abbrev main_v253 : Ref sig .tc := ⟨.hbm, 512, rfl⟩
abbrev main_v254 : Ref sig .tc := ⟨.hbm, 513, rfl⟩
abbrev main_v255 : Ref sig .tc := ⟨.hbm, 514, rfl⟩
abbrev main_v256 : Ref sig .tc := ⟨.hbm, 515, rfl⟩
abbrev main_v257 : Ref sig .tc := ⟨.hbm, 516, rfl⟩
abbrev main_c_52 : Ref sig .tc := ⟨.hbm, 517, rfl⟩
abbrev main_call10_v0 : Ref sig .tc := ⟨.hbm, 518, rfl⟩
abbrev main_call10_c : Ref sig .tc := ⟨.hbm, 519, rfl⟩
abbrev main_call10_v1 : Ref sig .tc := ⟨.hbm, 520, rfl⟩
abbrev main_call10_c_0 : Ref sig .tc := ⟨.hbm, 521, rfl⟩
abbrev main_call10_v2 : Ref sig .tc := ⟨.hbm, 522, rfl⟩
abbrev main_call10_v3 : Ref sig .tc := ⟨.hbm, 523, rfl⟩
abbrev main_call10_v4 : Ref sig .tc := ⟨.hbm, 524, rfl⟩
abbrev main_call10_c_1 : Ref sig .tc := ⟨.hbm, 525, rfl⟩
abbrev main_call10_v5 : Ref sig .tc := ⟨.hbm, 526, rfl⟩
abbrev main_call10_v6 : Ref sig .tc := ⟨.hbm, 527, rfl⟩
abbrev main_call10_c_2 : Ref sig .tc := ⟨.hbm, 528, rfl⟩
abbrev main_call10_v7 : Ref sig .tc := ⟨.hbm, 529, rfl⟩
abbrev main_call10_v8 : Ref sig .tc := ⟨.hbm, 530, rfl⟩
abbrev main_call10_c_3 : Ref sig .tc := ⟨.hbm, 531, rfl⟩
abbrev main_call10_v9 : Ref sig .tc := ⟨.hbm, 532, rfl⟩
abbrev main_call10_v10 : Ref sig .tc := ⟨.hbm, 533, rfl⟩
abbrev main_call10_v11 : Ref sig .tc := ⟨.hbm, 534, rfl⟩
abbrev main_call10_v12 : Ref sig .tc := ⟨.hbm, 535, rfl⟩
abbrev main_call10_v13 : Ref sig .tc := ⟨.hbm, 536, rfl⟩
abbrev main_call10_v14 : Ref sig .tc := ⟨.hbm, 537, rfl⟩
abbrev main_v258 : Ref sig .tc := ⟨.hbm, 538, rfl⟩
abbrev main_c_53 : Ref sig .tc := ⟨.hbm, 539, rfl⟩
abbrev main_v259 : Ref sig .tc := ⟨.hbm, 540, rfl⟩
abbrev main_v260 : Ref sig .tc := ⟨.hbm, 541, rfl⟩
abbrev main_c_54 : Ref sig .tc := ⟨.hbm, 542, rfl⟩
abbrev main_v261 : Ref sig .tc := ⟨.hbm, 543, rfl⟩
abbrev main_v262 : Ref sig .tc := ⟨.hbm, 544, rfl⟩
abbrev main_v263 : Ref sig .tc := ⟨.hbm, 545, rfl⟩
abbrev main_c_55 : Ref sig .tc := ⟨.hbm, 546, rfl⟩
abbrev main_v264 : Ref sig .tc := ⟨.hbm, 547, rfl⟩
abbrev main_v265 : Ref sig .tc := ⟨.hbm, 548, rfl⟩
abbrev main_c_56 : Ref sig .tc := ⟨.hbm, 549, rfl⟩
abbrev main_v266 : Ref sig .tc := ⟨.hbm, 550, rfl⟩
abbrev main_v267 : Ref sig .tc := ⟨.hbm, 551, rfl⟩
abbrev main_v268 : Ref sig .tc := ⟨.hbm, 552, rfl⟩
abbrev main_v269 : Ref sig .tc := ⟨.hbm, 553, rfl⟩
abbrev main_v270 : Ref sig .tc := ⟨.hbm, 554, rfl⟩
abbrev main_v271 : Ref sig .tc := ⟨.hbm, 555, rfl⟩
abbrev main_v272 : Ref sig .tc := ⟨.hbm, 556, rfl⟩
abbrev main_v273 : Ref sig .tc := ⟨.hbm, 557, rfl⟩
abbrev main_cst_57 : Ref sig .tc := ⟨.hbm, 558, rfl⟩
abbrev main_v274 : Ref sig .tc := ⟨.hbm, 559, rfl⟩
abbrev main_cst_58 : Ref sig .tc := ⟨.hbm, 560, rfl⟩
abbrev main_v275 : Ref sig .tc := ⟨.hbm, 561, rfl⟩
abbrev main_v276 : Ref sig .tc := ⟨.hbm, 562, rfl⟩
abbrev main_v277 : Ref sig .tc := ⟨.hbm, 563, rfl⟩
abbrev main_v278 : Ref sig .tc := ⟨.hbm, 564, rfl⟩
abbrev main_v279 : Ref sig .tc := ⟨.hbm, 565, rfl⟩
abbrev main_c_59 : Ref sig .tc := ⟨.hbm, 566, rfl⟩
abbrev main_call11_v0 : Ref sig .tc := ⟨.hbm, 567, rfl⟩
abbrev main_call11_c : Ref sig .tc := ⟨.hbm, 568, rfl⟩
abbrev main_call11_v1 : Ref sig .tc := ⟨.hbm, 569, rfl⟩
abbrev main_call11_c_0 : Ref sig .tc := ⟨.hbm, 570, rfl⟩
abbrev main_call11_v2 : Ref sig .tc := ⟨.hbm, 571, rfl⟩
abbrev main_call11_v3 : Ref sig .tc := ⟨.hbm, 572, rfl⟩
abbrev main_call11_v4 : Ref sig .tc := ⟨.hbm, 573, rfl⟩
abbrev main_call11_c_1 : Ref sig .tc := ⟨.hbm, 574, rfl⟩
abbrev main_call11_v5 : Ref sig .tc := ⟨.hbm, 575, rfl⟩
abbrev main_call11_v6 : Ref sig .tc := ⟨.hbm, 576, rfl⟩
abbrev main_call11_c_2 : Ref sig .tc := ⟨.hbm, 577, rfl⟩
abbrev main_call11_v7 : Ref sig .tc := ⟨.hbm, 578, rfl⟩
abbrev main_call11_v8 : Ref sig .tc := ⟨.hbm, 579, rfl⟩
abbrev main_call11_c_3 : Ref sig .tc := ⟨.hbm, 580, rfl⟩
abbrev main_call11_v9 : Ref sig .tc := ⟨.hbm, 581, rfl⟩
abbrev main_call11_v10 : Ref sig .tc := ⟨.hbm, 582, rfl⟩
abbrev main_call11_v11 : Ref sig .tc := ⟨.hbm, 583, rfl⟩
abbrev main_call11_v12 : Ref sig .tc := ⟨.hbm, 584, rfl⟩
abbrev main_call11_v13 : Ref sig .tc := ⟨.hbm, 585, rfl⟩
abbrev main_call11_v14 : Ref sig .tc := ⟨.hbm, 586, rfl⟩
abbrev main_v280 : Ref sig .tc := ⟨.hbm, 587, rfl⟩
abbrev main_c_60 : Ref sig .tc := ⟨.hbm, 588, rfl⟩
abbrev main_v281 : Ref sig .tc := ⟨.hbm, 589, rfl⟩
abbrev main_v282 : Ref sig .tc := ⟨.hbm, 590, rfl⟩
abbrev main_c_61 : Ref sig .tc := ⟨.hbm, 591, rfl⟩
abbrev main_v283 : Ref sig .tc := ⟨.hbm, 592, rfl⟩
abbrev main_v284 : Ref sig .tc := ⟨.hbm, 593, rfl⟩
abbrev main_v285 : Ref sig .tc := ⟨.hbm, 594, rfl⟩
abbrev main_v286 : Ref sig .tc := ⟨.hbm, 595, rfl⟩
abbrev main_v287 : Ref sig .tc := ⟨.hbm, 596, rfl⟩
abbrev main_v288 : Ref sig .tc := ⟨.hbm, 597, rfl⟩
abbrev main_v289 : Ref sig .tc := ⟨.hbm, 598, rfl⟩
abbrev main_v290 : Ref sig .tc := ⟨.hbm, 599, rfl⟩
abbrev main_v291 : Ref sig .tc := ⟨.hbm, 600, rfl⟩
abbrev main_v292 : Ref sig .tc := ⟨.hbm, 601, rfl⟩
abbrev main_v293 : Ref sig .tc := ⟨.hbm, 602, rfl⟩
abbrev main_v294 : Ref sig .tc := ⟨.hbm, 603, rfl⟩
abbrev main_v295 : Ref sig .tc := ⟨.hbm, 604, rfl⟩
abbrev main_v296 : Ref sig .tc := ⟨.hbm, 605, rfl⟩

abbrev nD : Nat := 1
abbrev τ : Topo := Topo.v7x

variable {F : FTy → Type} [FloatOps F]

class Facts₀ : Prop where
  bcast_S_S7 : S_.BroadcastsInDim S7 (![] : Fin 0 → Fin S7.rank)
  reducesTo_S7_S_d0 : S7.ReducesTo [0] S_
  h_S_ : 0 < S_.numel
  bcast_S_S1 : S_.BroadcastsInDim S1 (![] : Fin 0 → Fin S1.rank)
  bcast_S1_S7_0 : S1.BroadcastsInDim S7 (![0] : Fin 1 → Fin S7.rank)
  slices_S7_S1_0 : S7.Slices ![0] S1
  shapeCasts_S1_S_ : S1.ShapeCasts S_
  bcast_S_S2048x2048 : S_.BroadcastsInDim S2048x2048 (![] : Fin 0 → Fin S2048x2048.rank)
  slices_S7_S1_1 : S7.Slices ![1] S1
  shapeCasts_S2048x2048_S1024x2x1024x2 : S2048x2048.ShapeCasts S1024x2x1024x2
  transposes_S1024x2x1024x2_S1024x1024x2x2_0_2_1_3 : S1024x2x1024x2.Transposes [0, 2, 1, 3] S1024x1024x2x2
  bcast_S2_S2x1_0 : S2.BroadcastsInDim S2x1 (![0] : Fin 1 → Fin S2x1.rank)
  bcast_S2_S1x2_1 : S2.BroadcastsInDim S1x2 (![1] : Fin 1 → Fin S1x2.rank)
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  bcast_S_S2x1 : S_.BroadcastsInDim S2x1 (![] : Fin 0 → Fin S2x1.rank)
  bcast_S2x2_S2x2x1_0_1 : S2x2.BroadcastsInDim S2x2x1 (![0, 1] : Fin 2 → Fin S2x2x1.rank)
  concatenates_S2x2x1_S2x2x1_S2x2x2_d2 : Shape.Concatenates [S2x2x1, S2x2x1] S2x2x2 2
  reducesTo_S1024x1024x2x2_S1024x1024x2_d2 : S1024x1024x2x2.ReducesTo [2] S1024x1024x2
  bcast_S_S1024x1024x2 : S_.BroadcastsInDim S1024x1024x2 (![] : Fin 0 → Fin S1024x1024x2.rank)
  transposes_S1024x1024x2x2_S1024x2x1024x2_0_2_1_3 : S1024x1024x2x2.Transposes [0, 2, 1, 3] S1024x2x1024x2
  shapeCasts_S1024x2x1024x2_S2048x2048 : S1024x2x1024x2.ShapeCasts S2048x2048
  slices_S7_S1_2 : S7.Slices ![2] S1
  shapeCasts_S2048x2048_S512x4x512x4 : S2048x2048.ShapeCasts S512x4x512x4
  transposes_S512x4x512x4_S512x512x4x4_0_2_1_3 : S512x4x512x4.Transposes [0, 2, 1, 3] S512x512x4x4
  bcast_S4_S4x1_0 : S4.BroadcastsInDim S4x1 (![0] : Fin 1 → Fin S4x1.rank)
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  bcast_S_S4x4 : S_.BroadcastsInDim S4x4 (![] : Fin 0 → Fin S4x4.rank)
  bcast_S_S4x1 : S_.BroadcastsInDim S4x1 (![] : Fin 0 → Fin S4x1.rank)
  bcast_S4x4_S4x4x1_0_1 : S4x4.BroadcastsInDim S4x4x1 (![0, 1] : Fin 2 → Fin S4x4x1.rank)
  concatenates_S4x4x1_S4x4x1_S4x4x2_d2 : Shape.Concatenates [S4x4x1, S4x4x1] S4x4x2 2
  reducesTo_S512x512x4x4_S512x512x4_d2 : S512x512x4x4.ReducesTo [2] S512x512x4
  bcast_S_S512x512x4 : S_.BroadcastsInDim S512x512x4 (![] : Fin 0 → Fin S512x512x4.rank)
  transposes_S512x512x4x4_S512x4x512x4_0_2_1_3 : S512x512x4x4.Transposes [0, 2, 1, 3] S512x4x512x4
  shapeCasts_S512x4x512x4_S2048x2048 : S512x4x512x4.ShapeCasts S2048x2048
  slices_S7_S1_3 : S7.Slices ![3] S1
  shapeCasts_S2048x2048_S256x8x256x8 : S2048x2048.ShapeCasts S256x8x256x8
  transposes_S256x8x256x8_S256x256x8x8_0_2_1_3 : S256x8x256x8.Transposes [0, 2, 1, 3] S256x256x8x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S_S8x8 : S_.BroadcastsInDim S8x8 (![] : Fin 0 → Fin S8x8.rank)
  bcast_S_S8x1 : S_.BroadcastsInDim S8x1 (![] : Fin 0 → Fin S8x1.rank)
  bcast_S8x8_S8x8x1_0_1 : S8x8.BroadcastsInDim S8x8x1 (![0, 1] : Fin 2 → Fin S8x8x1.rank)
  concatenates_S8x8x1_S8x8x1_S8x8x2_d2 : Shape.Concatenates [S8x8x1, S8x8x1] S8x8x2 2
  reducesTo_S256x256x8x8_S256x256x8_d2 : S256x256x8x8.ReducesTo [2] S256x256x8
  bcast_S_S256x256x8 : S_.BroadcastsInDim S256x256x8 (![] : Fin 0 → Fin S256x256x8.rank)
  transposes_S256x256x8x8_S256x8x256x8_0_2_1_3 : S256x256x8x8.Transposes [0, 2, 1, 3] S256x8x256x8
  shapeCasts_S256x8x256x8_S2048x2048 : S256x8x256x8.ShapeCasts S2048x2048
  slices_S7_S1_4 : S7.Slices ![4] S1
  shapeCasts_S2048x2048_S128x16x128x16 : S2048x2048.ShapeCasts S128x16x128x16
  transposes_S128x16x128x16_S128x128x16x16_0_2_1_3 : S128x16x128x16.Transposes [0, 2, 1, 3] S128x128x16x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S_S16x1 : S_.BroadcastsInDim S16x1 (![] : Fin 0 → Fin S16x1.rank)
  bcast_S16x16_S16x16x1_0_1 : S16x16.BroadcastsInDim S16x16x1 (![0, 1] : Fin 2 → Fin S16x16x1.rank)
  concatenates_S16x16x1_S16x16x1_S16x16x2_d2 : Shape.Concatenates [S16x16x1, S16x16x1] S16x16x2 2
  reducesTo_S128x128x16x16_S128x128x16_d2 : S128x128x16x16.ReducesTo [2] S128x128x16
  bcast_S_S128x128x16 : S_.BroadcastsInDim S128x128x16 (![] : Fin 0 → Fin S128x128x16.rank)
  transposes_S128x128x16x16_S128x16x128x16_0_2_1_3 : S128x128x16x16.Transposes [0, 2, 1, 3] S128x16x128x16
  shapeCasts_S128x16x128x16_S2048x2048 : S128x16x128x16.ShapeCasts S2048x2048
  slices_S7_S1_5 : S7.Slices ![5] S1
  shapeCasts_S2048x2048_S64x32x64x32 : S2048x2048.ShapeCasts S64x32x64x32
  transposes_S64x32x64x32_S64x64x32x32_0_2_1_3 : S64x32x64x32.Transposes [0, 2, 1, 3] S64x64x32x32
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S_S32x1 : S_.BroadcastsInDim S32x1 (![] : Fin 0 → Fin S32x1.rank)
  bcast_S32x32_S32x32x1_0_1 : S32x32.BroadcastsInDim S32x32x1 (![0, 1] : Fin 2 → Fin S32x32x1.rank)
  concatenates_S32x32x1_S32x32x1_S32x32x2_d2 : Shape.Concatenates [S32x32x1, S32x32x1] S32x32x2 2
  reducesTo_S64x64x32x32_S64x64x32_d2 : S64x64x32x32.ReducesTo [2] S64x64x32
  bcast_S_S64x64x32 : S_.BroadcastsInDim S64x64x32 (![] : Fin 0 → Fin S64x64x32.rank)
  transposes_S64x64x32x32_S64x32x64x32_0_2_1_3 : S64x64x32x32.Transposes [0, 2, 1, 3] S64x32x64x32
  shapeCasts_S64x32x64x32_S2048x2048 : S64x32x64x32.ShapeCasts S2048x2048
  slices_S7_S1_6 : S7.Slices ![6] S1
  shapeCasts_S2048x2048_S32x64x32x64 : S2048x2048.ShapeCasts S32x64x32x64
  transposes_S32x64x32x64_S32x32x64x64_0_2_1_3 : S32x64x32x64.Transposes [0, 2, 1, 3] S32x32x64x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64x1 : S_.BroadcastsInDim S64x1 (![] : Fin 0 → Fin S64x1.rank)
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  reducesTo_S32x32x64x64_S32x32x64_d2 : S32x32x64x64.ReducesTo [2] S32x32x64
  bcast_S_S32x32x64 : S_.BroadcastsInDim S32x32x64 (![] : Fin 0 → Fin S32x32x64.rank)
  transposes_S32x32x64x64_S32x64x32x64_0_2_1_3 : S32x32x64x64.Transposes [0, 2, 1, 3] S32x64x32x64
  shapeCasts_S32x64x32x64_S2048x2048 : S32x64x32x64.ShapeCasts S2048x2048
  bcast_S2048_S1x1x2048_2 : S2048.BroadcastsInDim S1x1x2048 (![2] : Fin 1 → Fin S1x1x2048.rank)
  bcast_S1x1x2048_S16x1024x2048_0_1_2 : S1x1x2048.BroadcastsInDim S16x1024x2048 (![0, 1, 2] : Fin 3 → Fin S16x1024x2048.rank)
  gather_S1024x1024x2x2_S2x2x2_S1024x1024x2x2_01_23_n_n_23_2_1024102411_wf : GatherDims.WF S1024x1024x2x2 S2x2x2 S1024x1024x2x2 [0, 1] [2, 3] [] [2, 3] [] 2 ![1024, 1024, 1, 1]
  gather_S1024x1024x2_S2x2x1_S1024x1024x2x2_01_2_n_n_2_2_102410241_wf : GatherDims.WF S1024x1024x2 S2x2x1 S1024x1024x2x2 [0, 1] [2] [] [2] [] 2 ![1024, 1024, 1]
  gather_S512x512x4x4_S4x4x2_S512x512x4x4_01_23_n_n_23_2_51251211_wf : GatherDims.WF S512x512x4x4 S4x4x2 S512x512x4x4 [0, 1] [2, 3] [] [2, 3] [] 2 ![512, 512, 1, 1]
  gather_S512x512x4_S4x4x1_S512x512x4x4_01_2_n_n_2_2_5125121_wf : GatherDims.WF S512x512x4 S4x4x1 S512x512x4x4 [0, 1] [2] [] [2] [] 2 ![512, 512, 1]
  gather_S256x256x8x8_S8x8x2_S256x256x8x8_01_23_n_n_23_2_25625611_wf : GatherDims.WF S256x256x8x8 S8x8x2 S256x256x8x8 [0, 1] [2, 3] [] [2, 3] [] 2 ![256, 256, 1, 1]
  gather_S256x256x8_S8x8x1_S256x256x8x8_01_2_n_n_2_2_2562561_wf : GatherDims.WF S256x256x8 S8x8x1 S256x256x8x8 [0, 1] [2] [] [2] [] 2 ![256, 256, 1]
  gather_S128x128x16x16_S16x16x2_S128x128x16x16_01_23_n_n_23_2_12812811_wf : GatherDims.WF S128x128x16x16 S16x16x2 S128x128x16x16 [0, 1] [2, 3] [] [2, 3] [] 2 ![128, 128, 1, 1]
  gather_S128x128x16_S16x16x1_S128x128x16x16_01_2_n_n_2_2_1281281_wf : GatherDims.WF S128x128x16 S16x16x1 S128x128x16x16 [0, 1] [2] [] [2] [] 2 ![128, 128, 1]
  gather_S64x64x32x32_S32x32x2_S64x64x32x32_01_23_n_n_23_2_646411_wf : GatherDims.WF S64x64x32x32 S32x32x2 S64x64x32x32 [0, 1] [2, 3] [] [2, 3] [] 2 ![64, 64, 1, 1]
  gather_S64x64x32_S32x32x1_S64x64x32x32_01_2_n_n_2_2_64641_wf : GatherDims.WF S64x64x32 S32x32x1 S64x64x32x32 [0, 1] [2] [] [2] [] 2 ![64, 64, 1]
  gather_S32x32x64x64_S64x64x2_S32x32x64x64_01_23_n_n_23_2_323211_wf : GatherDims.WF S32x32x64x64 S64x64x2 S32x32x64x64 [0, 1] [2, 3] [] [2, 3] [] 2 ![32, 32, 1, 1]
  gather_S32x32x64_S64x64x1_S32x32x64x64_01_2_n_n_2_2_32321_wf : GatherDims.WF S32x32x64 S64x64x1 S32x32x64x64 [0, 1] [2] [] [2] [] 2 ![32, 32, 1]
  dot_S16x1024x2048_S2048x2048_S16x1024x2048_2_1_01_0_n_n_wf : DotDims.WF S16x1024x2048 S2048x2048 S16x1024x2048 [2] [1] [0, 1] [0] [] []

variable [Facts₀]

def gather_S1024x1024x2x2_S2x2x2_S1024x1024x2x2_01_23_n_n_23_2_1024102411 : GatherDims S1024x1024x2x2 S2x2x2 S1024x1024x2x2 where
  offsetDims := [0, 1]
  collapsedSliceDims := [2, 3]
  operandBatchingDims := []
  startIndicesBatchingDims := []
  startIndexMap := [2, 3]
  indexVectorDim := 2
  sliceSizes := ![1024, 1024, 1, 1]
  wf := gather_S1024x1024x2x2_S2x2x2_S1024x1024x2x2_01_23_n_n_23_2_1024102411_wf
def gather_S1024x1024x2_S2x2x1_S1024x1024x2x2_01_2_n_n_2_2_102410241 : GatherDims S1024x1024x2 S2x2x1 S1024x1024x2x2 where
  offsetDims := [0, 1]
  collapsedSliceDims := [2]
  operandBatchingDims := []
  startIndicesBatchingDims := []
  startIndexMap := [2]
  indexVectorDim := 2
  sliceSizes := ![1024, 1024, 1]
  wf := gather_S1024x1024x2_S2x2x1_S1024x1024x2x2_01_2_n_n_2_2_102410241_wf
def gather_S512x512x4x4_S4x4x2_S512x512x4x4_01_23_n_n_23_2_51251211 : GatherDims S512x512x4x4 S4x4x2 S512x512x4x4 where
  offsetDims := [0, 1]
  collapsedSliceDims := [2, 3]
  operandBatchingDims := []
  startIndicesBatchingDims := []
  startIndexMap := [2, 3]
  indexVectorDim := 2
  sliceSizes := ![512, 512, 1, 1]
  wf := gather_S512x512x4x4_S4x4x2_S512x512x4x4_01_23_n_n_23_2_51251211_wf
def gather_S512x512x4_S4x4x1_S512x512x4x4_01_2_n_n_2_2_5125121 : GatherDims S512x512x4 S4x4x1 S512x512x4x4 where
  offsetDims := [0, 1]
  collapsedSliceDims := [2]
  operandBatchingDims := []
  startIndicesBatchingDims := []
  startIndexMap := [2]
  indexVectorDim := 2
  sliceSizes := ![512, 512, 1]
  wf := gather_S512x512x4_S4x4x1_S512x512x4x4_01_2_n_n_2_2_5125121_wf
def gather_S256x256x8x8_S8x8x2_S256x256x8x8_01_23_n_n_23_2_25625611 : GatherDims S256x256x8x8 S8x8x2 S256x256x8x8 where
  offsetDims := [0, 1]
  collapsedSliceDims := [2, 3]
  operandBatchingDims := []
  startIndicesBatchingDims := []
  startIndexMap := [2, 3]
  indexVectorDim := 2
  sliceSizes := ![256, 256, 1, 1]
  wf := gather_S256x256x8x8_S8x8x2_S256x256x8x8_01_23_n_n_23_2_25625611_wf
def gather_S256x256x8_S8x8x1_S256x256x8x8_01_2_n_n_2_2_2562561 : GatherDims S256x256x8 S8x8x1 S256x256x8x8 where
  offsetDims := [0, 1]
  collapsedSliceDims := [2]
  operandBatchingDims := []
  startIndicesBatchingDims := []
  startIndexMap := [2]
  indexVectorDim := 2
  sliceSizes := ![256, 256, 1]
  wf := gather_S256x256x8_S8x8x1_S256x256x8x8_01_2_n_n_2_2_2562561_wf
def gather_S128x128x16x16_S16x16x2_S128x128x16x16_01_23_n_n_23_2_12812811 : GatherDims S128x128x16x16 S16x16x2 S128x128x16x16 where
  offsetDims := [0, 1]
  collapsedSliceDims := [2, 3]
  operandBatchingDims := []
  startIndicesBatchingDims := []
  startIndexMap := [2, 3]
  indexVectorDim := 2
  sliceSizes := ![128, 128, 1, 1]
  wf := gather_S128x128x16x16_S16x16x2_S128x128x16x16_01_23_n_n_23_2_12812811_wf
def gather_S128x128x16_S16x16x1_S128x128x16x16_01_2_n_n_2_2_1281281 : GatherDims S128x128x16 S16x16x1 S128x128x16x16 where
  offsetDims := [0, 1]
  collapsedSliceDims := [2]
  operandBatchingDims := []
  startIndicesBatchingDims := []
  startIndexMap := [2]
  indexVectorDim := 2
  sliceSizes := ![128, 128, 1]
  wf := gather_S128x128x16_S16x16x1_S128x128x16x16_01_2_n_n_2_2_1281281_wf
def gather_S64x64x32x32_S32x32x2_S64x64x32x32_01_23_n_n_23_2_646411 : GatherDims S64x64x32x32 S32x32x2 S64x64x32x32 where
  offsetDims := [0, 1]
  collapsedSliceDims := [2, 3]
  operandBatchingDims := []
  startIndicesBatchingDims := []
  startIndexMap := [2, 3]
  indexVectorDim := 2
  sliceSizes := ![64, 64, 1, 1]
  wf := gather_S64x64x32x32_S32x32x2_S64x64x32x32_01_23_n_n_23_2_646411_wf
def gather_S64x64x32_S32x32x1_S64x64x32x32_01_2_n_n_2_2_64641 : GatherDims S64x64x32 S32x32x1 S64x64x32x32 where
  offsetDims := [0, 1]
  collapsedSliceDims := [2]
  operandBatchingDims := []
  startIndicesBatchingDims := []
  startIndexMap := [2]
  indexVectorDim := 2
  sliceSizes := ![64, 64, 1]
  wf := gather_S64x64x32_S32x32x1_S64x64x32x32_01_2_n_n_2_2_64641_wf
def gather_S32x32x64x64_S64x64x2_S32x32x64x64_01_23_n_n_23_2_323211 : GatherDims S32x32x64x64 S64x64x2 S32x32x64x64 where
  offsetDims := [0, 1]
  collapsedSliceDims := [2, 3]
  operandBatchingDims := []
  startIndicesBatchingDims := []
  startIndexMap := [2, 3]
  indexVectorDim := 2
  sliceSizes := ![32, 32, 1, 1]
  wf := gather_S32x32x64x64_S64x64x2_S32x32x64x64_01_23_n_n_23_2_323211_wf
def gather_S32x32x64_S64x64x1_S32x32x64x64_01_2_n_n_2_2_32321 : GatherDims S32x32x64 S64x64x1 S32x32x64x64 where
  offsetDims := [0, 1]
  collapsedSliceDims := [2]
  operandBatchingDims := []
  startIndicesBatchingDims := []
  startIndexMap := [2]
  indexVectorDim := 2
  sliceSizes := ![32, 32, 1]
  wf := gather_S32x32x64_S64x64x1_S32x32x64x64_01_2_n_n_2_2_32321_wf
def dot_S16x1024x2048_S2048x2048_S16x1024x2048_2_1_01_0_n_n : DotDims S16x1024x2048 S2048x2048 S16x1024x2048 where
  lhsContracting := [2]
  rhsContracting := [1]
  lhsNonContracting := [0, 1]
  rhsNonContracting := [0]
  lhsBatch := []
  rhsBatch := []
  wf := dot_S16x1024x2048_S2048x2048_S16x1024x2048_2_1_01_0_n_n_wf

class Facts : Prop extends Facts₀ where

variable [Facts]
-- ==== Proof.Spec.lean ====
/-
  The linear layer both programs compute, as two index-by-index functions on the extended reals.

  `linear3 x W b` is the layer on the rank-3 activations: the entry at (batch `p`, token `q`, output feature `o`) is
  the sum over the input features `k` of `x(p, q, k) · W(o, k)`, plus `b(o)`.
  `linear2 x₂ Wt b₂` is the same layer on the activations laid out as a matrix of `16 · 1024` rows, against the
  transposed weight and the bias as a one-row matrix: the entry at (row `r`, column `o`) is the sum over `k` of
  `x₂(r, k) · Wt(k, o)`, plus `b₂(0, o)`.
  Row `r = p · 1024 + q` of the matrix is (batch `p`, token `q`) of the rank-3 array, which is how the two meet.
-/
import Idealize.ShloMosaic.PureOps.Ideal
import Idealize.ShloMosaic.Lib.ValueIdx

noncomputable section

namespace Cert.Spec

open Idealize.ShloMosaic Idealize.ShloMosaic.ValueIdx

/-- The activations: 16 batches of 1024 tokens of 2048 features. -/
abbrev Sx : Shape := ⟨3, ![16, 1024, 2048]⟩
/-- The weight (output feature, input feature), and its transpose. -/
abbrev Sw : Shape := ⟨2, ![2048, 2048]⟩
/-- The bias, one entry per output feature. -/
abbrev Sb : Shape := ⟨1, ![2048]⟩
/-- The activations as a matrix of 16 · 1024 rows. -/
abbrev Sx2 : Shape := ⟨2, ![16384, 2048]⟩
/-- The bias as a one-row matrix. -/
abbrev Sb2 : Shape := ⟨2, ![1, 2048]⟩

/-- The layer on the rank-3 activations: `(p, q, o) ↦ ∑ k, x(p, q, k) · W(o, k) + b(o)`. -/
def linear3 (x : Sx.Idx → EReal) (W : Sw.Idx → EReal) (b : Sb.Idx → EReal) : Sx.Idx → EReal :=
  fun i => (∑ k : Fin 2048, x (ix3 (n0 := 16) (n1 := 1024) (n2 := 2048) (i 0) (i 1) k)
      * W (ix2 (n0 := 2048) (n1 := 2048) (i 2) k)) + b (ix1 (n := 2048) (i 2))

/-- The layer on the activations as a matrix, against the transposed weight: `(r, o) ↦ ∑ k, x₂(r, k) · Wt(k, o) + b₂(0, o)`. -/
def linear2 (x2 : Sx2.Idx → EReal) (Wt : Sw.Idx → EReal) (b2 : Sb2.Idx → EReal) : Sx2.Idx → EReal :=
  fun i => (∑ k : Fin 2048, x2 (ix2 (n0 := 16384) (n1 := 2048) (i 0) k)
      * Wt (ix2 (n0 := 2048) (n1 := 2048) k (i 1))) + b2 (ix2 (n0 := 1) (n1 := 2048) 0 (i 1))

end Cert.Spec

end
-- ==== Proof.KernelPayload.lean ====
/-
  The kernel body's arithmetic read at one entry of its output block.

  The body loads a block of 512 rows of the activations, the whole transposed weight and the one-row bias, narrows the
  activations' format, multiplies the two matrices into a zero accumulator, and adds the bias row to every row. On the
  extended reals the format change is the identity and the zero accumulator adds nothing, so entry (p, o) of the result is
  the sum over the 2048 input features k of x(p, k) · Wt(k, o), plus b(0, o).
-/
import proofs.«150455_j40097814676033_1_alg».proof.Proof.Gen.KernelIdeal.Frame
import proofs.«150455_j40097814676033_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.KValue

open Idealize.ShloMosaic Idealize.ShloMosaic.TcCoe Idealize.SL.Sem Idealize.ShloMosaic.ValueIdx Cert.KernelIdeal Cert.KernelIdeal.Gen

/-- The product's dimension numbers: rows of the left operand against columns of the right, one contracted axis. -/
abbrev mmDims : DotDims S512x2048 S2048x2048 S512x2048 := dot_S512x2048_S2048x2048_S512x2048_1_0_0_1_n_n

/-- The contraction's index is its one coordinate, a feature number below 2048. -/
abbrev featEquiv : mmDims.contr.Idx ≃ Fin 2048 := contrEquiv1 mmDims 2048 rfl rfl

/-- At output entry (p, o) and feature k the left operand is read at (p, k). -/
theorem lhs_at (p : Fin 512) (o : Fin 2048) (k : Fin 2048) :
    mmDims.lhsIdx (ix2 p o) (featEquiv.symm k) = ix2 p k := by
  funext a; apply Fin.ext
  match a with
  | ⟨0, _⟩ => simp [DotDims.lhsIdx, mmDims, dot_S512x2048_S2048x2048_S512x2048_1_0_0_1_n_n]; rfl
  | ⟨1, _⟩ =>
    exact (mmDims.lhsIdx_val_of_single (cl := 1) rfl (ix2 p o) (featEquiv.symm k)).trans
      (contrEquiv1_symm_val mmDims 2048 rfl rfl k)

/-- At output entry (p, o) and feature k the right operand is read at (k, o). -/
theorem rhs_at (p : Fin 512) (o : Fin 2048) (k : Fin 2048) :
    mmDims.rhsIdx (ix2 p o) (featEquiv.symm k) = ix2 k o := by
  funext a; apply Fin.ext
  match a with
  | ⟨0, _⟩ =>
    exact (mmDims.rhsIdx_val_of_single (cr := 0) rfl (ix2 p o) (featEquiv.symm k)).trans
      (contrEquiv1_symm_val mmDims 2048 rfl rfl k)
  | ⟨1, _⟩ => simp [DotDims.rhsIdx, mmDims, dot_S512x2048_S2048x2048_S512x2048_1_0_0_1_n_n]; rfl

/-- ENTRY (p, o) OF THE BODY'S RESULT: the sum over the input features of the activations' row against the transposed
    weight's column, plus the bias. The two shape casts are between equal shapes, the narrowing is the identity on the
    extended reals, the accumulator is the zero splat, and the bias row is read at row 0 whatever the row p. -/
theorem pay_apply (x0 : Vec Ideal S512x2048 .f32) (x1 : Vec Ideal S2048x2048 .bf16) (x2 : Vec Ideal S1x2048 .f32)
    (p : Fin 512) (o : Fin 2048) :
    Gen.k0_pay1 x0 x1 x2 (ix2 p o) = (∑ k : Fin 2048, x0 (ix2 p k) * x1 (ix2 k o)) + x2 (ix2 0 o) := by
  unfold Gen.k0_pay1
  simp only [shapeCast_self]
  refine (addf_apply _ _ (ix2 p o)).trans ?_
  congr 1
  · refine (Ideal.matmul_constant_zero_apply (φ₁ := .bf16) (φ₂ := .bf16) mmDims none _ _ (ix2 p o)).trans ?_
    refine (Equiv.sum_comp featEquiv.symm _).symm.trans ?_
    refine Finset.sum_congr rfl fun k _ => ?_
    rw [lhs_at, rhs_at]
    rfl
  · exact broadcastTo_1b_ab_apply x2 _ p o

end Cert.KernelIdeal.KValue

end
-- ==== Proof.KernelBlocks.lean ====
/-
  From the blocks the grid points write back to the whole output array.

  The grid has 32 points. Point t stages rows 512·t … 512·t + 511 of the activations (all 2048 columns), the whole
  transposed weight and the whole bias row, and writes back rows 512·t … 512·t + 511 of the output. Entry (p, o) of the
  block it writes is therefore the linear layer at row 512·t + p and column o of the matrix of 16 · 1024 rows; the 32
  row blocks tile the 16384 rows, so the output array ends holding the layer at every entry.
-/
import proofs.«150455_j40097814676033_1_alg».proof.Proof.KernelPayload

noncomputable section

namespace Cert.KernelIdeal.KValue

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-- The zero offsets of a whole-buffer access, however they are spelt. -/
theorem zero_off : (![0, 0] : Fin 2 → Nat) = fun _ => 0 := funext fun a => by fin_cases a <;> rfl

/-- The block indices at point t, decided over the 32 points: the activations and the output move down one row block per
    point and stay in column block 0; the weight and the bias stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- ONE ENTRY OF ONE BLOCK, over any arrays and any loaded blocks: if row p of the activations' block is row r of the
    array, column o of the weight's block is column o of the weight, and the bias block's entry o is the bias's, then
    entry (p, o) of the body's result is the layer at (r, o). -/
theorem block_entry (X : S16384x2048.Idx → EReal) (Wt : S2048x2048.Idx → EReal) (B : S1x2048.Idx → EReal)
    (x0 : Vec Ideal S512x2048 .f32) (x1 : Vec Ideal S2048x2048 .bf16) (x2 : Vec Ideal S1x2048 .f32)
    (r : Fin 16384) (p : Fin 512) (o : Fin 2048)
    (h0 : ∀ k : Fin 2048, x0 (ix2 p k) = X (ix2 r k))
    (h1 : ∀ k : Fin 2048, x1 (ix2 k o) = Wt (ix2 k o))
    (h2 : x2 (ix2 0 o) = B (ix2 0 o)) :
    Gen.k0_pay1 x0 x1 x2 (ix2 p o) = Cert.Spec.linear2 X Wt B (ix2 r o) := by
  rw [pay_apply]
  show _ = (∑ k : Fin 2048, X (ix2 r k) * Wt (ix2 k o)) + B (ix2 0 o)
  rw [h2]
  exact congrArg (· + B (ix2 0 o)) (Finset.sum_congr rfl fun k _ => by rw [h0 k, h1 k])

/-- Row p of the row block of point t is row 512·t + p of the matrix of 16384 rows. -/
abbrev rowOf (t : Fin cfg0.N) (p : Fin 512) : Fin 16384 :=
  ⟨512 * t.val + p.val, by have ht : t.val < 32 := Nat.lt_of_lt_of_eq t.isLt Gen.N_0; have hp := p.isLt; omega⟩

/-- The activations' staged block at point t, read at (p, k), is the activations at row 512·t + p and column k. -/
theorem act_block (c : Dev nD) (t : Fin cfg0.N) (p : Fin 512) (k : Fin 2048) :
    (Gen.iblk m c 0 t : Vec Ideal S512x2048 .f32) (ix2 p k)
      = (Gen.V m c main_v296 : S16384x2048.Idx → EReal) (ix2 (rowOf t p) k) := by
  obtain ⟨e0, e1, -⟩ := block_index t
  unfold Gen.iblk
  rewrite [View.read_apply, cast_eq]
  refine congrArg (Gen.V m c main_v296) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- The weight's staged block at any point is the whole transposed weight. -/
theorem weight_block (c : Dev nD) (t : Fin cfg0.N) (k o : Fin 2048) :
    (Gen.iblk m c 1 t : Vec Ideal S2048x2048 .bf16) (ix2 k o)
      = (Gen.V m c main_v294 : S2048x2048.Idx → EReal) (ix2 k o) := by
  obtain ⟨-, -, e0, e1, -⟩ := block_index t
  unfold Gen.iblk
  rewrite [View.read_apply, cast_eq]
  refine congrArg (Gen.V m c main_v294) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * o.val = o.val; rw [e1]; omega

/-- The bias's staged block at any point is the whole bias row. -/
theorem bias_block (c : Dev nD) (t : Fin cfg0.N) (o : Fin 2048) :
    (Gen.iblk m c 2 t : Vec Ideal S1x2048 .f32) (ix2 (0 : Fin 1) o)
      = (Gen.V m c main_v295 : S1x2048.Idx → EReal) (ix2 (0 : Fin 1) o) := by
  obtain ⟨-, -, -, -, e0, e1, -⟩ := block_index t
  unfold Gen.iblk
  rewrite [View.read_apply, cast_eq]
  refine congrArg (Gen.V m c main_v295) (funext fun a => Fin.ext ?_)
  match a with
  | ⟨0, _⟩ => show win0_2.index t (0 : Fin 2) * 1 + 1 * 0 = 0; rw [e0]
  | ⟨1, _⟩ => show win0_2.index t (1 : Fin 2) * 2048 + 1 * o.val = o.val; rw [e1]; omega

/-- Entry (p, o) of the output's block at point t sits in the output array at row 512·t + p and column o. -/
theorem out_place (t : Fin cfg0.N) (p : Fin 512) (o : Fin 2048) :
    (((cfg0.win 3).blk t).view.emb (ix2 p o) : S16384x2048.Idx) = ix2 (rowOf t p) o := by
  obtain ⟨-, -, -, -, -, -, e0, e1⟩ := block_index t
  funext a; apply Fin.ext
  match a with
  | ⟨0, _⟩ => show win0_3.index t (0 : Fin 2) * 512 + 1 * p.val = 512 * t.val + p.val; rw [e0]; omega
  | ⟨1, _⟩ => show win0_3.index t (1 : Fin 2) * 2048 + 1 * o.val = o.val; rw [e1]; omega

/-- WHAT POINT t WRITES BACK is block t of the layer of the three arrays as the region finds them: the body's one store
    covers its buffer and its three loads read the whole staged blocks, so the buffer holds the body's arithmetic of the
    three blocks, and entry (p, o) of that is the layer at row 512·t + p and column o, where the output's block puts it. -/
theorem written_back (c : Dev nD) (t : Fin cfg0.N) :
    (Gen.dats (F := Ideal) m 0 c).flushed 3 t = ((cfg0.win 3).blk t).view.read (Elt Ideal)
      (Cert.Spec.linear2 (Gen.V m c main_v296) (Gen.V m c main_v294) (Gen.V m c main_v295)) := by
  show (cfg0.win 3).cut (grid0.coords t) ((Gen.dats m 0 c).after 3 t) = _
  rewrite [Gen.after0_3]
  unfold Gen.out0_3
  rewrite [View.canon_unit_zero zero_off]
  simp only [View.ld_unit_zero (S := S512x2048) zero_off, View.ld_unit_zero (S := S2048x2048) zero_off,
    View.ld_unit_zero (S := S1x2048) zero_off]
  refine funext fun (j : S512x2048.Idx) => ?_
  obtain ⟨p, o, rfl⟩ : ∃ (p : Fin 512) (o : Fin 2048), j = ix2 p o := ⟨j 0, j 1, eq_ix2 j⟩
  rewrite [View.read_apply, cast_eq, out_place t p o]
  exact block_entry (Gen.V m c main_v296) (Gen.V m c main_v294) (Gen.V m c main_v295)
    (Gen.iblk m c 0 t) (Gen.iblk m c 1 t) (Gen.iblk m c 2 t) (rowOf t p) p o
    (fun k => act_block m c t p k) (fun k => weight_block m c t k o) (bias_block m c t o)

/-- An entry of the output array is in point t's block exactly when each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v297).slice (win0_3.rect t)).set ↔ _
  rw [View.set_slice_whole, Rect.mem_set_unit]
  exact Iff.rfl

/-- The 32 row blocks tile the 16384 rows: row r is in the block of point r / 512, and every point writes back. -/
theorem covered (i : S16384x2048.Idx) :
    ∃ t : Fin cfg0.N, (cfg0.win 3).flush t = true ∧ i ∈ ((cfg0.win 3).blk t).view.set := by
  have hi0 : (i 0).val < 16384 := idx2_lt0 i
  have hi1 : (i 1).val < 2048 := idx2_lt1 i
  obtain ⟨t, ht⟩ : ∃ t : Fin cfg0.N, t.val = (i 0).val / 512 :=
    ⟨⟨(i 0).val / 512, Nat.lt_of_lt_of_eq (by omega : (i 0).val / 512 < 32) Gen.N_0.symm⟩, rfl⟩
  obtain ⟨-, -, -, -, -, -, e0, e1⟩ := block_index t
  refine ⟨t, Gen.flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 2048 ≤ (i 1).val ∧ (i 1).val < win0_3.index t (1 : Fin 2) * 2048 + 2048
    rw [e1]; omega

/-- THE OUTPUT ARRAY after the region: the linear layer of the activations, the transposed weight and the bias row as the
    region finds them, at every entry. -/
theorem out_array (c : Dev nD) :
    (Gen.dats (F := Ideal) m 0 c).arrAt 3 cfg0.N
      = Cert.Spec.linear2 (Gen.V m c main_v296) (Gen.V m c main_v294) (Gen.V m c main_v295) :=
  (Gen.dats m 0 c).arrAt_eq_of_cover 3
    (Cert.Spec.linear2 (Gen.V m c main_v296) (Gen.V m c main_v294) (Gen.V m c main_v295))
    (fun t _ => written_back m c t) covered

end Cert.KernelIdeal.KValue

end
-- ==== Proof.KernelValue.lean ====
/-
  The kernel program's result, read off its run.

  After the region the program applies one host operation: it reshapes the output matrix of 16 · 1024 rows into the rank-3
  array of 16 batches of 1024 tokens. The region leaves the output matrix holding the linear layer of the activations, the
  transposed weight and the bias row as it finds them, so the result array is that layer reshaped; the five arguments end
  as they were launched.
-/
import proofs.«150455_j40097814676033_1_alg».proof.Proof.KernelBlocks

noncomputable section

namespace Cert.KernelIdeal.KValue

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-- The output matrix as the host operation after the region finds it: what the region left, the linear layer. -/
theorem out_found (c : Dev nD) :
    Pipeline.withArrays (cfgs 0).spec c (Gen.V0 m c) (fun w => (Gen.dats (F := Ideal) m 0 c).arrAt w (cfgs 0).N)
        (Proc.devRef .tc main_v297)
      = Cert.Spec.linear2 (Gen.V m c main_v296) (Gen.V m c main_v294) (Gen.V m c main_v295) :=
  (Pipeline.withArrays_arr spec0 Gen.launch0.win.arr_inj c (Gen.V0 m c)
    (fun w => (Gen.dats (F := Ideal) m 0 c).arrAt w (cfgs 0).N) 3).trans (out_array m c)

/-- THE RESULT ARRAY after the program: the linear layer, as a matrix of 16 · 1024 rows, reshaped into 16 batches of 1024
    tokens. -/
theorem result_v298 (c : Dev nD) :
    Pipeline.afterTail₀ cfgs (Gen.dats (F := Ideal) m) 0 (Gen.V0 m) [Gen.hostOps1] c main_v298
      = (fun i => shapeCast S16x1024x2048 (Cert.Spec.linear2 (Gen.V m c main_v296) (Gen.V m c main_v294) (Gen.V m c main_v295)) shapeCasts_S16384x2048_S16x1024x2048 i) := by
  unfold Pipeline.afterTail₀
  show StableHlo.after Gen.hostOps1 _ (Proc.devRef .tc main_v298) = _
  after_results
  rewrite [out_found m c]
  rfl

/-- THE KERNEL PROGRAM'S RUN, READ: every weakly fair execution terminates with the result array at the linear layer
    reshaped, and the five arguments as launched. The result array is no array of the pipeline, so it ends as the host
    operation after the region leaves it; so does each argument, which no host operation writes. -/
theorem run : θ_run defs (onTc (τ := τ) (main (F := Ideal))) ⟨m, fun _ => 0, ρ⟩ (fun r => ∀ c : Dev nD,
      r.2.mem ((c.tc : Thread nD τ).loc main_v298)
        = (fun i => shapeCast S16x1024x2048 (Cert.Spec.linear2 (Gen.V m c main_v296) (Gen.V m c main_v294) (Gen.V m c main_v295)) shapeCasts_S16384x2048_S16x1024x2048 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v298 (Pipeline.mem_restRefs_of main_v298 (by decide) (by decide))).trans (result_v298 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩)
    (Gen.run_main m ρ)

end Cert.KernelIdeal.KValue

end
-- ==== Proof.RefOps.lean ====
/- The reference's host operations as lists, in program order: a table read off the printed programs; no theorem here.
   @main of the reference is 362 statements; a call of a module-local function (a remainder, with the select it
   calls) stands as the callee's operations over that call's own buffers. The lists come in two cuts of the same
   operations: by the printed windows of @main (main_partJ_opsK, a new list at every call and at every window's
   end), and by whole stretches between calls (stretchK). -/
import proofs.«150455_j40097814676033_1_alg».proof.Proof.Gen.ReferenceIdeal
import Idealize.ShloMosaic.Lib.StableHlo.Run

noncomputable section

namespace Cert.ReferenceIdeal.HostRun

open Idealize.ShloMosaic Idealize.ShloMosaic.TcCoe Idealize.SL.Sem
open Cert.ReferenceIdeal Cert.ReferenceIdeal.Gen

variable {F : FTy → Type} [FloatOps F]

/-- Window 0 of @main, piece 0: 33 operations. -/
abbrev main_part0_ops0 : List (HloOp τ sig (Elt F)) :=
  [ StableHlo.binary main_arg3 main_arg4 main_v0 (addf : (⟨S7, .f32⟩ : BufTy).Contents (Elt F) → (⟨S7, .f32⟩ : BufTy).Contents (Elt F) → (⟨S7, .f32⟩ : BufTy).Contents (Elt F)),
    StableHlo.nullary main_cst (constant S_ .f32 0x3F800000#32),
    StableHlo.unary main_cst main_v1 (broadcastInDim S7 ![] bcast_S_S7 : (⟨S_, .f32⟩ : BufTy).Contents (Elt F) → (⟨S7, .f32⟩ : BufTy).Contents (Elt F)),
    StableHlo.binary main_v0 main_v1 main_v2 (Host.divf : (⟨S7, .f32⟩ : BufTy).Contents (Elt F) → (⟨S7, .f32⟩ : BufTy).Contents (Elt F) → (⟨S7, .f32⟩ : BufTy).Contents (Elt F)),
    StableHlo.nullary main_cst_0 (constant S_ .f32 0xFF800000#32),
    StableHlo.binary main_v2 main_cst_0 main_v3 ((fun x v => Host.reduce FloatOps.maximumf x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_1 (constant S_ .f32 0xFF800000#32),
    StableHlo.binary main_cst_1 main_v3 main_v4 (maximumf : (⟨S_, .f32⟩ : BufTy).Contents (Elt F) → (⟨S_, .f32⟩ : BufTy).Contents (Elt F) → (⟨S_, .f32⟩ : BufTy).Contents (Elt F)),
    StableHlo.unary main_v4 main_v5 (broadcastInDim S1 ![] bcast_S_S1 : (⟨S_, .f32⟩ : BufTy).Contents (Elt F) → (⟨S1, .f32⟩ : BufTy).Contents (Elt F)),
    StableHlo.unary main_v5 main_v6 (broadcastInDim S7 ![0] bcast_S1_S7_0 : (⟨S1, .f32⟩ : BufTy).Contents (Elt F) → (⟨S7, .f32⟩ : BufTy).Contents (Elt F)),
    StableHlo.binary main_v2 main_v6 main_v7 (subf : (⟨S7, .f32⟩ : BufTy).Contents (Elt F) → (⟨S7, .f32⟩ : BufTy).Contents (Elt F) → (⟨S7, .f32⟩ : BufTy).Contents (Elt F)),
    StableHlo.unary main_v7 main_v8 (Host.exp : (⟨S7, .f32⟩ : BufTy).Contents (Elt F) → (⟨S7, .f32⟩ : BufTy).Contents (Elt F)),
    StableHlo.nullary main_cst_2 (constant S_ .f32 0x00000000#32),
    StableHlo.binary main_v8 main_cst_2 main_v9 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.unary main_v9 main_v10 (broadcastInDim S1 ![] bcast_S_S1 : (⟨S_, .f32⟩ : BufTy).Contents (Elt F) → (⟨S1, .f32⟩ : BufTy).Contents (Elt F)),
    StableHlo.unary main_v10 main_v11 (broadcastInDim S7 ![0] bcast_S1_S7_0 : (⟨S1, .f32⟩ : BufTy).Contents (Elt F) → (⟨S7, .f32⟩ : BufTy).Contents (Elt F)),
    StableHlo.binary main_v8 main_v11 main_v12 (Host.divf : (⟨S7, .f32⟩ : BufTy).Contents (Elt F) → (⟨S7, .f32⟩ : BufTy).Contents (Elt F) → (⟨S7, .f32⟩ : BufTy).Contents (Elt F)),
    StableHlo.unary main_v12 main_v13 ((extractStridedSlice S1 ![0] · slices_S7_S1_0) : (⟨S7, .f32⟩ : BufTy).Contents (Elt F) → (⟨S1, .f32⟩ : BufTy).Contents (Elt F)),
    StableHlo.reshape main_v13 main_v14 rfl shapeCasts_S1_S_,
    StableHlo.unary main_v14 main_v15 (broadcastInDim S2048x2048 ![] bcast_S_S2048x2048 : (⟨S_, .f32⟩ : BufTy).Contents (Elt F) → (⟨S2048x2048, .f32⟩ : BufTy).Contents (Elt F)),
    StableHlo.binary main_v15 main_arg1 main_v16 (mulf : (⟨S2048x2048, .f32⟩ : BufTy).Contents (Elt F) → (⟨S2048x2048, .f32⟩ : BufTy).Contents (Elt F) → (⟨S2048x2048, .f32⟩ : BufTy).Contents (Elt F)),
    StableHlo.unary main_v12 main_v17 ((extractStridedSlice S1 ![1] · slices_S7_S1_1) : (⟨S7, .f32⟩ : BufTy).Contents (Elt F) → (⟨S1, .f32⟩ : BufTy).Contents (Elt F)),
    StableHlo.reshape main_v17 main_v18 rfl shapeCasts_S1_S_,
    StableHlo.reshape main_arg1 main_v19 rfl shapeCasts_S2048x2048_S1024x2x1024x2,
    StableHlo.unary main_v19 main_v20 ((transpose S1024x1024x2x2 [0, 2, 1, 3] · transposes_S1024x2x1024x2_S1024x1024x2x2_0_2_1_3) : (⟨S1024x2x1024x2, .f32⟩ : BufTy).Contents (Elt F) → (⟨S1024x1024x2x2, .f32⟩ : BufTy).Contents (Elt F)),
    StableHlo.nullary main_v21 (iotaInDim S2 32 0),
    StableHlo.unary main_v21 main_v22 (broadcastInDim S2x1 ![0] bcast_S2_S2x1_0 : (⟨S2, .i32⟩ : BufTy).Contents (Elt F) → (⟨S2x1, .i32⟩ : BufTy).Contents (Elt F)),
    StableHlo.nullary main_v23 (iotaInDim S2 32 0),
    StableHlo.unary main_v23 main_v24 (broadcastInDim S1x2 ![1] bcast_S2_S1x2_1 : (⟨S2, .i32⟩ : BufTy).Contents (Elt F) → (⟨S1x2, .i32⟩ : BufTy).Contents (Elt F)),
    StableHlo.unary main_v22 main_v25 (broadcastInDim S2x2 ![0, 1] bcast_S2x1_S2x2_0_1 : (⟨S2x1, .i32⟩ : BufTy).Contents (Elt F) → (⟨S2x2, .i32⟩ : BufTy).Contents (Elt F)),
    StableHlo.unary main_v24 main_v26 (broadcastInDim S2x2 ![0, 1] bcast_S1x2_S2x2_0_1 : (⟨S1x2, .i32⟩ : BufTy).Contents (Elt F) → (⟨S2x2, .i32⟩ : BufTy).Contents (Elt F)),
    StableHlo.binary main_v25 main_v26 main_v27 (addi : (⟨S2x2, .i32⟩ : BufTy).Contents (Elt F) → (⟨S2x2, .i32⟩ : BufTy).Contents (Elt F) → (⟨S2x2, .i32⟩ : BufTy).Contents (Elt F)),
    StableHlo.nullary main_c (constantI S_ 32 2#32) ]

/-- Window 0 of @main, piece 1: 21 operations. -/
abbrev main_part0_ops1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S2x2, .i32⟩) (broadcastInDim S2x2 ![] bcast_S_S2x2),
    StableHlo.TRef.binary (.of main_v27 : StableHlo.TRef sig ⟨S2x2, .i32⟩) (.of main_call0_v3 : StableHlo.TRef sig ⟨S2x2, .i32⟩) (.of main_call0_v4 : StableHlo.TRef sig ⟨S2x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S2x2, .i32⟩) (broadcastInDim S2x2 ![] bcast_S_S2x2),
    StableHlo.TRef.binary (.of main_call0_v4 : StableHlo.TRef sig ⟨S2x2, .i32⟩) (.of main_call0_v5 : StableHlo.TRef sig ⟨S2x2, .i32⟩) (.of main_call0_v6 : StableHlo.TRef sig ⟨S2x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S2x2, .i32⟩) (broadcastInDim S2x2 ![] bcast_S_S2x2),
    StableHlo.TRef.binary (.of main_call0_v4 : StableHlo.TRef sig ⟨S2x2, .i32⟩) (.of main_call0_v7 : StableHlo.TRef sig ⟨S2x2, .i32⟩) (.of main_call0_v8 : StableHlo.TRef sig ⟨S2x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S2x2, .i1⟩) (broadcastInDim S2x2 ![] bcast_S_S2x2),
    StableHlo.TRef.binary (.of main_call0_v8 : StableHlo.TRef sig ⟨S2x2, .i1⟩) (.of main_call0_v10 : StableHlo.TRef sig ⟨S2x2, .i1⟩) (.of main_call0_v11 : StableHlo.TRef sig ⟨S2x2, .i1⟩) (cmpi .ne),
    StableHlo.TRef.binary (.of main_call0_v11 : StableHlo.TRef sig ⟨S2x2, .i1⟩) (.of main_call0_v6 : StableHlo.TRef sig ⟨S2x2, .i1⟩) (.of main_call0_v12 : StableHlo.TRef sig ⟨S2x2, .i1⟩) andi,
    StableHlo.TRef.unary main_call0_call0.v0 (.of main_call0_v13 : StableHlo.TRef sig ⟨S2x2, .i32⟩) (broadcastInDim S2x2 ![] bcast_S_S2x2),
    StableHlo.TRef.binary (.of main_call0_v4 : StableHlo.TRef sig ⟨S2x2, .i32⟩) (.of main_call0_v13 : StableHlo.TRef sig ⟨S2x2, .i32⟩) (.of main_call0_v14 : StableHlo.TRef sig ⟨S2x2, .i32⟩) addi,
    StableHlo.TRef.ternary (.of main_call0_v12 : StableHlo.TRef sig ⟨S2x2, .i1⟩) (.of main_call0_v14 : StableHlo.TRef sig ⟨S2x2, .i32⟩) (.of main_call0_v4 : StableHlo.TRef sig ⟨S2x2, .i32⟩) (.of main_v28 : StableHlo.TRef sig ⟨S2x2, .i32⟩) select ]

/-- Window 0 of @main, piece 2: 26 operations. -/
abbrev main_part0_ops2 : List (HloOp τ sig (Elt F)) :=
  [ StableHlo.nullary main_c_3 (constantI S_ 32 0#32),
    StableHlo.unary main_c_3 main_v29 (broadcastInDim S2x1 ![] bcast_S_S2x1 : (⟨S_, .i32⟩ : BufTy).Contents (Elt F) → (⟨S2x1, .i32⟩ : BufTy).Contents (Elt F)),
    StableHlo.binary main_v22 main_v29 main_v30 (cmpi .slt : (⟨S2x1, .i32⟩ : BufTy).Contents (Elt F) → (⟨S2x1, .i32⟩ : BufTy).Contents (Elt F) → (⟨S2x1, .i1⟩ : BufTy).Contents (Elt F)),
    StableHlo.nullary main_c_4 (constantI S_ 32 2#32),
    StableHlo.unary main_c_4 main_v31 (broadcastInDim S2x1 ![] bcast_S_S2x1 : (⟨S_, .i32⟩ : BufTy).Contents (Elt F) → (⟨S2x1, .i32⟩ : BufTy).Contents (Elt F)),
    StableHlo.binary main_v22 main_v31 main_v32 (addi : (⟨S2x1, .i32⟩ : BufTy).Contents (Elt F) → (⟨S2x1, .i32⟩ : BufTy).Contents (Elt F) → (⟨S2x1, .i32⟩ : BufTy).Contents (Elt F)),
    StableHlo.ternary main_v30 main_v32 main_v22 main_v33 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    StableHlo.nullary main_c_5 (constantI S_ 32 0#32),
    StableHlo.unary main_c_5 main_v34 (broadcastInDim S2x2 ![] bcast_S_S2x2 : (⟨S_, .i32⟩ : BufTy).Contents (Elt F) → (⟨S2x2, .i32⟩ : BufTy).Contents (Elt F)),
    StableHlo.binary main_v28 main_v34 main_v35 (cmpi .slt : (⟨S2x2, .i32⟩ : BufTy).Contents (Elt F) → (⟨S2x2, .i32⟩ : BufTy).Contents (Elt F) → (⟨S2x2, .i1⟩ : BufTy).Contents (Elt F)),
    StableHlo.nullary main_c_6 (constantI S_ 32 2#32),
    StableHlo.unary main_c_6 main_v36 (broadcastInDim S2x2 ![] bcast_S_S2x2 : (⟨S_, .i32⟩ : BufTy).Contents (Elt F) → (⟨S2x2, .i32⟩ : BufTy).Contents (Elt F)),
    StableHlo.binary main_v28 main_v36 main_v37 (addi : (⟨S2x2, .i32⟩ : BufTy).Contents (Elt F) → (⟨S2x2, .i32⟩ : BufTy).Contents (Elt F) → (⟨S2x2, .i32⟩ : BufTy).Contents (Elt F)),
    StableHlo.ternary main_v35 main_v37 main_v28 main_v38 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v33 main_v39 (broadcastInDim S2x2 ![0, 1] bcast_S2x1_S2x2_0_1 : (⟨S2x1, .i32⟩ : BufTy).Contents (Elt F) → (⟨S2x2, .i32⟩ : BufTy).Contents (Elt F)),
    StableHlo.unary main_v39 main_v40 (broadcastInDim S2x2x1 ![0, 1] bcast_S2x2_S2x2x1_0_1 : (⟨S2x2, .i32⟩ : BufTy).Contents (Elt F) → (⟨S2x2x1, .i32⟩ : BufTy).Contents (Elt F)),
    StableHlo.unary main_v38 main_v41 (broadcastInDim S2x2x1 ![0, 1] bcast_S2x2_S2x2x1_0_1 : (⟨S2x2, .i32⟩ : BufTy).Contents (Elt F) → (⟨S2x2x1, .i32⟩ : BufTy).Contents (Elt F)),
    StableHlo.binary main_v40 main_v41 main_v42 ((fun a b => concatenate S2x2x2 2 [⟨S2x2x1, a⟩, ⟨S2x2x1, b⟩] concatenates_S2x2x1_S2x2x1_S2x2x2_d2) : (⟨S2x2x1, .i32⟩ : BufTy).Contents (Elt F) → (⟨S2x2x1, .i32⟩ : BufTy).Contents (Elt F) → (⟨S2x2x2, .i32⟩ : BufTy).Contents (Elt F)),
    StableHlo.binary main_v20 main_v42 main_v43 ((fun x i => Host.gather gather_S1024x1024x2x2_S2x2x2_S1024x1024x2x2_01_23_n_n_23_2_1024102411 x i) : (⟨S1024x1024x2x2, .f32⟩ : BufTy).Contents (Elt F) → (⟨S2x2x2, .i32⟩ : BufTy).Contents (Elt F) → (⟨S1024x1024x2x2, .f32⟩ : BufTy).Contents (Elt F)),
    StableHlo.nullary main_cst_7 (constant S_ .f32 0x00000000#32),
    StableHlo.binary main_v43 main_cst_7 main_v44 ((fun x v => Host.reduceAdd x v reducesTo_S1024x1024x2x2_S1024x1024x2_d2 h_S_) : (⟨S1024x1024x2x2, .f32⟩ : BufTy).Contents (Elt F) → (⟨S_, .f32⟩ : BufTy).Contents (Elt F) → (⟨S1024x1024x2, .f32⟩ : BufTy).Contents (Elt F)),
    StableHlo.nullary main_cst_8 (constant S_ .f32 0x40000000#32),
    StableHlo.unary main_cst_8 main_v45 (broadcastInDim S1024x1024x2 ![] bcast_S_S1024x1024x2 : (⟨S_, .f32⟩ : BufTy).Contents (Elt F) → (⟨S1024x1024x2, .f32⟩ : BufTy).Contents (Elt F)),
    StableHlo.binary main_v44 main_v45 main_v46 (Host.divf : (⟨S1024x1024x2, .f32⟩ : BufTy).Contents (Elt F) → (⟨S1024x1024x2, .f32⟩ : BufTy).Contents (Elt F) → (⟨S1024x1024x2, .f32⟩ : BufTy).Contents (Elt F)),
    StableHlo.unary main_v24 main_v47 (broadcastInDim S2x2 ![0, 1] bcast_S1x2_S2x2_0_1 : (⟨S1x2, .i32⟩ : BufTy).Contents (Elt F) → (⟨S2x2, .i32⟩ : BufTy).Contents (Elt F)),
    StableHlo.unary main_v22 main_v48 (broadcastInDim S2x2 ![0, 1] bcast_S2x1_S2x2_0_1 : (⟨S2x1, .i32⟩ : BufTy).Contents (Elt F) → (⟨S2x2, .i32⟩ : BufTy).Contents (Elt F)) ]

/-- Window 1 of @main, piece 0: 2 operations. -/
abbrev main_part1_ops0 : List (HloOp τ sig (Elt F)) :=
  [ StableHlo.binary main_v47 main_v48 main_v49 (subi : (⟨S2x2, .i32⟩ : BufTy).Contents (Elt F) → (⟨S2x2, .i32⟩ : BufTy).Contents (Elt F) → (⟨S2x2, .i32⟩ : BufTy).Contents (Elt F)),
    StableHlo.nullary main_c_9 (constantI S_ 32 2#32) ]

/-- Window 1 of @main, piece 1: 21 operations. -/
abbrev main_part1_ops1 : List (HloOp τ sig (Elt F)) :=
  [ StableHlo.TRef.unary (.of main_c_9 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S2x2, .i32⟩) (broadcastInDim S2x2 ![] bcast_S_S2x2),
    StableHlo.TRef.binary (.of main_v49 : StableHlo.TRef sig ⟨S2x2, .i32⟩) (.of main_call1_v3 : StableHlo.TRef sig ⟨S2x2, .i32⟩) (.of main_call1_v4 : StableHlo.TRef sig ⟨S2x2, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S2x2, .i32⟩) (broadcastInDim S2x2 ![] bcast_S_S2x2),
    StableHlo.TRef.binary (.of main_call1_v4 : StableHlo.TRef sig ⟨S2x2, .i32⟩) (.of main_call1_v5 : StableHlo.TRef sig ⟨S2x2, .i32⟩) (.of main_call1_v6 : StableHlo.TRef sig ⟨S2x2, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S2x2, .i32⟩) (broadcastInDim S2x2 ![] bcast_S_S2x2),
    StableHlo.TRef.binary (.of main_call1_v4 : StableHlo.TRef sig ⟨S2x2, .i32⟩) (.of main_call1_v7 : StableHlo.TRef sig ⟨S2x2, .i32⟩) (.of main_call1_v8 : StableHlo.TRef sig ⟨S2x2, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S2x2, .i1⟩) (broadcastInDim S2x2 ![] bcast_S_S2x2),
    StableHlo.TRef.binary (.of main_call1_v8 : StableHlo.TRef sig ⟨S2x2, .i1⟩) (.of main_call1_v10 : StableHlo.TRef sig ⟨S2x2, .i1⟩) (.of main_call1_v11 : StableHlo.TRef sig ⟨S2x2, .i1⟩) (cmpi .ne),
    StableHlo.TRef.binary (.of main_call1_v11 : StableHlo.TRef sig ⟨S2x2, .i1⟩) (.of main_call1_v6 : StableHlo.TRef sig ⟨S2x2, .i1⟩) (.of main_call1_v12 : StableHlo.TRef sig ⟨S2x2, .i1⟩) andi,
    StableHlo.TRef.unary main_call1_call0.v0 (.of main_call1_v13 : StableHlo.TRef sig ⟨S2x2, .i32⟩) (broadcastInDim S2x2 ![] bcast_S_S2x2),
    StableHlo.TRef.binary (.of main_call1_v4 : StableHlo.TRef sig ⟨S2x2, .i32⟩) (.of main_call1_v13 : StableHlo.TRef sig ⟨S2x2, .i32⟩) (.of main_call1_v14 : StableHlo.TRef sig ⟨S2x2, .i32⟩) addi,
    StableHlo.TRef.ternary (.of main_call1_v12 : StableHlo.TRef sig ⟨S2x2, .i1⟩) (.of main_call1_v14 : StableHlo.TRef sig ⟨S2x2, .i32⟩) (.of main_call1_v4 : StableHlo.TRef sig ⟨S2x2, .i32⟩) (.of main_v50 : StableHlo.TRef sig ⟨S2x2, .i32⟩) select ]

/-- Window 1 of @main, piece 2: 26 operations. -/
abbrev main_part1_ops2 : List (HloOp τ sig (Elt F)) :=
  [ StableHlo.nullary main_c_10 (constantI S_ 32 0#32),
    StableHlo.unary main_c_10 main_v51 (broadcastInDim S2x2 ![] bcast_S_S2x2 : (⟨S_, .i32⟩ : BufTy).Contents (Elt F) → (⟨S2x2, .i32⟩ : BufTy).Contents (Elt F)),
    StableHlo.binary main_v50 main_v51 main_v52 (cmpi .slt : (⟨S2x2, .i32⟩ : BufTy).Contents (Elt F) → (⟨S2x2, .i32⟩ : BufTy).Contents (Elt F) → (⟨S2x2, .i1⟩ : BufTy).Contents (Elt F)),
    StableHlo.nullary main_c_11 (constantI S_ 32 2#32),
    StableHlo.unary main_c_11 main_v53 (broadcastInDim S2x2 ![] bcast_S_S2x2 : (⟨S_, .i32⟩ : BufTy).Contents (Elt F) → (⟨S2x2, .i32⟩ : BufTy).Contents (Elt F)),
    StableHlo.binary main_v50 main_v53 main_v54 (addi : (⟨S2x2, .i32⟩ : BufTy).Contents (Elt F) → (⟨S2x2, .i32⟩ : BufTy).Contents (Elt F) → (⟨S2x2, .i32⟩ : BufTy).Contents (Elt F)),
    StableHlo.ternary main_v52 main_v54 main_v50 main_v55 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v55 main_v56 (broadcastInDim S2x2x1 ![0, 1] bcast_S2x2_S2x2x1_0_1 : (⟨S2x2, .i32⟩ : BufTy).Contents (Elt F) → (⟨S2x2x1, .i32⟩ : BufTy).Contents (Elt F)),
    StableHlo.binary main_v46 main_v56 main_v57 ((fun x i => Host.gather gather_S1024x1024x2_S2x2x1_S1024x1024x2x2_01_2_n_n_2_2_102410241 x i) : (⟨S1024x1024x2, .f32⟩ : BufTy).Contents (Elt F) → (⟨S2x2x1, .i32⟩ : BufTy).Contents (Elt F) → (⟨S1024x1024x2x2, .f32⟩ : BufTy).Contents (Elt F)),
    StableHlo.unary main_v57 main_v58 ((transpose S1024x2x1024x2 [0, 2, 1, 3] · transposes_S1024x1024x2x2_S1024x2x1024x2_0_2_1_3) : (⟨S1024x1024x2x2, .f32⟩ : BufTy).Contents (Elt F) → (⟨S1024x2x1024x2, .f32⟩ : BufTy).Contents (Elt F)),
    StableHlo.reshape main_v58 main_v59 rfl shapeCasts_S1024x2x1024x2_S2048x2048,
    StableHlo.unary main_v18 main_v60 (broadcastInDim S2048x2048 ![] bcast_S_S2048x2048 : (⟨S_, .f32⟩ : BufTy).Contents (Elt F) → (⟨S2048x2048, .f32⟩ : BufTy).Contents (Elt F)),
    StableHlo.binary main_v60 main_v59 main_v61 (mulf : (⟨S2048x2048, .f32⟩ : BufTy).Contents (Elt F) → (⟨S2048x2048, .f32⟩ : BufTy).Contents (Elt F) → (⟨S2048x2048, .f32⟩ : BufTy).Contents (Elt F)),
    StableHlo.binary main_v16 main_v61 main_v62 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v63 ((extractStridedSlice S1 ![2] · slices_S7_S1_2) : (⟨S7, .f32⟩ : BufTy).Contents (Elt F) → (⟨S1, .f32⟩ : BufTy).Contents (Elt F)),
    StableHlo.reshape main_v63 main_v64 rfl shapeCasts_S1_S_,
    StableHlo.reshape main_arg1 main_v65 rfl shapeCasts_S2048x2048_S512x4x512x4,
    StableHlo.unary main_v65 main_v66 ((transpose S512x512x4x4 [0, 2, 1, 3] · transposes_S512x4x512x4_S512x512x4x4_0_2_1_3) : (⟨S512x4x512x4, .f32⟩ : BufTy).Contents (Elt F) → (⟨S512x512x4x4, .f32⟩ : BufTy).Contents (Elt F)),
    StableHlo.nullary main_v67 (iotaInDim S4 32 0),
    StableHlo.unary main_v67 main_v68 (broadcastInDim S4x1 ![0] bcast_S4_S4x1_0 : (⟨S4, .i32⟩ : BufTy).Contents (Elt F) → (⟨S4x1, .i32⟩ : BufTy).Contents (Elt F)),
    StableHlo.nullary main_v69 (iotaInDim S4 32 0),
    StableHlo.unary main_v69 main_v70 (broadcastInDim S1x4 ![1] bcast_S4_S1x4_1 : (⟨S4, .i32⟩ : BufTy).Contents (Elt F) → (⟨S1x4, .i32⟩ : BufTy).Contents (Elt F)),
    StableHlo.unary main_v68 main_v71 (broadcastInDim S4x4 ![0, 1] bcast_S4x1_S4x4_0_1 : (⟨S4x1, .i32⟩ : BufTy).Contents (Elt F) → (⟨S4x4, .i32⟩ : BufTy).Contents (Elt F)),
    StableHlo.unary main_v70 main_v72 (broadcastInDim S4x4 ![0, 1] bcast_S1x4_S4x4_0_1 : (⟨S1x4, .i32⟩ : BufTy).Contents (Elt F) → (⟨S4x4, .i32⟩ : BufTy).Contents (Elt F)),
    StableHlo.binary main_v71 main_v72 main_v73 (addi : (⟨S4x4, .i32⟩ : BufTy).Contents (Elt F) → (⟨S4x4, .i32⟩ : BufTy).Contents (Elt F) → (⟨S4x4, .i32⟩ : BufTy).Contents (Elt F)),
    StableHlo.nullary main_c_12 (constantI S_ 32 4#32) ]

/-- Window 1 of @main, piece 3: 21 operations. -/
abbrev main_part1_ops3 : List (HloOp τ sig (Elt F)) :=
  [ StableHlo.TRef.unary (.of main_c_12 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S4x4, .i32⟩) (broadcastInDim S4x4 ![] bcast_S_S4x4),
    StableHlo.TRef.binary (.of main_v73 : StableHlo.TRef sig ⟨S4x4, .i32⟩) (.of main_call2_v3 : StableHlo.TRef sig ⟨S4x4, .i32⟩) (.of main_call2_v4 : StableHlo.TRef sig ⟨S4x4, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S4x4, .i32⟩) (broadcastInDim S4x4 ![] bcast_S_S4x4),
    StableHlo.TRef.binary (.of main_call2_v4 : StableHlo.TRef sig ⟨S4x4, .i32⟩) (.of main_call2_v5 : StableHlo.TRef sig ⟨S4x4, .i32⟩) (.of main_call2_v6 : StableHlo.TRef sig ⟨S4x4, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S4x4, .i32⟩) (broadcastInDim S4x4 ![] bcast_S_S4x4),
    StableHlo.TRef.binary (.of main_call2_v4 : StableHlo.TRef sig ⟨S4x4, .i32⟩) (.of main_call2_v7 : StableHlo.TRef sig ⟨S4x4, .i32⟩) (.of main_call2_v8 : StableHlo.TRef sig ⟨S4x4, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S4x4, .i1⟩) (broadcastInDim S4x4 ![] bcast_S_S4x4),
    StableHlo.TRef.binary (.of main_call2_v8 : StableHlo.TRef sig ⟨S4x4, .i1⟩) (.of main_call2_v10 : StableHlo.TRef sig ⟨S4x4, .i1⟩) (.of main_call2_v11 : StableHlo.TRef sig ⟨S4x4, .i1⟩) (cmpi .ne),
    StableHlo.TRef.binary (.of main_call2_v11 : StableHlo.TRef sig ⟨S4x4, .i1⟩) (.of main_call2_v6 : StableHlo.TRef sig ⟨S4x4, .i1⟩) (.of main_call2_v12 : StableHlo.TRef sig ⟨S4x4, .i1⟩) andi,
    StableHlo.TRef.unary main_call2_call0.v0 (.of main_call2_v13 : StableHlo.TRef sig ⟨S4x4, .i32⟩) (broadcastInDim S4x4 ![] bcast_S_S4x4),
    StableHlo.TRef.binary (.of main_call2_v4 : StableHlo.TRef sig ⟨S4x4, .i32⟩) (.of main_call2_v13 : StableHlo.TRef sig ⟨S4x4, .i32⟩) (.of main_call2_v14 : StableHlo.TRef sig ⟨S4x4, .i32⟩) addi,
    StableHlo.TRef.ternary (.of main_call2_v12 : StableHlo.TRef sig ⟨S4x4, .i1⟩) (.of main_call2_v14 : StableHlo.TRef sig ⟨S4x4, .i32⟩) (.of main_call2_v4 : StableHlo.TRef sig ⟨S4x4, .i32⟩) (.of main_v74 : StableHlo.TRef sig ⟨S4x4, .i32⟩) select ]

/-- Window 1 of @main, piece 4: 28 operations. -/
abbrev main_part1_ops4 : List (HloOp τ sig (Elt F)) :=
  [ StableHlo.nullary main_c_13 (constantI S_ 32 0#32),
    StableHlo.unary main_c_13 main_v75 (broadcastInDim S4x1 ![] bcast_S_S4x1 : (⟨S_, .i32⟩ : BufTy).Contents (Elt F) → (⟨S4x1, .i32⟩ : BufTy).Contents (Elt F)),
    StableHlo.binary main_v68 main_v75 main_v76 (cmpi .slt : (⟨S4x1, .i32⟩ : BufTy).Contents (Elt F) → (⟨S4x1, .i32⟩ : BufTy).Contents (Elt F) → (⟨S4x1, .i1⟩ : BufTy).Contents (Elt F)),
    StableHlo.nullary main_c_14 (constantI S_ 32 4#32),
    StableHlo.unary main_c_14 main_v77 (broadcastInDim S4x1 ![] bcast_S_S4x1 : (⟨S_, .i32⟩ : BufTy).Contents (Elt F) → (⟨S4x1, .i32⟩ : BufTy).Contents (Elt F)),
    StableHlo.binary main_v68 main_v77 main_v78 (addi : (⟨S4x1, .i32⟩ : BufTy).Contents (Elt F) → (⟨S4x1, .i32⟩ : BufTy).Contents (Elt F) → (⟨S4x1, .i32⟩ : BufTy).Contents (Elt F)),
    StableHlo.ternary main_v76 main_v78 main_v68 main_v79 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    StableHlo.nullary main_c_15 (constantI S_ 32 0#32),
    StableHlo.unary main_c_15 main_v80 (broadcastInDim S4x4 ![] bcast_S_S4x4 : (⟨S_, .i32⟩ : BufTy).Contents (Elt F) → (⟨S4x4, .i32⟩ : BufTy).Contents (Elt F)),
    StableHlo.binary main_v74 main_v80 main_v81 (cmpi .slt : (⟨S4x4, .i32⟩ : BufTy).Contents (Elt F) → (⟨S4x4, .i32⟩ : BufTy).Contents (Elt F) → (⟨S4x4, .i1⟩ : BufTy).Contents (Elt F)),
    StableHlo.nullary main_c_16 (constantI S_ 32 4#32),
    StableHlo.unary main_c_16 main_v82 (broadcastInDim S4x4 ![] bcast_S_S4x4 : (⟨S_, .i32⟩ : BufTy).Contents (Elt F) → (⟨S4x4, .i32⟩ : BufTy).Contents (Elt F)),
    StableHlo.binary main_v74 main_v82 main_v83 (addi : (⟨S4x4, .i32⟩ : BufTy).Contents (Elt F) → (⟨S4x4, .i32⟩ : BufTy).Contents (Elt F) → (⟨S4x4, .i32⟩ : BufTy).Contents (Elt F)),
    StableHlo.ternary main_v81 main_v83 main_v74 main_v84 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v79 main_v85 (broadcastInDim S4x4 ![0, 1] bcast_S4x1_S4x4_0_1 : (⟨S4x1, .i32⟩ : BufTy).Contents (Elt F) → (⟨S4x4, .i32⟩ : BufTy).Contents (Elt F)),
    StableHlo.unary main_v85 main_v86 (broadcastInDim S4x4x1 ![0, 1] bcast_S4x4_S4x4x1_0_1 : (⟨S4x4, .i32⟩ : BufTy).Contents (Elt F) → (⟨S4x4x1, .i32⟩ : BufTy).Contents (Elt F)),
    StableHlo.unary main_v84 main_v87 (broadcastInDim S4x4x1 ![0, 1] bcast_S4x4_S4x4x1_0_1 : (⟨S4x4, .i32⟩ : BufTy).Contents (Elt F) → (⟨S4x4x1, .i32⟩ : BufTy).Contents (Elt F)),
    StableHlo.binary main_v86 main_v87 main_v88 ((fun a b => concatenate S4x4x2 2 [⟨S4x4x1, a⟩, ⟨S4x4x1, b⟩] concatenates_S4x4x1_S4x4x1_S4x4x2_d2) : (⟨S4x4x1, .i32⟩ : BufTy).Contents (Elt F) → (⟨S4x4x1, .i32⟩ : BufTy).Contents (Elt F) → (⟨S4x4x2, .i32⟩ : BufTy).Contents (Elt F)),
    StableHlo.binary main_v66 main_v88 main_v89 ((fun x i => Host.gather gather_S512x512x4x4_S4x4x2_S512x512x4x4_01_23_n_n_23_2_51251211 x i) : (⟨S512x512x4x4, .f32⟩ : BufTy).Contents (Elt F) → (⟨S4x4x2, .i32⟩ : BufTy).Contents (Elt F) → (⟨S512x512x4x4, .f32⟩ : BufTy).Contents (Elt F)),
    StableHlo.nullary main_cst_17 (constant S_ .f32 0x00000000#32),
    StableHlo.binary main_v89 main_cst_17 main_v90 ((fun x v => Host.reduceAdd x v reducesTo_S512x512x4x4_S512x512x4_d2 h_S_) : (⟨S512x512x4x4, .f32⟩ : BufTy).Contents (Elt F) → (⟨S_, .f32⟩ : BufTy).Contents (Elt F) → (⟨S512x512x4, .f32⟩ : BufTy).Contents (Elt F)),
    StableHlo.nullary main_cst_18 (constant S_ .f32 0x40800000#32),
    StableHlo.unary main_cst_18 main_v91 (broadcastInDim S512x512x4 ![] bcast_S_S512x512x4 : (⟨S_, .f32⟩ : BufTy).Contents (Elt F) → (⟨S512x512x4, .f32⟩ : BufTy).Contents (Elt F)),
    StableHlo.binary main_v90 main_v91 main_v92 (Host.divf : (⟨S512x512x4, .f32⟩ : BufTy).Contents (Elt F) → (⟨S512x512x4, .f32⟩ : BufTy).Contents (Elt F) → (⟨S512x512x4, .f32⟩ : BufTy).Contents (Elt F)),
    StableHlo.unary main_v70 main_v93 (broadcastInDim S4x4 ![0, 1] bcast_S1x4_S4x4_0_1 : (⟨S1x4, .i32⟩ : BufTy).Contents (Elt F) → (⟨S4x4, .i32⟩ : BufTy).Contents (Elt F)),
    StableHlo.unary main_v68 main_v94 (broadcastInDim S4x4 ![0, 1] bcast_S4x1_S4x4_0_1 : (⟨S4x1, .i32⟩ : BufTy).Contents (Elt F) → (⟨S4x4, .i32⟩ : BufTy).Contents (Elt F)),
    StableHlo.binary main_v93 main_v94 main_v95 (subi : (⟨S4x4, .i32⟩ : BufTy).Contents (Elt F) → (⟨S4x4, .i32⟩ : BufTy).Contents (Elt F) → (⟨S4x4, .i32⟩ : BufTy).Contents (Elt F)),
    StableHlo.nullary main_c_19 (constantI S_ 32 4#32) ]

/-- Window 1 of @main, piece 5: 21 operations. -/
abbrev main_part1_ops5 : List (HloOp τ sig (Elt F)) :=
  [ StableHlo.TRef.unary (.of main_c_19 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S4x4, .i32⟩) (broadcastInDim S4x4 ![] bcast_S_S4x4),
    StableHlo.TRef.binary (.of main_v95 : StableHlo.TRef sig ⟨S4x4, .i32⟩) (.of main_call3_v3 : StableHlo.TRef sig ⟨S4x4, .i32⟩) (.of main_call3_v4 : StableHlo.TRef sig ⟨S4x4, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S4x4, .i32⟩) (broadcastInDim S4x4 ![] bcast_S_S4x4),
    StableHlo.TRef.binary (.of main_call3_v4 : StableHlo.TRef sig ⟨S4x4, .i32⟩) (.of main_call3_v5 : StableHlo.TRef sig ⟨S4x4, .i32⟩) (.of main_call3_v6 : StableHlo.TRef sig ⟨S4x4, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S4x4, .i32⟩) (broadcastInDim S4x4 ![] bcast_S_S4x4),
    StableHlo.TRef.binary (.of main_call3_v4 : StableHlo.TRef sig ⟨S4x4, .i32⟩) (.of main_call3_v7 : StableHlo.TRef sig ⟨S4x4, .i32⟩) (.of main_call3_v8 : StableHlo.TRef sig ⟨S4x4, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S4x4, .i1⟩) (broadcastInDim S4x4 ![] bcast_S_S4x4),
    StableHlo.TRef.binary (.of main_call3_v8 : StableHlo.TRef sig ⟨S4x4, .i1⟩) (.of main_call3_v10 : StableHlo.TRef sig ⟨S4x4, .i1⟩) (.of main_call3_v11 : StableHlo.TRef sig ⟨S4x4, .i1⟩) (cmpi .ne),
    StableHlo.TRef.binary (.of main_call3_v11 : StableHlo.TRef sig ⟨S4x4, .i1⟩) (.of main_call3_v6 : StableHlo.TRef sig ⟨S4x4, .i1⟩) (.of main_call3_v12 : StableHlo.TRef sig ⟨S4x4, .i1⟩) andi,
    StableHlo.TRef.unary main_call3_call0.v0 (.of main_call3_v13 : StableHlo.TRef sig ⟨S4x4, .i32⟩) (broadcastInDim S4x4 ![] bcast_S_S4x4),
    StableHlo.TRef.binary (.of main_call3_v4 : StableHlo.TRef sig ⟨S4x4, .i32⟩) (.of main_call3_v13 : StableHlo.TRef sig ⟨S4x4, .i32⟩) (.of main_call3_v14 : StableHlo.TRef sig ⟨S4x4, .i32⟩) addi,
    StableHlo.TRef.ternary (.of main_call3_v12 : StableHlo.TRef sig ⟨S4x4, .i1⟩) (.of main_call3_v14 : StableHlo.TRef sig ⟨S4x4, .i32⟩) (.of main_call3_v4 : StableHlo.TRef sig ⟨S4x4, .i32⟩) (.of main_v96 : StableHlo.TRef sig ⟨S4x4, .i32⟩) select ]

/-- Window 1 of @main, piece 6: 1 operations. -/
abbrev main_part1_ops6 : List (HloOp τ sig (Elt F)) :=
  [ StableHlo.nullary main_c_20 (constantI S_ 32 0#32) ]

/-- Window 2 of @main, piece 0: 25 operations. -/
abbrev main_part2_ops0 : List (HloOp τ sig (Elt F)) :=
  [ StableHlo.unary main_c_20 main_v97 (broadcastInDim S4x4 ![] bcast_S_S4x4 : (⟨S_, .i32⟩ : BufTy).Contents (Elt F) → (⟨S4x4, .i32⟩ : BufTy).Contents (Elt F)),
    StableHlo.binary main_v96 main_v97 main_v98 (cmpi .slt : (⟨S4x4, .i32⟩ : BufTy).Contents (Elt F) → (⟨S4x4, .i32⟩ : BufTy).Contents (Elt F) → (⟨S4x4, .i1⟩ : BufTy).Contents (Elt F)),
    StableHlo.nullary main_c_21 (constantI S_ 32 4#32),
    StableHlo.unary main_c_21 main_v99 (broadcastInDim S4x4 ![] bcast_S_S4x4 : (⟨S_, .i32⟩ : BufTy).Contents (Elt F) → (⟨S4x4, .i32⟩ : BufTy).Contents (Elt F)),
    StableHlo.binary main_v96 main_v99 main_v100 (addi : (⟨S4x4, .i32⟩ : BufTy).Contents (Elt F) → (⟨S4x4, .i32⟩ : BufTy).Contents (Elt F) → (⟨S4x4, .i32⟩ : BufTy).Contents (Elt F)),
    StableHlo.ternary main_v98 main_v100 main_v96 main_v101 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v101 main_v102 (broadcastInDim S4x4x1 ![0, 1] bcast_S4x4_S4x4x1_0_1 : (⟨S4x4, .i32⟩ : BufTy).Contents (Elt F) → (⟨S4x4x1, .i32⟩ : BufTy).Contents (Elt F)),
    StableHlo.binary main_v92 main_v102 main_v103 ((fun x i => Host.gather gather_S512x512x4_S4x4x1_S512x512x4x4_01_2_n_n_2_2_5125121 x i) : (⟨S512x512x4, .f32⟩ : BufTy).Contents (Elt F) → (⟨S4x4x1, .i32⟩ : BufTy).Contents (Elt F) → (⟨S512x512x4x4, .f32⟩ : BufTy).Contents (Elt F)),
    StableHlo.unary main_v103 main_v104 ((transpose S512x4x512x4 [0, 2, 1, 3] · transposes_S512x512x4x4_S512x4x512x4_0_2_1_3) : (⟨S512x512x4x4, .f32⟩ : BufTy).Contents (Elt F) → (⟨S512x4x512x4, .f32⟩ : BufTy).Contents (Elt F)),
    StableHlo.reshape main_v104 main_v105 rfl shapeCasts_S512x4x512x4_S2048x2048,
    StableHlo.unary main_v64 main_v106 (broadcastInDim S2048x2048 ![] bcast_S_S2048x2048 : (⟨S_, .f32⟩ : BufTy).Contents (Elt F) → (⟨S2048x2048, .f32⟩ : BufTy).Contents (Elt F)),
    StableHlo.binary main_v106 main_v105 main_v107 (mulf : (⟨S2048x2048, .f32⟩ : BufTy).Contents (Elt F) → (⟨S2048x2048, .f32⟩ : BufTy).Contents (Elt F) → (⟨S2048x2048, .f32⟩ : BufTy).Contents (Elt F)),
    StableHlo.binary main_v62 main_v107 main_v108 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v109 ((extractStridedSlice S1 ![3] · slices_S7_S1_3) : (⟨S7, .f32⟩ : BufTy).Contents (Elt F) → (⟨S1, .f32⟩ : BufTy).Contents (Elt F)),
    StableHlo.reshape main_v109 main_v110 rfl shapeCasts_S1_S_,
    StableHlo.reshape main_arg1 main_v111 rfl shapeCasts_S2048x2048_S256x8x256x8,
    StableHlo.unary main_v111 main_v112 ((transpose S256x256x8x8 [0, 2, 1, 3] · transposes_S256x8x256x8_S256x256x8x8_0_2_1_3) : (⟨S256x8x256x8, .f32⟩ : BufTy).Contents (Elt F) → (⟨S256x256x8x8, .f32⟩ : BufTy).Contents (Elt F)),
    StableHlo.nullary main_v113 (iotaInDim S8 32 0),
    StableHlo.unary main_v113 main_v114 (broadcastInDim S8x1 ![0] bcast_S8_S8x1_0 : (⟨S8, .i32⟩ : BufTy).Contents (Elt F) → (⟨S8x1, .i32⟩ : BufTy).Contents (Elt F)),
    StableHlo.nullary main_v115 (iotaInDim S8 32 0),
    StableHlo.unary main_v115 main_v116 (broadcastInDim S1x8 ![1] bcast_S8_S1x8_1 : (⟨S8, .i32⟩ : BufTy).Contents (Elt F) → (⟨S1x8, .i32⟩ : BufTy).Contents (Elt F)),
    StableHlo.unary main_v114 main_v117 (broadcastInDim S8x8 ![0, 1] bcast_S8x1_S8x8_0_1 : (⟨S8x1, .i32⟩ : BufTy).Contents (Elt F) → (⟨S8x8, .i32⟩ : BufTy).Contents (Elt F)),
    StableHlo.unary main_v116 main_v118 (broadcastInDim S8x8 ![0, 1] bcast_S1x8_S8x8_0_1 : (⟨S1x8, .i32⟩ : BufTy).Contents (Elt F) → (⟨S8x8, .i32⟩ : BufTy).Contents (Elt F)),
    StableHlo.binary main_v117 main_v118 main_v119 (addi : (⟨S8x8, .i32⟩ : BufTy).Contents (Elt F) → (⟨S8x8, .i32⟩ : BufTy).Contents (Elt F) → (⟨S8x8, .i32⟩ : BufTy).Contents (Elt F)),
    StableHlo.nullary main_c_22 (constantI S_ 32 8#32) ]

/-- Window 2 of @main, piece 1: 21 operations. -/
abbrev main_part2_ops1 : List (HloOp τ sig (Elt F)) :=
  [ StableHlo.TRef.unary (.of main_c_22 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S8x8, .i32⟩) (broadcastInDim S8x8 ![] bcast_S_S8x8),
    StableHlo.TRef.binary (.of main_v119 : StableHlo.TRef sig ⟨S8x8, .i32⟩) (.of main_call4_v3 : StableHlo.TRef sig ⟨S8x8, .i32⟩) (.of main_call4_v4 : StableHlo.TRef sig ⟨S8x8, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S8x8, .i32⟩) (broadcastInDim S8x8 ![] bcast_S_S8x8),
    StableHlo.TRef.binary (.of main_call4_v4 : StableHlo.TRef sig ⟨S8x8, .i32⟩) (.of main_call4_v5 : StableHlo.TRef sig ⟨S8x8, .i32⟩) (.of main_call4_v6 : StableHlo.TRef sig ⟨S8x8, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S8x8, .i32⟩) (broadcastInDim S8x8 ![] bcast_S_S8x8),
    StableHlo.TRef.binary (.of main_call4_v4 : StableHlo.TRef sig ⟨S8x8, .i32⟩) (.of main_call4_v7 : StableHlo.TRef sig ⟨S8x8, .i32⟩) (.of main_call4_v8 : StableHlo.TRef sig ⟨S8x8, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S8x8, .i1⟩) (broadcastInDim S8x8 ![] bcast_S_S8x8),
    StableHlo.TRef.binary (.of main_call4_v8 : StableHlo.TRef sig ⟨S8x8, .i1⟩) (.of main_call4_v10 : StableHlo.TRef sig ⟨S8x8, .i1⟩) (.of main_call4_v11 : StableHlo.TRef sig ⟨S8x8, .i1⟩) (cmpi .ne),
    StableHlo.TRef.binary (.of main_call4_v11 : StableHlo.TRef sig ⟨S8x8, .i1⟩) (.of main_call4_v6 : StableHlo.TRef sig ⟨S8x8, .i1⟩) (.of main_call4_v12 : StableHlo.TRef sig ⟨S8x8, .i1⟩) andi,
    StableHlo.TRef.unary main_call4_call0.v0 (.of main_call4_v13 : StableHlo.TRef sig ⟨S8x8, .i32⟩) (broadcastInDim S8x8 ![] bcast_S_S8x8),
    StableHlo.TRef.binary (.of main_call4_v4 : StableHlo.TRef sig ⟨S8x8, .i32⟩) (.of main_call4_v13 : StableHlo.TRef sig ⟨S8x8, .i32⟩) (.of main_call4_v14 : StableHlo.TRef sig ⟨S8x8, .i32⟩) addi,
    StableHlo.TRef.ternary (.of main_call4_v12 : StableHlo.TRef sig ⟨S8x8, .i1⟩) (.of main_call4_v14 : StableHlo.TRef sig ⟨S8x8, .i32⟩) (.of main_call4_v4 : StableHlo.TRef sig ⟨S8x8, .i32⟩) (.of main_v120 : StableHlo.TRef sig ⟨S8x8, .i32⟩) select ]

/-- Window 2 of @main, piece 2: 28 operations. -/
abbrev main_part2_ops2 : List (HloOp τ sig (Elt F)) :=
  [ StableHlo.nullary main_c_23 (constantI S_ 32 0#32),
    StableHlo.unary main_c_23 main_v121 (broadcastInDim S8x1 ![] bcast_S_S8x1 : (⟨S_, .i32⟩ : BufTy).Contents (Elt F) → (⟨S8x1, .i32⟩ : BufTy).Contents (Elt F)),
    StableHlo.binary main_v114 main_v121 main_v122 (cmpi .slt : (⟨S8x1, .i32⟩ : BufTy).Contents (Elt F) → (⟨S8x1, .i32⟩ : BufTy).Contents (Elt F) → (⟨S8x1, .i1⟩ : BufTy).Contents (Elt F)),
    StableHlo.nullary main_c_24 (constantI S_ 32 8#32),
    StableHlo.unary main_c_24 main_v123 (broadcastInDim S8x1 ![] bcast_S_S8x1 : (⟨S_, .i32⟩ : BufTy).Contents (Elt F) → (⟨S8x1, .i32⟩ : BufTy).Contents (Elt F)),
    StableHlo.binary main_v114 main_v123 main_v124 (addi : (⟨S8x1, .i32⟩ : BufTy).Contents (Elt F) → (⟨S8x1, .i32⟩ : BufTy).Contents (Elt F) → (⟨S8x1, .i32⟩ : BufTy).Contents (Elt F)),
    StableHlo.ternary main_v122 main_v124 main_v114 main_v125 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_25 (constantI S_ 32 0#32),
    StableHlo.unary main_c_25 main_v126 (broadcastInDim S8x8 ![] bcast_S_S8x8 : (⟨S_, .i32⟩ : BufTy).Contents (Elt F) → (⟨S8x8, .i32⟩ : BufTy).Contents (Elt F)),
    StableHlo.binary main_v120 main_v126 main_v127 (cmpi .slt : (⟨S8x8, .i32⟩ : BufTy).Contents (Elt F) → (⟨S8x8, .i32⟩ : BufTy).Contents (Elt F) → (⟨S8x8, .i1⟩ : BufTy).Contents (Elt F)),
    StableHlo.nullary main_c_26 (constantI S_ 32 8#32),
    StableHlo.unary main_c_26 main_v128 (broadcastInDim S8x8 ![] bcast_S_S8x8 : (⟨S_, .i32⟩ : BufTy).Contents (Elt F) → (⟨S8x8, .i32⟩ : BufTy).Contents (Elt F)),
    StableHlo.binary main_v120 main_v128 main_v129 (addi : (⟨S8x8, .i32⟩ : BufTy).Contents (Elt F) → (⟨S8x8, .i32⟩ : BufTy).Contents (Elt F) → (⟨S8x8, .i32⟩ : BufTy).Contents (Elt F)),
    StableHlo.ternary main_v127 main_v129 main_v120 main_v130 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v125 main_v131 (broadcastInDim S8x8 ![0, 1] bcast_S8x1_S8x8_0_1 : (⟨S8x1, .i32⟩ : BufTy).Contents (Elt F) → (⟨S8x8, .i32⟩ : BufTy).Contents (Elt F)),
    StableHlo.unary main_v131 main_v132 (broadcastInDim S8x8x1 ![0, 1] bcast_S8x8_S8x8x1_0_1 : (⟨S8x8, .i32⟩ : BufTy).Contents (Elt F) → (⟨S8x8x1, .i32⟩ : BufTy).Contents (Elt F)),
    StableHlo.unary main_v130 main_v133 (broadcastInDim S8x8x1 ![0, 1] bcast_S8x8_S8x8x1_0_1 : (⟨S8x8, .i32⟩ : BufTy).Contents (Elt F) → (⟨S8x8x1, .i32⟩ : BufTy).Contents (Elt F)),
    StableHlo.binary main_v132 main_v133 main_v134 ((fun a b => concatenate S8x8x2 2 [⟨S8x8x1, a⟩, ⟨S8x8x1, b⟩] concatenates_S8x8x1_S8x8x1_S8x8x2_d2) : (⟨S8x8x1, .i32⟩ : BufTy).Contents (Elt F) → (⟨S8x8x1, .i32⟩ : BufTy).Contents (Elt F) → (⟨S8x8x2, .i32⟩ : BufTy).Contents (Elt F)),
    StableHlo.binary main_v112 main_v134 main_v135 ((fun x i => Host.gather gather_S256x256x8x8_S8x8x2_S256x256x8x8_01_23_n_n_23_2_25625611 x i) : (⟨S256x256x8x8, .f32⟩ : BufTy).Contents (Elt F) → (⟨S8x8x2, .i32⟩ : BufTy).Contents (Elt F) → (⟨S256x256x8x8, .f32⟩ : BufTy).Contents (Elt F)),
    StableHlo.nullary main_cst_27 (constant S_ .f32 0x00000000#32),
    StableHlo.binary main_v135 main_cst_27 main_v136 ((fun x v => Host.reduceAdd x v reducesTo_S256x256x8x8_S256x256x8_d2 h_S_) : (⟨S256x256x8x8, .f32⟩ : BufTy).Contents (Elt F) → (⟨S_, .f32⟩ : BufTy).Contents (Elt F) → (⟨S256x256x8, .f32⟩ : BufTy).Contents (Elt F)),
    StableHlo.nullary main_cst_28 (constant S_ .f32 0x41000000#32),
    StableHlo.unary main_cst_28 main_v137 (broadcastInDim S256x256x8 ![] bcast_S_S256x256x8 : (⟨S_, .f32⟩ : BufTy).Contents (Elt F) → (⟨S256x256x8, .f32⟩ : BufTy).Contents (Elt F)),
    StableHlo.binary main_v136 main_v137 main_v138 (Host.divf : (⟨S256x256x8, .f32⟩ : BufTy).Contents (Elt F) → (⟨S256x256x8, .f32⟩ : BufTy).Contents (Elt F) → (⟨S256x256x8, .f32⟩ : BufTy).Contents (Elt F)),
    StableHlo.unary main_v116 main_v139 (broadcastInDim S8x8 ![0, 1] bcast_S1x8_S8x8_0_1 : (⟨S1x8, .i32⟩ : BufTy).Contents (Elt F) → (⟨S8x8, .i32⟩ : BufTy).Contents (Elt F)),
    StableHlo.unary main_v114 main_v140 (broadcastInDim S8x8 ![0, 1] bcast_S8x1_S8x8_0_1 : (⟨S8x1, .i32⟩ : BufTy).Contents (Elt F) → (⟨S8x8, .i32⟩ : BufTy).Contents (Elt F)),
    StableHlo.binary main_v139 main_v140 main_v141 (subi : (⟨S8x8, .i32⟩ : BufTy).Contents (Elt F) → (⟨S8x8, .i32⟩ : BufTy).Contents (Elt F) → (⟨S8x8, .i32⟩ : BufTy).Contents (Elt F)),
    StableHlo.nullary main_c_29 (constantI S_ 32 8#32) ]

/-- Window 2 of @main, piece 3: 21 operations. -/
abbrev main_part2_ops3 : List (HloOp τ sig (Elt F)) :=
  [ StableHlo.TRef.unary (.of main_c_29 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S8x8, .i32⟩) (broadcastInDim S8x8 ![] bcast_S_S8x8),
    StableHlo.TRef.binary (.of main_v141 : StableHlo.TRef sig ⟨S8x8, .i32⟩) (.of main_call5_v3 : StableHlo.TRef sig ⟨S8x8, .i32⟩) (.of main_call5_v4 : StableHlo.TRef sig ⟨S8x8, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S8x8, .i32⟩) (broadcastInDim S8x8 ![] bcast_S_S8x8),
    StableHlo.TRef.binary (.of main_call5_v4 : StableHlo.TRef sig ⟨S8x8, .i32⟩) (.of main_call5_v5 : StableHlo.TRef sig ⟨S8x8, .i32⟩) (.of main_call5_v6 : StableHlo.TRef sig ⟨S8x8, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S8x8, .i32⟩) (broadcastInDim S8x8 ![] bcast_S_S8x8),
    StableHlo.TRef.binary (.of main_call5_v4 : StableHlo.TRef sig ⟨S8x8, .i32⟩) (.of main_call5_v7 : StableHlo.TRef sig ⟨S8x8, .i32⟩) (.of main_call5_v8 : StableHlo.TRef sig ⟨S8x8, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S8x8, .i1⟩) (broadcastInDim S8x8 ![] bcast_S_S8x8),
    StableHlo.TRef.binary (.of main_call5_v8 : StableHlo.TRef sig ⟨S8x8, .i1⟩) (.of main_call5_v10 : StableHlo.TRef sig ⟨S8x8, .i1⟩) (.of main_call5_v11 : StableHlo.TRef sig ⟨S8x8, .i1⟩) (cmpi .ne),
    StableHlo.TRef.binary (.of main_call5_v11 : StableHlo.TRef sig ⟨S8x8, .i1⟩) (.of main_call5_v6 : StableHlo.TRef sig ⟨S8x8, .i1⟩) (.of main_call5_v12 : StableHlo.TRef sig ⟨S8x8, .i1⟩) andi,
    StableHlo.TRef.unary main_call5_call0.v0 (.of main_call5_v13 : StableHlo.TRef sig ⟨S8x8, .i32⟩) (broadcastInDim S8x8 ![] bcast_S_S8x8),
    StableHlo.TRef.binary (.of main_call5_v4 : StableHlo.TRef sig ⟨S8x8, .i32⟩) (.of main_call5_v13 : StableHlo.TRef sig ⟨S8x8, .i32⟩) (.of main_call5_v14 : StableHlo.TRef sig ⟨S8x8, .i32⟩) addi,
    StableHlo.TRef.ternary (.of main_call5_v12 : StableHlo.TRef sig ⟨S8x8, .i1⟩) (.of main_call5_v14 : StableHlo.TRef sig ⟨S8x8, .i32⟩) (.of main_call5_v4 : StableHlo.TRef sig ⟨S8x8, .i32⟩) (.of main_v142 : StableHlo.TRef sig ⟨S8x8, .i32⟩) select ]

/-- Window 2 of @main, piece 4: 5 operations. -/
abbrev main_part2_ops4 : List (HloOp τ sig (Elt F)) :=
  [ StableHlo.nullary main_c_30 (constantI S_ 32 0#32),
    StableHlo.unary main_c_30 main_v143 (broadcastInDim S8x8 ![] bcast_S_S8x8 : (⟨S_, .i32⟩ : BufTy).Contents (Elt F) → (⟨S8x8, .i32⟩ : BufTy).Contents (Elt F)),
    StableHlo.binary main_v142 main_v143 main_v144 (cmpi .slt : (⟨S8x8, .i32⟩ : BufTy).Contents (Elt F) → (⟨S8x8, .i32⟩ : BufTy).Contents (Elt F) → (⟨S8x8, .i1⟩ : BufTy).Contents (Elt F)),
    StableHlo.nullary main_c_31 (constantI S_ 32 8#32),
    StableHlo.unary main_c_31 main_v145 (broadcastInDim S8x8 ![] bcast_S_S8x8 : (⟨S_, .i32⟩ : BufTy).Contents (Elt F) → (⟨S8x8, .i32⟩ : BufTy).Contents (Elt F)) ]

/-- Window 3 of @main, piece 0: 21 operations. -/
abbrev main_part3_ops0 : List (HloOp τ sig (Elt F)) :=
  [ StableHlo.binary main_v142 main_v145 main_v146 (addi : (⟨S8x8, .i32⟩ : BufTy).Contents (Elt F) → (⟨S8x8, .i32⟩ : BufTy).Contents (Elt F) → (⟨S8x8, .i32⟩ : BufTy).Contents (Elt F)),
    StableHlo.ternary main_v144 main_v146 main_v142 main_v147 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v147 main_v148 (broadcastInDim S8x8x1 ![0, 1] bcast_S8x8_S8x8x1_0_1 : (⟨S8x8, .i32⟩ : BufTy).Contents (Elt F) → (⟨S8x8x1, .i32⟩ : BufTy).Contents (Elt F)),
    StableHlo.binary main_v138 main_v148 main_v149 ((fun x i => Host.gather gather_S256x256x8_S8x8x1_S256x256x8x8_01_2_n_n_2_2_2562561 x i) : (⟨S256x256x8, .f32⟩ : BufTy).Contents (Elt F) → (⟨S8x8x1, .i32⟩ : BufTy).Contents (Elt F) → (⟨S256x256x8x8, .f32⟩ : BufTy).Contents (Elt F)),
    StableHlo.unary main_v149 main_v150 ((transpose S256x8x256x8 [0, 2, 1, 3] · transposes_S256x256x8x8_S256x8x256x8_0_2_1_3) : (⟨S256x256x8x8, .f32⟩ : BufTy).Contents (Elt F) → (⟨S256x8x256x8, .f32⟩ : BufTy).Contents (Elt F)),
    StableHlo.reshape main_v150 main_v151 rfl shapeCasts_S256x8x256x8_S2048x2048,
    StableHlo.unary main_v110 main_v152 (broadcastInDim S2048x2048 ![] bcast_S_S2048x2048 : (⟨S_, .f32⟩ : BufTy).Contents (Elt F) → (⟨S2048x2048, .f32⟩ : BufTy).Contents (Elt F)),
    StableHlo.binary main_v152 main_v151 main_v153 (mulf : (⟨S2048x2048, .f32⟩ : BufTy).Contents (Elt F) → (⟨S2048x2048, .f32⟩ : BufTy).Contents (Elt F) → (⟨S2048x2048, .f32⟩ : BufTy).Contents (Elt F)),
    StableHlo.binary main_v108 main_v153 main_v154 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v155 ((extractStridedSlice S1 ![4] · slices_S7_S1_4) : (⟨S7, .f32⟩ : BufTy).Contents (Elt F) → (⟨S1, .f32⟩ : BufTy).Contents (Elt F)),
    StableHlo.reshape main_v155 main_v156 rfl shapeCasts_S1_S_,
    StableHlo.reshape main_arg1 main_v157 rfl shapeCasts_S2048x2048_S128x16x128x16,
    StableHlo.unary main_v157 main_v158 ((transpose S128x128x16x16 [0, 2, 1, 3] · transposes_S128x16x128x16_S128x128x16x16_0_2_1_3) : (⟨S128x16x128x16, .f32⟩ : BufTy).Contents (Elt F) → (⟨S128x128x16x16, .f32⟩ : BufTy).Contents (Elt F)),
    StableHlo.nullary main_v159 (iotaInDim S16 32 0),
    StableHlo.unary main_v159 main_v160 (broadcastInDim S16x1 ![0] bcast_S16_S16x1_0 : (⟨S16, .i32⟩ : BufTy).Contents (Elt F) → (⟨S16x1, .i32⟩ : BufTy).Contents (Elt F)),
    StableHlo.nullary main_v161 (iotaInDim S16 32 0),
    StableHlo.unary main_v161 main_v162 (broadcastInDim S1x16 ![1] bcast_S16_S1x16_1 : (⟨S16, .i32⟩ : BufTy).Contents (Elt F) → (⟨S1x16, .i32⟩ : BufTy).Contents (Elt F)),
    StableHlo.unary main_v160 main_v163 (broadcastInDim S16x16 ![0, 1] bcast_S16x1_S16x16_0_1 : (⟨S16x1, .i32⟩ : BufTy).Contents (Elt F) → (⟨S16x16, .i32⟩ : BufTy).Contents (Elt F)),
    StableHlo.unary main_v162 main_v164 (broadcastInDim S16x16 ![0, 1] bcast_S1x16_S16x16_0_1 : (⟨S1x16, .i32⟩ : BufTy).Contents (Elt F) → (⟨S16x16, .i32⟩ : BufTy).Contents (Elt F)),
    StableHlo.binary main_v163 main_v164 main_v165 (addi : (⟨S16x16, .i32⟩ : BufTy).Contents (Elt F) → (⟨S16x16, .i32⟩ : BufTy).Contents (Elt F) → (⟨S16x16, .i32⟩ : BufTy).Contents (Elt F)),
    StableHlo.nullary main_c_32 (constantI S_ 32 16#32) ]

/-- Window 3 of @main, piece 1: 21 operations. -/
abbrev main_part3_ops1 : List (HloOp τ sig (Elt F)) :=
  [ StableHlo.TRef.unary (.of main_c_32 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary main_call6_call0.v0 (.of main_call6_v3 : StableHlo.TRef sig ⟨S16x16, .i32⟩) (broadcastInDim S16x16 ![] bcast_S_S16x16),
    StableHlo.TRef.binary (.of main_v165 : StableHlo.TRef sig ⟨S16x16, .i32⟩) (.of main_call6_v3 : StableHlo.TRef sig ⟨S16x16, .i32⟩) (.of main_call6_v4 : StableHlo.TRef sig ⟨S16x16, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S16x16, .i32⟩) (broadcastInDim S16x16 ![] bcast_S_S16x16),
    StableHlo.TRef.binary (.of main_call6_v4 : StableHlo.TRef sig ⟨S16x16, .i32⟩) (.of main_call6_v5 : StableHlo.TRef sig ⟨S16x16, .i32⟩) (.of main_call6_v6 : StableHlo.TRef sig ⟨S16x16, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S16x16, .i32⟩) (broadcastInDim S16x16 ![] bcast_S_S16x16),
    StableHlo.TRef.binary (.of main_call6_v4 : StableHlo.TRef sig ⟨S16x16, .i32⟩) (.of main_call6_v7 : StableHlo.TRef sig ⟨S16x16, .i32⟩) (.of main_call6_v8 : StableHlo.TRef sig ⟨S16x16, .i1⟩) (cmpi .slt),
    StableHlo.TRef.nullary (.of main_call6_c_3 : StableHlo.TRef sig ⟨S_, .i32⟩) (constantI S_ 32 0#32),
    StableHlo.TRef.binary main_call6_call0.v0 (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S16x16, .i1⟩) (broadcastInDim S16x16 ![] bcast_S_S16x16),
    StableHlo.TRef.binary (.of main_call6_v8 : StableHlo.TRef sig ⟨S16x16, .i1⟩) (.of main_call6_v10 : StableHlo.TRef sig ⟨S16x16, .i1⟩) (.of main_call6_v11 : StableHlo.TRef sig ⟨S16x16, .i1⟩) (cmpi .ne),
    StableHlo.TRef.binary (.of main_call6_v11 : StableHlo.TRef sig ⟨S16x16, .i1⟩) (.of main_call6_v6 : StableHlo.TRef sig ⟨S16x16, .i1⟩) (.of main_call6_v12 : StableHlo.TRef sig ⟨S16x16, .i1⟩) andi,
    StableHlo.TRef.unary main_call6_call0.v0 (.of main_call6_v13 : StableHlo.TRef sig ⟨S16x16, .i32⟩) (broadcastInDim S16x16 ![] bcast_S_S16x16),
    StableHlo.TRef.binary (.of main_call6_v4 : StableHlo.TRef sig ⟨S16x16, .i32⟩) (.of main_call6_v13 : StableHlo.TRef sig ⟨S16x16, .i32⟩) (.of main_call6_v14 : StableHlo.TRef sig ⟨S16x16, .i32⟩) addi,
    StableHlo.TRef.ternary (.of main_call6_v12 : StableHlo.TRef sig ⟨S16x16, .i1⟩) (.of main_call6_v14 : StableHlo.TRef sig ⟨S16x16, .i32⟩) (.of main_call6_v4 : StableHlo.TRef sig ⟨S16x16, .i32⟩) (.of main_v166 : StableHlo.TRef sig ⟨S16x16, .i32⟩) select ]

/-- Window 3 of @main, piece 2: 28 operations. -/
abbrev main_part3_ops2 : List (HloOp τ sig (Elt F)) :=
  [ StableHlo.nullary main_c_33 (constantI S_ 32 0#32),
    StableHlo.unary main_c_33 main_v167 (broadcastInDim S16x1 ![] bcast_S_S16x1 : (⟨S_, .i32⟩ : BufTy).Contents (Elt F) → (⟨S16x1, .i32⟩ : BufTy).Contents (Elt F)),
    StableHlo.binary main_v160 main_v167 main_v168 (cmpi .slt : (⟨S16x1, .i32⟩ : BufTy).Contents (Elt F) → (⟨S16x1, .i32⟩ : BufTy).Contents (Elt F) → (⟨S16x1, .i1⟩ : BufTy).Contents (Elt F)),
    StableHlo.nullary main_c_34 (constantI S_ 32 16#32),
    StableHlo.unary main_c_34 main_v169 (broadcastInDim S16x1 ![] bcast_S_S16x1 : (⟨S_, .i32⟩ : BufTy).Contents (Elt F) → (⟨S16x1, .i32⟩ : BufTy).Contents (Elt F)),
    StableHlo.binary main_v160 main_v169 main_v170 (addi : (⟨S16x1, .i32⟩ : BufTy).Contents (Elt F) → (⟨S16x1, .i32⟩ : BufTy).Contents (Elt F) → (⟨S16x1, .i32⟩ : BufTy).Contents (Elt F)),
    StableHlo.ternary main_v168 main_v170 main_v160 main_v171 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_35 (constantI S_ 32 0#32),
    StableHlo.unary main_c_35 main_v172 (broadcastInDim S16x16 ![] bcast_S_S16x16 : (⟨S_, .i32⟩ : BufTy).Contents (Elt F) → (⟨S16x16, .i32⟩ : BufTy).Contents (Elt F)),
    StableHlo.binary main_v166 main_v172 main_v173 (cmpi .slt : (⟨S16x16, .i32⟩ : BufTy).Contents (Elt F) → (⟨S16x16, .i32⟩ : BufTy).Contents (Elt F) → (⟨S16x16, .i1⟩ : BufTy).Contents (Elt F)),
    StableHlo.nullary main_c_36 (constantI S_ 32 16#32),
    StableHlo.unary main_c_36 main_v174 (broadcastInDim S16x16 ![] bcast_S_S16x16 : (⟨S_, .i32⟩ : BufTy).Contents (Elt F) → (⟨S16x16, .i32⟩ : BufTy).Contents (Elt F)),
    StableHlo.binary main_v166 main_v174 main_v175 (addi : (⟨S16x16, .i32⟩ : BufTy).Contents (Elt F) → (⟨S16x16, .i32⟩ : BufTy).Contents (Elt F) → (⟨S16x16, .i32⟩ : BufTy).Contents (Elt F)),
    StableHlo.ternary main_v173 main_v175 main_v166 main_v176 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v171 main_v177 (broadcastInDim S16x16 ![0, 1] bcast_S16x1_S16x16_0_1 : (⟨S16x1, .i32⟩ : BufTy).Contents (Elt F) → (⟨S16x16, .i32⟩ : BufTy).Contents (Elt F)),
    StableHlo.unary main_v177 main_v178 (broadcastInDim S16x16x1 ![0, 1] bcast_S16x16_S16x16x1_0_1 : (⟨S16x16, .i32⟩ : BufTy).Contents (Elt F) → (⟨S16x16x1, .i32⟩ : BufTy).Contents (Elt F)),
    StableHlo.unary main_v176 main_v179 (broadcastInDim S16x16x1 ![0, 1] bcast_S16x16_S16x16x1_0_1 : (⟨S16x16, .i32⟩ : BufTy).Contents (Elt F) → (⟨S16x16x1, .i32⟩ : BufTy).Contents (Elt F)),
    StableHlo.binary main_v178 main_v179 main_v180 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
    StableHlo.binary main_v158 main_v180 main_v181 ((fun x i => Host.gather gather_S128x128x16x16_S16x16x2_S128x128x16x16_01_23_n_n_23_2_12812811 x i) : (⟨S128x128x16x16, .f32⟩ : BufTy).Contents (Elt F) → (⟨S16x16x2, .i32⟩ : BufTy).Contents (Elt F) → (⟨S128x128x16x16, .f32⟩ : BufTy).Contents (Elt F)),
    StableHlo.nullary main_cst_37 (constant S_ .f32 0x00000000#32),
    StableHlo.binary main_v181 main_cst_37 main_v182 ((fun x v => Host.reduceAdd x v reducesTo_S128x128x16x16_S128x128x16_d2 h_S_) : (⟨S128x128x16x16, .f32⟩ : BufTy).Contents (Elt F) → (⟨S_, .f32⟩ : BufTy).Contents (Elt F) → (⟨S128x128x16, .f32⟩ : BufTy).Contents (Elt F)),
    StableHlo.nullary main_cst_38 (constant S_ .f32 0x41800000#32),
    StableHlo.unary main_cst_38 main_v183 (broadcastInDim S128x128x16 ![] bcast_S_S128x128x16 : (⟨S_, .f32⟩ : BufTy).Contents (Elt F) → (⟨S128x128x16, .f32⟩ : BufTy).Contents (Elt F)),
    StableHlo.binary main_v182 main_v183 main_v184 (Host.divf : (⟨S128x128x16, .f32⟩ : BufTy).Contents (Elt F) → (⟨S128x128x16, .f32⟩ : BufTy).Contents (Elt F) → (⟨S128x128x16, .f32⟩ : BufTy).Contents (Elt F)),
    StableHlo.unary main_v162 main_v185 (broadcastInDim S16x16 ![0, 1] bcast_S1x16_S16x16_0_1 : (⟨S1x16, .i32⟩ : BufTy).Contents (Elt F) → (⟨S16x16, .i32⟩ : BufTy).Contents (Elt F)),
    StableHlo.unary main_v160 main_v186 (broadcastInDim S16x16 ![0, 1] bcast_S16x1_S16x16_0_1 : (⟨S16x1, .i32⟩ : BufTy).Contents (Elt F) → (⟨S16x16, .i32⟩ : BufTy).Contents (Elt F)),
    StableHlo.binary main_v185 main_v186 main_v187 (subi : (⟨S16x16, .i32⟩ : BufTy).Contents (Elt F) → (⟨S16x16, .i32⟩ : BufTy).Contents (Elt F) → (⟨S16x16, .i32⟩ : BufTy).Contents (Elt F)),
    StableHlo.nullary main_c_39 (constantI S_ 32 16#32) ]

/-- Window 3 of @main, piece 3: 21 operations. -/
abbrev main_part3_ops3 : List (HloOp τ sig (Elt F)) :=
  [ StableHlo.TRef.unary (.of main_c_39 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S16x16, .i32⟩) (broadcastInDim S16x16 ![] bcast_S_S16x16),
    StableHlo.TRef.binary (.of main_v187 : StableHlo.TRef sig ⟨S16x16, .i32⟩) (.of main_call7_v3 : StableHlo.TRef sig ⟨S16x16, .i32⟩) (.of main_call7_v4 : StableHlo.TRef sig ⟨S16x16, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S16x16, .i32⟩) (broadcastInDim S16x16 ![] bcast_S_S16x16),
    StableHlo.TRef.binary (.of main_call7_v4 : StableHlo.TRef sig ⟨S16x16, .i32⟩) (.of main_call7_v5 : StableHlo.TRef sig ⟨S16x16, .i32⟩) (.of main_call7_v6 : StableHlo.TRef sig ⟨S16x16, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S16x16, .i32⟩) (broadcastInDim S16x16 ![] bcast_S_S16x16),
    StableHlo.TRef.binary (.of main_call7_v4 : StableHlo.TRef sig ⟨S16x16, .i32⟩) (.of main_call7_v7 : StableHlo.TRef sig ⟨S16x16, .i32⟩) (.of main_call7_v8 : StableHlo.TRef sig ⟨S16x16, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S16x16, .i1⟩) (broadcastInDim S16x16 ![] bcast_S_S16x16),
    StableHlo.TRef.binary (.of main_call7_v8 : StableHlo.TRef sig ⟨S16x16, .i1⟩) (.of main_call7_v10 : StableHlo.TRef sig ⟨S16x16, .i1⟩) (.of main_call7_v11 : StableHlo.TRef sig ⟨S16x16, .i1⟩) (cmpi .ne),
    StableHlo.TRef.binary (.of main_call7_v11 : StableHlo.TRef sig ⟨S16x16, .i1⟩) (.of main_call7_v6 : StableHlo.TRef sig ⟨S16x16, .i1⟩) (.of main_call7_v12 : StableHlo.TRef sig ⟨S16x16, .i1⟩) andi,
    StableHlo.TRef.unary main_call7_call0.v0 (.of main_call7_v13 : StableHlo.TRef sig ⟨S16x16, .i32⟩) (broadcastInDim S16x16 ![] bcast_S_S16x16),
    StableHlo.TRef.binary (.of main_call7_v4 : StableHlo.TRef sig ⟨S16x16, .i32⟩) (.of main_call7_v13 : StableHlo.TRef sig ⟨S16x16, .i32⟩) (.of main_call7_v14 : StableHlo.TRef sig ⟨S16x16, .i32⟩) addi,
    StableHlo.TRef.ternary (.of main_call7_v12 : StableHlo.TRef sig ⟨S16x16, .i1⟩) (.of main_call7_v14 : StableHlo.TRef sig ⟨S16x16, .i32⟩) (.of main_call7_v4 : StableHlo.TRef sig ⟨S16x16, .i32⟩) (.of main_v188 : StableHlo.TRef sig ⟨S16x16, .i32⟩) select ]

/-- Window 3 of @main, piece 4: 9 operations. -/
abbrev main_part3_ops4 : List (HloOp τ sig (Elt F)) :=
  [ StableHlo.nullary main_c_40 (constantI S_ 32 0#32),
    StableHlo.unary main_c_40 main_v189 (broadcastInDim S16x16 ![] bcast_S_S16x16 : (⟨S_, .i32⟩ : BufTy).Contents (Elt F) → (⟨S16x16, .i32⟩ : BufTy).Contents (Elt F)),
    StableHlo.binary main_v188 main_v189 main_v190 (cmpi .slt : (⟨S16x16, .i32⟩ : BufTy).Contents (Elt F) → (⟨S16x16, .i32⟩ : BufTy).Contents (Elt F) → (⟨S16x16, .i1⟩ : BufTy).Contents (Elt F)),
    StableHlo.nullary main_c_41 (constantI S_ 32 16#32),
    StableHlo.unary main_c_41 main_v191 (broadcastInDim S16x16 ![] bcast_S_S16x16 : (⟨S_, .i32⟩ : BufTy).Contents (Elt F) → (⟨S16x16, .i32⟩ : BufTy).Contents (Elt F)),
    StableHlo.binary main_v188 main_v191 main_v192 (addi : (⟨S16x16, .i32⟩ : BufTy).Contents (Elt F) → (⟨S16x16, .i32⟩ : BufTy).Contents (Elt F) → (⟨S16x16, .i32⟩ : BufTy).Contents (Elt F)),
    StableHlo.ternary main_v190 main_v192 main_v188 main_v193 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v193 main_v194 (broadcastInDim S16x16x1 ![0, 1] bcast_S16x16_S16x16x1_0_1 : (⟨S16x16, .i32⟩ : BufTy).Contents (Elt F) → (⟨S16x16x1, .i32⟩ : BufTy).Contents (Elt F)),
    StableHlo.binary main_v184 main_v194 main_v195 ((fun x i => Host.gather gather_S128x128x16_S16x16x1_S128x128x16x16_01_2_n_n_2_2_1281281 x i) : (⟨S128x128x16, .f32⟩ : BufTy).Contents (Elt F) → (⟨S16x16x1, .i32⟩ : BufTy).Contents (Elt F) → (⟨S128x128x16x16, .f32⟩ : BufTy).Contents (Elt F)) ]

/-- Window 4 of @main, piece 0: 17 operations. -/
abbrev main_part4_ops0 : List (HloOp τ sig (Elt F)) :=
  [ StableHlo.unary main_v195 main_v196 ((transpose S128x16x128x16 [0, 2, 1, 3] · transposes_S128x128x16x16_S128x16x128x16_0_2_1_3) : (⟨S128x128x16x16, .f32⟩ : BufTy).Contents (Elt F) → (⟨S128x16x128x16, .f32⟩ : BufTy).Contents (Elt F)),
    StableHlo.reshape main_v196 main_v197 rfl shapeCasts_S128x16x128x16_S2048x2048,
    StableHlo.unary main_v156 main_v198 (broadcastInDim S2048x2048 ![] bcast_S_S2048x2048 : (⟨S_, .f32⟩ : BufTy).Contents (Elt F) → (⟨S2048x2048, .f32⟩ : BufTy).Contents (Elt F)),
    StableHlo.binary main_v198 main_v197 main_v199 (mulf : (⟨S2048x2048, .f32⟩ : BufTy).Contents (Elt F) → (⟨S2048x2048, .f32⟩ : BufTy).Contents (Elt F) → (⟨S2048x2048, .f32⟩ : BufTy).Contents (Elt F)),
    StableHlo.binary main_v154 main_v199 main_v200 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v201 ((extractStridedSlice S1 ![5] · slices_S7_S1_5) : (⟨S7, .f32⟩ : BufTy).Contents (Elt F) → (⟨S1, .f32⟩ : BufTy).Contents (Elt F)),
    StableHlo.reshape main_v201 main_v202 rfl shapeCasts_S1_S_,
    StableHlo.reshape main_arg1 main_v203 rfl shapeCasts_S2048x2048_S64x32x64x32,
    StableHlo.unary main_v203 main_v204 ((transpose S64x64x32x32 [0, 2, 1, 3] · transposes_S64x32x64x32_S64x64x32x32_0_2_1_3) : (⟨S64x32x64x32, .f32⟩ : BufTy).Contents (Elt F) → (⟨S64x64x32x32, .f32⟩ : BufTy).Contents (Elt F)),
    StableHlo.nullary main_v205 (iotaInDim S32 32 0),
    StableHlo.unary main_v205 main_v206 (broadcastInDim S32x1 ![0] bcast_S32_S32x1_0 : (⟨S32, .i32⟩ : BufTy).Contents (Elt F) → (⟨S32x1, .i32⟩ : BufTy).Contents (Elt F)),
    StableHlo.nullary main_v207 (iotaInDim S32 32 0),
    StableHlo.unary main_v207 main_v208 (broadcastInDim S1x32 ![1] bcast_S32_S1x32_1 : (⟨S32, .i32⟩ : BufTy).Contents (Elt F) → (⟨S1x32, .i32⟩ : BufTy).Contents (Elt F)),
    StableHlo.unary main_v206 main_v209 (broadcastInDim S32x32 ![0, 1] bcast_S32x1_S32x32_0_1 : (⟨S32x1, .i32⟩ : BufTy).Contents (Elt F) → (⟨S32x32, .i32⟩ : BufTy).Contents (Elt F)),
    StableHlo.unary main_v208 main_v210 (broadcastInDim S32x32 ![0, 1] bcast_S1x32_S32x32_0_1 : (⟨S1x32, .i32⟩ : BufTy).Contents (Elt F) → (⟨S32x32, .i32⟩ : BufTy).Contents (Elt F)),
    StableHlo.binary main_v209 main_v210 main_v211 (addi : (⟨S32x32, .i32⟩ : BufTy).Contents (Elt F) → (⟨S32x32, .i32⟩ : BufTy).Contents (Elt F) → (⟨S32x32, .i32⟩ : BufTy).Contents (Elt F)),
    StableHlo.nullary main_c_42 (constantI S_ 32 32#32) ]

/-- Window 4 of @main, piece 1: 21 operations. -/
abbrev main_part4_ops1 : List (HloOp τ sig (Elt F)) :=
  [ StableHlo.TRef.unary (.of main_c_42 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary main_call8_call0.v0 (.of main_call8_v3 : StableHlo.TRef sig ⟨S32x32, .i32⟩) (broadcastInDim S32x32 ![] bcast_S_S32x32),
    StableHlo.TRef.binary (.of main_v211 : StableHlo.TRef sig ⟨S32x32, .i32⟩) (.of main_call8_v3 : StableHlo.TRef sig ⟨S32x32, .i32⟩) (.of main_call8_v4 : StableHlo.TRef sig ⟨S32x32, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S32x32, .i32⟩) (broadcastInDim S32x32 ![] bcast_S_S32x32),
    StableHlo.TRef.binary (.of main_call8_v4 : StableHlo.TRef sig ⟨S32x32, .i32⟩) (.of main_call8_v5 : StableHlo.TRef sig ⟨S32x32, .i32⟩) (.of main_call8_v6 : StableHlo.TRef sig ⟨S32x32, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S32x32, .i32⟩) (broadcastInDim S32x32 ![] bcast_S_S32x32),
    StableHlo.TRef.binary (.of main_call8_v4 : StableHlo.TRef sig ⟨S32x32, .i32⟩) (.of main_call8_v7 : StableHlo.TRef sig ⟨S32x32, .i32⟩) (.of main_call8_v8 : StableHlo.TRef sig ⟨S32x32, .i1⟩) (cmpi .slt),
    StableHlo.TRef.nullary (.of main_call8_c_3 : StableHlo.TRef sig ⟨S_, .i32⟩) (constantI S_ 32 0#32),
    StableHlo.TRef.binary main_call8_call0.v0 (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S32x32, .i1⟩) (broadcastInDim S32x32 ![] bcast_S_S32x32),
    StableHlo.TRef.binary (.of main_call8_v8 : StableHlo.TRef sig ⟨S32x32, .i1⟩) (.of main_call8_v10 : StableHlo.TRef sig ⟨S32x32, .i1⟩) (.of main_call8_v11 : StableHlo.TRef sig ⟨S32x32, .i1⟩) (cmpi .ne),
    StableHlo.TRef.binary (.of main_call8_v11 : StableHlo.TRef sig ⟨S32x32, .i1⟩) (.of main_call8_v6 : StableHlo.TRef sig ⟨S32x32, .i1⟩) (.of main_call8_v12 : StableHlo.TRef sig ⟨S32x32, .i1⟩) andi,
    StableHlo.TRef.unary main_call8_call0.v0 (.of main_call8_v13 : StableHlo.TRef sig ⟨S32x32, .i32⟩) (broadcastInDim S32x32 ![] bcast_S_S32x32),
    StableHlo.TRef.binary (.of main_call8_v4 : StableHlo.TRef sig ⟨S32x32, .i32⟩) (.of main_call8_v13 : StableHlo.TRef sig ⟨S32x32, .i32⟩) (.of main_call8_v14 : StableHlo.TRef sig ⟨S32x32, .i32⟩) addi,
    StableHlo.TRef.ternary (.of main_call8_v12 : StableHlo.TRef sig ⟨S32x32, .i1⟩) (.of main_call8_v14 : StableHlo.TRef sig ⟨S32x32, .i32⟩) (.of main_call8_v4 : StableHlo.TRef sig ⟨S32x32, .i32⟩) (.of main_v212 : StableHlo.TRef sig ⟨S32x32, .i32⟩) select ]

/-- Window 4 of @main, piece 2: 28 operations. -/
abbrev main_part4_ops2 : List (HloOp τ sig (Elt F)) :=
  [ StableHlo.nullary main_c_43 (constantI S_ 32 0#32),
    StableHlo.unary main_c_43 main_v213 (broadcastInDim S32x1 ![] bcast_S_S32x1 : (⟨S_, .i32⟩ : BufTy).Contents (Elt F) → (⟨S32x1, .i32⟩ : BufTy).Contents (Elt F)),
    StableHlo.binary main_v206 main_v213 main_v214 (cmpi .slt : (⟨S32x1, .i32⟩ : BufTy).Contents (Elt F) → (⟨S32x1, .i32⟩ : BufTy).Contents (Elt F) → (⟨S32x1, .i1⟩ : BufTy).Contents (Elt F)),
    StableHlo.nullary main_c_44 (constantI S_ 32 32#32),
    StableHlo.unary main_c_44 main_v215 (broadcastInDim S32x1 ![] bcast_S_S32x1 : (⟨S_, .i32⟩ : BufTy).Contents (Elt F) → (⟨S32x1, .i32⟩ : BufTy).Contents (Elt F)),
    StableHlo.binary main_v206 main_v215 main_v216 (addi : (⟨S32x1, .i32⟩ : BufTy).Contents (Elt F) → (⟨S32x1, .i32⟩ : BufTy).Contents (Elt F) → (⟨S32x1, .i32⟩ : BufTy).Contents (Elt F)),
    StableHlo.ternary main_v214 main_v216 main_v206 main_v217 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    StableHlo.nullary main_c_45 (constantI S_ 32 0#32),
    StableHlo.unary main_c_45 main_v218 (broadcastInDim S32x32 ![] bcast_S_S32x32 : (⟨S_, .i32⟩ : BufTy).Contents (Elt F) → (⟨S32x32, .i32⟩ : BufTy).Contents (Elt F)),
    StableHlo.binary main_v212 main_v218 main_v219 (cmpi .slt : (⟨S32x32, .i32⟩ : BufTy).Contents (Elt F) → (⟨S32x32, .i32⟩ : BufTy).Contents (Elt F) → (⟨S32x32, .i1⟩ : BufTy).Contents (Elt F)),
    StableHlo.nullary main_c_46 (constantI S_ 32 32#32),
    StableHlo.unary main_c_46 main_v220 (broadcastInDim S32x32 ![] bcast_S_S32x32 : (⟨S_, .i32⟩ : BufTy).Contents (Elt F) → (⟨S32x32, .i32⟩ : BufTy).Contents (Elt F)),
    StableHlo.binary main_v212 main_v220 main_v221 (addi : (⟨S32x32, .i32⟩ : BufTy).Contents (Elt F) → (⟨S32x32, .i32⟩ : BufTy).Contents (Elt F) → (⟨S32x32, .i32⟩ : BufTy).Contents (Elt F)),
    StableHlo.ternary main_v219 main_v221 main_v212 main_v222 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v217 main_v223 (broadcastInDim S32x32 ![0, 1] bcast_S32x1_S32x32_0_1 : (⟨S32x1, .i32⟩ : BufTy).Contents (Elt F) → (⟨S32x32, .i32⟩ : BufTy).Contents (Elt F)),
    StableHlo.unary main_v223 main_v224 (broadcastInDim S32x32x1 ![0, 1] bcast_S32x32_S32x32x1_0_1 : (⟨S32x32, .i32⟩ : BufTy).Contents (Elt F) → (⟨S32x32x1, .i32⟩ : BufTy).Contents (Elt F)),
    StableHlo.unary main_v222 main_v225 (broadcastInDim S32x32x1 ![0, 1] bcast_S32x32_S32x32x1_0_1 : (⟨S32x32, .i32⟩ : BufTy).Contents (Elt F) → (⟨S32x32x1, .i32⟩ : BufTy).Contents (Elt F)),
    StableHlo.binary main_v224 main_v225 main_v226 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
    StableHlo.binary main_v204 main_v226 main_v227 ((fun x i => Host.gather gather_S64x64x32x32_S32x32x2_S64x64x32x32_01_23_n_n_23_2_646411 x i) : (⟨S64x64x32x32, .f32⟩ : BufTy).Contents (Elt F) → (⟨S32x32x2, .i32⟩ : BufTy).Contents (Elt F) → (⟨S64x64x32x32, .f32⟩ : BufTy).Contents (Elt F)),
    StableHlo.nullary main_cst_47 (constant S_ .f32 0x00000000#32),
    StableHlo.binary main_v227 main_cst_47 main_v228 ((fun x v => Host.reduceAdd x v reducesTo_S64x64x32x32_S64x64x32_d2 h_S_) : (⟨S64x64x32x32, .f32⟩ : BufTy).Contents (Elt F) → (⟨S_, .f32⟩ : BufTy).Contents (Elt F) → (⟨S64x64x32, .f32⟩ : BufTy).Contents (Elt F)),
    StableHlo.nullary main_cst_48 (constant S_ .f32 0x42000000#32),
    StableHlo.unary main_cst_48 main_v229 (broadcastInDim S64x64x32 ![] bcast_S_S64x64x32 : (⟨S_, .f32⟩ : BufTy).Contents (Elt F) → (⟨S64x64x32, .f32⟩ : BufTy).Contents (Elt F)),
    StableHlo.binary main_v228 main_v229 main_v230 (Host.divf : (⟨S64x64x32, .f32⟩ : BufTy).Contents (Elt F) → (⟨S64x64x32, .f32⟩ : BufTy).Contents (Elt F) → (⟨S64x64x32, .f32⟩ : BufTy).Contents (Elt F)),
    StableHlo.unary main_v208 main_v231 (broadcastInDim S32x32 ![0, 1] bcast_S1x32_S32x32_0_1 : (⟨S1x32, .i32⟩ : BufTy).Contents (Elt F) → (⟨S32x32, .i32⟩ : BufTy).Contents (Elt F)),
    StableHlo.unary main_v206 main_v232 (broadcastInDim S32x32 ![0, 1] bcast_S32x1_S32x32_0_1 : (⟨S32x1, .i32⟩ : BufTy).Contents (Elt F) → (⟨S32x32, .i32⟩ : BufTy).Contents (Elt F)),
    StableHlo.binary main_v231 main_v232 main_v233 (subi : (⟨S32x32, .i32⟩ : BufTy).Contents (Elt F) → (⟨S32x32, .i32⟩ : BufTy).Contents (Elt F) → (⟨S32x32, .i32⟩ : BufTy).Contents (Elt F)),
    StableHlo.nullary main_c_49 (constantI S_ 32 32#32) ]

/-- Window 4 of @main, piece 3: 21 operations. -/
abbrev main_part4_ops3 : List (HloOp τ sig (Elt F)) :=
  [ StableHlo.TRef.unary (.of main_c_49 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S32x32, .i32⟩) (broadcastInDim S32x32 ![] bcast_S_S32x32),
    StableHlo.TRef.binary (.of main_v233 : StableHlo.TRef sig ⟨S32x32, .i32⟩) (.of main_call9_v3 : StableHlo.TRef sig ⟨S32x32, .i32⟩) (.of main_call9_v4 : StableHlo.TRef sig ⟨S32x32, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S32x32, .i32⟩) (broadcastInDim S32x32 ![] bcast_S_S32x32),
    StableHlo.TRef.binary (.of main_call9_v4 : StableHlo.TRef sig ⟨S32x32, .i32⟩) (.of main_call9_v5 : StableHlo.TRef sig ⟨S32x32, .i32⟩) (.of main_call9_v6 : StableHlo.TRef sig ⟨S32x32, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S32x32, .i32⟩) (broadcastInDim S32x32 ![] bcast_S_S32x32),
    StableHlo.TRef.binary (.of main_call9_v4 : StableHlo.TRef sig ⟨S32x32, .i32⟩) (.of main_call9_v7 : StableHlo.TRef sig ⟨S32x32, .i32⟩) (.of main_call9_v8 : StableHlo.TRef sig ⟨S32x32, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S32x32, .i1⟩) (broadcastInDim S32x32 ![] bcast_S_S32x32),
    StableHlo.TRef.binary (.of main_call9_v8 : StableHlo.TRef sig ⟨S32x32, .i1⟩) (.of main_call9_v10 : StableHlo.TRef sig ⟨S32x32, .i1⟩) (.of main_call9_v11 : StableHlo.TRef sig ⟨S32x32, .i1⟩) (cmpi .ne),
    StableHlo.TRef.binary (.of main_call9_v11 : StableHlo.TRef sig ⟨S32x32, .i1⟩) (.of main_call9_v6 : StableHlo.TRef sig ⟨S32x32, .i1⟩) (.of main_call9_v12 : StableHlo.TRef sig ⟨S32x32, .i1⟩) andi,
    StableHlo.TRef.unary main_call9_call0.v0 (.of main_call9_v13 : StableHlo.TRef sig ⟨S32x32, .i32⟩) (broadcastInDim S32x32 ![] bcast_S_S32x32),
    StableHlo.TRef.binary (.of main_call9_v4 : StableHlo.TRef sig ⟨S32x32, .i32⟩) (.of main_call9_v13 : StableHlo.TRef sig ⟨S32x32, .i32⟩) (.of main_call9_v14 : StableHlo.TRef sig ⟨S32x32, .i32⟩) addi,
    StableHlo.TRef.ternary (.of main_call9_v12 : StableHlo.TRef sig ⟨S32x32, .i1⟩) (.of main_call9_v14 : StableHlo.TRef sig ⟨S32x32, .i32⟩) (.of main_call9_v4 : StableHlo.TRef sig ⟨S32x32, .i32⟩) (.of main_v234 : StableHlo.TRef sig ⟨S32x32, .i32⟩) select ]

/-- Window 4 of @main, piece 4: 13 operations. -/
abbrev main_part4_ops4 : List (HloOp τ sig (Elt F)) :=
  [ StableHlo.nullary main_c_50 (constantI S_ 32 0#32),
    StableHlo.unary main_c_50 main_v235 (broadcastInDim S32x32 ![] bcast_S_S32x32 : (⟨S_, .i32⟩ : BufTy).Contents (Elt F) → (⟨S32x32, .i32⟩ : BufTy).Contents (Elt F)),
    StableHlo.binary main_v234 main_v235 main_v236 (cmpi .slt : (⟨S32x32, .i32⟩ : BufTy).Contents (Elt F) → (⟨S32x32, .i32⟩ : BufTy).Contents (Elt F) → (⟨S32x32, .i1⟩ : BufTy).Contents (Elt F)),
    StableHlo.nullary main_c_51 (constantI S_ 32 32#32),
    StableHlo.unary main_c_51 main_v237 (broadcastInDim S32x32 ![] bcast_S_S32x32 : (⟨S_, .i32⟩ : BufTy).Contents (Elt F) → (⟨S32x32, .i32⟩ : BufTy).Contents (Elt F)),
    StableHlo.binary main_v234 main_v237 main_v238 (addi : (⟨S32x32, .i32⟩ : BufTy).Contents (Elt F) → (⟨S32x32, .i32⟩ : BufTy).Contents (Elt F) → (⟨S32x32, .i32⟩ : BufTy).Contents (Elt F)),
    StableHlo.ternary main_v236 main_v238 main_v234 main_v239 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v239 main_v240 (broadcastInDim S32x32x1 ![0, 1] bcast_S32x32_S32x32x1_0_1 : (⟨S32x32, .i32⟩ : BufTy).Contents (Elt F) → (⟨S32x32x1, .i32⟩ : BufTy).Contents (Elt F)),
    StableHlo.binary main_v230 main_v240 main_v241 ((fun x i => Host.gather gather_S64x64x32_S32x32x1_S64x64x32x32_01_2_n_n_2_2_64641 x i) : (⟨S64x64x32, .f32⟩ : BufTy).Contents (Elt F) → (⟨S32x32x1, .i32⟩ : BufTy).Contents (Elt F) → (⟨S64x64x32x32, .f32⟩ : BufTy).Contents (Elt F)),
    StableHlo.unary main_v241 main_v242 ((transpose S64x32x64x32 [0, 2, 1, 3] · transposes_S64x64x32x32_S64x32x64x32_0_2_1_3) : (⟨S64x64x32x32, .f32⟩ : BufTy).Contents (Elt F) → (⟨S64x32x64x32, .f32⟩ : BufTy).Contents (Elt F)),
    StableHlo.reshape main_v242 main_v243 rfl shapeCasts_S64x32x64x32_S2048x2048,
    StableHlo.unary main_v202 main_v244 (broadcastInDim S2048x2048 ![] bcast_S_S2048x2048 : (⟨S_, .f32⟩ : BufTy).Contents (Elt F) → (⟨S2048x2048, .f32⟩ : BufTy).Contents (Elt F)),
    StableHlo.binary main_v244 main_v243 main_v245 (mulf : (⟨S2048x2048, .f32⟩ : BufTy).Contents (Elt F) → (⟨S2048x2048, .f32⟩ : BufTy).Contents (Elt F) → (⟨S2048x2048, .f32⟩ : BufTy).Contents (Elt F)) ]

/-- Window 5 of @main, piece 0: 13 operations. -/
abbrev main_part5_ops0 : List (HloOp τ sig (Elt F)) :=
  [ StableHlo.binary main_v200 main_v245 main_v246 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v247 ((extractStridedSlice S1 ![6] · slices_S7_S1_6) : (⟨S7, .f32⟩ : BufTy).Contents (Elt F) → (⟨S1, .f32⟩ : BufTy).Contents (Elt F)),
    StableHlo.reshape main_v247 main_v248 rfl shapeCasts_S1_S_,
    StableHlo.reshape main_arg1 main_v249 rfl shapeCasts_S2048x2048_S32x64x32x64,
    StableHlo.unary main_v249 main_v250 ((transpose S32x32x64x64 [0, 2, 1, 3] · transposes_S32x64x32x64_S32x32x64x64_0_2_1_3) : (⟨S32x64x32x64, .f32⟩ : BufTy).Contents (Elt F) → (⟨S32x32x64x64, .f32⟩ : BufTy).Contents (Elt F)),
    StableHlo.nullary main_v251 (iotaInDim S64 32 0),
    StableHlo.unary main_v251 main_v252 (broadcastInDim S64x1 ![0] bcast_S64_S64x1_0 : (⟨S64, .i32⟩ : BufTy).Contents (Elt F) → (⟨S64x1, .i32⟩ : BufTy).Contents (Elt F)),
    StableHlo.nullary main_v253 (iotaInDim S64 32 0),
    StableHlo.unary main_v253 main_v254 (broadcastInDim S1x64 ![1] bcast_S64_S1x64_1 : (⟨S64, .i32⟩ : BufTy).Contents (Elt F) → (⟨S1x64, .i32⟩ : BufTy).Contents (Elt F)),
    StableHlo.unary main_v252 main_v255 (broadcastInDim S64x64 ![0, 1] bcast_S64x1_S64x64_0_1 : (⟨S64x1, .i32⟩ : BufTy).Contents (Elt F) → (⟨S64x64, .i32⟩ : BufTy).Contents (Elt F)),
    StableHlo.unary main_v254 main_v256 (broadcastInDim S64x64 ![0, 1] bcast_S1x64_S64x64_0_1 : (⟨S1x64, .i32⟩ : BufTy).Contents (Elt F) → (⟨S64x64, .i32⟩ : BufTy).Contents (Elt F)),
    StableHlo.binary main_v255 main_v256 main_v257 (addi : (⟨S64x64, .i32⟩ : BufTy).Contents (Elt F) → (⟨S64x64, .i32⟩ : BufTy).Contents (Elt F) → (⟨S64x64, .i32⟩ : BufTy).Contents (Elt F)),
    StableHlo.nullary main_c_52 (constantI S_ 32 64#32) ]

/-- Window 5 of @main, piece 1: 21 operations. -/
abbrev main_part5_ops1 : List (HloOp τ sig (Elt F)) :=
  [ StableHlo.TRef.unary (.of main_c_52 : StableHlo.TRef sig ⟨S_, .i32⟩) (.of main_call10_v0 : StableHlo.TRef sig ⟨S_, .i32⟩) id,
    StableHlo.TRef.nullary (.of main_call10_c : StableHlo.TRef sig ⟨S_, .i32⟩) (constantI S_ 32 0#32),
    StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq),
    StableHlo.TRef.nullary (.of main_call10_c_0 : StableHlo.TRef sig ⟨S_, .i32⟩) (constantI S_ 32 1#32),
    StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select,
    StableHlo.TRef.unary main_call10_call0.v0 (.of main_call10_v3 : StableHlo.TRef sig ⟨S64x64, .i32⟩) (broadcastInDim S64x64 ![] bcast_S_S64x64),
    StableHlo.TRef.binary (.of main_v257 : StableHlo.TRef sig ⟨S64x64, .i32⟩) (.of main_call10_v3 : StableHlo.TRef sig ⟨S64x64, .i32⟩) (.of main_call10_v4 : StableHlo.TRef sig ⟨S64x64, .i32⟩) Host.remsi,
    StableHlo.TRef.nullary (.of main_call10_c_1 : StableHlo.TRef sig ⟨S_, .i32⟩) (constantI S_ 32 0#32),
    StableHlo.TRef.unary (.of main_call10_c_1 : StableHlo.TRef sig ⟨S_, .i32⟩) (.of main_call10_v5 : StableHlo.TRef sig ⟨S64x64, .i32⟩) (broadcastInDim S64x64 ![] bcast_S_S64x64),
    StableHlo.TRef.binary (.of main_call10_v4 : StableHlo.TRef sig ⟨S64x64, .i32⟩) (.of main_call10_v5 : StableHlo.TRef sig ⟨S64x64, .i32⟩) (.of main_call10_v6 : StableHlo.TRef sig ⟨S64x64, .i1⟩) (cmpi .ne),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v7 : StableHlo.TRef sig ⟨S64x64, .i32⟩) (broadcastInDim S64x64 ![] bcast_S_S64x64),
    StableHlo.TRef.binary (.of main_call10_v4 : StableHlo.TRef sig ⟨S64x64, .i32⟩) (.of main_call10_v7 : StableHlo.TRef sig ⟨S64x64, .i32⟩) (.of main_call10_v8 : StableHlo.TRef sig ⟨S64x64, .i1⟩) (cmpi .slt),
    StableHlo.TRef.nullary (.of main_call10_c_3 : StableHlo.TRef sig ⟨S_, .i32⟩) (constantI S_ 32 0#32),
    StableHlo.TRef.binary main_call10_call0.v0 (.of main_call10_c_3 : StableHlo.TRef sig ⟨S_, .i32⟩) (.of main_call10_v9 : StableHlo.TRef sig ⟨S_, .i1⟩) (cmpi .slt),
    StableHlo.TRef.unary (.of main_call10_v9 : StableHlo.TRef sig ⟨S_, .i1⟩) (.of main_call10_v10 : StableHlo.TRef sig ⟨S64x64, .i1⟩) (broadcastInDim S64x64 ![] bcast_S_S64x64),
    StableHlo.TRef.binary (.of main_call10_v8 : StableHlo.TRef sig ⟨S64x64, .i1⟩) (.of main_call10_v10 : StableHlo.TRef sig ⟨S64x64, .i1⟩) (.of main_call10_v11 : StableHlo.TRef sig ⟨S64x64, .i1⟩) (cmpi .ne),
    StableHlo.TRef.binary (.of main_call10_v11 : StableHlo.TRef sig ⟨S64x64, .i1⟩) (.of main_call10_v6 : StableHlo.TRef sig ⟨S64x64, .i1⟩) (.of main_call10_v12 : StableHlo.TRef sig ⟨S64x64, .i1⟩) andi,
    StableHlo.TRef.unary main_call10_call0.v0 (.of main_call10_v13 : StableHlo.TRef sig ⟨S64x64, .i32⟩) (broadcastInDim S64x64 ![] bcast_S_S64x64),
    StableHlo.TRef.binary (.of main_call10_v4 : StableHlo.TRef sig ⟨S64x64, .i32⟩) (.of main_call10_v13 : StableHlo.TRef sig ⟨S64x64, .i32⟩) (.of main_call10_v14 : StableHlo.TRef sig ⟨S64x64, .i32⟩) addi,
    StableHlo.TRef.ternary (.of main_call10_v12 : StableHlo.TRef sig ⟨S64x64, .i1⟩) (.of main_call10_v14 : StableHlo.TRef sig ⟨S64x64, .i32⟩) (.of main_call10_v4 : StableHlo.TRef sig ⟨S64x64, .i32⟩) (.of main_v258 : StableHlo.TRef sig ⟨S64x64, .i32⟩) select ]

/-- Window 5 of @main, piece 2: 28 operations. -/
abbrev main_part5_ops2 : List (HloOp τ sig (Elt F)) :=
  [ StableHlo.nullary main_c_53 (constantI S_ 32 0#32),
    StableHlo.unary main_c_53 main_v259 (broadcastInDim S64x1 ![] bcast_S_S64x1 : (⟨S_, .i32⟩ : BufTy).Contents (Elt F) → (⟨S64x1, .i32⟩ : BufTy).Contents (Elt F)),
    StableHlo.binary main_v252 main_v259 main_v260 (cmpi .slt : (⟨S64x1, .i32⟩ : BufTy).Contents (Elt F) → (⟨S64x1, .i32⟩ : BufTy).Contents (Elt F) → (⟨S64x1, .i1⟩ : BufTy).Contents (Elt F)),
    StableHlo.nullary main_c_54 (constantI S_ 32 64#32),
    StableHlo.unary main_c_54 main_v261 (broadcastInDim S64x1 ![] bcast_S_S64x1 : (⟨S_, .i32⟩ : BufTy).Contents (Elt F) → (⟨S64x1, .i32⟩ : BufTy).Contents (Elt F)),
    StableHlo.binary main_v252 main_v261 main_v262 (addi : (⟨S64x1, .i32⟩ : BufTy).Contents (Elt F) → (⟨S64x1, .i32⟩ : BufTy).Contents (Elt F) → (⟨S64x1, .i32⟩ : BufTy).Contents (Elt F)),
    StableHlo.ternary main_v260 main_v262 main_v252 main_v263 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_55 (constantI S_ 32 0#32),
    StableHlo.unary main_c_55 main_v264 (broadcastInDim S64x64 ![] bcast_S_S64x64 : (⟨S_, .i32⟩ : BufTy).Contents (Elt F) → (⟨S64x64, .i32⟩ : BufTy).Contents (Elt F)),
    StableHlo.binary main_v258 main_v264 main_v265 (cmpi .slt : (⟨S64x64, .i32⟩ : BufTy).Contents (Elt F) → (⟨S64x64, .i32⟩ : BufTy).Contents (Elt F) → (⟨S64x64, .i1⟩ : BufTy).Contents (Elt F)),
    StableHlo.nullary main_c_56 (constantI S_ 32 64#32),
    StableHlo.unary main_c_56 main_v266 (broadcastInDim S64x64 ![] bcast_S_S64x64 : (⟨S_, .i32⟩ : BufTy).Contents (Elt F) → (⟨S64x64, .i32⟩ : BufTy).Contents (Elt F)),
    StableHlo.binary main_v258 main_v266 main_v267 (addi : (⟨S64x64, .i32⟩ : BufTy).Contents (Elt F) → (⟨S64x64, .i32⟩ : BufTy).Contents (Elt F) → (⟨S64x64, .i32⟩ : BufTy).Contents (Elt F)),
    StableHlo.ternary main_v265 main_v267 main_v258 main_v268 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v263 main_v269 (broadcastInDim S64x64 ![0, 1] bcast_S64x1_S64x64_0_1 : (⟨S64x1, .i32⟩ : BufTy).Contents (Elt F) → (⟨S64x64, .i32⟩ : BufTy).Contents (Elt F)),
    StableHlo.unary main_v269 main_v270 (broadcastInDim S64x64x1 ![0, 1] bcast_S64x64_S64x64x1_0_1 : (⟨S64x64, .i32⟩ : BufTy).Contents (Elt F) → (⟨S64x64x1, .i32⟩ : BufTy).Contents (Elt F)),
    StableHlo.unary main_v268 main_v271 (broadcastInDim S64x64x1 ![0, 1] bcast_S64x64_S64x64x1_0_1 : (⟨S64x64, .i32⟩ : BufTy).Contents (Elt F) → (⟨S64x64x1, .i32⟩ : BufTy).Contents (Elt F)),
    StableHlo.binary main_v270 main_v271 main_v272 ((fun a b => concatenate S64x64x2 2 [⟨S64x64x1, a⟩, ⟨S64x64x1, b⟩] concatenates_S64x64x1_S64x64x1_S64x64x2_d2) : (⟨S64x64x1, .i32⟩ : BufTy).Contents (Elt F) → (⟨S64x64x1, .i32⟩ : BufTy).Contents (Elt F) → (⟨S64x64x2, .i32⟩ : BufTy).Contents (Elt F)),
    StableHlo.binary main_v250 main_v272 main_v273 ((fun x i => Host.gather gather_S32x32x64x64_S64x64x2_S32x32x64x64_01_23_n_n_23_2_323211 x i) : (⟨S32x32x64x64, .f32⟩ : BufTy).Contents (Elt F) → (⟨S64x64x2, .i32⟩ : BufTy).Contents (Elt F) → (⟨S32x32x64x64, .f32⟩ : BufTy).Contents (Elt F)),
    StableHlo.nullary main_cst_57 (constant S_ .f32 0x00000000#32),
    StableHlo.binary main_v273 main_cst_57 main_v274 ((fun x v => Host.reduceAdd x v reducesTo_S32x32x64x64_S32x32x64_d2 h_S_) : (⟨S32x32x64x64, .f32⟩ : BufTy).Contents (Elt F) → (⟨S_, .f32⟩ : BufTy).Contents (Elt F) → (⟨S32x32x64, .f32⟩ : BufTy).Contents (Elt F)),
    StableHlo.nullary main_cst_58 (constant S_ .f32 0x42800000#32),
    StableHlo.unary main_cst_58 main_v275 (broadcastInDim S32x32x64 ![] bcast_S_S32x32x64 : (⟨S_, .f32⟩ : BufTy).Contents (Elt F) → (⟨S32x32x64, .f32⟩ : BufTy).Contents (Elt F)),
    StableHlo.binary main_v274 main_v275 main_v276 (Host.divf : (⟨S32x32x64, .f32⟩ : BufTy).Contents (Elt F) → (⟨S32x32x64, .f32⟩ : BufTy).Contents (Elt F) → (⟨S32x32x64, .f32⟩ : BufTy).Contents (Elt F)),
    StableHlo.unary main_v254 main_v277 (broadcastInDim S64x64 ![0, 1] bcast_S1x64_S64x64_0_1 : (⟨S1x64, .i32⟩ : BufTy).Contents (Elt F) → (⟨S64x64, .i32⟩ : BufTy).Contents (Elt F)),
    StableHlo.unary main_v252 main_v278 (broadcastInDim S64x64 ![0, 1] bcast_S64x1_S64x64_0_1 : (⟨S64x1, .i32⟩ : BufTy).Contents (Elt F) → (⟨S64x64, .i32⟩ : BufTy).Contents (Elt F)),
    StableHlo.binary main_v277 main_v278 main_v279 (subi : (⟨S64x64, .i32⟩ : BufTy).Contents (Elt F) → (⟨S64x64, .i32⟩ : BufTy).Contents (Elt F) → (⟨S64x64, .i32⟩ : BufTy).Contents (Elt F)),
    StableHlo.nullary main_c_59 (constantI S_ 32 64#32) ]

/-- Window 5 of @main, piece 3: 21 operations. -/
abbrev main_part5_ops3 : List (HloOp τ sig (Elt F)) :=
  [ StableHlo.TRef.unary (.of main_c_59 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary main_call11_call0.v0 (.of main_call11_v3 : StableHlo.TRef sig ⟨S64x64, .i32⟩) (broadcastInDim S64x64 ![] bcast_S_S64x64),
    StableHlo.TRef.binary (.of main_v279 : StableHlo.TRef sig ⟨S64x64, .i32⟩) (.of main_call11_v3 : StableHlo.TRef sig ⟨S64x64, .i32⟩) (.of main_call11_v4 : StableHlo.TRef sig ⟨S64x64, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S64x64, .i32⟩) (broadcastInDim S64x64 ![] bcast_S_S64x64),
    StableHlo.TRef.binary (.of main_call11_v4 : StableHlo.TRef sig ⟨S64x64, .i32⟩) (.of main_call11_v5 : StableHlo.TRef sig ⟨S64x64, .i32⟩) (.of main_call11_v6 : StableHlo.TRef sig ⟨S64x64, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S64x64, .i32⟩) (broadcastInDim S64x64 ![] bcast_S_S64x64),
    StableHlo.TRef.binary (.of main_call11_v4 : StableHlo.TRef sig ⟨S64x64, .i32⟩) (.of main_call11_v7 : StableHlo.TRef sig ⟨S64x64, .i32⟩) (.of main_call11_v8 : StableHlo.TRef sig ⟨S64x64, .i1⟩) (cmpi .slt),
    StableHlo.TRef.nullary (.of main_call11_c_3 : StableHlo.TRef sig ⟨S_, .i32⟩) (constantI S_ 32 0#32),
    StableHlo.TRef.binary main_call11_call0.v0 (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S64x64, .i1⟩) (broadcastInDim S64x64 ![] bcast_S_S64x64),
    StableHlo.TRef.binary (.of main_call11_v8 : StableHlo.TRef sig ⟨S64x64, .i1⟩) (.of main_call11_v10 : StableHlo.TRef sig ⟨S64x64, .i1⟩) (.of main_call11_v11 : StableHlo.TRef sig ⟨S64x64, .i1⟩) (cmpi .ne),
    StableHlo.TRef.binary (.of main_call11_v11 : StableHlo.TRef sig ⟨S64x64, .i1⟩) (.of main_call11_v6 : StableHlo.TRef sig ⟨S64x64, .i1⟩) (.of main_call11_v12 : StableHlo.TRef sig ⟨S64x64, .i1⟩) andi,
    StableHlo.TRef.unary main_call11_call0.v0 (.of main_call11_v13 : StableHlo.TRef sig ⟨S64x64, .i32⟩) (broadcastInDim S64x64 ![] bcast_S_S64x64),
    StableHlo.TRef.binary (.of main_call11_v4 : StableHlo.TRef sig ⟨S64x64, .i32⟩) (.of main_call11_v13 : StableHlo.TRef sig ⟨S64x64, .i32⟩) (.of main_call11_v14 : StableHlo.TRef sig ⟨S64x64, .i32⟩) addi,
    StableHlo.TRef.ternary (.of main_call11_v12 : StableHlo.TRef sig ⟨S64x64, .i1⟩) (.of main_call11_v14 : StableHlo.TRef sig ⟨S64x64, .i32⟩) (.of main_call11_v4 : StableHlo.TRef sig ⟨S64x64, .i32⟩) (.of main_v280 : StableHlo.TRef sig ⟨S64x64, .i32⟩) select ]

/-- Window 5 of @main, piece 4: 17 operations. -/
abbrev main_part5_ops4 : List (HloOp τ sig (Elt F)) :=
  [ StableHlo.nullary main_c_60 (constantI S_ 32 0#32),
    StableHlo.unary main_c_60 main_v281 (broadcastInDim S64x64 ![] bcast_S_S64x64 : (⟨S_, .i32⟩ : BufTy).Contents (Elt F) → (⟨S64x64, .i32⟩ : BufTy).Contents (Elt F)),
    StableHlo.binary main_v280 main_v281 main_v282 (cmpi .slt : (⟨S64x64, .i32⟩ : BufTy).Contents (Elt F) → (⟨S64x64, .i32⟩ : BufTy).Contents (Elt F) → (⟨S64x64, .i1⟩ : BufTy).Contents (Elt F)),
    StableHlo.nullary main_c_61 (constantI S_ 32 64#32),
    StableHlo.unary main_c_61 main_v283 (broadcastInDim S64x64 ![] bcast_S_S64x64 : (⟨S_, .i32⟩ : BufTy).Contents (Elt F) → (⟨S64x64, .i32⟩ : BufTy).Contents (Elt F)),
    StableHlo.binary main_v280 main_v283 main_v284 (addi : (⟨S64x64, .i32⟩ : BufTy).Contents (Elt F) → (⟨S64x64, .i32⟩ : BufTy).Contents (Elt F) → (⟨S64x64, .i32⟩ : BufTy).Contents (Elt F)),
    StableHlo.ternary main_v282 main_v284 main_v280 main_v285 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v285 main_v286 (broadcastInDim S64x64x1 ![0, 1] bcast_S64x64_S64x64x1_0_1 : (⟨S64x64, .i32⟩ : BufTy).Contents (Elt F) → (⟨S64x64x1, .i32⟩ : BufTy).Contents (Elt F)),
    StableHlo.binary main_v276 main_v286 main_v287 ((fun x i => Host.gather gather_S32x32x64_S64x64x1_S32x32x64x64_01_2_n_n_2_2_32321 x i) : (⟨S32x32x64, .f32⟩ : BufTy).Contents (Elt F) → (⟨S64x64x1, .i32⟩ : BufTy).Contents (Elt F) → (⟨S32x32x64x64, .f32⟩ : BufTy).Contents (Elt F)),
    StableHlo.unary main_v287 main_v288 ((transpose S32x64x32x64 [0, 2, 1, 3] · transposes_S32x32x64x64_S32x64x32x64_0_2_1_3) : (⟨S32x32x64x64, .f32⟩ : BufTy).Contents (Elt F) → (⟨S32x64x32x64, .f32⟩ : BufTy).Contents (Elt F)),
    StableHlo.reshape main_v288 main_v289 rfl shapeCasts_S32x64x32x64_S2048x2048,
    StableHlo.unary main_v248 main_v290 (broadcastInDim S2048x2048 ![] bcast_S_S2048x2048 : (⟨S_, .f32⟩ : BufTy).Contents (Elt F) → (⟨S2048x2048, .f32⟩ : BufTy).Contents (Elt F)),
    StableHlo.binary main_v290 main_v289 main_v291 (mulf : (⟨S2048x2048, .f32⟩ : BufTy).Contents (Elt F) → (⟨S2048x2048, .f32⟩ : BufTy).Contents (Elt F) → (⟨S2048x2048, .f32⟩ : BufTy).Contents (Elt F)),
    StableHlo.binary main_v246 main_v291 main_v292 (addf : (⟨S2048x2048, .f32⟩ : BufTy).Contents (Elt F) → (⟨S2048x2048, .f32⟩ : BufTy).Contents (Elt F) → (⟨S2048x2048, .f32⟩ : BufTy).Contents (Elt F)),
    StableHlo.binary main_arg0 main_v292 main_v293 ((fun l r => Host.dotGeneral dot_S16x1024x2048_S2048x2048_S16x1024x2048_2_1_01_0_n_n none l r) : (⟨S16x1024x2048, .f32⟩ : BufTy).Contents (Elt F) → (⟨S2048x2048, .f32⟩ : BufTy).Contents (Elt F) → (⟨S16x1024x2048, .f32⟩ : BufTy).Contents (Elt F)),
    StableHlo.unary main_arg2 main_v294 (broadcastInDim S1x1x2048 ![2] bcast_S2048_S1x1x2048_2 : (⟨S2048, .f32⟩ : BufTy).Contents (Elt F) → (⟨S1x1x2048, .f32⟩ : BufTy).Contents (Elt F)),
    StableHlo.unary main_v294 main_v295 (broadcastInDim S16x1024x2048 ![0, 1, 2] bcast_S1x1x2048_S16x1024x2048_0_1_2 : (⟨S1x1x2048, .f32⟩ : BufTy).Contents (Elt F) → (⟨S16x1024x2048, .f32⟩ : BufTy).Contents (Elt F)) ]

/-- Window 6 of @main: the sum with the bias. -/
abbrev main_part6_ops0 : List (HloOp τ sig (Elt F)) :=
  [ StableHlo.binary main_v293 main_v295 main_v296 (addf : (⟨S16x1024x2048, .f32⟩ : BufTy).Contents (Elt F) → (⟨S16x1024x2048, .f32⟩ : BufTy).Contents (Elt F) → (⟨S16x1024x2048, .f32⟩ : BufTy).Contents (Elt F)) ]

/-- Stretch 0 of @main (between two calls): 33 operations. -/
abbrev stretch0 : List (HloOp τ sig (Elt F)) :=
  [ StableHlo.binary main_arg3 main_arg4 main_v0 (addf : (⟨S7, .f32⟩ : BufTy).Contents (Elt F) → (⟨S7, .f32⟩ : BufTy).Contents (Elt F) → (⟨S7, .f32⟩ : BufTy).Contents (Elt F)),
    StableHlo.nullary main_cst (constant S_ .f32 0x3F800000#32),
    StableHlo.unary main_cst main_v1 (broadcastInDim S7 ![] bcast_S_S7 : (⟨S_, .f32⟩ : BufTy).Contents (Elt F) → (⟨S7, .f32⟩ : BufTy).Contents (Elt F)),
    StableHlo.binary main_v0 main_v1 main_v2 (Host.divf : (⟨S7, .f32⟩ : BufTy).Contents (Elt F) → (⟨S7, .f32⟩ : BufTy).Contents (Elt F) → (⟨S7, .f32⟩ : BufTy).Contents (Elt F)),
    StableHlo.nullary main_cst_0 (constant S_ .f32 0xFF800000#32),
    StableHlo.binary main_v2 main_cst_0 main_v3 ((fun x v => Host.reduce FloatOps.maximumf x v reducesTo_S7_S_d0 h_S_) : (⟨S7, .f32⟩ : BufTy).Contents (Elt F) → (⟨S_, .f32⟩ : BufTy).Contents (Elt F) → (⟨S_, .f32⟩ : BufTy).Contents (Elt F)),
    StableHlo.nullary main_cst_1 (constant S_ .f32 0xFF800000#32),
    StableHlo.binary main_cst_1 main_v3 main_v4 (maximumf : (⟨S_, .f32⟩ : BufTy).Contents (Elt F) → (⟨S_, .f32⟩ : BufTy).Contents (Elt F) → (⟨S_, .f32⟩ : BufTy).Contents (Elt F)),
    StableHlo.unary main_v4 main_v5 (broadcastInDim S1 ![] bcast_S_S1 : (⟨S_, .f32⟩ : BufTy).Contents (Elt F) → (⟨S1, .f32⟩ : BufTy).Contents (Elt F)),
    StableHlo.unary main_v5 main_v6 (broadcastInDim S7 ![0] bcast_S1_S7_0 : (⟨S1, .f32⟩ : BufTy).Contents (Elt F) → (⟨S7, .f32⟩ : BufTy).Contents (Elt F)),
    StableHlo.binary main_v2 main_v6 main_v7 (subf : (⟨S7, .f32⟩ : BufTy).Contents (Elt F) → (⟨S7, .f32⟩ : BufTy).Contents (Elt F) → (⟨S7, .f32⟩ : BufTy).Contents (Elt F)),
    StableHlo.unary main_v7 main_v8 (Host.exp : (⟨S7, .f32⟩ : BufTy).Contents (Elt F) → (⟨S7, .f32⟩ : BufTy).Contents (Elt F)),
    StableHlo.nullary main_cst_2 (constant S_ .f32 0x00000000#32),
    StableHlo.binary main_v8 main_cst_2 main_v9 ((fun x v => Host.reduceAdd x v reducesTo_S7_S_d0 h_S_) : (⟨S7, .f32⟩ : BufTy).Contents (Elt F) → (⟨S_, .f32⟩ : BufTy).Contents (Elt F) → (⟨S_, .f32⟩ : BufTy).Contents (Elt F)),
    StableHlo.unary main_v9 main_v10 (broadcastInDim S1 ![] bcast_S_S1 : (⟨S_, .f32⟩ : BufTy).Contents (Elt F) → (⟨S1, .f32⟩ : BufTy).Contents (Elt F)),
    StableHlo.unary main_v10 main_v11 (broadcastInDim S7 ![0] bcast_S1_S7_0 : (⟨S1, .f32⟩ : BufTy).Contents (Elt F) → (⟨S7, .f32⟩ : BufTy).Contents (Elt F)),
    StableHlo.binary main_v8 main_v11 main_v12 (Host.divf : (⟨S7, .f32⟩ : BufTy).Contents (Elt F) → (⟨S7, .f32⟩ : BufTy).Contents (Elt F) → (⟨S7, .f32⟩ : BufTy).Contents (Elt F)),
    StableHlo.unary main_v12 main_v13 ((extractStridedSlice S1 ![0] · slices_S7_S1_0) : (⟨S7, .f32⟩ : BufTy).Contents (Elt F) → (⟨S1, .f32⟩ : BufTy).Contents (Elt F)),
    StableHlo.reshape main_v13 main_v14 rfl shapeCasts_S1_S_,
    StableHlo.unary main_v14 main_v15 (broadcastInDim S2048x2048 ![] bcast_S_S2048x2048 : (⟨S_, .f32⟩ : BufTy).Contents (Elt F) → (⟨S2048x2048, .f32⟩ : BufTy).Contents (Elt F)),
    StableHlo.binary main_v15 main_arg1 main_v16 (mulf : (⟨S2048x2048, .f32⟩ : BufTy).Contents (Elt F) → (⟨S2048x2048, .f32⟩ : BufTy).Contents (Elt F) → (⟨S2048x2048, .f32⟩ : BufTy).Contents (Elt F)),
    StableHlo.unary main_v12 main_v17 ((extractStridedSlice S1 ![1] · slices_S7_S1_1) : (⟨S7, .f32⟩ : BufTy).Contents (Elt F) → (⟨S1, .f32⟩ : BufTy).Contents (Elt F)),
    StableHlo.reshape main_v17 main_v18 rfl shapeCasts_S1_S_,
    StableHlo.reshape main_arg1 main_v19 rfl shapeCasts_S2048x2048_S1024x2x1024x2,
    StableHlo.unary main_v19 main_v20 ((transpose S1024x1024x2x2 [0, 2, 1, 3] · transposes_S1024x2x1024x2_S1024x1024x2x2_0_2_1_3) : (⟨S1024x2x1024x2, .f32⟩ : BufTy).Contents (Elt F) → (⟨S1024x1024x2x2, .f32⟩ : BufTy).Contents (Elt F)),
    StableHlo.nullary main_v21 (iotaInDim S2 32 0),
    StableHlo.unary main_v21 main_v22 (broadcastInDim S2x1 ![0] bcast_S2_S2x1_0 : (⟨S2, .i32⟩ : BufTy).Contents (Elt F) → (⟨S2x1, .i32⟩ : BufTy).Contents (Elt F)),
    StableHlo.nullary main_v23 (iotaInDim S2 32 0),
    StableHlo.unary main_v23 main_v24 (broadcastInDim S1x2 ![1] bcast_S2_S1x2_1 : (⟨S2, .i32⟩ : BufTy).Contents (Elt F) → (⟨S1x2, .i32⟩ : BufTy).Contents (Elt F)),
    StableHlo.unary main_v22 main_v25 (broadcastInDim S2x2 ![0, 1] bcast_S2x1_S2x2_0_1 : (⟨S2x1, .i32⟩ : BufTy).Contents (Elt F) → (⟨S2x2, .i32⟩ : BufTy).Contents (Elt F)),
    StableHlo.unary main_v24 main_v26 (broadcastInDim S2x2 ![0, 1] bcast_S1x2_S2x2_0_1 : (⟨S1x2, .i32⟩ : BufTy).Contents (Elt F) → (⟨S2x2, .i32⟩ : BufTy).Contents (Elt F)),
    StableHlo.binary main_v25 main_v26 main_v27 (addi : (⟨S2x2, .i32⟩ : BufTy).Contents (Elt F) → (⟨S2x2, .i32⟩ : BufTy).Contents (Elt F) → (⟨S2x2, .i32⟩ : BufTy).Contents (Elt F)),
    StableHlo.nullary main_c (constantI S_ 32 2#32) ]

/-- Stretch 1 of @main (a call's operations): 21 operations. -/
abbrev stretch1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S2x2, .i32⟩) (broadcastInDim S2x2 ![] bcast_S_S2x2),
    StableHlo.TRef.binary (.of main_v27 : StableHlo.TRef sig ⟨S2x2, .i32⟩) (.of main_call0_v3 : StableHlo.TRef sig ⟨S2x2, .i32⟩) (.of main_call0_v4 : StableHlo.TRef sig ⟨S2x2, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S2x2, .i32⟩) (broadcastInDim S2x2 ![] bcast_S_S2x2),
    StableHlo.TRef.binary (.of main_call0_v4 : StableHlo.TRef sig ⟨S2x2, .i32⟩) (.of main_call0_v5 : StableHlo.TRef sig ⟨S2x2, .i32⟩) (.of main_call0_v6 : StableHlo.TRef sig ⟨S2x2, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S2x2, .i32⟩) (broadcastInDim S2x2 ![] bcast_S_S2x2),
    StableHlo.TRef.binary (.of main_call0_v4 : StableHlo.TRef sig ⟨S2x2, .i32⟩) (.of main_call0_v7 : StableHlo.TRef sig ⟨S2x2, .i32⟩) (.of main_call0_v8 : StableHlo.TRef sig ⟨S2x2, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S2x2, .i1⟩) (broadcastInDim S2x2 ![] bcast_S_S2x2),
    StableHlo.TRef.binary (.of main_call0_v8 : StableHlo.TRef sig ⟨S2x2, .i1⟩) (.of main_call0_v10 : StableHlo.TRef sig ⟨S2x2, .i1⟩) (.of main_call0_v11 : StableHlo.TRef sig ⟨S2x2, .i1⟩) (cmpi .ne),
    StableHlo.TRef.binary (.of main_call0_v11 : StableHlo.TRef sig ⟨S2x2, .i1⟩) (.of main_call0_v6 : StableHlo.TRef sig ⟨S2x2, .i1⟩) (.of main_call0_v12 : StableHlo.TRef sig ⟨S2x2, .i1⟩) andi,
    StableHlo.TRef.unary main_call0_call0.v0 (.of main_call0_v13 : StableHlo.TRef sig ⟨S2x2, .i32⟩) (broadcastInDim S2x2 ![] bcast_S_S2x2),
    StableHlo.TRef.binary (.of main_call0_v4 : StableHlo.TRef sig ⟨S2x2, .i32⟩) (.of main_call0_v13 : StableHlo.TRef sig ⟨S2x2, .i32⟩) (.of main_call0_v14 : StableHlo.TRef sig ⟨S2x2, .i32⟩) addi,
    StableHlo.TRef.ternary (.of main_call0_v12 : StableHlo.TRef sig ⟨S2x2, .i1⟩) (.of main_call0_v14 : StableHlo.TRef sig ⟨S2x2, .i32⟩) (.of main_call0_v4 : StableHlo.TRef sig ⟨S2x2, .i32⟩) (.of main_v28 : StableHlo.TRef sig ⟨S2x2, .i32⟩) select ]

/-- Stretch 2 of @main (between two calls): 28 operations. -/
abbrev stretch2 : List (HloOp τ sig (Elt F)) :=
  [ StableHlo.nullary main_c_3 (constantI S_ 32 0#32),
    StableHlo.unary main_c_3 main_v29 (broadcastInDim S2x1 ![] bcast_S_S2x1 : (⟨S_, .i32⟩ : BufTy).Contents (Elt F) → (⟨S2x1, .i32⟩ : BufTy).Contents (Elt F)),
    StableHlo.binary main_v22 main_v29 main_v30 (cmpi .slt : (⟨S2x1, .i32⟩ : BufTy).Contents (Elt F) → (⟨S2x1, .i32⟩ : BufTy).Contents (Elt F) → (⟨S2x1, .i1⟩ : BufTy).Contents (Elt F)),
    StableHlo.nullary main_c_4 (constantI S_ 32 2#32),
    StableHlo.unary main_c_4 main_v31 (broadcastInDim S2x1 ![] bcast_S_S2x1 : (⟨S_, .i32⟩ : BufTy).Contents (Elt F) → (⟨S2x1, .i32⟩ : BufTy).Contents (Elt F)),
    StableHlo.binary main_v22 main_v31 main_v32 (addi : (⟨S2x1, .i32⟩ : BufTy).Contents (Elt F) → (⟨S2x1, .i32⟩ : BufTy).Contents (Elt F) → (⟨S2x1, .i32⟩ : BufTy).Contents (Elt F)),
    StableHlo.ternary main_v30 main_v32 main_v22 main_v33 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    StableHlo.nullary main_c_5 (constantI S_ 32 0#32),
    StableHlo.unary main_c_5 main_v34 (broadcastInDim S2x2 ![] bcast_S_S2x2 : (⟨S_, .i32⟩ : BufTy).Contents (Elt F) → (⟨S2x2, .i32⟩ : BufTy).Contents (Elt F)),
    StableHlo.binary main_v28 main_v34 main_v35 (cmpi .slt : (⟨S2x2, .i32⟩ : BufTy).Contents (Elt F) → (⟨S2x2, .i32⟩ : BufTy).Contents (Elt F) → (⟨S2x2, .i1⟩ : BufTy).Contents (Elt F)),
    StableHlo.nullary main_c_6 (constantI S_ 32 2#32),
    StableHlo.unary main_c_6 main_v36 (broadcastInDim S2x2 ![] bcast_S_S2x2 : (⟨S_, .i32⟩ : BufTy).Contents (Elt F) → (⟨S2x2, .i32⟩ : BufTy).Contents (Elt F)),
    StableHlo.binary main_v28 main_v36 main_v37 (addi : (⟨S2x2, .i32⟩ : BufTy).Contents (Elt F) → (⟨S2x2, .i32⟩ : BufTy).Contents (Elt F) → (⟨S2x2, .i32⟩ : BufTy).Contents (Elt F)),
    StableHlo.ternary main_v35 main_v37 main_v28 main_v38 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v33 main_v39 (broadcastInDim S2x2 ![0, 1] bcast_S2x1_S2x2_0_1 : (⟨S2x1, .i32⟩ : BufTy).Contents (Elt F) → (⟨S2x2, .i32⟩ : BufTy).Contents (Elt F)),
    StableHlo.unary main_v39 main_v40 (broadcastInDim S2x2x1 ![0, 1] bcast_S2x2_S2x2x1_0_1 : (⟨S2x2, .i32⟩ : BufTy).Contents (Elt F) → (⟨S2x2x1, .i32⟩ : BufTy).Contents (Elt F)),
    StableHlo.unary main_v38 main_v41 (broadcastInDim S2x2x1 ![0, 1] bcast_S2x2_S2x2x1_0_1 : (⟨S2x2, .i32⟩ : BufTy).Contents (Elt F) → (⟨S2x2x1, .i32⟩ : BufTy).Contents (Elt F)),
    StableHlo.binary main_v40 main_v41 main_v42 ((fun a b => concatenate S2x2x2 2 [⟨S2x2x1, a⟩, ⟨S2x2x1, b⟩] concatenates_S2x2x1_S2x2x1_S2x2x2_d2) : (⟨S2x2x1, .i32⟩ : BufTy).Contents (Elt F) → (⟨S2x2x1, .i32⟩ : BufTy).Contents (Elt F) → (⟨S2x2x2, .i32⟩ : BufTy).Contents (Elt F)),
    StableHlo.binary main_v20 main_v42 main_v43 ((fun x i => Host.gather gather_S1024x1024x2x2_S2x2x2_S1024x1024x2x2_01_23_n_n_23_2_1024102411 x i) : (⟨S1024x1024x2x2, .f32⟩ : BufTy).Contents (Elt F) → (⟨S2x2x2, .i32⟩ : BufTy).Contents (Elt F) → (⟨S1024x1024x2x2, .f32⟩ : BufTy).Contents (Elt F)),
    StableHlo.nullary main_cst_7 (constant S_ .f32 0x00000000#32),
    StableHlo.binary main_v43 main_cst_7 main_v44 ((fun x v => Host.reduceAdd x v reducesTo_S1024x1024x2x2_S1024x1024x2_d2 h_S_) : (⟨S1024x1024x2x2, .f32⟩ : BufTy).Contents (Elt F) → (⟨S_, .f32⟩ : BufTy).Contents (Elt F) → (⟨S1024x1024x2, .f32⟩ : BufTy).Contents (Elt F)),
    StableHlo.nullary main_cst_8 (constant S_ .f32 0x40000000#32),
    StableHlo.unary main_cst_8 main_v45 (broadcastInDim S1024x1024x2 ![] bcast_S_S1024x1024x2 : (⟨S_, .f32⟩ : BufTy).Contents (Elt F) → (⟨S1024x1024x2, .f32⟩ : BufTy).Contents (Elt F)),
    StableHlo.binary main_v44 main_v45 main_v46 (Host.divf : (⟨S1024x1024x2, .f32⟩ : BufTy).Contents (Elt F) → (⟨S1024x1024x2, .f32⟩ : BufTy).Contents (Elt F) → (⟨S1024x1024x2, .f32⟩ : BufTy).Contents (Elt F)),
    StableHlo.unary main_v24 main_v47 (broadcastInDim S2x2 ![0, 1] bcast_S1x2_S2x2_0_1 : (⟨S1x2, .i32⟩ : BufTy).Contents (Elt F) → (⟨S2x2, .i32⟩ : BufTy).Contents (Elt F)),
    StableHlo.unary main_v22 main_v48 (broadcastInDim S2x2 ![0, 1] bcast_S2x1_S2x2_0_1 : (⟨S2x1, .i32⟩ : BufTy).Contents (Elt F) → (⟨S2x2, .i32⟩ : BufTy).Contents (Elt F)),
    StableHlo.binary main_v47 main_v48 main_v49 (subi : (⟨S2x2, .i32⟩ : BufTy).Contents (Elt F) → (⟨S2x2, .i32⟩ : BufTy).Contents (Elt F) → (⟨S2x2, .i32⟩ : BufTy).Contents (Elt F)),
    StableHlo.nullary main_c_9 (constantI S_ 32 2#32) ]

/-- Stretch 3 of @main (a call's operations): 21 operations. -/
abbrev stretch3 : List (HloOp τ sig (Elt F)) :=
  [ StableHlo.TRef.unary (.of main_c_9 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S2x2, .i32⟩) (broadcastInDim S2x2 ![] bcast_S_S2x2),
    StableHlo.TRef.binary (.of main_v49 : StableHlo.TRef sig ⟨S2x2, .i32⟩) (.of main_call1_v3 : StableHlo.TRef sig ⟨S2x2, .i32⟩) (.of main_call1_v4 : StableHlo.TRef sig ⟨S2x2, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S2x2, .i32⟩) (broadcastInDim S2x2 ![] bcast_S_S2x2),
    StableHlo.TRef.binary (.of main_call1_v4 : StableHlo.TRef sig ⟨S2x2, .i32⟩) (.of main_call1_v5 : StableHlo.TRef sig ⟨S2x2, .i32⟩) (.of main_call1_v6 : StableHlo.TRef sig ⟨S2x2, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S2x2, .i32⟩) (broadcastInDim S2x2 ![] bcast_S_S2x2),
    StableHlo.TRef.binary (.of main_call1_v4 : StableHlo.TRef sig ⟨S2x2, .i32⟩) (.of main_call1_v7 : StableHlo.TRef sig ⟨S2x2, .i32⟩) (.of main_call1_v8 : StableHlo.TRef sig ⟨S2x2, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S2x2, .i1⟩) (broadcastInDim S2x2 ![] bcast_S_S2x2),
    StableHlo.TRef.binary (.of main_call1_v8 : StableHlo.TRef sig ⟨S2x2, .i1⟩) (.of main_call1_v10 : StableHlo.TRef sig ⟨S2x2, .i1⟩) (.of main_call1_v11 : StableHlo.TRef sig ⟨S2x2, .i1⟩) (cmpi .ne),
    StableHlo.TRef.binary (.of main_call1_v11 : StableHlo.TRef sig ⟨S2x2, .i1⟩) (.of main_call1_v6 : StableHlo.TRef sig ⟨S2x2, .i1⟩) (.of main_call1_v12 : StableHlo.TRef sig ⟨S2x2, .i1⟩) andi,
    StableHlo.TRef.unary main_call1_call0.v0 (.of main_call1_v13 : StableHlo.TRef sig ⟨S2x2, .i32⟩) (broadcastInDim S2x2 ![] bcast_S_S2x2),
    StableHlo.TRef.binary (.of main_call1_v4 : StableHlo.TRef sig ⟨S2x2, .i32⟩) (.of main_call1_v13 : StableHlo.TRef sig ⟨S2x2, .i32⟩) (.of main_call1_v14 : StableHlo.TRef sig ⟨S2x2, .i32⟩) addi,
    StableHlo.TRef.ternary (.of main_call1_v12 : StableHlo.TRef sig ⟨S2x2, .i1⟩) (.of main_call1_v14 : StableHlo.TRef sig ⟨S2x2, .i32⟩) (.of main_call1_v4 : StableHlo.TRef sig ⟨S2x2, .i32⟩) (.of main_v50 : StableHlo.TRef sig ⟨S2x2, .i32⟩) select ]

/-- Stretch 4 of @main (between two calls): 26 operations. -/
abbrev stretch4 : List (HloOp τ sig (Elt F)) :=
  [ StableHlo.nullary main_c_10 (constantI S_ 32 0#32),
    StableHlo.unary main_c_10 main_v51 (broadcastInDim S2x2 ![] bcast_S_S2x2 : (⟨S_, .i32⟩ : BufTy).Contents (Elt F) → (⟨S2x2, .i32⟩ : BufTy).Contents (Elt F)),
    StableHlo.binary main_v50 main_v51 main_v52 (cmpi .slt : (⟨S2x2, .i32⟩ : BufTy).Contents (Elt F) → (⟨S2x2, .i32⟩ : BufTy).Contents (Elt F) → (⟨S2x2, .i1⟩ : BufTy).Contents (Elt F)),
    StableHlo.nullary main_c_11 (constantI S_ 32 2#32),
    StableHlo.unary main_c_11 main_v53 (broadcastInDim S2x2 ![] bcast_S_S2x2 : (⟨S_, .i32⟩ : BufTy).Contents (Elt F) → (⟨S2x2, .i32⟩ : BufTy).Contents (Elt F)),
    StableHlo.binary main_v50 main_v53 main_v54 (addi : (⟨S2x2, .i32⟩ : BufTy).Contents (Elt F) → (⟨S2x2, .i32⟩ : BufTy).Contents (Elt F) → (⟨S2x2, .i32⟩ : BufTy).Contents (Elt F)),
    StableHlo.ternary main_v52 main_v54 main_v50 main_v55 (select : (⟨S2x2, .i1⟩ : BufTy).Contents (Elt F) → (⟨S2x2, .i32⟩ : BufTy).Contents (Elt F) → (⟨S2x2, .i32⟩ : BufTy).Contents (Elt F) → (⟨S2x2, .i32⟩ : BufTy).Contents (Elt F)),
    StableHlo.unary main_v55 main_v56 (broadcastInDim S2x2x1 ![0, 1] bcast_S2x2_S2x2x1_0_1 : (⟨S2x2, .i32⟩ : BufTy).Contents (Elt F) → (⟨S2x2x1, .i32⟩ : BufTy).Contents (Elt F)),
    StableHlo.binary main_v46 main_v56 main_v57 ((fun x i => Host.gather gather_S1024x1024x2_S2x2x1_S1024x1024x2x2_01_2_n_n_2_2_102410241 x i) : (⟨S1024x1024x2, .f32⟩ : BufTy).Contents (Elt F) → (⟨S2x2x1, .i32⟩ : BufTy).Contents (Elt F) → (⟨S1024x1024x2x2, .f32⟩ : BufTy).Contents (Elt F)),
    StableHlo.unary main_v57 main_v58 ((transpose S1024x2x1024x2 [0, 2, 1, 3] · transposes_S1024x1024x2x2_S1024x2x1024x2_0_2_1_3) : (⟨S1024x1024x2x2, .f32⟩ : BufTy).Contents (Elt F) → (⟨S1024x2x1024x2, .f32⟩ : BufTy).Contents (Elt F)),
    StableHlo.reshape main_v58 main_v59 rfl shapeCasts_S1024x2x1024x2_S2048x2048,
    StableHlo.unary main_v18 main_v60 (broadcastInDim S2048x2048 ![] bcast_S_S2048x2048 : (⟨S_, .f32⟩ : BufTy).Contents (Elt F) → (⟨S2048x2048, .f32⟩ : BufTy).Contents (Elt F)),
    StableHlo.binary main_v60 main_v59 main_v61 (mulf : (⟨S2048x2048, .f32⟩ : BufTy).Contents (Elt F) → (⟨S2048x2048, .f32⟩ : BufTy).Contents (Elt F) → (⟨S2048x2048, .f32⟩ : BufTy).Contents (Elt F)),
    StableHlo.binary main_v16 main_v61 main_v62 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v63 ((extractStridedSlice S1 ![2] · slices_S7_S1_2) : (⟨S7, .f32⟩ : BufTy).Contents (Elt F) → (⟨S1, .f32⟩ : BufTy).Contents (Elt F)),
    StableHlo.reshape main_v63 main_v64 rfl shapeCasts_S1_S_,
    StableHlo.reshape main_arg1 main_v65 rfl shapeCasts_S2048x2048_S512x4x512x4,
    StableHlo.unary main_v65 main_v66 ((transpose S512x512x4x4 [0, 2, 1, 3] · transposes_S512x4x512x4_S512x512x4x4_0_2_1_3) : (⟨S512x4x512x4, .f32⟩ : BufTy).Contents (Elt F) → (⟨S512x512x4x4, .f32⟩ : BufTy).Contents (Elt F)),
    StableHlo.nullary main_v67 (iotaInDim S4 32 0),
    StableHlo.unary main_v67 main_v68 (broadcastInDim S4x1 ![0] bcast_S4_S4x1_0 : (⟨S4, .i32⟩ : BufTy).Contents (Elt F) → (⟨S4x1, .i32⟩ : BufTy).Contents (Elt F)),
    StableHlo.nullary main_v69 (iotaInDim S4 32 0),
    StableHlo.unary main_v69 main_v70 (broadcastInDim S1x4 ![1] bcast_S4_S1x4_1 : (⟨S4, .i32⟩ : BufTy).Contents (Elt F) → (⟨S1x4, .i32⟩ : BufTy).Contents (Elt F)),
    StableHlo.unary main_v68 main_v71 (broadcastInDim S4x4 ![0, 1] bcast_S4x1_S4x4_0_1 : (⟨S4x1, .i32⟩ : BufTy).Contents (Elt F) → (⟨S4x4, .i32⟩ : BufTy).Contents (Elt F)),
    StableHlo.unary main_v70 main_v72 (broadcastInDim S4x4 ![0, 1] bcast_S1x4_S4x4_0_1 : (⟨S1x4, .i32⟩ : BufTy).Contents (Elt F) → (⟨S4x4, .i32⟩ : BufTy).Contents (Elt F)),
    StableHlo.binary main_v71 main_v72 main_v73 (addi : (⟨S4x4, .i32⟩ : BufTy).Contents (Elt F) → (⟨S4x4, .i32⟩ : BufTy).Contents (Elt F) → (⟨S4x4, .i32⟩ : BufTy).Contents (Elt F)),
    StableHlo.nullary main_c_12 (constantI S_ 32 4#32) ]

/-- Stretch 5 of @main (a call's operations): 21 operations. -/
abbrev stretch5 : List (HloOp τ sig (Elt F)) :=
  [ StableHlo.TRef.unary (.of main_c_12 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S4x4, .i32⟩) (broadcastInDim S4x4 ![] bcast_S_S4x4),
    StableHlo.TRef.binary (.of main_v73 : StableHlo.TRef sig ⟨S4x4, .i32⟩) (.of main_call2_v3 : StableHlo.TRef sig ⟨S4x4, .i32⟩) (.of main_call2_v4 : StableHlo.TRef sig ⟨S4x4, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S4x4, .i32⟩) (broadcastInDim S4x4 ![] bcast_S_S4x4),
    StableHlo.TRef.binary (.of main_call2_v4 : StableHlo.TRef sig ⟨S4x4, .i32⟩) (.of main_call2_v5 : StableHlo.TRef sig ⟨S4x4, .i32⟩) (.of main_call2_v6 : StableHlo.TRef sig ⟨S4x4, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S4x4, .i32⟩) (broadcastInDim S4x4 ![] bcast_S_S4x4),
    StableHlo.TRef.binary (.of main_call2_v4 : StableHlo.TRef sig ⟨S4x4, .i32⟩) (.of main_call2_v7 : StableHlo.TRef sig ⟨S4x4, .i32⟩) (.of main_call2_v8 : StableHlo.TRef sig ⟨S4x4, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S4x4, .i1⟩) (broadcastInDim S4x4 ![] bcast_S_S4x4),
    StableHlo.TRef.binary (.of main_call2_v8 : StableHlo.TRef sig ⟨S4x4, .i1⟩) (.of main_call2_v10 : StableHlo.TRef sig ⟨S4x4, .i1⟩) (.of main_call2_v11 : StableHlo.TRef sig ⟨S4x4, .i1⟩) (cmpi .ne),
    StableHlo.TRef.binary (.of main_call2_v11 : StableHlo.TRef sig ⟨S4x4, .i1⟩) (.of main_call2_v6 : StableHlo.TRef sig ⟨S4x4, .i1⟩) (.of main_call2_v12 : StableHlo.TRef sig ⟨S4x4, .i1⟩) andi,
    StableHlo.TRef.unary main_call2_call0.v0 (.of main_call2_v13 : StableHlo.TRef sig ⟨S4x4, .i32⟩) (broadcastInDim S4x4 ![] bcast_S_S4x4),
    StableHlo.TRef.binary (.of main_call2_v4 : StableHlo.TRef sig ⟨S4x4, .i32⟩) (.of main_call2_v13 : StableHlo.TRef sig ⟨S4x4, .i32⟩) (.of main_call2_v14 : StableHlo.TRef sig ⟨S4x4, .i32⟩) addi,
    StableHlo.TRef.ternary (.of main_call2_v12 : StableHlo.TRef sig ⟨S4x4, .i1⟩) (.of main_call2_v14 : StableHlo.TRef sig ⟨S4x4, .i32⟩) (.of main_call2_v4 : StableHlo.TRef sig ⟨S4x4, .i32⟩) (.of main_v74 : StableHlo.TRef sig ⟨S4x4, .i32⟩) select ]

/-- Stretch 6 of @main (between two calls): 28 operations. -/
abbrev stretch6 : List (HloOp τ sig (Elt F)) :=
  [ StableHlo.nullary main_c_13 (constantI S_ 32 0#32),
    StableHlo.unary main_c_13 main_v75 (broadcastInDim S4x1 ![] bcast_S_S4x1 : (⟨S_, .i32⟩ : BufTy).Contents (Elt F) → (⟨S4x1, .i32⟩ : BufTy).Contents (Elt F)),
    StableHlo.binary main_v68 main_v75 main_v76 (cmpi .slt : (⟨S4x1, .i32⟩ : BufTy).Contents (Elt F) → (⟨S4x1, .i32⟩ : BufTy).Contents (Elt F) → (⟨S4x1, .i1⟩ : BufTy).Contents (Elt F)),
    StableHlo.nullary main_c_14 (constantI S_ 32 4#32),
    StableHlo.unary main_c_14 main_v77 (broadcastInDim S4x1 ![] bcast_S_S4x1 : (⟨S_, .i32⟩ : BufTy).Contents (Elt F) → (⟨S4x1, .i32⟩ : BufTy).Contents (Elt F)),
    StableHlo.binary main_v68 main_v77 main_v78 (addi : (⟨S4x1, .i32⟩ : BufTy).Contents (Elt F) → (⟨S4x1, .i32⟩ : BufTy).Contents (Elt F) → (⟨S4x1, .i32⟩ : BufTy).Contents (Elt F)),
    StableHlo.ternary main_v76 main_v78 main_v68 main_v79 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    StableHlo.nullary main_c_15 (constantI S_ 32 0#32),
    StableHlo.unary main_c_15 main_v80 (broadcastInDim S4x4 ![] bcast_S_S4x4 : (⟨S_, .i32⟩ : BufTy).Contents (Elt F) → (⟨S4x4, .i32⟩ : BufTy).Contents (Elt F)),
    StableHlo.binary main_v74 main_v80 main_v81 (cmpi .slt : (⟨S4x4, .i32⟩ : BufTy).Contents (Elt F) → (⟨S4x4, .i32⟩ : BufTy).Contents (Elt F) → (⟨S4x4, .i1⟩ : BufTy).Contents (Elt F)),
    StableHlo.nullary main_c_16 (constantI S_ 32 4#32),
    StableHlo.unary main_c_16 main_v82 (broadcastInDim S4x4 ![] bcast_S_S4x4 : (⟨S_, .i32⟩ : BufTy).Contents (Elt F) → (⟨S4x4, .i32⟩ : BufTy).Contents (Elt F)),
    StableHlo.binary main_v74 main_v82 main_v83 (addi : (⟨S4x4, .i32⟩ : BufTy).Contents (Elt F) → (⟨S4x4, .i32⟩ : BufTy).Contents (Elt F) → (⟨S4x4, .i32⟩ : BufTy).Contents (Elt F)),
    StableHlo.ternary main_v81 main_v83 main_v74 main_v84 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v79 main_v85 (broadcastInDim S4x4 ![0, 1] bcast_S4x1_S4x4_0_1 : (⟨S4x1, .i32⟩ : BufTy).Contents (Elt F) → (⟨S4x4, .i32⟩ : BufTy).Contents (Elt F)),
    StableHlo.unary main_v85 main_v86 (broadcastInDim S4x4x1 ![0, 1] bcast_S4x4_S4x4x1_0_1 : (⟨S4x4, .i32⟩ : BufTy).Contents (Elt F) → (⟨S4x4x1, .i32⟩ : BufTy).Contents (Elt F)),
    StableHlo.unary main_v84 main_v87 (broadcastInDim S4x4x1 ![0, 1] bcast_S4x4_S4x4x1_0_1 : (⟨S4x4, .i32⟩ : BufTy).Contents (Elt F) → (⟨S4x4x1, .i32⟩ : BufTy).Contents (Elt F)),
    StableHlo.binary main_v86 main_v87 main_v88 ((fun a b => concatenate S4x4x2 2 [⟨S4x4x1, a⟩, ⟨S4x4x1, b⟩] concatenates_S4x4x1_S4x4x1_S4x4x2_d2) : (⟨S4x4x1, .i32⟩ : BufTy).Contents (Elt F) → (⟨S4x4x1, .i32⟩ : BufTy).Contents (Elt F) → (⟨S4x4x2, .i32⟩ : BufTy).Contents (Elt F)),
    StableHlo.binary main_v66 main_v88 main_v89 ((fun x i => Host.gather gather_S512x512x4x4_S4x4x2_S512x512x4x4_01_23_n_n_23_2_51251211 x i) : (⟨S512x512x4x4, .f32⟩ : BufTy).Contents (Elt F) → (⟨S4x4x2, .i32⟩ : BufTy).Contents (Elt F) → (⟨S512x512x4x4, .f32⟩ : BufTy).Contents (Elt F)),
    StableHlo.nullary main_cst_17 (constant S_ .f32 0x00000000#32),
    StableHlo.binary main_v89 main_cst_17 main_v90 ((fun x v => Host.reduceAdd x v reducesTo_S512x512x4x4_S512x512x4_d2 h_S_) : (⟨S512x512x4x4, .f32⟩ : BufTy).Contents (Elt F) → (⟨S_, .f32⟩ : BufTy).Contents (Elt F) → (⟨S512x512x4, .f32⟩ : BufTy).Contents (Elt F)),
    StableHlo.nullary main_cst_18 (constant S_ .f32 0x40800000#32),
    StableHlo.unary main_cst_18 main_v91 (broadcastInDim S512x512x4 ![] bcast_S_S512x512x4 : (⟨S_, .f32⟩ : BufTy).Contents (Elt F) → (⟨S512x512x4, .f32⟩ : BufTy).Contents (Elt F)),
    StableHlo.binary main_v90 main_v91 main_v92 (Host.divf : (⟨S512x512x4, .f32⟩ : BufTy).Contents (Elt F) → (⟨S512x512x4, .f32⟩ : BufTy).Contents (Elt F) → (⟨S512x512x4, .f32⟩ : BufTy).Contents (Elt F)),
    StableHlo.unary main_v70 main_v93 (broadcastInDim S4x4 ![0, 1] bcast_S1x4_S4x4_0_1 : (⟨S1x4, .i32⟩ : BufTy).Contents (Elt F) → (⟨S4x4, .i32⟩ : BufTy).Contents (Elt F)),
    StableHlo.unary main_v68 main_v94 (broadcastInDim S4x4 ![0, 1] bcast_S4x1_S4x4_0_1 : (⟨S4x1, .i32⟩ : BufTy).Contents (Elt F) → (⟨S4x4, .i32⟩ : BufTy).Contents (Elt F)),
    StableHlo.binary main_v93 main_v94 main_v95 (subi : (⟨S4x4, .i32⟩ : BufTy).Contents (Elt F) → (⟨S4x4, .i32⟩ : BufTy).Contents (Elt F) → (⟨S4x4, .i32⟩ : BufTy).Contents (Elt F)),
    StableHlo.nullary main_c_19 (constantI S_ 32 4#32) ]

/-- Stretch 7 of @main (a call's operations): 21 operations. -/
abbrev stretch7 : List (HloOp τ sig (Elt F)) :=
  [ StableHlo.TRef.unary (.of main_c_19 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S4x4, .i32⟩) (broadcastInDim S4x4 ![] bcast_S_S4x4),
    StableHlo.TRef.binary (.of main_v95 : StableHlo.TRef sig ⟨S4x4, .i32⟩) (.of main_call3_v3 : StableHlo.TRef sig ⟨S4x4, .i32⟩) (.of main_call3_v4 : StableHlo.TRef sig ⟨S4x4, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S4x4, .i32⟩) (broadcastInDim S4x4 ![] bcast_S_S4x4),
    StableHlo.TRef.binary (.of main_call3_v4 : StableHlo.TRef sig ⟨S4x4, .i32⟩) (.of main_call3_v5 : StableHlo.TRef sig ⟨S4x4, .i32⟩) (.of main_call3_v6 : StableHlo.TRef sig ⟨S4x4, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S4x4, .i32⟩) (broadcastInDim S4x4 ![] bcast_S_S4x4),
    StableHlo.TRef.binary (.of main_call3_v4 : StableHlo.TRef sig ⟨S4x4, .i32⟩) (.of main_call3_v7 : StableHlo.TRef sig ⟨S4x4, .i32⟩) (.of main_call3_v8 : StableHlo.TRef sig ⟨S4x4, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S4x4, .i1⟩) (broadcastInDim S4x4 ![] bcast_S_S4x4),
    StableHlo.TRef.binary (.of main_call3_v8 : StableHlo.TRef sig ⟨S4x4, .i1⟩) (.of main_call3_v10 : StableHlo.TRef sig ⟨S4x4, .i1⟩) (.of main_call3_v11 : StableHlo.TRef sig ⟨S4x4, .i1⟩) (cmpi .ne),
    StableHlo.TRef.binary (.of main_call3_v11 : StableHlo.TRef sig ⟨S4x4, .i1⟩) (.of main_call3_v6 : StableHlo.TRef sig ⟨S4x4, .i1⟩) (.of main_call3_v12 : StableHlo.TRef sig ⟨S4x4, .i1⟩) andi,
    StableHlo.TRef.unary main_call3_call0.v0 (.of main_call3_v13 : StableHlo.TRef sig ⟨S4x4, .i32⟩) (broadcastInDim S4x4 ![] bcast_S_S4x4),
    StableHlo.TRef.binary (.of main_call3_v4 : StableHlo.TRef sig ⟨S4x4, .i32⟩) (.of main_call3_v13 : StableHlo.TRef sig ⟨S4x4, .i32⟩) (.of main_call3_v14 : StableHlo.TRef sig ⟨S4x4, .i32⟩) addi,
    StableHlo.TRef.ternary (.of main_call3_v12 : StableHlo.TRef sig ⟨S4x4, .i1⟩) (.of main_call3_v14 : StableHlo.TRef sig ⟨S4x4, .i32⟩) (.of main_call3_v4 : StableHlo.TRef sig ⟨S4x4, .i32⟩) (.of main_v96 : StableHlo.TRef sig ⟨S4x4, .i32⟩) select ]

/-- Stretch 8 of @main (between two calls): 26 operations. -/
abbrev stretch8 : List (HloOp τ sig (Elt F)) :=
  [ StableHlo.nullary main_c_20 (constantI S_ 32 0#32),
    StableHlo.unary main_c_20 main_v97 (broadcastInDim S4x4 ![] bcast_S_S4x4 : (⟨S_, .i32⟩ : BufTy).Contents (Elt F) → (⟨S4x4, .i32⟩ : BufTy).Contents (Elt F)),
    StableHlo.binary main_v96 main_v97 main_v98 (cmpi .slt : (⟨S4x4, .i32⟩ : BufTy).Contents (Elt F) → (⟨S4x4, .i32⟩ : BufTy).Contents (Elt F) → (⟨S4x4, .i1⟩ : BufTy).Contents (Elt F)),
    StableHlo.nullary main_c_21 (constantI S_ 32 4#32),
    StableHlo.unary main_c_21 main_v99 (broadcastInDim S4x4 ![] bcast_S_S4x4 : (⟨S_, .i32⟩ : BufTy).Contents (Elt F) → (⟨S4x4, .i32⟩ : BufTy).Contents (Elt F)),
    StableHlo.binary main_v96 main_v99 main_v100 (addi : (⟨S4x4, .i32⟩ : BufTy).Contents (Elt F) → (⟨S4x4, .i32⟩ : BufTy).Contents (Elt F) → (⟨S4x4, .i32⟩ : BufTy).Contents (Elt F)),
    StableHlo.ternary main_v98 main_v100 main_v96 main_v101 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    StableHlo.unary main_v101 main_v102 (broadcastInDim S4x4x1 ![0, 1] bcast_S4x4_S4x4x1_0_1 : (⟨S4x4, .i32⟩ : BufTy).Contents (Elt F) → (⟨S4x4x1, .i32⟩ : BufTy).Contents (Elt F)),
    StableHlo.binary main_v92 main_v102 main_v103 ((fun x i => Host.gather gather_S512x512x4_S4x4x1_S512x512x4x4_01_2_n_n_2_2_5125121 x i) : (⟨S512x512x4, .f32⟩ : BufTy).Contents (Elt F) → (⟨S4x4x1, .i32⟩ : BufTy).Contents (Elt F) → (⟨S512x512x4x4, .f32⟩ : BufTy).Contents (Elt F)),
    StableHlo.unary main_v103 main_v104 ((transpose S512x4x512x4 [0, 2, 1, 3] · transposes_S512x512x4x4_S512x4x512x4_0_2_1_3) : (⟨S512x512x4x4, .f32⟩ : BufTy).Contents (Elt F) → (⟨S512x4x512x4, .f32⟩ : BufTy).Contents (Elt F)),
    StableHlo.reshape main_v104 main_v105 rfl shapeCasts_S512x4x512x4_S2048x2048,
    StableHlo.unary main_v64 main_v106 (broadcastInDim S2048x2048 ![] bcast_S_S2048x2048 : (⟨S_, .f32⟩ : BufTy).Contents (Elt F) → (⟨S2048x2048, .f32⟩ : BufTy).Contents (Elt F)),
    StableHlo.binary main_v106 main_v105 main_v107 (mulf : (⟨S2048x2048, .f32⟩ : BufTy).Contents (Elt F) → (⟨S2048x2048, .f32⟩ : BufTy).Contents (Elt F) → (⟨S2048x2048, .f32⟩ : BufTy).Contents (Elt F)),
    StableHlo.binary main_v62 main_v107 main_v108 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v109 ((extractStridedSlice S1 ![3] · slices_S7_S1_3) : (⟨S7, .f32⟩ : BufTy).Contents (Elt F) → (⟨S1, .f32⟩ : BufTy).Contents (Elt F)),
    StableHlo.reshape main_v109 main_v110 rfl shapeCasts_S1_S_,
    StableHlo.reshape main_arg1 main_v111 rfl shapeCasts_S2048x2048_S256x8x256x8,
    StableHlo.unary main_v111 main_v112 ((transpose S256x256x8x8 [0, 2, 1, 3] · transposes_S256x8x256x8_S256x256x8x8_0_2_1_3) : (⟨S256x8x256x8, .f32⟩ : BufTy).Contents (Elt F) → (⟨S256x256x8x8, .f32⟩ : BufTy).Contents (Elt F)),
    StableHlo.nullary main_v113 (iotaInDim S8 32 0),
    StableHlo.unary main_v113 main_v114 (broadcastInDim S8x1 ![0] bcast_S8_S8x1_0 : (⟨S8, .i32⟩ : BufTy).Contents (Elt F) → (⟨S8x1, .i32⟩ : BufTy).Contents (Elt F)),
    StableHlo.nullary main_v115 (iotaInDim S8 32 0),
    StableHlo.unary main_v115 main_v116 (broadcastInDim S1x8 ![1] bcast_S8_S1x8_1 : (⟨S8, .i32⟩ : BufTy).Contents (Elt F) → (⟨S1x8, .i32⟩ : BufTy).Contents (Elt F)),
    StableHlo.unary main_v114 main_v117 (broadcastInDim S8x8 ![0, 1] bcast_S8x1_S8x8_0_1 : (⟨S8x1, .i32⟩ : BufTy).Contents (Elt F) → (⟨S8x8, .i32⟩ : BufTy).Contents (Elt F)),
    StableHlo.unary main_v116 main_v118 (broadcastInDim S8x8 ![0, 1] bcast_S1x8_S8x8_0_1 : (⟨S1x8, .i32⟩ : BufTy).Contents (Elt F) → (⟨S8x8, .i32⟩ : BufTy).Contents (Elt F)),
    StableHlo.binary main_v117 main_v118 main_v119 (addi : (⟨S8x8, .i32⟩ : BufTy).Contents (Elt F) → (⟨S8x8, .i32⟩ : BufTy).Contents (Elt F) → (⟨S8x8, .i32⟩ : BufTy).Contents (Elt F)),
    StableHlo.nullary main_c_22 (constantI S_ 32 8#32) ]

/-- Stretch 9 of @main (a call's operations): 21 operations. -/
abbrev stretch9 : List (HloOp τ sig (Elt F)) :=
  [ StableHlo.TRef.unary (.of main_c_22 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S8x8, .i32⟩) (broadcastInDim S8x8 ![] bcast_S_S8x8),
    StableHlo.TRef.binary (.of main_v119 : StableHlo.TRef sig ⟨S8x8, .i32⟩) (.of main_call4_v3 : StableHlo.TRef sig ⟨S8x8, .i32⟩) (.of main_call4_v4 : StableHlo.TRef sig ⟨S8x8, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S8x8, .i32⟩) (broadcastInDim S8x8 ![] bcast_S_S8x8),
    StableHlo.TRef.binary (.of main_call4_v4 : StableHlo.TRef sig ⟨S8x8, .i32⟩) (.of main_call4_v5 : StableHlo.TRef sig ⟨S8x8, .i32⟩) (.of main_call4_v6 : StableHlo.TRef sig ⟨S8x8, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S8x8, .i32⟩) (broadcastInDim S8x8 ![] bcast_S_S8x8),
    StableHlo.TRef.binary (.of main_call4_v4 : StableHlo.TRef sig ⟨S8x8, .i32⟩) (.of main_call4_v7 : StableHlo.TRef sig ⟨S8x8, .i32⟩) (.of main_call4_v8 : StableHlo.TRef sig ⟨S8x8, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S8x8, .i1⟩) (broadcastInDim S8x8 ![] bcast_S_S8x8),
    StableHlo.TRef.binary (.of main_call4_v8 : StableHlo.TRef sig ⟨S8x8, .i1⟩) (.of main_call4_v10 : StableHlo.TRef sig ⟨S8x8, .i1⟩) (.of main_call4_v11 : StableHlo.TRef sig ⟨S8x8, .i1⟩) (cmpi .ne),
    StableHlo.TRef.binary (.of main_call4_v11 : StableHlo.TRef sig ⟨S8x8, .i1⟩) (.of main_call4_v6 : StableHlo.TRef sig ⟨S8x8, .i1⟩) (.of main_call4_v12 : StableHlo.TRef sig ⟨S8x8, .i1⟩) andi,
    StableHlo.TRef.unary main_call4_call0.v0 (.of main_call4_v13 : StableHlo.TRef sig ⟨S8x8, .i32⟩) (broadcastInDim S8x8 ![] bcast_S_S8x8),
    StableHlo.TRef.binary (.of main_call4_v4 : StableHlo.TRef sig ⟨S8x8, .i32⟩) (.of main_call4_v13 : StableHlo.TRef sig ⟨S8x8, .i32⟩) (.of main_call4_v14 : StableHlo.TRef sig ⟨S8x8, .i32⟩) addi,
    StableHlo.TRef.ternary (.of main_call4_v12 : StableHlo.TRef sig ⟨S8x8, .i1⟩) (.of main_call4_v14 : StableHlo.TRef sig ⟨S8x8, .i32⟩) (.of main_call4_v4 : StableHlo.TRef sig ⟨S8x8, .i32⟩) (.of main_v120 : StableHlo.TRef sig ⟨S8x8, .i32⟩) select ]

/-- Stretch 10 of @main (between two calls): 28 operations. -/
abbrev stretch10 : List (HloOp τ sig (Elt F)) :=
  [ StableHlo.nullary main_c_23 (constantI S_ 32 0#32),
    StableHlo.unary main_c_23 main_v121 (broadcastInDim S8x1 ![] bcast_S_S8x1 : (⟨S_, .i32⟩ : BufTy).Contents (Elt F) → (⟨S8x1, .i32⟩ : BufTy).Contents (Elt F)),
    StableHlo.binary main_v114 main_v121 main_v122 (cmpi .slt : (⟨S8x1, .i32⟩ : BufTy).Contents (Elt F) → (⟨S8x1, .i32⟩ : BufTy).Contents (Elt F) → (⟨S8x1, .i1⟩ : BufTy).Contents (Elt F)),
    StableHlo.nullary main_c_24 (constantI S_ 32 8#32),
    StableHlo.unary main_c_24 main_v123 (broadcastInDim S8x1 ![] bcast_S_S8x1 : (⟨S_, .i32⟩ : BufTy).Contents (Elt F) → (⟨S8x1, .i32⟩ : BufTy).Contents (Elt F)),
    StableHlo.binary main_v114 main_v123 main_v124 (addi : (⟨S8x1, .i32⟩ : BufTy).Contents (Elt F) → (⟨S8x1, .i32⟩ : BufTy).Contents (Elt F) → (⟨S8x1, .i32⟩ : BufTy).Contents (Elt F)),
    StableHlo.ternary main_v122 main_v124 main_v114 main_v125 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_25 (constantI S_ 32 0#32),
    StableHlo.unary main_c_25 main_v126 (broadcastInDim S8x8 ![] bcast_S_S8x8 : (⟨S_, .i32⟩ : BufTy).Contents (Elt F) → (⟨S8x8, .i32⟩ : BufTy).Contents (Elt F)),
    StableHlo.binary main_v120 main_v126 main_v127 (cmpi .slt : (⟨S8x8, .i32⟩ : BufTy).Contents (Elt F) → (⟨S8x8, .i32⟩ : BufTy).Contents (Elt F) → (⟨S8x8, .i1⟩ : BufTy).Contents (Elt F)),
    StableHlo.nullary main_c_26 (constantI S_ 32 8#32),
    StableHlo.unary main_c_26 main_v128 (broadcastInDim S8x8 ![] bcast_S_S8x8 : (⟨S_, .i32⟩ : BufTy).Contents (Elt F) → (⟨S8x8, .i32⟩ : BufTy).Contents (Elt F)),
    StableHlo.binary main_v120 main_v128 main_v129 (addi : (⟨S8x8, .i32⟩ : BufTy).Contents (Elt F) → (⟨S8x8, .i32⟩ : BufTy).Contents (Elt F) → (⟨S8x8, .i32⟩ : BufTy).Contents (Elt F)),
    StableHlo.ternary main_v127 main_v129 main_v120 main_v130 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v125 main_v131 (broadcastInDim S8x8 ![0, 1] bcast_S8x1_S8x8_0_1 : (⟨S8x1, .i32⟩ : BufTy).Contents (Elt F) → (⟨S8x8, .i32⟩ : BufTy).Contents (Elt F)),
    StableHlo.unary main_v131 main_v132 (broadcastInDim S8x8x1 ![0, 1] bcast_S8x8_S8x8x1_0_1 : (⟨S8x8, .i32⟩ : BufTy).Contents (Elt F) → (⟨S8x8x1, .i32⟩ : BufTy).Contents (Elt F)),
    StableHlo.unary main_v130 main_v133 (broadcastInDim S8x8x1 ![0, 1] bcast_S8x8_S8x8x1_0_1 : (⟨S8x8, .i32⟩ : BufTy).Contents (Elt F) → (⟨S8x8x1, .i32⟩ : BufTy).Contents (Elt F)),
    StableHlo.binary main_v132 main_v133 main_v134 ((fun a b => concatenate S8x8x2 2 [⟨S8x8x1, a⟩, ⟨S8x8x1, b⟩] concatenates_S8x8x1_S8x8x1_S8x8x2_d2) : (⟨S8x8x1, .i32⟩ : BufTy).Contents (Elt F) → (⟨S8x8x1, .i32⟩ : BufTy).Contents (Elt F) → (⟨S8x8x2, .i32⟩ : BufTy).Contents (Elt F)),
    StableHlo.binary main_v112 main_v134 main_v135 ((fun x i => Host.gather gather_S256x256x8x8_S8x8x2_S256x256x8x8_01_23_n_n_23_2_25625611 x i) : (⟨S256x256x8x8, .f32⟩ : BufTy).Contents (Elt F) → (⟨S8x8x2, .i32⟩ : BufTy).Contents (Elt F) → (⟨S256x256x8x8, .f32⟩ : BufTy).Contents (Elt F)),
    StableHlo.nullary main_cst_27 (constant S_ .f32 0x00000000#32),
    StableHlo.binary main_v135 main_cst_27 main_v136 ((fun x v => Host.reduceAdd x v reducesTo_S256x256x8x8_S256x256x8_d2 h_S_) : (⟨S256x256x8x8, .f32⟩ : BufTy).Contents (Elt F) → (⟨S_, .f32⟩ : BufTy).Contents (Elt F) → (⟨S256x256x8, .f32⟩ : BufTy).Contents (Elt F)),
    StableHlo.nullary main_cst_28 (constant S_ .f32 0x41000000#32),
    StableHlo.unary main_cst_28 main_v137 (broadcastInDim S256x256x8 ![] bcast_S_S256x256x8 : (⟨S_, .f32⟩ : BufTy).Contents (Elt F) → (⟨S256x256x8, .f32⟩ : BufTy).Contents (Elt F)),
    StableHlo.binary main_v136 main_v137 main_v138 (Host.divf : (⟨S256x256x8, .f32⟩ : BufTy).Contents (Elt F) → (⟨S256x256x8, .f32⟩ : BufTy).Contents (Elt F) → (⟨S256x256x8, .f32⟩ : BufTy).Contents (Elt F)),
    StableHlo.unary main_v116 main_v139 (broadcastInDim S8x8 ![0, 1] bcast_S1x8_S8x8_0_1 : (⟨S1x8, .i32⟩ : BufTy).Contents (Elt F) → (⟨S8x8, .i32⟩ : BufTy).Contents (Elt F)),
    StableHlo.unary main_v114 main_v140 (broadcastInDim S8x8 ![0, 1] bcast_S8x1_S8x8_0_1 : (⟨S8x1, .i32⟩ : BufTy).Contents (Elt F) → (⟨S8x8, .i32⟩ : BufTy).Contents (Elt F)),
    StableHlo.binary main_v139 main_v140 main_v141 (subi : (⟨S8x8, .i32⟩ : BufTy).Contents (Elt F) → (⟨S8x8, .i32⟩ : BufTy).Contents (Elt F) → (⟨S8x8, .i32⟩ : BufTy).Contents (Elt F)),
    StableHlo.nullary main_c_29 (constantI S_ 32 8#32) ]

/-- Stretch 11 of @main (a call's operations): 21 operations. -/
abbrev stretch11 : List (HloOp τ sig (Elt F)) :=
  [ StableHlo.TRef.unary (.of main_c_29 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S8x8, .i32⟩) (broadcastInDim S8x8 ![] bcast_S_S8x8),
    StableHlo.TRef.binary (.of main_v141 : StableHlo.TRef sig ⟨S8x8, .i32⟩) (.of main_call5_v3 : StableHlo.TRef sig ⟨S8x8, .i32⟩) (.of main_call5_v4 : StableHlo.TRef sig ⟨S8x8, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S8x8, .i32⟩) (broadcastInDim S8x8 ![] bcast_S_S8x8),
    StableHlo.TRef.binary (.of main_call5_v4 : StableHlo.TRef sig ⟨S8x8, .i32⟩) (.of main_call5_v5 : StableHlo.TRef sig ⟨S8x8, .i32⟩) (.of main_call5_v6 : StableHlo.TRef sig ⟨S8x8, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S8x8, .i32⟩) (broadcastInDim S8x8 ![] bcast_S_S8x8),
    StableHlo.TRef.binary (.of main_call5_v4 : StableHlo.TRef sig ⟨S8x8, .i32⟩) (.of main_call5_v7 : StableHlo.TRef sig ⟨S8x8, .i32⟩) (.of main_call5_v8 : StableHlo.TRef sig ⟨S8x8, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S8x8, .i1⟩) (broadcastInDim S8x8 ![] bcast_S_S8x8),
    StableHlo.TRef.binary (.of main_call5_v8 : StableHlo.TRef sig ⟨S8x8, .i1⟩) (.of main_call5_v10 : StableHlo.TRef sig ⟨S8x8, .i1⟩) (.of main_call5_v11 : StableHlo.TRef sig ⟨S8x8, .i1⟩) (cmpi .ne),
    StableHlo.TRef.binary (.of main_call5_v11 : StableHlo.TRef sig ⟨S8x8, .i1⟩) (.of main_call5_v6 : StableHlo.TRef sig ⟨S8x8, .i1⟩) (.of main_call5_v12 : StableHlo.TRef sig ⟨S8x8, .i1⟩) andi,
    StableHlo.TRef.unary main_call5_call0.v0 (.of main_call5_v13 : StableHlo.TRef sig ⟨S8x8, .i32⟩) (broadcastInDim S8x8 ![] bcast_S_S8x8),
    StableHlo.TRef.binary (.of main_call5_v4 : StableHlo.TRef sig ⟨S8x8, .i32⟩) (.of main_call5_v13 : StableHlo.TRef sig ⟨S8x8, .i32⟩) (.of main_call5_v14 : StableHlo.TRef sig ⟨S8x8, .i32⟩) addi,
    StableHlo.TRef.ternary (.of main_call5_v12 : StableHlo.TRef sig ⟨S8x8, .i1⟩) (.of main_call5_v14 : StableHlo.TRef sig ⟨S8x8, .i32⟩) (.of main_call5_v4 : StableHlo.TRef sig ⟨S8x8, .i32⟩) (.of main_v142 : StableHlo.TRef sig ⟨S8x8, .i32⟩) select ]

/-- Stretch 12 of @main (between two calls): 26 operations. -/
abbrev stretch12 : List (HloOp τ sig (Elt F)) :=
  [ StableHlo.nullary main_c_30 (constantI S_ 32 0#32),
    StableHlo.unary main_c_30 main_v143 (broadcastInDim S8x8 ![] bcast_S_S8x8 : (⟨S_, .i32⟩ : BufTy).Contents (Elt F) → (⟨S8x8, .i32⟩ : BufTy).Contents (Elt F)),
    StableHlo.binary main_v142 main_v143 main_v144 (cmpi .slt : (⟨S8x8, .i32⟩ : BufTy).Contents (Elt F) → (⟨S8x8, .i32⟩ : BufTy).Contents (Elt F) → (⟨S8x8, .i1⟩ : BufTy).Contents (Elt F)),
    StableHlo.nullary main_c_31 (constantI S_ 32 8#32),
    StableHlo.unary main_c_31 main_v145 (broadcastInDim S8x8 ![] bcast_S_S8x8 : (⟨S_, .i32⟩ : BufTy).Contents (Elt F) → (⟨S8x8, .i32⟩ : BufTy).Contents (Elt F)),
    StableHlo.binary main_v142 main_v145 main_v146 (addi : (⟨S8x8, .i32⟩ : BufTy).Contents (Elt F) → (⟨S8x8, .i32⟩ : BufTy).Contents (Elt F) → (⟨S8x8, .i32⟩ : BufTy).Contents (Elt F)),
    StableHlo.ternary main_v144 main_v146 main_v142 main_v147 (select : (⟨S8x8, .i1⟩ : BufTy).Contents (Elt F) → (⟨S8x8, .i32⟩ : BufTy).Contents (Elt F) → (⟨S8x8, .i32⟩ : BufTy).Contents (Elt F) → (⟨S8x8, .i32⟩ : BufTy).Contents (Elt F)),
    StableHlo.unary main_v147 main_v148 (broadcastInDim S8x8x1 ![0, 1] bcast_S8x8_S8x8x1_0_1 : (⟨S8x8, .i32⟩ : BufTy).Contents (Elt F) → (⟨S8x8x1, .i32⟩ : BufTy).Contents (Elt F)),
    StableHlo.binary main_v138 main_v148 main_v149 ((fun x i => Host.gather gather_S256x256x8_S8x8x1_S256x256x8x8_01_2_n_n_2_2_2562561 x i) : (⟨S256x256x8, .f32⟩ : BufTy).Contents (Elt F) → (⟨S8x8x1, .i32⟩ : BufTy).Contents (Elt F) → (⟨S256x256x8x8, .f32⟩ : BufTy).Contents (Elt F)),
    StableHlo.unary main_v149 main_v150 ((transpose S256x8x256x8 [0, 2, 1, 3] · transposes_S256x256x8x8_S256x8x256x8_0_2_1_3) : (⟨S256x256x8x8, .f32⟩ : BufTy).Contents (Elt F) → (⟨S256x8x256x8, .f32⟩ : BufTy).Contents (Elt F)),
    StableHlo.reshape main_v150 main_v151 rfl shapeCasts_S256x8x256x8_S2048x2048,
    StableHlo.unary main_v110 main_v152 (broadcastInDim S2048x2048 ![] bcast_S_S2048x2048 : (⟨S_, .f32⟩ : BufTy).Contents (Elt F) → (⟨S2048x2048, .f32⟩ : BufTy).Contents (Elt F)),
    StableHlo.binary main_v152 main_v151 main_v153 (mulf : (⟨S2048x2048, .f32⟩ : BufTy).Contents (Elt F) → (⟨S2048x2048, .f32⟩ : BufTy).Contents (Elt F) → (⟨S2048x2048, .f32⟩ : BufTy).Contents (Elt F)),
    StableHlo.binary main_v108 main_v153 main_v154 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v155 ((extractStridedSlice S1 ![4] · slices_S7_S1_4) : (⟨S7, .f32⟩ : BufTy).Contents (Elt F) → (⟨S1, .f32⟩ : BufTy).Contents (Elt F)),
    StableHlo.reshape main_v155 main_v156 rfl shapeCasts_S1_S_,
    StableHlo.reshape main_arg1 main_v157 rfl shapeCasts_S2048x2048_S128x16x128x16,
    StableHlo.unary main_v157 main_v158 ((transpose S128x128x16x16 [0, 2, 1, 3] · transposes_S128x16x128x16_S128x128x16x16_0_2_1_3) : (⟨S128x16x128x16, .f32⟩ : BufTy).Contents (Elt F) → (⟨S128x128x16x16, .f32⟩ : BufTy).Contents (Elt F)),
    StableHlo.nullary main_v159 (iotaInDim S16 32 0),
    StableHlo.unary main_v159 main_v160 (broadcastInDim S16x1 ![0] bcast_S16_S16x1_0 : (⟨S16, .i32⟩ : BufTy).Contents (Elt F) → (⟨S16x1, .i32⟩ : BufTy).Contents (Elt F)),
    StableHlo.nullary main_v161 (iotaInDim S16 32 0),
    StableHlo.unary main_v161 main_v162 (broadcastInDim S1x16 ![1] bcast_S16_S1x16_1 : (⟨S16, .i32⟩ : BufTy).Contents (Elt F) → (⟨S1x16, .i32⟩ : BufTy).Contents (Elt F)),
    StableHlo.unary main_v160 main_v163 (broadcastInDim S16x16 ![0, 1] bcast_S16x1_S16x16_0_1 : (⟨S16x1, .i32⟩ : BufTy).Contents (Elt F) → (⟨S16x16, .i32⟩ : BufTy).Contents (Elt F)),
    StableHlo.unary main_v162 main_v164 (broadcastInDim S16x16 ![0, 1] bcast_S1x16_S16x16_0_1 : (⟨S1x16, .i32⟩ : BufTy).Contents (Elt F) → (⟨S16x16, .i32⟩ : BufTy).Contents (Elt F)),
    StableHlo.binary main_v163 main_v164 main_v165 (addi : (⟨S16x16, .i32⟩ : BufTy).Contents (Elt F) → (⟨S16x16, .i32⟩ : BufTy).Contents (Elt F) → (⟨S16x16, .i32⟩ : BufTy).Contents (Elt F)),
    StableHlo.nullary main_c_32 (constantI S_ 32 16#32) ]

/-- Stretch 13 of @main (a call's operations): 21 operations. -/
abbrev stretch13 : List (HloOp τ sig (Elt F)) :=
  [ StableHlo.TRef.unary (.of main_c_32 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary main_call6_call0.v0 (.of main_call6_v3 : StableHlo.TRef sig ⟨S16x16, .i32⟩) (broadcastInDim S16x16 ![] bcast_S_S16x16),
    StableHlo.TRef.binary (.of main_v165 : StableHlo.TRef sig ⟨S16x16, .i32⟩) (.of main_call6_v3 : StableHlo.TRef sig ⟨S16x16, .i32⟩) (.of main_call6_v4 : StableHlo.TRef sig ⟨S16x16, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S16x16, .i32⟩) (broadcastInDim S16x16 ![] bcast_S_S16x16),
    StableHlo.TRef.binary (.of main_call6_v4 : StableHlo.TRef sig ⟨S16x16, .i32⟩) (.of main_call6_v5 : StableHlo.TRef sig ⟨S16x16, .i32⟩) (.of main_call6_v6 : StableHlo.TRef sig ⟨S16x16, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S16x16, .i32⟩) (broadcastInDim S16x16 ![] bcast_S_S16x16),
    StableHlo.TRef.binary (.of main_call6_v4 : StableHlo.TRef sig ⟨S16x16, .i32⟩) (.of main_call6_v7 : StableHlo.TRef sig ⟨S16x16, .i32⟩) (.of main_call6_v8 : StableHlo.TRef sig ⟨S16x16, .i1⟩) (cmpi .slt),
    StableHlo.TRef.nullary (.of main_call6_c_3 : StableHlo.TRef sig ⟨S_, .i32⟩) (constantI S_ 32 0#32),
    StableHlo.TRef.binary main_call6_call0.v0 (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S16x16, .i1⟩) (broadcastInDim S16x16 ![] bcast_S_S16x16),
    StableHlo.TRef.binary (.of main_call6_v8 : StableHlo.TRef sig ⟨S16x16, .i1⟩) (.of main_call6_v10 : StableHlo.TRef sig ⟨S16x16, .i1⟩) (.of main_call6_v11 : StableHlo.TRef sig ⟨S16x16, .i1⟩) (cmpi .ne),
    StableHlo.TRef.binary (.of main_call6_v11 : StableHlo.TRef sig ⟨S16x16, .i1⟩) (.of main_call6_v6 : StableHlo.TRef sig ⟨S16x16, .i1⟩) (.of main_call6_v12 : StableHlo.TRef sig ⟨S16x16, .i1⟩) andi,
    StableHlo.TRef.unary main_call6_call0.v0 (.of main_call6_v13 : StableHlo.TRef sig ⟨S16x16, .i32⟩) (broadcastInDim S16x16 ![] bcast_S_S16x16),
    StableHlo.TRef.binary (.of main_call6_v4 : StableHlo.TRef sig ⟨S16x16, .i32⟩) (.of main_call6_v13 : StableHlo.TRef sig ⟨S16x16, .i32⟩) (.of main_call6_v14 : StableHlo.TRef sig ⟨S16x16, .i32⟩) addi,
    StableHlo.TRef.ternary (.of main_call6_v12 : StableHlo.TRef sig ⟨S16x16, .i1⟩) (.of main_call6_v14 : StableHlo.TRef sig ⟨S16x16, .i32⟩) (.of main_call6_v4 : StableHlo.TRef sig ⟨S16x16, .i32⟩) (.of main_v166 : StableHlo.TRef sig ⟨S16x16, .i32⟩) select ]

/-- Stretch 14 of @main (between two calls): 28 operations. -/
abbrev stretch14 : List (HloOp τ sig (Elt F)) :=
  [ StableHlo.nullary main_c_33 (constantI S_ 32 0#32),
    StableHlo.unary main_c_33 main_v167 (broadcastInDim S16x1 ![] bcast_S_S16x1 : (⟨S_, .i32⟩ : BufTy).Contents (Elt F) → (⟨S16x1, .i32⟩ : BufTy).Contents (Elt F)),
    StableHlo.binary main_v160 main_v167 main_v168 (cmpi .slt : (⟨S16x1, .i32⟩ : BufTy).Contents (Elt F) → (⟨S16x1, .i32⟩ : BufTy).Contents (Elt F) → (⟨S16x1, .i1⟩ : BufTy).Contents (Elt F)),
    StableHlo.nullary main_c_34 (constantI S_ 32 16#32),
    StableHlo.unary main_c_34 main_v169 (broadcastInDim S16x1 ![] bcast_S_S16x1 : (⟨S_, .i32⟩ : BufTy).Contents (Elt F) → (⟨S16x1, .i32⟩ : BufTy).Contents (Elt F)),
    StableHlo.binary main_v160 main_v169 main_v170 (addi : (⟨S16x1, .i32⟩ : BufTy).Contents (Elt F) → (⟨S16x1, .i32⟩ : BufTy).Contents (Elt F) → (⟨S16x1, .i32⟩ : BufTy).Contents (Elt F)),
    StableHlo.ternary main_v168 main_v170 main_v160 main_v171 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    StableHlo.nullary main_c_35 (constantI S_ 32 0#32),
    StableHlo.unary main_c_35 main_v172 (broadcastInDim S16x16 ![] bcast_S_S16x16 : (⟨S_, .i32⟩ : BufTy).Contents (Elt F) → (⟨S16x16, .i32⟩ : BufTy).Contents (Elt F)),
    StableHlo.binary main_v166 main_v172 main_v173 (cmpi .slt : (⟨S16x16, .i32⟩ : BufTy).Contents (Elt F) → (⟨S16x16, .i32⟩ : BufTy).Contents (Elt F) → (⟨S16x16, .i1⟩ : BufTy).Contents (Elt F)),
    StableHlo.nullary main_c_36 (constantI S_ 32 16#32),
    StableHlo.unary main_c_36 main_v174 (broadcastInDim S16x16 ![] bcast_S_S16x16 : (⟨S_, .i32⟩ : BufTy).Contents (Elt F) → (⟨S16x16, .i32⟩ : BufTy).Contents (Elt F)),
    StableHlo.binary main_v166 main_v174 main_v175 (addi : (⟨S16x16, .i32⟩ : BufTy).Contents (Elt F) → (⟨S16x16, .i32⟩ : BufTy).Contents (Elt F) → (⟨S16x16, .i32⟩ : BufTy).Contents (Elt F)),
    StableHlo.ternary main_v173 main_v175 main_v166 main_v176 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v171 main_v177 (broadcastInDim S16x16 ![0, 1] bcast_S16x1_S16x16_0_1 : (⟨S16x1, .i32⟩ : BufTy).Contents (Elt F) → (⟨S16x16, .i32⟩ : BufTy).Contents (Elt F)),
    StableHlo.unary main_v177 main_v178 (broadcastInDim S16x16x1 ![0, 1] bcast_S16x16_S16x16x1_0_1 : (⟨S16x16, .i32⟩ : BufTy).Contents (Elt F) → (⟨S16x16x1, .i32⟩ : BufTy).Contents (Elt F)),
    StableHlo.unary main_v176 main_v179 (broadcastInDim S16x16x1 ![0, 1] bcast_S16x16_S16x16x1_0_1 : (⟨S16x16, .i32⟩ : BufTy).Contents (Elt F) → (⟨S16x16x1, .i32⟩ : BufTy).Contents (Elt F)),
    StableHlo.binary main_v178 main_v179 main_v180 ((fun a b => concatenate S16x16x2 2 [⟨S16x16x1, a⟩, ⟨S16x16x1, b⟩] concatenates_S16x16x1_S16x16x1_S16x16x2_d2) : (⟨S16x16x1, .i32⟩ : BufTy).Contents (Elt F) → (⟨S16x16x1, .i32⟩ : BufTy).Contents (Elt F) → (⟨S16x16x2, .i32⟩ : BufTy).Contents (Elt F)),
    StableHlo.binary main_v158 main_v180 main_v181 ((fun x i => Host.gather gather_S128x128x16x16_S16x16x2_S128x128x16x16_01_23_n_n_23_2_12812811 x i) : (⟨S128x128x16x16, .f32⟩ : BufTy).Contents (Elt F) → (⟨S16x16x2, .i32⟩ : BufTy).Contents (Elt F) → (⟨S128x128x16x16, .f32⟩ : BufTy).Contents (Elt F)),
    StableHlo.nullary main_cst_37 (constant S_ .f32 0x00000000#32),
    StableHlo.binary main_v181 main_cst_37 main_v182 ((fun x v => Host.reduceAdd x v reducesTo_S128x128x16x16_S128x128x16_d2 h_S_) : (⟨S128x128x16x16, .f32⟩ : BufTy).Contents (Elt F) → (⟨S_, .f32⟩ : BufTy).Contents (Elt F) → (⟨S128x128x16, .f32⟩ : BufTy).Contents (Elt F)),
    StableHlo.nullary main_cst_38 (constant S_ .f32 0x41800000#32),
    StableHlo.unary main_cst_38 main_v183 (broadcastInDim S128x128x16 ![] bcast_S_S128x128x16 : (⟨S_, .f32⟩ : BufTy).Contents (Elt F) → (⟨S128x128x16, .f32⟩ : BufTy).Contents (Elt F)),
    StableHlo.binary main_v182 main_v183 main_v184 (Host.divf : (⟨S128x128x16, .f32⟩ : BufTy).Contents (Elt F) → (⟨S128x128x16, .f32⟩ : BufTy).Contents (Elt F) → (⟨S128x128x16, .f32⟩ : BufTy).Contents (Elt F)),
    StableHlo.unary main_v162 main_v185 (broadcastInDim S16x16 ![0, 1] bcast_S1x16_S16x16_0_1 : (⟨S1x16, .i32⟩ : BufTy).Contents (Elt F) → (⟨S16x16, .i32⟩ : BufTy).Contents (Elt F)),
    StableHlo.unary main_v160 main_v186 (broadcastInDim S16x16 ![0, 1] bcast_S16x1_S16x16_0_1 : (⟨S16x1, .i32⟩ : BufTy).Contents (Elt F) → (⟨S16x16, .i32⟩ : BufTy).Contents (Elt F)),
    StableHlo.binary main_v185 main_v186 main_v187 (subi : (⟨S16x16, .i32⟩ : BufTy).Contents (Elt F) → (⟨S16x16, .i32⟩ : BufTy).Contents (Elt F) → (⟨S16x16, .i32⟩ : BufTy).Contents (Elt F)),
    StableHlo.nullary main_c_39 (constantI S_ 32 16#32) ]

/-- Stretch 15 of @main (a call's operations): 21 operations. -/
abbrev stretch15 : List (HloOp τ sig (Elt F)) :=
  [ StableHlo.TRef.unary (.of main_c_39 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S16x16, .i32⟩) (broadcastInDim S16x16 ![] bcast_S_S16x16),
    StableHlo.TRef.binary (.of main_v187 : StableHlo.TRef sig ⟨S16x16, .i32⟩) (.of main_call7_v3 : StableHlo.TRef sig ⟨S16x16, .i32⟩) (.of main_call7_v4 : StableHlo.TRef sig ⟨S16x16, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S16x16, .i32⟩) (broadcastInDim S16x16 ![] bcast_S_S16x16),
    StableHlo.TRef.binary (.of main_call7_v4 : StableHlo.TRef sig ⟨S16x16, .i32⟩) (.of main_call7_v5 : StableHlo.TRef sig ⟨S16x16, .i32⟩) (.of main_call7_v6 : StableHlo.TRef sig ⟨S16x16, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S16x16, .i32⟩) (broadcastInDim S16x16 ![] bcast_S_S16x16),
    StableHlo.TRef.binary (.of main_call7_v4 : StableHlo.TRef sig ⟨S16x16, .i32⟩) (.of main_call7_v7 : StableHlo.TRef sig ⟨S16x16, .i32⟩) (.of main_call7_v8 : StableHlo.TRef sig ⟨S16x16, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S16x16, .i1⟩) (broadcastInDim S16x16 ![] bcast_S_S16x16),
    StableHlo.TRef.binary (.of main_call7_v8 : StableHlo.TRef sig ⟨S16x16, .i1⟩) (.of main_call7_v10 : StableHlo.TRef sig ⟨S16x16, .i1⟩) (.of main_call7_v11 : StableHlo.TRef sig ⟨S16x16, .i1⟩) (cmpi .ne),
    StableHlo.TRef.binary (.of main_call7_v11 : StableHlo.TRef sig ⟨S16x16, .i1⟩) (.of main_call7_v6 : StableHlo.TRef sig ⟨S16x16, .i1⟩) (.of main_call7_v12 : StableHlo.TRef sig ⟨S16x16, .i1⟩) andi,
    StableHlo.TRef.unary main_call7_call0.v0 (.of main_call7_v13 : StableHlo.TRef sig ⟨S16x16, .i32⟩) (broadcastInDim S16x16 ![] bcast_S_S16x16),
    StableHlo.TRef.binary (.of main_call7_v4 : StableHlo.TRef sig ⟨S16x16, .i32⟩) (.of main_call7_v13 : StableHlo.TRef sig ⟨S16x16, .i32⟩) (.of main_call7_v14 : StableHlo.TRef sig ⟨S16x16, .i32⟩) addi,
    StableHlo.TRef.ternary (.of main_call7_v12 : StableHlo.TRef sig ⟨S16x16, .i1⟩) (.of main_call7_v14 : StableHlo.TRef sig ⟨S16x16, .i32⟩) (.of main_call7_v4 : StableHlo.TRef sig ⟨S16x16, .i32⟩) (.of main_v188 : StableHlo.TRef sig ⟨S16x16, .i32⟩) select ]

/-- Stretch 16 of @main (between two calls): 26 operations. -/
abbrev stretch16 : List (HloOp τ sig (Elt F)) :=
  [ StableHlo.nullary main_c_40 (constantI S_ 32 0#32),
    StableHlo.unary main_c_40 main_v189 (broadcastInDim S16x16 ![] bcast_S_S16x16 : (⟨S_, .i32⟩ : BufTy).Contents (Elt F) → (⟨S16x16, .i32⟩ : BufTy).Contents (Elt F)),
    StableHlo.binary main_v188 main_v189 main_v190 (cmpi .slt : (⟨S16x16, .i32⟩ : BufTy).Contents (Elt F) → (⟨S16x16, .i32⟩ : BufTy).Contents (Elt F) → (⟨S16x16, .i1⟩ : BufTy).Contents (Elt F)),
    StableHlo.nullary main_c_41 (constantI S_ 32 16#32),
    StableHlo.unary main_c_41 main_v191 (broadcastInDim S16x16 ![] bcast_S_S16x16 : (⟨S_, .i32⟩ : BufTy).Contents (Elt F) → (⟨S16x16, .i32⟩ : BufTy).Contents (Elt F)),
    StableHlo.binary main_v188 main_v191 main_v192 (addi : (⟨S16x16, .i32⟩ : BufTy).Contents (Elt F) → (⟨S16x16, .i32⟩ : BufTy).Contents (Elt F) → (⟨S16x16, .i32⟩ : BufTy).Contents (Elt F)),
    StableHlo.ternary main_v190 main_v192 main_v188 main_v193 (select : (⟨S16x16, .i1⟩ : BufTy).Contents (Elt F) → (⟨S16x16, .i32⟩ : BufTy).Contents (Elt F) → (⟨S16x16, .i32⟩ : BufTy).Contents (Elt F) → (⟨S16x16, .i32⟩ : BufTy).Contents (Elt F)),
    StableHlo.unary main_v193 main_v194 (broadcastInDim S16x16x1 ![0, 1] bcast_S16x16_S16x16x1_0_1 : (⟨S16x16, .i32⟩ : BufTy).Contents (Elt F) → (⟨S16x16x1, .i32⟩ : BufTy).Contents (Elt F)),
    StableHlo.binary main_v184 main_v194 main_v195 ((fun x i => Host.gather gather_S128x128x16_S16x16x1_S128x128x16x16_01_2_n_n_2_2_1281281 x i) : (⟨S128x128x16, .f32⟩ : BufTy).Contents (Elt F) → (⟨S16x16x1, .i32⟩ : BufTy).Contents (Elt F) → (⟨S128x128x16x16, .f32⟩ : BufTy).Contents (Elt F)),
    StableHlo.unary main_v195 main_v196 ((transpose S128x16x128x16 [0, 2, 1, 3] · transposes_S128x128x16x16_S128x16x128x16_0_2_1_3) : (⟨S128x128x16x16, .f32⟩ : BufTy).Contents (Elt F) → (⟨S128x16x128x16, .f32⟩ : BufTy).Contents (Elt F)),
    StableHlo.reshape main_v196 main_v197 rfl shapeCasts_S128x16x128x16_S2048x2048,
    StableHlo.unary main_v156 main_v198 (broadcastInDim S2048x2048 ![] bcast_S_S2048x2048 : (⟨S_, .f32⟩ : BufTy).Contents (Elt F) → (⟨S2048x2048, .f32⟩ : BufTy).Contents (Elt F)),
    StableHlo.binary main_v198 main_v197 main_v199 (mulf : (⟨S2048x2048, .f32⟩ : BufTy).Contents (Elt F) → (⟨S2048x2048, .f32⟩ : BufTy).Contents (Elt F) → (⟨S2048x2048, .f32⟩ : BufTy).Contents (Elt F)),
    StableHlo.binary main_v154 main_v199 main_v200 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v201 ((extractStridedSlice S1 ![5] · slices_S7_S1_5) : (⟨S7, .f32⟩ : BufTy).Contents (Elt F) → (⟨S1, .f32⟩ : BufTy).Contents (Elt F)),
    StableHlo.reshape main_v201 main_v202 rfl shapeCasts_S1_S_,
    StableHlo.reshape main_arg1 main_v203 rfl shapeCasts_S2048x2048_S64x32x64x32,
    StableHlo.unary main_v203 main_v204 ((transpose S64x64x32x32 [0, 2, 1, 3] · transposes_S64x32x64x32_S64x64x32x32_0_2_1_3) : (⟨S64x32x64x32, .f32⟩ : BufTy).Contents (Elt F) → (⟨S64x64x32x32, .f32⟩ : BufTy).Contents (Elt F)),
    StableHlo.nullary main_v205 (iotaInDim S32 32 0),
    StableHlo.unary main_v205 main_v206 (broadcastInDim S32x1 ![0] bcast_S32_S32x1_0 : (⟨S32, .i32⟩ : BufTy).Contents (Elt F) → (⟨S32x1, .i32⟩ : BufTy).Contents (Elt F)),
    StableHlo.nullary main_v207 (iotaInDim S32 32 0),
    StableHlo.unary main_v207 main_v208 (broadcastInDim S1x32 ![1] bcast_S32_S1x32_1 : (⟨S32, .i32⟩ : BufTy).Contents (Elt F) → (⟨S1x32, .i32⟩ : BufTy).Contents (Elt F)),
    StableHlo.unary main_v206 main_v209 (broadcastInDim S32x32 ![0, 1] bcast_S32x1_S32x32_0_1 : (⟨S32x1, .i32⟩ : BufTy).Contents (Elt F) → (⟨S32x32, .i32⟩ : BufTy).Contents (Elt F)),
    StableHlo.unary main_v208 main_v210 (broadcastInDim S32x32 ![0, 1] bcast_S1x32_S32x32_0_1 : (⟨S1x32, .i32⟩ : BufTy).Contents (Elt F) → (⟨S32x32, .i32⟩ : BufTy).Contents (Elt F)),
    StableHlo.binary main_v209 main_v210 main_v211 (addi : (⟨S32x32, .i32⟩ : BufTy).Contents (Elt F) → (⟨S32x32, .i32⟩ : BufTy).Contents (Elt F) → (⟨S32x32, .i32⟩ : BufTy).Contents (Elt F)),
    StableHlo.nullary main_c_42 (constantI S_ 32 32#32) ]

/-- Stretch 17 of @main (a call's operations): 21 operations. -/
abbrev stretch17 : List (HloOp τ sig (Elt F)) :=
  [ StableHlo.TRef.unary (.of main_c_42 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary main_call8_call0.v0 (.of main_call8_v3 : StableHlo.TRef sig ⟨S32x32, .i32⟩) (broadcastInDim S32x32 ![] bcast_S_S32x32),
    StableHlo.TRef.binary (.of main_v211 : StableHlo.TRef sig ⟨S32x32, .i32⟩) (.of main_call8_v3 : StableHlo.TRef sig ⟨S32x32, .i32⟩) (.of main_call8_v4 : StableHlo.TRef sig ⟨S32x32, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S32x32, .i32⟩) (broadcastInDim S32x32 ![] bcast_S_S32x32),
    StableHlo.TRef.binary (.of main_call8_v4 : StableHlo.TRef sig ⟨S32x32, .i32⟩) (.of main_call8_v5 : StableHlo.TRef sig ⟨S32x32, .i32⟩) (.of main_call8_v6 : StableHlo.TRef sig ⟨S32x32, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S32x32, .i32⟩) (broadcastInDim S32x32 ![] bcast_S_S32x32),
    StableHlo.TRef.binary (.of main_call8_v4 : StableHlo.TRef sig ⟨S32x32, .i32⟩) (.of main_call8_v7 : StableHlo.TRef sig ⟨S32x32, .i32⟩) (.of main_call8_v8 : StableHlo.TRef sig ⟨S32x32, .i1⟩) (cmpi .slt),
    StableHlo.TRef.nullary (.of main_call8_c_3 : StableHlo.TRef sig ⟨S_, .i32⟩) (constantI S_ 32 0#32),
    StableHlo.TRef.binary main_call8_call0.v0 (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S32x32, .i1⟩) (broadcastInDim S32x32 ![] bcast_S_S32x32),
    StableHlo.TRef.binary (.of main_call8_v8 : StableHlo.TRef sig ⟨S32x32, .i1⟩) (.of main_call8_v10 : StableHlo.TRef sig ⟨S32x32, .i1⟩) (.of main_call8_v11 : StableHlo.TRef sig ⟨S32x32, .i1⟩) (cmpi .ne),
    StableHlo.TRef.binary (.of main_call8_v11 : StableHlo.TRef sig ⟨S32x32, .i1⟩) (.of main_call8_v6 : StableHlo.TRef sig ⟨S32x32, .i1⟩) (.of main_call8_v12 : StableHlo.TRef sig ⟨S32x32, .i1⟩) andi,
    StableHlo.TRef.unary main_call8_call0.v0 (.of main_call8_v13 : StableHlo.TRef sig ⟨S32x32, .i32⟩) (broadcastInDim S32x32 ![] bcast_S_S32x32),
    StableHlo.TRef.binary (.of main_call8_v4 : StableHlo.TRef sig ⟨S32x32, .i32⟩) (.of main_call8_v13 : StableHlo.TRef sig ⟨S32x32, .i32⟩) (.of main_call8_v14 : StableHlo.TRef sig ⟨S32x32, .i32⟩) addi,
    StableHlo.TRef.ternary (.of main_call8_v12 : StableHlo.TRef sig ⟨S32x32, .i1⟩) (.of main_call8_v14 : StableHlo.TRef sig ⟨S32x32, .i32⟩) (.of main_call8_v4 : StableHlo.TRef sig ⟨S32x32, .i32⟩) (.of main_v212 : StableHlo.TRef sig ⟨S32x32, .i32⟩) select ]

/-- Stretch 18 of @main (between two calls): 28 operations. -/
abbrev stretch18 : List (HloOp τ sig (Elt F)) :=
  [ StableHlo.nullary main_c_43 (constantI S_ 32 0#32),
    StableHlo.unary main_c_43 main_v213 (broadcastInDim S32x1 ![] bcast_S_S32x1 : (⟨S_, .i32⟩ : BufTy).Contents (Elt F) → (⟨S32x1, .i32⟩ : BufTy).Contents (Elt F)),
    StableHlo.binary main_v206 main_v213 main_v214 (cmpi .slt : (⟨S32x1, .i32⟩ : BufTy).Contents (Elt F) → (⟨S32x1, .i32⟩ : BufTy).Contents (Elt F) → (⟨S32x1, .i1⟩ : BufTy).Contents (Elt F)),
    StableHlo.nullary main_c_44 (constantI S_ 32 32#32),
    StableHlo.unary main_c_44 main_v215 (broadcastInDim S32x1 ![] bcast_S_S32x1 : (⟨S_, .i32⟩ : BufTy).Contents (Elt F) → (⟨S32x1, .i32⟩ : BufTy).Contents (Elt F)),
    StableHlo.binary main_v206 main_v215 main_v216 (addi : (⟨S32x1, .i32⟩ : BufTy).Contents (Elt F) → (⟨S32x1, .i32⟩ : BufTy).Contents (Elt F) → (⟨S32x1, .i32⟩ : BufTy).Contents (Elt F)),
    StableHlo.ternary main_v214 main_v216 main_v206 main_v217 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    StableHlo.nullary main_c_45 (constantI S_ 32 0#32),
    StableHlo.unary main_c_45 main_v218 (broadcastInDim S32x32 ![] bcast_S_S32x32 : (⟨S_, .i32⟩ : BufTy).Contents (Elt F) → (⟨S32x32, .i32⟩ : BufTy).Contents (Elt F)),
    StableHlo.binary main_v212 main_v218 main_v219 (cmpi .slt : (⟨S32x32, .i32⟩ : BufTy).Contents (Elt F) → (⟨S32x32, .i32⟩ : BufTy).Contents (Elt F) → (⟨S32x32, .i1⟩ : BufTy).Contents (Elt F)),
    StableHlo.nullary main_c_46 (constantI S_ 32 32#32),
    StableHlo.unary main_c_46 main_v220 (broadcastInDim S32x32 ![] bcast_S_S32x32 : (⟨S_, .i32⟩ : BufTy).Contents (Elt F) → (⟨S32x32, .i32⟩ : BufTy).Contents (Elt F)),
    StableHlo.binary main_v212 main_v220 main_v221 (addi : (⟨S32x32, .i32⟩ : BufTy).Contents (Elt F) → (⟨S32x32, .i32⟩ : BufTy).Contents (Elt F) → (⟨S32x32, .i32⟩ : BufTy).Contents (Elt F)),
    StableHlo.ternary main_v219 main_v221 main_v212 main_v222 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v217 main_v223 (broadcastInDim S32x32 ![0, 1] bcast_S32x1_S32x32_0_1 : (⟨S32x1, .i32⟩ : BufTy).Contents (Elt F) → (⟨S32x32, .i32⟩ : BufTy).Contents (Elt F)),
    StableHlo.unary main_v223 main_v224 (broadcastInDim S32x32x1 ![0, 1] bcast_S32x32_S32x32x1_0_1 : (⟨S32x32, .i32⟩ : BufTy).Contents (Elt F) → (⟨S32x32x1, .i32⟩ : BufTy).Contents (Elt F)),
    StableHlo.unary main_v222 main_v225 (broadcastInDim S32x32x1 ![0, 1] bcast_S32x32_S32x32x1_0_1 : (⟨S32x32, .i32⟩ : BufTy).Contents (Elt F) → (⟨S32x32x1, .i32⟩ : BufTy).Contents (Elt F)),
    StableHlo.binary main_v224 main_v225 main_v226 ((fun a b => concatenate S32x32x2 2 [⟨S32x32x1, a⟩, ⟨S32x32x1, b⟩] concatenates_S32x32x1_S32x32x1_S32x32x2_d2) : (⟨S32x32x1, .i32⟩ : BufTy).Contents (Elt F) → (⟨S32x32x1, .i32⟩ : BufTy).Contents (Elt F) → (⟨S32x32x2, .i32⟩ : BufTy).Contents (Elt F)),
    StableHlo.binary main_v204 main_v226 main_v227 ((fun x i => Host.gather gather_S64x64x32x32_S32x32x2_S64x64x32x32_01_23_n_n_23_2_646411 x i) : (⟨S64x64x32x32, .f32⟩ : BufTy).Contents (Elt F) → (⟨S32x32x2, .i32⟩ : BufTy).Contents (Elt F) → (⟨S64x64x32x32, .f32⟩ : BufTy).Contents (Elt F)),
    StableHlo.nullary main_cst_47 (constant S_ .f32 0x00000000#32),
    StableHlo.binary main_v227 main_cst_47 main_v228 ((fun x v => Host.reduceAdd x v reducesTo_S64x64x32x32_S64x64x32_d2 h_S_) : (⟨S64x64x32x32, .f32⟩ : BufTy).Contents (Elt F) → (⟨S_, .f32⟩ : BufTy).Contents (Elt F) → (⟨S64x64x32, .f32⟩ : BufTy).Contents (Elt F)),
    StableHlo.nullary main_cst_48 (constant S_ .f32 0x42000000#32),
    StableHlo.unary main_cst_48 main_v229 (broadcastInDim S64x64x32 ![] bcast_S_S64x64x32 : (⟨S_, .f32⟩ : BufTy).Contents (Elt F) → (⟨S64x64x32, .f32⟩ : BufTy).Contents (Elt F)),
    StableHlo.binary main_v228 main_v229 main_v230 (Host.divf : (⟨S64x64x32, .f32⟩ : BufTy).Contents (Elt F) → (⟨S64x64x32, .f32⟩ : BufTy).Contents (Elt F) → (⟨S64x64x32, .f32⟩ : BufTy).Contents (Elt F)),
    StableHlo.unary main_v208 main_v231 (broadcastInDim S32x32 ![0, 1] bcast_S1x32_S32x32_0_1 : (⟨S1x32, .i32⟩ : BufTy).Contents (Elt F) → (⟨S32x32, .i32⟩ : BufTy).Contents (Elt F)),
    StableHlo.unary main_v206 main_v232 (broadcastInDim S32x32 ![0, 1] bcast_S32x1_S32x32_0_1 : (⟨S32x1, .i32⟩ : BufTy).Contents (Elt F) → (⟨S32x32, .i32⟩ : BufTy).Contents (Elt F)),
    StableHlo.binary main_v231 main_v232 main_v233 (subi : (⟨S32x32, .i32⟩ : BufTy).Contents (Elt F) → (⟨S32x32, .i32⟩ : BufTy).Contents (Elt F) → (⟨S32x32, .i32⟩ : BufTy).Contents (Elt F)),
    StableHlo.nullary main_c_49 (constantI S_ 32 32#32) ]

/-- Stretch 19 of @main (a call's operations): 21 operations. -/
abbrev stretch19 : List (HloOp τ sig (Elt F)) :=
  [ StableHlo.TRef.unary (.of main_c_49 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S32x32, .i32⟩) (broadcastInDim S32x32 ![] bcast_S_S32x32),
    StableHlo.TRef.binary (.of main_v233 : StableHlo.TRef sig ⟨S32x32, .i32⟩) (.of main_call9_v3 : StableHlo.TRef sig ⟨S32x32, .i32⟩) (.of main_call9_v4 : StableHlo.TRef sig ⟨S32x32, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S32x32, .i32⟩) (broadcastInDim S32x32 ![] bcast_S_S32x32),
    StableHlo.TRef.binary (.of main_call9_v4 : StableHlo.TRef sig ⟨S32x32, .i32⟩) (.of main_call9_v5 : StableHlo.TRef sig ⟨S32x32, .i32⟩) (.of main_call9_v6 : StableHlo.TRef sig ⟨S32x32, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S32x32, .i32⟩) (broadcastInDim S32x32 ![] bcast_S_S32x32),
    StableHlo.TRef.binary (.of main_call9_v4 : StableHlo.TRef sig ⟨S32x32, .i32⟩) (.of main_call9_v7 : StableHlo.TRef sig ⟨S32x32, .i32⟩) (.of main_call9_v8 : StableHlo.TRef sig ⟨S32x32, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S32x32, .i1⟩) (broadcastInDim S32x32 ![] bcast_S_S32x32),
    StableHlo.TRef.binary (.of main_call9_v8 : StableHlo.TRef sig ⟨S32x32, .i1⟩) (.of main_call9_v10 : StableHlo.TRef sig ⟨S32x32, .i1⟩) (.of main_call9_v11 : StableHlo.TRef sig ⟨S32x32, .i1⟩) (cmpi .ne),
    StableHlo.TRef.binary (.of main_call9_v11 : StableHlo.TRef sig ⟨S32x32, .i1⟩) (.of main_call9_v6 : StableHlo.TRef sig ⟨S32x32, .i1⟩) (.of main_call9_v12 : StableHlo.TRef sig ⟨S32x32, .i1⟩) andi,
    StableHlo.TRef.unary main_call9_call0.v0 (.of main_call9_v13 : StableHlo.TRef sig ⟨S32x32, .i32⟩) (broadcastInDim S32x32 ![] bcast_S_S32x32),
    StableHlo.TRef.binary (.of main_call9_v4 : StableHlo.TRef sig ⟨S32x32, .i32⟩) (.of main_call9_v13 : StableHlo.TRef sig ⟨S32x32, .i32⟩) (.of main_call9_v14 : StableHlo.TRef sig ⟨S32x32, .i32⟩) addi,
    StableHlo.TRef.ternary (.of main_call9_v12 : StableHlo.TRef sig ⟨S32x32, .i1⟩) (.of main_call9_v14 : StableHlo.TRef sig ⟨S32x32, .i32⟩) (.of main_call9_v4 : StableHlo.TRef sig ⟨S32x32, .i32⟩) (.of main_v234 : StableHlo.TRef sig ⟨S32x32, .i32⟩) select ]

/-- Stretch 20 of @main (between two calls): 26 operations. -/
abbrev stretch20 : List (HloOp τ sig (Elt F)) :=
  [ StableHlo.nullary main_c_50 (constantI S_ 32 0#32),
    StableHlo.unary main_c_50 main_v235 (broadcastInDim S32x32 ![] bcast_S_S32x32 : (⟨S_, .i32⟩ : BufTy).Contents (Elt F) → (⟨S32x32, .i32⟩ : BufTy).Contents (Elt F)),
    StableHlo.binary main_v234 main_v235 main_v236 (cmpi .slt : (⟨S32x32, .i32⟩ : BufTy).Contents (Elt F) → (⟨S32x32, .i32⟩ : BufTy).Contents (Elt F) → (⟨S32x32, .i1⟩ : BufTy).Contents (Elt F)),
    StableHlo.nullary main_c_51 (constantI S_ 32 32#32),
    StableHlo.unary main_c_51 main_v237 (broadcastInDim S32x32 ![] bcast_S_S32x32 : (⟨S_, .i32⟩ : BufTy).Contents (Elt F) → (⟨S32x32, .i32⟩ : BufTy).Contents (Elt F)),
    StableHlo.binary main_v234 main_v237 main_v238 (addi : (⟨S32x32, .i32⟩ : BufTy).Contents (Elt F) → (⟨S32x32, .i32⟩ : BufTy).Contents (Elt F) → (⟨S32x32, .i32⟩ : BufTy).Contents (Elt F)),
    StableHlo.ternary main_v236 main_v238 main_v234 main_v239 (select : (⟨S32x32, .i1⟩ : BufTy).Contents (Elt F) → (⟨S32x32, .i32⟩ : BufTy).Contents (Elt F) → (⟨S32x32, .i32⟩ : BufTy).Contents (Elt F) → (⟨S32x32, .i32⟩ : BufTy).Contents (Elt F)),
    StableHlo.unary main_v239 main_v240 (broadcastInDim S32x32x1 ![0, 1] bcast_S32x32_S32x32x1_0_1 : (⟨S32x32, .i32⟩ : BufTy).Contents (Elt F) → (⟨S32x32x1, .i32⟩ : BufTy).Contents (Elt F)),
    StableHlo.binary main_v230 main_v240 main_v241 ((fun x i => Host.gather gather_S64x64x32_S32x32x1_S64x64x32x32_01_2_n_n_2_2_64641 x i) : (⟨S64x64x32, .f32⟩ : BufTy).Contents (Elt F) → (⟨S32x32x1, .i32⟩ : BufTy).Contents (Elt F) → (⟨S64x64x32x32, .f32⟩ : BufTy).Contents (Elt F)),
    StableHlo.unary main_v241 main_v242 ((transpose S64x32x64x32 [0, 2, 1, 3] · transposes_S64x64x32x32_S64x32x64x32_0_2_1_3) : (⟨S64x64x32x32, .f32⟩ : BufTy).Contents (Elt F) → (⟨S64x32x64x32, .f32⟩ : BufTy).Contents (Elt F)),
    StableHlo.reshape main_v242 main_v243 rfl shapeCasts_S64x32x64x32_S2048x2048,
    StableHlo.unary main_v202 main_v244 (broadcastInDim S2048x2048 ![] bcast_S_S2048x2048 : (⟨S_, .f32⟩ : BufTy).Contents (Elt F) → (⟨S2048x2048, .f32⟩ : BufTy).Contents (Elt F)),
    StableHlo.binary main_v244 main_v243 main_v245 (mulf : (⟨S2048x2048, .f32⟩ : BufTy).Contents (Elt F) → (⟨S2048x2048, .f32⟩ : BufTy).Contents (Elt F) → (⟨S2048x2048, .f32⟩ : BufTy).Contents (Elt F)),
    StableHlo.binary main_v200 main_v245 main_v246 (addf : (⟨S2048x2048, .f32⟩ : BufTy).Contents (Elt F) → (⟨S2048x2048, .f32⟩ : BufTy).Contents (Elt F) → (⟨S2048x2048, .f32⟩ : BufTy).Contents (Elt F)),
    StableHlo.unary main_v12 main_v247 ((extractStridedSlice S1 ![6] · slices_S7_S1_6) : (⟨S7, .f32⟩ : BufTy).Contents (Elt F) → (⟨S1, .f32⟩ : BufTy).Contents (Elt F)),
    StableHlo.reshape main_v247 main_v248 rfl shapeCasts_S1_S_,
    StableHlo.reshape main_arg1 main_v249 rfl shapeCasts_S2048x2048_S32x64x32x64,
    StableHlo.unary main_v249 main_v250 ((transpose S32x32x64x64 [0, 2, 1, 3] · transposes_S32x64x32x64_S32x32x64x64_0_2_1_3) : (⟨S32x64x32x64, .f32⟩ : BufTy).Contents (Elt F) → (⟨S32x32x64x64, .f32⟩ : BufTy).Contents (Elt F)),
    StableHlo.nullary main_v251 (iotaInDim S64 32 0),
    StableHlo.unary main_v251 main_v252 (broadcastInDim S64x1 ![0] bcast_S64_S64x1_0 : (⟨S64, .i32⟩ : BufTy).Contents (Elt F) → (⟨S64x1, .i32⟩ : BufTy).Contents (Elt F)),
    StableHlo.nullary main_v253 (iotaInDim S64 32 0),
    StableHlo.unary main_v253 main_v254 (broadcastInDim S1x64 ![1] bcast_S64_S1x64_1 : (⟨S64, .i32⟩ : BufTy).Contents (Elt F) → (⟨S1x64, .i32⟩ : BufTy).Contents (Elt F)),
    StableHlo.unary main_v252 main_v255 (broadcastInDim S64x64 ![0, 1] bcast_S64x1_S64x64_0_1 : (⟨S64x1, .i32⟩ : BufTy).Contents (Elt F) → (⟨S64x64, .i32⟩ : BufTy).Contents (Elt F)),
    StableHlo.unary main_v254 main_v256 (broadcastInDim S64x64 ![0, 1] bcast_S1x64_S64x64_0_1 : (⟨S1x64, .i32⟩ : BufTy).Contents (Elt F) → (⟨S64x64, .i32⟩ : BufTy).Contents (Elt F)),
    StableHlo.binary main_v255 main_v256 main_v257 (addi : (⟨S64x64, .i32⟩ : BufTy).Contents (Elt F) → (⟨S64x64, .i32⟩ : BufTy).Contents (Elt F) → (⟨S64x64, .i32⟩ : BufTy).Contents (Elt F)),
    StableHlo.nullary main_c_52 (constantI S_ 32 64#32) ]

/-- Stretch 21 of @main (a call's operations): 21 operations. -/
abbrev stretch21 : List (HloOp τ sig (Elt F)) :=
  [ StableHlo.TRef.unary (.of main_c_52 : StableHlo.TRef sig ⟨S_, .i32⟩) (.of main_call10_v0 : StableHlo.TRef sig ⟨S_, .i32⟩) id,
    StableHlo.TRef.nullary (.of main_call10_c : StableHlo.TRef sig ⟨S_, .i32⟩) (constantI S_ 32 0#32),
    StableHlo.TRef.binary (.of main_call10_v0 : StableHlo.TRef sig ⟨S_, .i32⟩) (.of main_call10_c : StableHlo.TRef sig ⟨S_, .i32⟩) (.of main_call10_v1 : StableHlo.TRef sig ⟨S_, .i1⟩) (cmpi .eq),
    StableHlo.TRef.nullary (.of main_call10_c_0 : StableHlo.TRef sig ⟨S_, .i32⟩) (constantI S_ 32 1#32),
    StableHlo.TRef.ternary (.of main_call10_v1 : StableHlo.TRef sig ⟨S_, .i1⟩) (.of main_call10_c_0 : StableHlo.TRef sig ⟨S_, .i32⟩) (.of main_call10_v0 : StableHlo.TRef sig ⟨S_, .i32⟩) (.of main_call10_v2 : StableHlo.TRef sig ⟨S_, .i32⟩) select,
    StableHlo.TRef.unary main_call10_call0.v0 (.of main_call10_v3 : StableHlo.TRef sig ⟨S64x64, .i32⟩) (broadcastInDim S64x64 ![] bcast_S_S64x64),
    StableHlo.TRef.binary (.of main_v257 : StableHlo.TRef sig ⟨S64x64, .i32⟩) (.of main_call10_v3 : StableHlo.TRef sig ⟨S64x64, .i32⟩) (.of main_call10_v4 : StableHlo.TRef sig ⟨S64x64, .i32⟩) Host.remsi,
    StableHlo.TRef.nullary (.of main_call10_c_1 : StableHlo.TRef sig ⟨S_, .i32⟩) (constantI S_ 32 0#32),
    StableHlo.TRef.unary (.of main_call10_c_1 : StableHlo.TRef sig ⟨S_, .i32⟩) (.of main_call10_v5 : StableHlo.TRef sig ⟨S64x64, .i32⟩) (broadcastInDim S64x64 ![] bcast_S_S64x64),
    StableHlo.TRef.binary (.of main_call10_v4 : StableHlo.TRef sig ⟨S64x64, .i32⟩) (.of main_call10_v5 : StableHlo.TRef sig ⟨S64x64, .i32⟩) (.of main_call10_v6 : StableHlo.TRef sig ⟨S64x64, .i1⟩) (cmpi .ne),
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v7 : StableHlo.TRef sig ⟨S64x64, .i32⟩) (broadcastInDim S64x64 ![] bcast_S_S64x64),
    StableHlo.TRef.binary (.of main_call10_v4 : StableHlo.TRef sig ⟨S64x64, .i32⟩) (.of main_call10_v7 : StableHlo.TRef sig ⟨S64x64, .i32⟩) (.of main_call10_v8 : StableHlo.TRef sig ⟨S64x64, .i1⟩) (cmpi .slt),
    StableHlo.TRef.nullary (.of main_call10_c_3 : StableHlo.TRef sig ⟨S_, .i32⟩) (constantI S_ 32 0#32),
    StableHlo.TRef.binary main_call10_call0.v0 (.of main_call10_c_3 : StableHlo.TRef sig ⟨S_, .i32⟩) (.of main_call10_v9 : StableHlo.TRef sig ⟨S_, .i1⟩) (cmpi .slt),
    StableHlo.TRef.unary (.of main_call10_v9 : StableHlo.TRef sig ⟨S_, .i1⟩) (.of main_call10_v10 : StableHlo.TRef sig ⟨S64x64, .i1⟩) (broadcastInDim S64x64 ![] bcast_S_S64x64),
    StableHlo.TRef.binary (.of main_call10_v8 : StableHlo.TRef sig ⟨S64x64, .i1⟩) (.of main_call10_v10 : StableHlo.TRef sig ⟨S64x64, .i1⟩) (.of main_call10_v11 : StableHlo.TRef sig ⟨S64x64, .i1⟩) (cmpi .ne),
    StableHlo.TRef.binary (.of main_call10_v11 : StableHlo.TRef sig ⟨S64x64, .i1⟩) (.of main_call10_v6 : StableHlo.TRef sig ⟨S64x64, .i1⟩) (.of main_call10_v12 : StableHlo.TRef sig ⟨S64x64, .i1⟩) andi,
    StableHlo.TRef.unary main_call10_call0.v0 (.of main_call10_v13 : StableHlo.TRef sig ⟨S64x64, .i32⟩) (broadcastInDim S64x64 ![] bcast_S_S64x64),
    StableHlo.TRef.binary (.of main_call10_v4 : StableHlo.TRef sig ⟨S64x64, .i32⟩) (.of main_call10_v13 : StableHlo.TRef sig ⟨S64x64, .i32⟩) (.of main_call10_v14 : StableHlo.TRef sig ⟨S64x64, .i32⟩) addi,
    StableHlo.TRef.ternary (.of main_call10_v12 : StableHlo.TRef sig ⟨S64x64, .i1⟩) (.of main_call10_v14 : StableHlo.TRef sig ⟨S64x64, .i32⟩) (.of main_call10_v4 : StableHlo.TRef sig ⟨S64x64, .i32⟩) (.of main_v258 : StableHlo.TRef sig ⟨S64x64, .i32⟩) select ]

/-- Stretch 22 of @main (between two calls): 28 operations. -/
abbrev stretch22 : List (HloOp τ sig (Elt F)) :=
  [ StableHlo.nullary main_c_53 (constantI S_ 32 0#32),
    StableHlo.unary main_c_53 main_v259 (broadcastInDim S64x1 ![] bcast_S_S64x1 : (⟨S_, .i32⟩ : BufTy).Contents (Elt F) → (⟨S64x1, .i32⟩ : BufTy).Contents (Elt F)),
    StableHlo.binary main_v252 main_v259 main_v260 (cmpi .slt : (⟨S64x1, .i32⟩ : BufTy).Contents (Elt F) → (⟨S64x1, .i32⟩ : BufTy).Contents (Elt F) → (⟨S64x1, .i1⟩ : BufTy).Contents (Elt F)),
    StableHlo.nullary main_c_54 (constantI S_ 32 64#32),
    StableHlo.unary main_c_54 main_v261 (broadcastInDim S64x1 ![] bcast_S_S64x1 : (⟨S_, .i32⟩ : BufTy).Contents (Elt F) → (⟨S64x1, .i32⟩ : BufTy).Contents (Elt F)),
    StableHlo.binary main_v252 main_v261 main_v262 (addi : (⟨S64x1, .i32⟩ : BufTy).Contents (Elt F) → (⟨S64x1, .i32⟩ : BufTy).Contents (Elt F) → (⟨S64x1, .i32⟩ : BufTy).Contents (Elt F)),
    StableHlo.ternary main_v260 main_v262 main_v252 main_v263 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_55 (constantI S_ 32 0#32),
    StableHlo.unary main_c_55 main_v264 (broadcastInDim S64x64 ![] bcast_S_S64x64 : (⟨S_, .i32⟩ : BufTy).Contents (Elt F) → (⟨S64x64, .i32⟩ : BufTy).Contents (Elt F)),
    StableHlo.binary main_v258 main_v264 main_v265 (cmpi .slt : (⟨S64x64, .i32⟩ : BufTy).Contents (Elt F) → (⟨S64x64, .i32⟩ : BufTy).Contents (Elt F) → (⟨S64x64, .i1⟩ : BufTy).Contents (Elt F)),
    StableHlo.nullary main_c_56 (constantI S_ 32 64#32),
    StableHlo.unary main_c_56 main_v266 (broadcastInDim S64x64 ![] bcast_S_S64x64 : (⟨S_, .i32⟩ : BufTy).Contents (Elt F) → (⟨S64x64, .i32⟩ : BufTy).Contents (Elt F)),
    StableHlo.binary main_v258 main_v266 main_v267 (addi : (⟨S64x64, .i32⟩ : BufTy).Contents (Elt F) → (⟨S64x64, .i32⟩ : BufTy).Contents (Elt F) → (⟨S64x64, .i32⟩ : BufTy).Contents (Elt F)),
    StableHlo.ternary main_v265 main_v267 main_v258 main_v268 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v263 main_v269 (broadcastInDim S64x64 ![0, 1] bcast_S64x1_S64x64_0_1 : (⟨S64x1, .i32⟩ : BufTy).Contents (Elt F) → (⟨S64x64, .i32⟩ : BufTy).Contents (Elt F)),
    StableHlo.unary main_v269 main_v270 (broadcastInDim S64x64x1 ![0, 1] bcast_S64x64_S64x64x1_0_1 : (⟨S64x64, .i32⟩ : BufTy).Contents (Elt F) → (⟨S64x64x1, .i32⟩ : BufTy).Contents (Elt F)),
    StableHlo.unary main_v268 main_v271 (broadcastInDim S64x64x1 ![0, 1] bcast_S64x64_S64x64x1_0_1 : (⟨S64x64, .i32⟩ : BufTy).Contents (Elt F) → (⟨S64x64x1, .i32⟩ : BufTy).Contents (Elt F)),
    StableHlo.binary main_v270 main_v271 main_v272 ((fun a b => concatenate S64x64x2 2 [⟨S64x64x1, a⟩, ⟨S64x64x1, b⟩] concatenates_S64x64x1_S64x64x1_S64x64x2_d2) : (⟨S64x64x1, .i32⟩ : BufTy).Contents (Elt F) → (⟨S64x64x1, .i32⟩ : BufTy).Contents (Elt F) → (⟨S64x64x2, .i32⟩ : BufTy).Contents (Elt F)),
    StableHlo.binary main_v250 main_v272 main_v273 ((fun x i => Host.gather gather_S32x32x64x64_S64x64x2_S32x32x64x64_01_23_n_n_23_2_323211 x i) : (⟨S32x32x64x64, .f32⟩ : BufTy).Contents (Elt F) → (⟨S64x64x2, .i32⟩ : BufTy).Contents (Elt F) → (⟨S32x32x64x64, .f32⟩ : BufTy).Contents (Elt F)),
    StableHlo.nullary main_cst_57 (constant S_ .f32 0x00000000#32),
    StableHlo.binary main_v273 main_cst_57 main_v274 ((fun x v => Host.reduceAdd x v reducesTo_S32x32x64x64_S32x32x64_d2 h_S_) : (⟨S32x32x64x64, .f32⟩ : BufTy).Contents (Elt F) → (⟨S_, .f32⟩ : BufTy).Contents (Elt F) → (⟨S32x32x64, .f32⟩ : BufTy).Contents (Elt F)),
    StableHlo.nullary main_cst_58 (constant S_ .f32 0x42800000#32),
    StableHlo.unary main_cst_58 main_v275 (broadcastInDim S32x32x64 ![] bcast_S_S32x32x64 : (⟨S_, .f32⟩ : BufTy).Contents (Elt F) → (⟨S32x32x64, .f32⟩ : BufTy).Contents (Elt F)),
    StableHlo.binary main_v274 main_v275 main_v276 (Host.divf : (⟨S32x32x64, .f32⟩ : BufTy).Contents (Elt F) → (⟨S32x32x64, .f32⟩ : BufTy).Contents (Elt F) → (⟨S32x32x64, .f32⟩ : BufTy).Contents (Elt F)),
    StableHlo.unary main_v254 main_v277 (broadcastInDim S64x64 ![0, 1] bcast_S1x64_S64x64_0_1 : (⟨S1x64, .i32⟩ : BufTy).Contents (Elt F) → (⟨S64x64, .i32⟩ : BufTy).Contents (Elt F)),
    StableHlo.unary main_v252 main_v278 (broadcastInDim S64x64 ![0, 1] bcast_S64x1_S64x64_0_1 : (⟨S64x1, .i32⟩ : BufTy).Contents (Elt F) → (⟨S64x64, .i32⟩ : BufTy).Contents (Elt F)),
    StableHlo.binary main_v277 main_v278 main_v279 (subi : (⟨S64x64, .i32⟩ : BufTy).Contents (Elt F) → (⟨S64x64, .i32⟩ : BufTy).Contents (Elt F) → (⟨S64x64, .i32⟩ : BufTy).Contents (Elt F)),
    StableHlo.nullary main_c_59 (constantI S_ 32 64#32) ]

/-- Stretch 23 of @main (a call's operations): 21 operations. -/
abbrev stretch23 : List (HloOp τ sig (Elt F)) :=
  [ StableHlo.TRef.unary (.of main_c_59 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary main_call11_call0.v0 (.of main_call11_v3 : StableHlo.TRef sig ⟨S64x64, .i32⟩) (broadcastInDim S64x64 ![] bcast_S_S64x64),
    StableHlo.TRef.binary (.of main_v279 : StableHlo.TRef sig ⟨S64x64, .i32⟩) (.of main_call11_v3 : StableHlo.TRef sig ⟨S64x64, .i32⟩) (.of main_call11_v4 : StableHlo.TRef sig ⟨S64x64, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S64x64, .i32⟩) (broadcastInDim S64x64 ![] bcast_S_S64x64),
    StableHlo.TRef.binary (.of main_call11_v4 : StableHlo.TRef sig ⟨S64x64, .i32⟩) (.of main_call11_v5 : StableHlo.TRef sig ⟨S64x64, .i32⟩) (.of main_call11_v6 : StableHlo.TRef sig ⟨S64x64, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S64x64, .i32⟩) (broadcastInDim S64x64 ![] bcast_S_S64x64),
    StableHlo.TRef.binary (.of main_call11_v4 : StableHlo.TRef sig ⟨S64x64, .i32⟩) (.of main_call11_v7 : StableHlo.TRef sig ⟨S64x64, .i32⟩) (.of main_call11_v8 : StableHlo.TRef sig ⟨S64x64, .i1⟩) (cmpi .slt),
    StableHlo.TRef.nullary (.of main_call11_c_3 : StableHlo.TRef sig ⟨S_, .i32⟩) (constantI S_ 32 0#32),
    StableHlo.TRef.binary main_call11_call0.v0 (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S64x64, .i1⟩) (broadcastInDim S64x64 ![] bcast_S_S64x64),
    StableHlo.TRef.binary (.of main_call11_v8 : StableHlo.TRef sig ⟨S64x64, .i1⟩) (.of main_call11_v10 : StableHlo.TRef sig ⟨S64x64, .i1⟩) (.of main_call11_v11 : StableHlo.TRef sig ⟨S64x64, .i1⟩) (cmpi .ne),
    StableHlo.TRef.binary (.of main_call11_v11 : StableHlo.TRef sig ⟨S64x64, .i1⟩) (.of main_call11_v6 : StableHlo.TRef sig ⟨S64x64, .i1⟩) (.of main_call11_v12 : StableHlo.TRef sig ⟨S64x64, .i1⟩) andi,
    StableHlo.TRef.unary main_call11_call0.v0 (.of main_call11_v13 : StableHlo.TRef sig ⟨S64x64, .i32⟩) (broadcastInDim S64x64 ![] bcast_S_S64x64),
    StableHlo.TRef.binary (.of main_call11_v4 : StableHlo.TRef sig ⟨S64x64, .i32⟩) (.of main_call11_v13 : StableHlo.TRef sig ⟨S64x64, .i32⟩) (.of main_call11_v14 : StableHlo.TRef sig ⟨S64x64, .i32⟩) addi,
    StableHlo.TRef.ternary (.of main_call11_v12 : StableHlo.TRef sig ⟨S64x64, .i1⟩) (.of main_call11_v14 : StableHlo.TRef sig ⟨S64x64, .i32⟩) (.of main_call11_v4 : StableHlo.TRef sig ⟨S64x64, .i32⟩) (.of main_v280 : StableHlo.TRef sig ⟨S64x64, .i32⟩) select ]

/-- Stretch 24 of @main (between two calls): 18 operations. -/
abbrev stretch24 : List (HloOp τ sig (Elt F)) :=
  [ StableHlo.nullary main_c_60 (constantI S_ 32 0#32),
    StableHlo.unary main_c_60 main_v281 (broadcastInDim S64x64 ![] bcast_S_S64x64 : (⟨S_, .i32⟩ : BufTy).Contents (Elt F) → (⟨S64x64, .i32⟩ : BufTy).Contents (Elt F)),
    StableHlo.binary main_v280 main_v281 main_v282 (cmpi .slt : (⟨S64x64, .i32⟩ : BufTy).Contents (Elt F) → (⟨S64x64, .i32⟩ : BufTy).Contents (Elt F) → (⟨S64x64, .i1⟩ : BufTy).Contents (Elt F)),
    StableHlo.nullary main_c_61 (constantI S_ 32 64#32),
    StableHlo.unary main_c_61 main_v283 (broadcastInDim S64x64 ![] bcast_S_S64x64 : (⟨S_, .i32⟩ : BufTy).Contents (Elt F) → (⟨S64x64, .i32⟩ : BufTy).Contents (Elt F)),
    StableHlo.binary main_v280 main_v283 main_v284 (addi : (⟨S64x64, .i32⟩ : BufTy).Contents (Elt F) → (⟨S64x64, .i32⟩ : BufTy).Contents (Elt F) → (⟨S64x64, .i32⟩ : BufTy).Contents (Elt F)),
    StableHlo.ternary main_v282 main_v284 main_v280 main_v285 (select : (⟨S64x64, .i1⟩ : BufTy).Contents (Elt F) → (⟨S64x64, .i32⟩ : BufTy).Contents (Elt F) → (⟨S64x64, .i32⟩ : BufTy).Contents (Elt F) → (⟨S64x64, .i32⟩ : BufTy).Contents (Elt F)),
    StableHlo.unary main_v285 main_v286 (broadcastInDim S64x64x1 ![0, 1] bcast_S64x64_S64x64x1_0_1 : (⟨S64x64, .i32⟩ : BufTy).Contents (Elt F) → (⟨S64x64x1, .i32⟩ : BufTy).Contents (Elt F)),
    StableHlo.binary main_v276 main_v286 main_v287 ((fun x i => Host.gather gather_S32x32x64_S64x64x1_S32x32x64x64_01_2_n_n_2_2_32321 x i) : (⟨S32x32x64, .f32⟩ : BufTy).Contents (Elt F) → (⟨S64x64x1, .i32⟩ : BufTy).Contents (Elt F) → (⟨S32x32x64x64, .f32⟩ : BufTy).Contents (Elt F)),
    StableHlo.unary main_v287 main_v288 ((transpose S32x64x32x64 [0, 2, 1, 3] · transposes_S32x32x64x64_S32x64x32x64_0_2_1_3) : (⟨S32x32x64x64, .f32⟩ : BufTy).Contents (Elt F) → (⟨S32x64x32x64, .f32⟩ : BufTy).Contents (Elt F)),
    StableHlo.reshape main_v288 main_v289 rfl shapeCasts_S32x64x32x64_S2048x2048,
    StableHlo.unary main_v248 main_v290 (broadcastInDim S2048x2048 ![] bcast_S_S2048x2048 : (⟨S_, .f32⟩ : BufTy).Contents (Elt F) → (⟨S2048x2048, .f32⟩ : BufTy).Contents (Elt F)),
    StableHlo.binary main_v290 main_v289 main_v291 (mulf : (⟨S2048x2048, .f32⟩ : BufTy).Contents (Elt F) → (⟨S2048x2048, .f32⟩ : BufTy).Contents (Elt F) → (⟨S2048x2048, .f32⟩ : BufTy).Contents (Elt F)),
    StableHlo.binary main_v246 main_v291 main_v292 (addf : (⟨S2048x2048, .f32⟩ : BufTy).Contents (Elt F) → (⟨S2048x2048, .f32⟩ : BufTy).Contents (Elt F) → (⟨S2048x2048, .f32⟩ : BufTy).Contents (Elt F)),
    StableHlo.binary main_arg0 main_v292 main_v293 ((fun l r => Host.dotGeneral dot_S16x1024x2048_S2048x2048_S16x1024x2048_2_1_01_0_n_n none l r) : (⟨S16x1024x2048, .f32⟩ : BufTy).Contents (Elt F) → (⟨S2048x2048, .f32⟩ : BufTy).Contents (Elt F) → (⟨S16x1024x2048, .f32⟩ : BufTy).Contents (Elt F)),
    StableHlo.unary main_arg2 main_v294 (broadcastInDim S1x1x2048 ![2] bcast_S2048_S1x1x2048_2 : (⟨S2048, .f32⟩ : BufTy).Contents (Elt F) → (⟨S1x1x2048, .f32⟩ : BufTy).Contents (Elt F)),
    StableHlo.unary main_v294 main_v295 (broadcastInDim S16x1024x2048 ![0, 1, 2] bcast_S1x1x2048_S16x1024x2048_0_1_2 : (⟨S1x1x2048, .f32⟩ : BufTy).Contents (Elt F) → (⟨S16x1024x2048, .f32⟩ : BufTy).Contents (Elt F)),
    StableHlo.binary main_v293 main_v295 main_v296 (addf : (⟨S16x1024x2048, .f32⟩ : BufTy).Contents (Elt F) → (⟨S16x1024x2048, .f32⟩ : BufTy).Contents (Elt F) → (⟨S16x1024x2048, .f32⟩ : BufTy).Contents (Elt F)) ]

end Cert.ReferenceIdeal.HostRun

end
-- ==== Proof.HostAgree.lean ====
/-
  Two host programs that apply the same operations to the same inputs leave the same contents.

  The kernel's program and the reference build the layer's weight by the same host operations (a softmax of seven
  mixing logits, then for each block size 2, 4, …, 64 a block-circulant average of the weight matrix, each scaled by
  its softmax entry and added on). This module holds what the comparison of the two programs stretch by stretch needs:
  the contents after two lists of operations run one after the other, a notation for "the two programs' buffers of
  one name hold the same contents", and the step that compares one buffer after one stretch: unfold both stretches,
  read each buffer as its operation's function of the buffers it reads, replace the reference's inputs by the
  kernel's, and what is left is one and the same term.
-/
import Idealize.ShloMosaic.Lib.StableHlo.Run

noncomputable section

namespace Cert.HostAgree

open Idealize.ShloMosaic Idealize.SL.Sem

variable {τ : Topo} {sig : RefSig} {Val : EltTy → Type}

/-- The contents after `A` then `B` are the contents after `B` from the contents after `A`. -/
theorem after_append (A B : List (HloOp τ sig Val)) (V : Valuation τ sig Val) :
    StableHlo.after (A ++ B) V = StableHlo.after B (StableHlo.after A V) := by
  induction A generalizing V with
  | nil => rfl
  | cons a A ih => simp only [List.cons_append, StableHlo.after_cons, ih]

/-- A property of every operation of `A` and of `B` holds of every operation of `A ++ B`. -/
theorem forall_append {α : Type} {P : α → Prop} {A B : List α} (hA : A.Forall P) (hB : B.Forall P) : (A ++ B).Forall P :=
  List.forall_iff_forall_mem.mpr fun x hx =>
    (List.mem_append.mp hx).elim (List.forall_iff_forall_mem.mp hA x) (List.forall_iff_forall_mem.mp hB x)

end Cert.HostAgree

open Lean in
/-- `agreeAt(VR, VK, b)`: the reference's buffer `b` under `VR` and the kernel program's buffer of the same name under
    `VK` hold the same contents. -/
macro "agreeAt(" VR:term ", " VK:term ", " b:ident ")" : term => do
  let r := mkIdent (`Cert.ReferenceIdeal ++ b.getId)
  let k := mkIdent (`Cert.KernelIdeal ++ b.getId)
  `(($VR (Idealize.ShloMosaic.Proc.devRef .tc $r)) = ($VK (Idealize.ShloMosaic.Proc.devRef .tc $k)))

/-- One buffer after one stretch of both programs: the stretches' definitions `ds` unfolded, each buffer read as its
    operation's function of what it reads, the reference's inputs replaced by the kernel's (`hs`); the two sides are
    then one term. -/
macro "host_agree" "[" ds:Lean.Parser.Tactic.simpLemma,* "]" "[" hs:Lean.Parser.Tactic.simpLemma,* "]" : tactic =>
  `(tactic| (simp only [$ds,*, List.cons_append, List.nil_append]
             after_results_simp <;> (first | rfl | (simp only [$hs,*] <;> (first | rfl | done)))))

end
-- ==== Proof.HostSegments.lean ====
/-
  The host operations that build the layer's weight, grouped block size by block size, in both programs.

  Group 0 is the softmax of the mixing logits, the plain term `a₀ · W` and the block-circulant average for block size
  2 up to its second remainder; group `j` (1 ≤ j ≤ 5) ends the average for block size `2^j`, adds its scaled term to
  the running sum and begins block size `2^(j+1)` in the same way. Each group is four consecutive stretches of @main (two of them the operations of a
  remainder). What the later operations still read at the end of a group is small: the running sum, the next mixing
  entry, two index tables and the block sums not yet gathered.
-/
import proofs.«150455_j40097814676033_1_alg».proof.Proof.RefOps
import proofs.«150455_j40097814676033_1_alg».proof.Proof.Gen.KernelIdeal.Launch
import proofs.«150455_j40097814676033_1_alg».proof.Proof.HostAgree

noncomputable section

namespace Cert.HostAgree

open Idealize.ShloMosaic Idealize.SL.Sem

variable {F : FTy → Type} [FloatOps F]

/-- Group 0 of the kernel program's weight construction: stretches 0 to 3. -/
abbrev segK0 : List (HloOp Cert.KernelIdeal.τ Cert.KernelIdeal.sig (Elt F)) :=
  Cert.KernelIdeal.Gen.hostOps0 ++ Cert.KernelIdeal.Gen.hostOps0_1 ++ Cert.KernelIdeal.Gen.hostOps0_2 ++ Cert.KernelIdeal.Gen.hostOps0_3
/-- Group 0 of the reference's weight construction: stretches 0 to 3. -/
abbrev segR0 : List (HloOp Cert.ReferenceIdeal.τ Cert.ReferenceIdeal.sig (Elt F)) :=
  Cert.ReferenceIdeal.HostRun.stretch0 ++ Cert.ReferenceIdeal.HostRun.stretch1 ++ Cert.ReferenceIdeal.HostRun.stretch2 ++ Cert.ReferenceIdeal.HostRun.stretch3

/-- Group 1 of the kernel program's weight construction: stretches 4 to 7. -/
abbrev segK1 : List (HloOp Cert.KernelIdeal.τ Cert.KernelIdeal.sig (Elt F)) :=
  Cert.KernelIdeal.Gen.hostOps0_4 ++ Cert.KernelIdeal.Gen.hostOps0_5 ++ Cert.KernelIdeal.Gen.hostOps0_6 ++ Cert.KernelIdeal.Gen.hostOps0_7
/-- Group 1 of the reference's weight construction: stretches 4 to 7. -/
abbrev segR1 : List (HloOp Cert.ReferenceIdeal.τ Cert.ReferenceIdeal.sig (Elt F)) :=
  Cert.ReferenceIdeal.HostRun.stretch4 ++ Cert.ReferenceIdeal.HostRun.stretch5 ++ Cert.ReferenceIdeal.HostRun.stretch6 ++ Cert.ReferenceIdeal.HostRun.stretch7

/-- Group 2 of the kernel program's weight construction: stretches 8 to 11. -/
abbrev segK2 : List (HloOp Cert.KernelIdeal.τ Cert.KernelIdeal.sig (Elt F)) :=
  Cert.KernelIdeal.Gen.hostOps0_8 ++ Cert.KernelIdeal.Gen.hostOps0_9 ++ Cert.KernelIdeal.Gen.hostOps0_10 ++ Cert.KernelIdeal.Gen.hostOps0_11
/-- Group 2 of the reference's weight construction: stretches 8 to 11. -/
abbrev segR2 : List (HloOp Cert.ReferenceIdeal.τ Cert.ReferenceIdeal.sig (Elt F)) :=
  Cert.ReferenceIdeal.HostRun.stretch8 ++ Cert.ReferenceIdeal.HostRun.stretch9 ++ Cert.ReferenceIdeal.HostRun.stretch10 ++ Cert.ReferenceIdeal.HostRun.stretch11

/-- Group 3 of the kernel program's weight construction: stretches 12 to 15. -/
abbrev segK3 : List (HloOp Cert.KernelIdeal.τ Cert.KernelIdeal.sig (Elt F)) :=
  Cert.KernelIdeal.Gen.hostOps0_12 ++ Cert.KernelIdeal.Gen.hostOps0_13 ++ Cert.KernelIdeal.Gen.hostOps0_14 ++ Cert.KernelIdeal.Gen.hostOps0_15
/-- Group 3 of the reference's weight construction: stretches 12 to 15. -/
abbrev segR3 : List (HloOp Cert.ReferenceIdeal.τ Cert.ReferenceIdeal.sig (Elt F)) :=
  Cert.ReferenceIdeal.HostRun.stretch12 ++ Cert.ReferenceIdeal.HostRun.stretch13 ++ Cert.ReferenceIdeal.HostRun.stretch14 ++ Cert.ReferenceIdeal.HostRun.stretch15

/-- Group 4 of the kernel program's weight construction: stretches 16 to 19. -/
abbrev segK4 : List (HloOp Cert.KernelIdeal.τ Cert.KernelIdeal.sig (Elt F)) :=
  Cert.KernelIdeal.Gen.hostOps0_16 ++ Cert.KernelIdeal.Gen.hostOps0_17 ++ Cert.KernelIdeal.Gen.hostOps0_18 ++ Cert.KernelIdeal.Gen.hostOps0_19
/-- Group 4 of the reference's weight construction: stretches 16 to 19. -/
abbrev segR4 : List (HloOp Cert.ReferenceIdeal.τ Cert.ReferenceIdeal.sig (Elt F)) :=
  Cert.ReferenceIdeal.HostRun.stretch16 ++ Cert.ReferenceIdeal.HostRun.stretch17 ++ Cert.ReferenceIdeal.HostRun.stretch18 ++ Cert.ReferenceIdeal.HostRun.stretch19

/-- Group 5 of the kernel program's weight construction: stretches 20 to 23. -/
abbrev segK5 : List (HloOp Cert.KernelIdeal.τ Cert.KernelIdeal.sig (Elt F)) :=
  Cert.KernelIdeal.Gen.hostOps0_20 ++ Cert.KernelIdeal.Gen.hostOps0_21 ++ Cert.KernelIdeal.Gen.hostOps0_22 ++ Cert.KernelIdeal.Gen.hostOps0_23
/-- Group 5 of the reference's weight construction: stretches 20 to 23. -/
abbrev segR5 : List (HloOp Cert.ReferenceIdeal.τ Cert.ReferenceIdeal.sig (Elt F)) :=
  Cert.ReferenceIdeal.HostRun.stretch20 ++ Cert.ReferenceIdeal.HostRun.stretch21 ++ Cert.ReferenceIdeal.HostRun.stretch22 ++ Cert.ReferenceIdeal.HostRun.stretch23

end Cert.HostAgree

end
-- ==== Proof.WeightSeg0.lean ====
/-
  Group 0 of the weight construction leaves the same contents in both programs: the softmax of the seven mixing logits, the plain term, and the block-circulant average for block size 2 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 0, from contents that agree on what the group reads, the two programs agree on what is read later. -/
theorem seg0_agree (VK : Valuation Cert.KernelIdeal.τ Cert.KernelIdeal.sig (Elt F)) (VR : Valuation Cert.ReferenceIdeal.τ Cert.ReferenceIdeal.sig (Elt F))
    (h0 : agreeAt(VR, VK, main_arg1))
    (h1 : agreeAt(VR, VK, main_arg3))
    (h2 : agreeAt(VR, VK, main_arg4)) :
    agreeAt(StableHlo.after segR0 VR, StableHlo.after segK0 VK, main_v50)
      ∧ agreeAt(StableHlo.after segR0 VR, StableHlo.after segK0 VK, main_v46)
      ∧ agreeAt(StableHlo.after segR0 VR, StableHlo.after segK0 VK, main_v18)
      ∧ agreeAt(StableHlo.after segR0 VR, StableHlo.after segK0 VK, main_v16)
      ∧ agreeAt(StableHlo.after segR0 VR, StableHlo.after segK0 VK, main_v12)
      ∧ agreeAt(StableHlo.after segR0 VR, StableHlo.after segK0 VK, main_arg1) := by
  refine ⟨?_, ?_, ?_, ?_, ?_, ?_⟩ <;>
    host_agree [segR0, segK0, Cert.ReferenceIdeal.HostRun.stretch0, Cert.ReferenceIdeal.HostRun.stretch1, Cert.ReferenceIdeal.HostRun.stretch2, Cert.ReferenceIdeal.HostRun.stretch3, Cert.KernelIdeal.Gen.hostOps0, Cert.KernelIdeal.Gen.hostOps0_1, Cert.KernelIdeal.Gen.hostOps0_2, Cert.KernelIdeal.Gen.hostOps0_3] [h0, h1, h2]

end Cert.HostAgree

end
-- ==== Proof.WeightSeg1.lean ====
/-
  Group 1 of the weight construction leaves the same contents in both programs: the end of the block-circulant average for block size 2, its term added to the running sum, and the average for block size 4 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 1, from contents that agree on what the group reads, the two programs agree on what is read later. -/
theorem seg1_agree (VK : Valuation Cert.KernelIdeal.τ Cert.KernelIdeal.sig (Elt F)) (VR : Valuation Cert.ReferenceIdeal.τ Cert.ReferenceIdeal.sig (Elt F))
    (h0 : agreeAt(VR, VK, main_v50))
    (h1 : agreeAt(VR, VK, main_v46))
    (h2 : agreeAt(VR, VK, main_v18))
    (h3 : agreeAt(VR, VK, main_v16))
    (h4 : agreeAt(VR, VK, main_v12))
    (h5 : agreeAt(VR, VK, main_arg1)) :
    agreeAt(StableHlo.after segR1 VR, StableHlo.after segK1 VK, main_v96)
      ∧ agreeAt(StableHlo.after segR1 VR, StableHlo.after segK1 VK, main_v92)
      ∧ agreeAt(StableHlo.after segR1 VR, StableHlo.after segK1 VK, main_v64)
      ∧ agreeAt(StableHlo.after segR1 VR, StableHlo.after segK1 VK, main_v62)
      ∧ agreeAt(StableHlo.after segR1 VR, StableHlo.after segK1 VK, main_v12)
      ∧ agreeAt(StableHlo.after segR1 VR, StableHlo.after segK1 VK, main_arg1) := by
  refine ⟨?_, ?_, ?_, ?_, ?_, ?_⟩ <;>
    host_agree [segR1, segK1, Cert.ReferenceIdeal.HostRun.stretch4, Cert.ReferenceIdeal.HostRun.stretch5, Cert.ReferenceIdeal.HostRun.stretch6, Cert.ReferenceIdeal.HostRun.stretch7, Cert.KernelIdeal.Gen.hostOps0_4, Cert.KernelIdeal.Gen.hostOps0_5, Cert.KernelIdeal.Gen.hostOps0_6, Cert.KernelIdeal.Gen.hostOps0_7] [h0, h1, h2, h3, h4, h5]

end Cert.HostAgree

end
-- ==== Proof.WeightSeg2.lean ====
/-
  Group 2 of the weight construction leaves the same contents in both programs: the end of the block-circulant average for block size 4, its term added to the running sum, and the average for block size 8 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 2, from contents that agree on what the group reads, the two programs agree on what is read later. -/
theorem seg2_agree (VK : Valuation Cert.KernelIdeal.τ Cert.KernelIdeal.sig (Elt F)) (VR : Valuation Cert.ReferenceIdeal.τ Cert.ReferenceIdeal.sig (Elt F))
    (h0 : agreeAt(VR, VK, main_v96))
    (h1 : agreeAt(VR, VK, main_v92))
    (h2 : agreeAt(VR, VK, main_v64))
    (h3 : agreeAt(VR, VK, main_v62))
    (h4 : agreeAt(VR, VK, main_v12))
    (h5 : agreeAt(VR, VK, main_arg1)) :
    agreeAt(StableHlo.after segR2 VR, StableHlo.after segK2 VK, main_v142)
      ∧ agreeAt(StableHlo.after segR2 VR, StableHlo.after segK2 VK, main_v138)
      ∧ agreeAt(StableHlo.after segR2 VR, StableHlo.after segK2 VK, main_v110)
      ∧ agreeAt(StableHlo.after segR2 VR, StableHlo.after segK2 VK, main_v108)
      ∧ agreeAt(StableHlo.after segR2 VR, StableHlo.after segK2 VK, main_v12)
      ∧ agreeAt(StableHlo.after segR2 VR, StableHlo.after segK2 VK, main_arg1) := by
  refine ⟨?_, ?_, ?_, ?_, ?_, ?_⟩ <;>
    host_agree [segR2, segK2, Cert.ReferenceIdeal.HostRun.stretch8, Cert.ReferenceIdeal.HostRun.stretch9, Cert.ReferenceIdeal.HostRun.stretch10, Cert.ReferenceIdeal.HostRun.stretch11, Cert.KernelIdeal.Gen.hostOps0_8, Cert.KernelIdeal.Gen.hostOps0_9, Cert.KernelIdeal.Gen.hostOps0_10, Cert.KernelIdeal.Gen.hostOps0_11] [h0, h1, h2, h3, h4, h5]

end Cert.HostAgree

end
-- ==== Proof.WeightSeg3.lean ====
/-
  Group 3 of the weight construction leaves the same contents in both programs: the end of the block-circulant average for block size 8, its term added to the running sum, and the average for block size 16 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 3, from contents that agree on what the group reads, the two programs agree on what is read later. -/
theorem seg3_agree (VK : Valuation Cert.KernelIdeal.τ Cert.KernelIdeal.sig (Elt F)) (VR : Valuation Cert.ReferenceIdeal.τ Cert.ReferenceIdeal.sig (Elt F))
    (h0 : agreeAt(VR, VK, main_v142))
    (h1 : agreeAt(VR, VK, main_v138))
    (h2 : agreeAt(VR, VK, main_v110))
    (h3 : agreeAt(VR, VK, main_v108))
    (h4 : agreeAt(VR, VK, main_v12))
    (h5 : agreeAt(VR, VK, main_arg1)) :
    agreeAt(StableHlo.after segR3 VR, StableHlo.after segK3 VK, main_v188)
      ∧ agreeAt(StableHlo.after segR3 VR, StableHlo.after segK3 VK, main_v184)
      ∧ agreeAt(StableHlo.after segR3 VR, StableHlo.after segK3 VK, main_v156)
      ∧ agreeAt(StableHlo.after segR3 VR, StableHlo.after segK3 VK, main_v154)
      ∧ agreeAt(StableHlo.after segR3 VR, StableHlo.after segK3 VK, main_v12)
      ∧ agreeAt(StableHlo.after segR3 VR, StableHlo.after segK3 VK, main_arg1) := by
  refine ⟨?_, ?_, ?_, ?_, ?_, ?_⟩ <;>
    host_agree [segR3, segK3, Cert.ReferenceIdeal.HostRun.stretch12, Cert.ReferenceIdeal.HostRun.stretch13, Cert.ReferenceIdeal.HostRun.stretch14, Cert.ReferenceIdeal.HostRun.stretch15, Cert.KernelIdeal.Gen.hostOps0_12, Cert.KernelIdeal.Gen.hostOps0_13, Cert.KernelIdeal.Gen.hostOps0_14, Cert.KernelIdeal.Gen.hostOps0_15] [h0, h1, h2, h3, h4, h5]

end Cert.HostAgree

end
-- ==== Proof.WeightSeg4.lean ====
/-
  Group 4 of the weight construction leaves the same contents in both programs: the end of the block-circulant average for block size 16, its term added to the running sum, and the average for block size 32 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 4, from contents that agree on what the group reads, the two programs agree on what is read later. -/
theorem seg4_agree (VK : Valuation Cert.KernelIdeal.τ Cert.KernelIdeal.sig (Elt F)) (VR : Valuation Cert.ReferenceIdeal.τ Cert.ReferenceIdeal.sig (Elt F))
    (h0 : agreeAt(VR, VK, main_v188))
    (h1 : agreeAt(VR, VK, main_v184))
    (h2 : agreeAt(VR, VK, main_v156))
    (h3 : agreeAt(VR, VK, main_v154))
    (h4 : agreeAt(VR, VK, main_v12))
    (h5 : agreeAt(VR, VK, main_arg1)) :
    agreeAt(StableHlo.after segR4 VR, StableHlo.after segK4 VK, main_v234)
      ∧ agreeAt(StableHlo.after segR4 VR, StableHlo.after segK4 VK, main_v230)
      ∧ agreeAt(StableHlo.after segR4 VR, StableHlo.after segK4 VK, main_v202)
      ∧ agreeAt(StableHlo.after segR4 VR, StableHlo.after segK4 VK, main_v200)
      ∧ agreeAt(StableHlo.after segR4 VR, StableHlo.after segK4 VK, main_v12)
      ∧ agreeAt(StableHlo.after segR4 VR, StableHlo.after segK4 VK, main_arg1) := by
  refine ⟨?_, ?_, ?_, ?_, ?_, ?_⟩ <;>
    host_agree [segR4, segK4, Cert.ReferenceIdeal.HostRun.stretch16, Cert.ReferenceIdeal.HostRun.stretch17, Cert.ReferenceIdeal.HostRun.stretch18, Cert.ReferenceIdeal.HostRun.stretch19, Cert.KernelIdeal.Gen.hostOps0_16, Cert.KernelIdeal.Gen.hostOps0_17, Cert.KernelIdeal.Gen.hostOps0_18, Cert.KernelIdeal.Gen.hostOps0_19] [h0, h1, h2, h3, h4, h5]

end Cert.HostAgree

end
-- ==== Proof.WeightSeg5.lean ====
/-
  Group 5 of the weight construction leaves the same contents in both programs: the end of the block-circulant average for block size 32, its term added to the running sum, and the average for block size 64 up to its second remainder.
  Both programs apply the same operations here, so from inputs that agree every buffer a later operation reads agrees.
-/
import proofs.«150455_j40097814676033_1_alg».proof.Proof.HostSegments

noncomputable section

namespace Cert.HostAgree

open Idealize.ShloMosaic Idealize.SL.Sem

variable {F : FTy → Type} [FloatOps F]

set_option maxHeartbeats 4000000 in
/-- After group 5, from contents that agree on what the group reads, the two programs agree on what is read later. -/
theorem seg5_agree (VK : Valuation Cert.KernelIdeal.τ Cert.KernelIdeal.sig (Elt F)) (VR : Valuation Cert.ReferenceIdeal.τ Cert.ReferenceIdeal.sig (Elt F))
    (h0 : agreeAt(VR, VK, main_v234))
    (h1 : agreeAt(VR, VK, main_v230))
    (h2 : agreeAt(VR, VK, main_v202))
    (h3 : agreeAt(VR, VK, main_v200))
    (h4 : agreeAt(VR, VK, main_v12))
    (h5 : agreeAt(VR, VK, main_arg1)) :
    agreeAt(StableHlo.after segR5 VR, StableHlo.after segK5 VK, main_v280)
      ∧ agreeAt(StableHlo.after segR5 VR, StableHlo.after segK5 VK, main_v276)
      ∧ agreeAt(StableHlo.after segR5 VR, StableHlo.after segK5 VK, main_v248)
      ∧ agreeAt(StableHlo.after segR5 VR, StableHlo.after segK5 VK, main_v246) := by
  refine ⟨?_, ?_, ?_, ?_⟩ <;>
    host_agree [segR5, segK5, Cert.ReferenceIdeal.HostRun.stretch20, Cert.ReferenceIdeal.HostRun.stretch21, Cert.ReferenceIdeal.HostRun.stretch22, Cert.ReferenceIdeal.HostRun.stretch23, Cert.KernelIdeal.Gen.hostOps0_20, Cert.KernelIdeal.Gen.hostOps0_21, Cert.KernelIdeal.Gen.hostOps0_22, Cert.KernelIdeal.Gen.hostOps0_23] [h0, h1, h2, h3, h4, h5]

end Cert.HostAgree

end
-- ==== Proof.WeightTail.lean ====
/-
  The last stretch of host operations in both programs, from what the weight construction leaves.

  Both programs first finish the weight: the block-circulant average for block size 64 is gathered, scaled by its
  softmax entry and added to the running sum (the weight `w`). Then they part. The kernel's program transposes
  `w` and narrows it to bf16, lays the bias out as a one-row matrix and the activations as a matrix of 16 · 1024
  rows: the three arrays its matrix-product kernel reads. The reference contracts the activations with `w` over the
  input features and adds the bias broadcast over batches and tokens.
-/
import proofs.«150455_j40097814676033_1_alg».proof.Proof.HostSegments

noncomputable section

namespace Cert.HostAgree

open Idealize.ShloMosaic Idealize.SL.Sem

variable {F : FTy → Type} [FloatOps F]

set_option maxHeartbeats 2000000 in
/-- The weight is the same array in both programs, from contents that agree on what its last operations read. -/
theorem tail_agree (VK : Valuation Cert.KernelIdeal.τ Cert.KernelIdeal.sig (Elt F)) (VR : Valuation Cert.ReferenceIdeal.τ Cert.ReferenceIdeal.sig (Elt F))
    (h0 : agreeAt(VR, VK, main_v280)) (h1 : agreeAt(VR, VK, main_v276)) (h2 : agreeAt(VR, VK, main_v248))
    (h3 : agreeAt(VR, VK, main_v246)) :
    agreeAt(StableHlo.after Cert.ReferenceIdeal.HostRun.stretch24 VR, StableHlo.after Cert.KernelIdeal.Gen.hostOps0_24 VK, main_v292) := by
  host_agree [Cert.ReferenceIdeal.HostRun.stretch24, Cert.KernelIdeal.Gen.hostOps0_24] [h0, h1, h2, h3]

/-! ## The kernel's program: the three arrays its kernel reads -/

set_option maxHeartbeats 2000000 in
/-- The kernel's weight operand is the weight transposed, narrowed to bf16. -/
theorem tailK_v294 (VK : Valuation Cert.KernelIdeal.τ Cert.KernelIdeal.sig (Elt F)) :
    (StableHlo.after Cert.KernelIdeal.Gen.hostOps0_24 VK (Proc.devRef .tc Cert.KernelIdeal.main_v294) : Cert.KernelIdeal.S2048x2048.Idx → F .bf16)
      = truncf .bf16 (transpose Cert.KernelIdeal.S2048x2048 [1, 0]
          (StableHlo.after Cert.KernelIdeal.Gen.hostOps0_24 VK (Proc.devRef .tc Cert.KernelIdeal.main_v292) : Cert.KernelIdeal.S2048x2048.Idx → F .f32)
          Cert.KernelIdeal.Gen.transposes_S2048x2048_S2048x2048_1_0) Cert.KernelIdeal.Gen.bitsLt_bf16_f32 := by
  simp only [Cert.KernelIdeal.Gen.hostOps0_24]
  after_results_simp <;> rfl

set_option maxHeartbeats 2000000 in
/-- The kernel's bias operand is the bias as a one-row matrix. -/
theorem tailK_v295 (VK : Valuation Cert.KernelIdeal.τ Cert.KernelIdeal.sig (Elt F)) :
    (StableHlo.after Cert.KernelIdeal.Gen.hostOps0_24 VK (Proc.devRef .tc Cert.KernelIdeal.main_v295) : Cert.KernelIdeal.S1x2048.Idx → F .f32)
      = shapeCast Cert.KernelIdeal.S1x2048 (VK (Proc.devRef .tc Cert.KernelIdeal.main_arg2) : Cert.KernelIdeal.S2048.Idx → F .f32) Cert.KernelIdeal.Gen.shapeCasts_S2048_S1x2048 := by
  simp only [Cert.KernelIdeal.Gen.hostOps0_24]
  after_results_simp <;> rfl

set_option maxHeartbeats 2000000 in
/-- The kernel's activations operand is the activations as a matrix of 16 · 1024 rows. -/
theorem tailK_v296 (VK : Valuation Cert.KernelIdeal.τ Cert.KernelIdeal.sig (Elt F)) :
    (StableHlo.after Cert.KernelIdeal.Gen.hostOps0_24 VK (Proc.devRef .tc Cert.KernelIdeal.main_v296) : Cert.KernelIdeal.S16384x2048.Idx → F .f32)
      = shapeCast Cert.KernelIdeal.S16384x2048 (VK (Proc.devRef .tc Cert.KernelIdeal.main_arg0) : Cert.KernelIdeal.S16x1024x2048.Idx → F .f32)
          Cert.KernelIdeal.Gen.shapeCasts_S16x1024x2048_S16384x2048 := by
  simp only [Cert.KernelIdeal.Gen.hostOps0_24]
  after_results_simp <;> rfl

set_option maxHeartbeats 2000000 in
/-- The last stretch writes neither the activations nor the bias (kernel's program). -/
theorem tailK_kept (VK : Valuation Cert.KernelIdeal.τ Cert.KernelIdeal.sig (Elt F)) :
    StableHlo.after Cert.KernelIdeal.Gen.hostOps0_24 VK (Proc.devRef .tc Cert.KernelIdeal.main_arg0) = VK (Proc.devRef .tc Cert.KernelIdeal.main_arg0)
      ∧ StableHlo.after Cert.KernelIdeal.Gen.hostOps0_24 VK (Proc.devRef .tc Cert.KernelIdeal.main_arg2) = VK (Proc.devRef .tc Cert.KernelIdeal.main_arg2) := by
  constructor <;> (simp only [Cert.KernelIdeal.Gen.hostOps0_24]; after_results_simp <;> rfl)

/-! ## The reference: the contraction and the bias -/

set_option maxHeartbeats 2000000 in
/-- The reference's result is the activations contracted with the weight over the input features, plus the bias
    broadcast over batches and tokens. -/
theorem tailR_v296 (VR : Valuation Cert.ReferenceIdeal.τ Cert.ReferenceIdeal.sig (Elt F)) :
    (StableHlo.after Cert.ReferenceIdeal.HostRun.stretch24 VR (Proc.devRef .tc Cert.ReferenceIdeal.main_v296) : Cert.ReferenceIdeal.S16x1024x2048.Idx → F .f32)
      = addf (Host.dotGeneral Cert.ReferenceIdeal.dot_S16x1024x2048_S2048x2048_S16x1024x2048_2_1_01_0_n_n none
            (VR (Proc.devRef .tc Cert.ReferenceIdeal.main_arg0) : Cert.ReferenceIdeal.S16x1024x2048.Idx → F .f32)
            (StableHlo.after Cert.ReferenceIdeal.HostRun.stretch24 VR (Proc.devRef .tc Cert.ReferenceIdeal.main_v292) : Cert.ReferenceIdeal.S2048x2048.Idx → F .f32))
          (broadcastInDim Cert.ReferenceIdeal.S16x1024x2048 ![0, 1, 2] Cert.ReferenceIdeal.Gen.bcast_S1x1x2048_S16x1024x2048_0_1_2
            (broadcastInDim Cert.ReferenceIdeal.S1x1x2048 ![2] Cert.ReferenceIdeal.Gen.bcast_S2048_S1x1x2048_2
              (VR (Proc.devRef .tc Cert.ReferenceIdeal.main_arg2) : Cert.ReferenceIdeal.S2048.Idx → F .f32))) := by
  simp only [Cert.ReferenceIdeal.HostRun.stretch24]
  after_results_simp <;> rfl

set_option maxHeartbeats 2000000 in
/-- The last stretch writes neither the activations nor the bias (reference). -/
theorem tailR_kept (VR : Valuation Cert.ReferenceIdeal.τ Cert.ReferenceIdeal.sig (Elt F)) :
    StableHlo.after Cert.ReferenceIdeal.HostRun.stretch24 VR (Proc.devRef .tc Cert.ReferenceIdeal.main_arg0) = VR (Proc.devRef .tc Cert.ReferenceIdeal.main_arg0)
      ∧ StableHlo.after Cert.ReferenceIdeal.HostRun.stretch24 VR (Proc.devRef .tc Cert.ReferenceIdeal.main_arg2) = VR (Proc.devRef .tc Cert.ReferenceIdeal.main_arg2) := by
  constructor <;> (simp only [Cert.ReferenceIdeal.HostRun.stretch24]; after_results_simp <;> rfl)

end Cert.HostAgree

end
-- ==== Proof.Weight.lean ====
/-
  The weight both programs build is one array.

  The two programs run the same host operations on the weight matrix and the mixing logits up to the weight `w`
  (the softmax-weighted sum of the matrix and of its six block-circulant averages). Group by group, from arguments that
  agree, every buffer a later operation reads agrees (the six group lemmas), and so does `w` after the last stretch.
  The operations of each program, listed stretch by stretch, are regrouped as the six groups followed by the last stretch.
-/
import proofs.«150455_j40097814676033_1_alg».proof.Proof.WeightSeg0
import proofs.«150455_j40097814676033_1_alg».proof.Proof.WeightSeg1
import proofs.«150455_j40097814676033_1_alg».proof.Proof.WeightSeg2
import proofs.«150455_j40097814676033_1_alg».proof.Proof.WeightSeg3
import proofs.«150455_j40097814676033_1_alg».proof.Proof.WeightSeg4
import proofs.«150455_j40097814676033_1_alg».proof.Proof.WeightSeg5
import proofs.«150455_j40097814676033_1_alg».proof.Proof.WeightTail

noncomputable section

namespace Cert.HostAgree

open Idealize.ShloMosaic Idealize.SL.Sem

variable {F : FTy → Type} [FloatOps F]

/-- The kernel program's contents after the six groups of the weight construction. -/
abbrev prefK (V : Valuation Cert.KernelIdeal.τ Cert.KernelIdeal.sig (Elt F)) : Valuation Cert.KernelIdeal.τ Cert.KernelIdeal.sig (Elt F) :=
  StableHlo.after segK5 (StableHlo.after segK4 (StableHlo.after segK3 (StableHlo.after segK2 (StableHlo.after segK1 (StableHlo.after segK0 (V))))))
/-- The reference's contents after the six groups of the weight construction. -/
abbrev prefR (V : Valuation Cert.ReferenceIdeal.τ Cert.ReferenceIdeal.sig (Elt F)) : Valuation Cert.ReferenceIdeal.τ Cert.ReferenceIdeal.sig (Elt F) :=
  StableHlo.after segR5 (StableHlo.after segR4 (StableHlo.after segR3 (StableHlo.after segR2 (StableHlo.after segR1 (StableHlo.after segR0 (V))))))

/-- The kernel program's host operations before its kernel, stretch by stretch, are the six groups then the last stretch. -/
theorem flattenK : (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24] : List (HloOp Cert.KernelIdeal.τ Cert.KernelIdeal.sig (Elt F)))
    = segK0 ++ (segK1 ++ (segK2 ++ (segK3 ++ (segK4 ++ (segK5 ++ Cert.KernelIdeal.Gen.hostOps0_24))))) := by
  simp only [segK0, segK1, segK2, segK3, segK4, segK5, List.flatten_cons, List.flatten_nil, List.append_nil, List.append_assoc]

/-- The reference's host operations, stretch by stretch, are the six groups then the last stretch. -/
theorem flattenR : (List.flatten [Cert.ReferenceIdeal.HostRun.stretch0, Cert.ReferenceIdeal.HostRun.stretch1, Cert.ReferenceIdeal.HostRun.stretch2, Cert.ReferenceIdeal.HostRun.stretch3, Cert.ReferenceIdeal.HostRun.stretch4, Cert.ReferenceIdeal.HostRun.stretch5, Cert.ReferenceIdeal.HostRun.stretch6, Cert.ReferenceIdeal.HostRun.stretch7, Cert.ReferenceIdeal.HostRun.stretch8, Cert.ReferenceIdeal.HostRun.stretch9, Cert.ReferenceIdeal.HostRun.stretch10, Cert.ReferenceIdeal.HostRun.stretch11, Cert.ReferenceIdeal.HostRun.stretch12, Cert.ReferenceIdeal.HostRun.stretch13, Cert.ReferenceIdeal.HostRun.stretch14, Cert.ReferenceIdeal.HostRun.stretch15, Cert.ReferenceIdeal.HostRun.stretch16, Cert.ReferenceIdeal.HostRun.stretch17, Cert.ReferenceIdeal.HostRun.stretch18, Cert.ReferenceIdeal.HostRun.stretch19, Cert.ReferenceIdeal.HostRun.stretch20, Cert.ReferenceIdeal.HostRun.stretch21, Cert.ReferenceIdeal.HostRun.stretch22, Cert.ReferenceIdeal.HostRun.stretch23, Cert.ReferenceIdeal.HostRun.stretch24] : List (HloOp Cert.ReferenceIdeal.τ Cert.ReferenceIdeal.sig (Elt F)))
    = segR0 ++ (segR1 ++ (segR2 ++ (segR3 ++ (segR4 ++ (segR5 ++ Cert.ReferenceIdeal.HostRun.stretch24))))) := by
  simp only [segR0, segR1, segR2, segR3, segR4, segR5, List.flatten_cons, List.flatten_nil, List.append_nil, List.append_assoc]

/-- The kernel program's contents when its kernel is launched: the last stretch run from the contents after the groups. -/
theorem afterK (V : Valuation Cert.KernelIdeal.τ Cert.KernelIdeal.sig (Elt F)) :
    StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24]) V = StableHlo.after Cert.KernelIdeal.Gen.hostOps0_24 (prefK V) := by
  rw [flattenK]; simp only [after_append]

/-- The reference's final contents: the last stretch run from the contents after the groups. -/
theorem afterR (V : Valuation Cert.ReferenceIdeal.τ Cert.ReferenceIdeal.sig (Elt F)) :
    StableHlo.after (List.flatten [Cert.ReferenceIdeal.HostRun.stretch0, Cert.ReferenceIdeal.HostRun.stretch1, Cert.ReferenceIdeal.HostRun.stretch2, Cert.ReferenceIdeal.HostRun.stretch3, Cert.ReferenceIdeal.HostRun.stretch4, Cert.ReferenceIdeal.HostRun.stretch5, Cert.ReferenceIdeal.HostRun.stretch6, Cert.ReferenceIdeal.HostRun.stretch7, Cert.ReferenceIdeal.HostRun.stretch8, Cert.ReferenceIdeal.HostRun.stretch9, Cert.ReferenceIdeal.HostRun.stretch10, Cert.ReferenceIdeal.HostRun.stretch11, Cert.ReferenceIdeal.HostRun.stretch12, Cert.ReferenceIdeal.HostRun.stretch13, Cert.ReferenceIdeal.HostRun.stretch14, Cert.ReferenceIdeal.HostRun.stretch15, Cert.ReferenceIdeal.HostRun.stretch16, Cert.ReferenceIdeal.HostRun.stretch17, Cert.ReferenceIdeal.HostRun.stretch18, Cert.ReferenceIdeal.HostRun.stretch19, Cert.ReferenceIdeal.HostRun.stretch20, Cert.ReferenceIdeal.HostRun.stretch21, Cert.ReferenceIdeal.HostRun.stretch22, Cert.ReferenceIdeal.HostRun.stretch23, Cert.ReferenceIdeal.HostRun.stretch24]) V = StableHlo.after Cert.ReferenceIdeal.HostRun.stretch24 (prefR V) := by
  rw [flattenR]; simp only [after_append]

/-- From arguments that agree on the weight matrix and the two vectors of mixing logits, the weight `w` is the same
    array in both programs. -/
theorem weight_agree (VK : Valuation Cert.KernelIdeal.τ Cert.KernelIdeal.sig (Elt F)) (VR : Valuation Cert.ReferenceIdeal.τ Cert.ReferenceIdeal.sig (Elt F))
    (h1 : agreeAt(VR, VK, main_arg1)) (h3 : agreeAt(VR, VK, main_arg3)) (h4 : agreeAt(VR, VK, main_arg4)) :
    agreeAt(StableHlo.after Cert.ReferenceIdeal.HostRun.stretch24 (prefR VR), StableHlo.after Cert.KernelIdeal.Gen.hostOps0_24 (prefK VK), main_v292) := by
  obtain ⟨a0, a1, a2, a3, a4, a5⟩ := seg0_agree VK VR h1 h3 h4
  obtain ⟨b0, b1, b2, b3, b4, b5⟩ := seg1_agree (StableHlo.after segK0 VK) (StableHlo.after segR0 VR) a0 a1 a2 a3 a4 a5
  obtain ⟨c0, c1, c2, c3, c4, c5⟩ := seg2_agree (StableHlo.after segK1 (StableHlo.after segK0 VK)) (StableHlo.after segR1 (StableHlo.after segR0 VR)) b0 b1 b2 b3 b4 b5
  obtain ⟨d0, d1, d2, d3, d4, d5⟩ := seg3_agree (StableHlo.after segK2 (StableHlo.after segK1 (StableHlo.after segK0 VK))) (StableHlo.after segR2 (StableHlo.after segR1 (StableHlo.after segR0 VR))) c0 c1 c2 c3 c4 c5
  obtain ⟨e0, e1, e2, e3, e4, e5⟩ := seg4_agree (StableHlo.after segK3 (StableHlo.after segK2 (StableHlo.after segK1 (StableHlo.after segK0 VK)))) (StableHlo.after segR3 (StableHlo.after segR2 (StableHlo.after segR1 (StableHlo.after segR0 VR)))) d0 d1 d2 d3 d4 d5
  obtain ⟨f0, f1, f2, f3⟩ := seg5_agree (StableHlo.after segK4 (StableHlo.after segK3 (StableHlo.after segK2 (StableHlo.after segK1 (StableHlo.after segK0 VK))))) (StableHlo.after segR4 (StableHlo.after segR3 (StableHlo.after segR2 (StableHlo.after segR1 (StableHlo.after segR0 VR))))) e0 e1 e2 e3 e4 e5
  exact tail_agree (prefK VK) (prefR VR) f0 f1 f2 f3

end Cert.HostAgree

end
-- ==== Proof.KernelArrays.lean ====
/-
  The three arrays the kernel's matrix-product kernel reads, as the host operations before it leave them.

  When the kernel is launched the host has run every operation before it: the six groups of the weight construction,
  then the last stretch. The activations operand is the activations argument laid out as a matrix of 16 · 1024 rows, the
  bias operand the bias argument as a one-row matrix (no operation before them writes an argument), and the weight
  operand the transposed weight `w` narrowed to bf16, `w` being what the last stretch leaves in its buffer.
-/
import proofs.«150455_j40097814676033_1_alg».proof.Proof.Weight
import proofs.«150455_j40097814676033_1_alg».proof.Proof.Gen.KernelIdeal.Frame

noncomputable section

namespace Cert.KernelIdeal.KArrays

open Idealize.ShloMosaic Idealize.ShloMosaic.TcCoe Idealize.SL.Sem
open Cert.KernelIdeal Cert.KernelIdeal.Gen Cert.HostAgree

variable {F : FTy → Type} [FloatOps F]
variable (m : (ℓ : Loc nD τ sig) → Buf (Elt F) ℓ) (c : Dev nD)

/-- Core `c`'s buffer contents as launched. -/
abbrev launch : Valuation τ sig (Elt F) := fun b => m (c, b)

/-- The weight `w` as the kernel's program builds it on core `c`. -/
def weight : S2048x2048.Idx → F .f32 :=
  StableHlo.after hostOps0_24 (prefK (launch m c)) (Proc.devRef .tc main_v292)

/-- The contents when the kernel is launched: the last stretch run from the contents after the six groups. -/
theorem V0_eq : V0 m c = StableHlo.after hostOps0_24 (prefK (launch m c)) := afterK (launch m c)

/-- The six groups leave the activations argument as launched. -/
theorem pref_arg0 : prefK (launch m c) (Proc.devRef .tc main_arg0) = m ((c : Thread nD τ).loc main_arg0) :=
  ((tailK_kept (prefK (launch m c))).1.symm.trans (congrFun (V0_eq m c).symm _)).trans (V_main_arg0 m c)

/-- The six groups leave the bias argument as launched. -/
theorem pref_arg2 : prefK (launch m c) (Proc.devRef .tc main_arg2) = m ((c : Thread nD τ).loc main_arg2) :=
  ((tailK_kept (prefK (launch m c))).2.symm.trans (congrFun (V0_eq m c).symm _)).trans (V_main_arg2 m c)

/-- The activations operand: the activations argument as a matrix of 16 · 1024 rows. -/
theorem V_v296 : (V m c main_v296 : S16384x2048.Idx → F .f32)
    = shapeCast S16384x2048 (m ((c : Thread nD τ).loc main_arg0) : S16x1024x2048.Idx → F .f32) shapeCasts_S16x1024x2048_S16384x2048 :=
  (congrFun (V0_eq m c) _).trans ((tailK_v296 _).trans (by rw [pref_arg0]))

/-- The bias operand: the bias argument as a one-row matrix. -/
theorem V_v295 : (V m c main_v295 : S1x2048.Idx → F .f32)
    = shapeCast S1x2048 (m ((c : Thread nD τ).loc main_arg2) : S2048.Idx → F .f32) shapeCasts_S2048_S1x2048 :=
  (congrFun (V0_eq m c) _).trans ((tailK_v295 _).trans (by rw [pref_arg2]))

/-- The weight operand: the weight transposed and narrowed to bf16. -/
theorem V_v294 : (V m c main_v294 : S2048x2048.Idx → F .bf16)
    = truncf .bf16 (transpose S2048x2048 [1, 0] (weight m c) transposes_S2048x2048_S2048x2048_1_0) bitsLt_bf16_f32 :=
  (congrFun (V0_eq m c) _).trans (tailK_v294 _)

end Cert.KernelIdeal.KArrays

end
-- ==== Proof.RefRun.lean ====
/- The reference program's run, read back as one fold.

   The reference's @main is a straight line of 362 statements: host operations, and twelve calls of module-local
   integer-remainder functions (each of which calls a select in turn). None of them launches a kernel, so the whole
   program is ONE sequence of host operations, a call standing for the callee's operations over the buffers of that
   call. This module proves exactly that: @main equals the sequence of the operations listed in the table module,
   every operation touches TensorCore buffers only and determines its result, the signature scopes nothing, and hence
   every weakly fair execution terminates with each buffer holding the fold of the operations' results over the
   launch contents. -/
import proofs.«150455_j40097814676033_1_alg».proof.Proof.RefOps
import Idealize.ShloMosaic.Lib.Pipeline.Regions
import Idealize.ShloMosaic.Lib.StableHlo.Run

noncomputable section

namespace Cert.ReferenceIdeal.HostRun

open Idealize.ShloMosaic Idealize.ShloMosaic.TcCoe Idealize.SL.Sem
open Cert.ReferenceIdeal Cert.ReferenceIdeal.Gen

variable {F : FTy → Type} [FloatOps F]

/-! ## Generic facts about sequences of operations -/

section Generic

variable {nD' : Nat} {τ' : Topo} {sig' : RefSig} {Val : EltTy → Type} {Λ : Labels}

/-- Sequences run one after the other (and then the closing return) are the concatenation run as one sequence:
    by induction, a sequence followed by another being their concatenation, and the empty chain being the empty
    sequence (both are the bare return). -/
theorem chain_seq (L : List (List (HloOp τ' sig' Val))) :
    (Pipeline.chain (L.map StableHlo.seq) : Prog (TpuEff nD' τ' sig' Val Λ .tc) PUnit) = StableHlo.seq L.flatten := by
  induction L with
  | nil => rfl
  | cons l L ih =>
    rw [List.map_cons, Pipeline.chain_cons, ih, List.flatten_cons, StableHlo.seq_append]

/-- A property of every element of every list holds of every element of the concatenation. -/
theorem forall_flatten {α : Type} {p : α → Prop} (L : List (List α)) (h : L.Forall fun l => l.Forall p) :
    L.flatten.Forall p :=
  List.forall_iff_forall_mem.mpr fun x hx => by
    obtain ⟨l, hl, hxl⟩ := List.mem_flatten.mp hx
    exact List.forall_iff_forall_mem.mp (List.forall_iff_forall_mem.mp h l hl) x hxl

end Generic

/-! ## @main, window by window

Each printed window of @main is the chain of its pieces: a new piece starts at every call (whose operations are the
callee's, over the call's buffers) and after it. A window but the last ends in its last piece (no closing return); the
last window is one operation and the return. Each equation is checked by unfolding both sides. -/

theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (Pipeline.Sig Λ₀ (Fin 0) fun p => (pcfgs (F := F) p).Adm) .tc) PUnit) := by
  chain_rfl

theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5 ]
  (StableHlo.seq main_part1_ops6) : Prog (TpuEff nD τ sig (Elt F) (Pipeline.Sig Λ₀ (Fin 0) fun p => (pcfgs (F := F) p).Adm) .tc) PUnit) := by
  chain_rfl

theorem main_part2_chain (c : Dev nD) : main_part2 (F := F) c = (Pipeline.chainK
  [ StableHlo.seq main_part2_ops0,
    StableHlo.seq main_part2_ops1,
    StableHlo.seq main_part2_ops2,
    StableHlo.seq main_part2_ops3 ]
  (StableHlo.seq main_part2_ops4) : Prog (TpuEff nD τ sig (Elt F) (Pipeline.Sig Λ₀ (Fin 0) fun p => (pcfgs (F := F) p).Adm) .tc) PUnit) := by
  chain_rfl

theorem main_part3_chain (c : Dev nD) : main_part3 (F := F) c = (Pipeline.chainK
  [ StableHlo.seq main_part3_ops0,
    StableHlo.seq main_part3_ops1,
    StableHlo.seq main_part3_ops2,
    StableHlo.seq main_part3_ops3 ]
  (StableHlo.seq main_part3_ops4) : Prog (TpuEff nD τ sig (Elt F) (Pipeline.Sig Λ₀ (Fin 0) fun p => (pcfgs (F := F) p).Adm) .tc) PUnit) := by
  chain_rfl

theorem main_part4_chain (c : Dev nD) : main_part4 (F := F) c = (Pipeline.chainK
  [ StableHlo.seq main_part4_ops0,
    StableHlo.seq main_part4_ops1,
    StableHlo.seq main_part4_ops2,
    StableHlo.seq main_part4_ops3 ]
  (StableHlo.seq main_part4_ops4) : Prog (TpuEff nD τ sig (Elt F) (Pipeline.Sig Λ₀ (Fin 0) fun p => (pcfgs (F := F) p).Adm) .tc) PUnit) := by
  chain_rfl

theorem main_part5_chain (c : Dev nD) : main_part5 (F := F) c = (Pipeline.chainK
  [ StableHlo.seq main_part5_ops0,
    StableHlo.seq main_part5_ops1,
    StableHlo.seq main_part5_ops2,
    StableHlo.seq main_part5_ops3 ]
  (StableHlo.seq main_part5_ops4) : Prog (TpuEff nD τ sig (Elt F) (Pipeline.Sig Λ₀ (Fin 0) fun p => (pcfgs (F := F) p).Adm) .tc) PUnit) := by
  chain_rfl

theorem main_part6_chain (c : Dev nD) : main_part6 (F := F) c = (Pipeline.chain
  [ StableHlo.seq main_part6_ops0 ] : Prog (TpuEff nD τ sig (Elt F) (Pipeline.Sig Λ₀ (Fin 0) fun p => (pcfgs (F := F) p).Adm) .tc) PUnit) := by
  chain_rfl

/-- @main is the chain of its windows' pieces, in order: the windows' equations joined at each window boundary. -/
theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part2_ops0,
    StableHlo.seq main_part2_ops1,
    StableHlo.seq main_part2_ops2,
    StableHlo.seq main_part2_ops3,
    StableHlo.seq main_part2_ops4,
    StableHlo.seq main_part3_ops0,
    StableHlo.seq main_part3_ops1,
    StableHlo.seq main_part3_ops2,
    StableHlo.seq main_part3_ops3,
    StableHlo.seq main_part3_ops4,
    StableHlo.seq main_part4_ops0,
    StableHlo.seq main_part4_ops1,
    StableHlo.seq main_part4_ops2,
    StableHlo.seq main_part4_ops3,
    StableHlo.seq main_part4_ops4,
    StableHlo.seq main_part5_ops0,
    StableHlo.seq main_part5_ops1,
    StableHlo.seq main_part5_ops2,
    StableHlo.seq main_part5_ops3,
    StableHlo.seq main_part5_ops4,
    StableHlo.seq main_part6_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [main_part6_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- @main is the chain of its whole stretches (a stretch is what lies between two calls, or one call's operations):
    the same operations as the windows' pieces, two pieces that a window boundary separates being one stretch. -/
theorem main_chain (c : Dev nD) : main (F := F) c = (Pipeline.chain
  [ StableHlo.seq stretch0,
    StableHlo.seq stretch1,
    StableHlo.seq stretch2,
    StableHlo.seq stretch3,
    StableHlo.seq stretch4,
    StableHlo.seq stretch5,
    StableHlo.seq stretch6,
    StableHlo.seq stretch7,
    StableHlo.seq stretch8,
    StableHlo.seq stretch9,
    StableHlo.seq stretch10,
    StableHlo.seq stretch11,
    StableHlo.seq stretch12,
    StableHlo.seq stretch13,
    StableHlo.seq stretch14,
    StableHlo.seq stretch15,
    StableHlo.seq stretch16,
    StableHlo.seq stretch17,
    StableHlo.seq stretch18,
    StableHlo.seq stretch19,
    StableHlo.seq stretch20,
    StableHlo.seq stretch21,
    StableHlo.seq stretch22,
    StableHlo.seq stretch23,
    StableHlo.seq stretch24 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [main_part6_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-! ## @main as one sequence -/

/-- The stretches of @main, in order. -/
abbrev stretches : List (List (HloOp τ sig (Elt F))) :=
  [ stretch0, stretch1, stretch2, stretch3, stretch4, stretch5, stretch6, stretch7, stretch8, stretch9, stretch10, stretch11, stretch12, stretch13, stretch14, stretch15, stretch16, stretch17, stretch18, stretch19, stretch20, stretch21, stretch22, stretch23, stretch24 ]

/-- Every operation @main runs, in order: the stretches, concatenated. -/
abbrev refOps : List (HloOp τ sig (Elt F)) := stretches.flatten

/-- @main is the one sequence of all its operations. -/
theorem main_eq (c : Dev nD) : main (F := F) c = StableHlo.seq refOps :=
  (main_chain c).trans (chain_seq stretches)

/-! ## What the operations touch

Every operation is one of the builders (a constant, or one result from one, two or three operands, or a reshape) over
buffers of the TensorCore's signature, so it touches TensorCore references only, and it determines the contents of the
buffer it writes (no operation leaves a buffer at contents it does not choose). Stretch by stretch, then for the
concatenation. -/

theorem stretch0_sub : (stretch0 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch0_fresh : (stretch0 : List (HloOp τ sig (Elt F))).Forall fun op => op.fresh = ∅ := by
  simp only [List.Forall]; repeat' constructor
theorem stretch1_sub : (stretch1 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch1_fresh : (stretch1 : List (HloOp τ sig (Elt F))).Forall fun op => op.fresh = ∅ := by
  simp only [List.Forall]; repeat' constructor
theorem stretch2_sub : (stretch2 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch2_fresh : (stretch2 : List (HloOp τ sig (Elt F))).Forall fun op => op.fresh = ∅ := by
  simp only [List.Forall]; repeat' constructor
theorem stretch3_sub : (stretch3 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch3_fresh : (stretch3 : List (HloOp τ sig (Elt F))).Forall fun op => op.fresh = ∅ := by
  simp only [List.Forall]; repeat' constructor
theorem stretch4_sub : (stretch4 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch4_fresh : (stretch4 : List (HloOp τ sig (Elt F))).Forall fun op => op.fresh = ∅ := by
  simp only [List.Forall]; repeat' constructor
theorem stretch5_sub : (stretch5 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch5_fresh : (stretch5 : List (HloOp τ sig (Elt F))).Forall fun op => op.fresh = ∅ := by
  simp only [List.Forall]; repeat' constructor
theorem stretch6_sub : (stretch6 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch6_fresh : (stretch6 : List (HloOp τ sig (Elt F))).Forall fun op => op.fresh = ∅ := by
  simp only [List.Forall]; repeat' constructor
theorem stretch7_sub : (stretch7 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch7_fresh : (stretch7 : List (HloOp τ sig (Elt F))).Forall fun op => op.fresh = ∅ := by
  simp only [List.Forall]; repeat' constructor
theorem stretch8_sub : (stretch8 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch8_fresh : (stretch8 : List (HloOp τ sig (Elt F))).Forall fun op => op.fresh = ∅ := by
  simp only [List.Forall]; repeat' constructor
theorem stretch9_sub : (stretch9 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch9_fresh : (stretch9 : List (HloOp τ sig (Elt F))).Forall fun op => op.fresh = ∅ := by
  simp only [List.Forall]; repeat' constructor
theorem stretch10_sub : (stretch10 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch10_fresh : (stretch10 : List (HloOp τ sig (Elt F))).Forall fun op => op.fresh = ∅ := by
  simp only [List.Forall]; repeat' constructor
theorem stretch11_sub : (stretch11 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch11_fresh : (stretch11 : List (HloOp τ sig (Elt F))).Forall fun op => op.fresh = ∅ := by
  simp only [List.Forall]; repeat' constructor
theorem stretch12_sub : (stretch12 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch12_fresh : (stretch12 : List (HloOp τ sig (Elt F))).Forall fun op => op.fresh = ∅ := by
  simp only [List.Forall]; repeat' constructor
theorem stretch13_sub : (stretch13 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch13_fresh : (stretch13 : List (HloOp τ sig (Elt F))).Forall fun op => op.fresh = ∅ := by
  simp only [List.Forall]; repeat' constructor
theorem stretch14_sub : (stretch14 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch14_fresh : (stretch14 : List (HloOp τ sig (Elt F))).Forall fun op => op.fresh = ∅ := by
  simp only [List.Forall]; repeat' constructor
theorem stretch15_sub : (stretch15 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch15_fresh : (stretch15 : List (HloOp τ sig (Elt F))).Forall fun op => op.fresh = ∅ := by
  simp only [List.Forall]; repeat' constructor
theorem stretch16_sub : (stretch16 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch16_fresh : (stretch16 : List (HloOp τ sig (Elt F))).Forall fun op => op.fresh = ∅ := by
  simp only [List.Forall]; repeat' constructor
theorem stretch17_sub : (stretch17 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch17_fresh : (stretch17 : List (HloOp τ sig (Elt F))).Forall fun op => op.fresh = ∅ := by
  simp only [List.Forall]; repeat' constructor
theorem stretch18_sub : (stretch18 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch18_fresh : (stretch18 : List (HloOp τ sig (Elt F))).Forall fun op => op.fresh = ∅ := by
  simp only [List.Forall]; repeat' constructor
theorem stretch19_sub : (stretch19 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch19_fresh : (stretch19 : List (HloOp τ sig (Elt F))).Forall fun op => op.fresh = ∅ := by
  simp only [List.Forall]; repeat' constructor
theorem stretch20_sub : (stretch20 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch20_fresh : (stretch20 : List (HloOp τ sig (Elt F))).Forall fun op => op.fresh = ∅ := by
  simp only [List.Forall]; repeat' constructor
theorem stretch21_sub : (stretch21 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch21_fresh : (stretch21 : List (HloOp τ sig (Elt F))).Forall fun op => op.fresh = ∅ := by
  simp only [List.Forall]; repeat' constructor
theorem stretch22_sub : (stretch22 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch22_fresh : (stretch22 : List (HloOp τ sig (Elt F))).Forall fun op => op.fresh = ∅ := by
  simp only [List.Forall]; repeat' constructor
theorem stretch23_sub : (stretch23 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch23_fresh : (stretch23 : List (HloOp τ sig (Elt F))).Forall fun op => op.fresh = ∅ := by
  simp only [List.Forall]; repeat' constructor
theorem stretch24_sub : (stretch24 : List (HloOp τ sig (Elt F))).Forall fun op => op.bufs ⊆ StableHlo.tcRefs τ sig := by
  simp only [List.Forall, StableHlo.nullary_bufs_sub, StableHlo.unary_bufs_sub, StableHlo.binary_bufs_sub,
    StableHlo.ternary_bufs_sub, StableHlo.reshape_bufs_sub, and_self]
theorem stretch24_fresh : (stretch24 : List (HloOp τ sig (Elt F))).Forall fun op => op.fresh = ∅ := by
  simp only [List.Forall]; repeat' constructor

/-- Every operation of @main touches TensorCore references only. -/
theorem refOps_sub : (refOps : List (HloOp τ sig (Elt F))).Forall fun op => op.bufs ⊆ StableHlo.tcRefs τ sig :=
  forall_flatten stretches
    ⟨stretch0_sub, stretch1_sub, stretch2_sub, stretch3_sub, stretch4_sub, stretch5_sub, stretch6_sub, stretch7_sub, stretch8_sub, stretch9_sub, stretch10_sub, stretch11_sub, stretch12_sub, stretch13_sub, stretch14_sub, stretch15_sub, stretch16_sub, stretch17_sub, stretch18_sub, stretch19_sub, stretch20_sub, stretch21_sub, stretch22_sub, stretch23_sub, stretch24_sub⟩

/-- Every operation of @main determines what it writes. -/
theorem refOps_fresh : ∀ op ∈ (refOps : List (HloOp τ sig (Elt F))), op.fresh = ∅ :=
  List.forall_iff_forall_mem.mp (forall_flatten stretches
    ⟨stretch0_fresh, stretch1_fresh, stretch2_fresh, stretch3_fresh, stretch4_fresh, stretch5_fresh, stretch6_fresh, stretch7_fresh, stretch8_fresh, stretch9_fresh, stretch10_fresh, stretch11_fresh, stretch12_fresh, stretch13_fresh, stretch14_fresh, stretch15_fresh, stretch16_fresh, stretch17_fresh, stretch18_fresh, stretch19_fresh, stretch20_fresh, stretch21_fresh, stretch22_fresh, stretch23_fresh, stretch24_fresh⟩)

/-! ## The run -/

/-- The reference launches no kernel: none of its references is scoped to a region … -/
theorem scopedRefs_eq : (Finset.univ.filter fun b : Ref sig .tc => b.isScoped) = ∅ := by decide
/-- … and none of its semaphores. -/
theorem scopedSems_eq : (Finset.univ.filter fun sm : SemLoc sig => sm.isScoped .tc) = ∅ := by decide

/-- On every device, for any float values, from any memory with zero counters: every weakly fair execution of the
    reference's @main terminates, and in every final state each TensorCore buffer holds the fold of @main's
    operations' results over the contents the launch found. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after refOps (StableHlo.launchContents m c) (Proc.devRef .tc b) :=
  StableHlo.run_seq scopedRefs_eq scopedSems_eq defs main (fun _ => refOps) main_eq (fun _ => refOps_sub) m ρ
    (fun _ => refOps_fresh)

end Cert.ReferenceIdeal.HostRun

end
-- ==== Proof.RefKept.lean ====
/- The reference's arguments are left as the launch found them.

   Every operation of @main writes exactly one buffer, the buffer of the value it defines, and none of those is the
   buffer of one of @main's five arguments (the activations, the weight, the bias and the two small parameter vectors).
   So the fold of the operations' results, at an argument's buffer, is what it was before: stretch by stretch the
   written buffer is compared with the five arguments' buffers, and the fact passes to the concatenation. -/
import proofs.«150455_j40097814676033_1_alg».proof.Proof.RefRun

noncomputable section

namespace Cert.ReferenceIdeal.HostRun

open Idealize.ShloMosaic Idealize.ShloMosaic.TcCoe Idealize.SL.Sem
open Cert.ReferenceIdeal Cert.ReferenceIdeal.Gen

variable {F : FTy → Type} [FloatOps F]

/-- The references of @main's five arguments. -/
abbrev argRefs : List (Ref sig .tc) := [main_arg0, main_arg1, main_arg2, main_arg3, main_arg4]

/-- A buffer that is not an argument's is a different device buffer from each argument's: distinct references are
    distinct device buffers. -/
theorem arg_ne_of_not_mem {y : Ref sig .tc} (h : y ∉ argRefs) :
    ∀ r ∈ argRefs, ¬ (Proc.devRef (τ := τ) .tc r = Proc.devRef .tc y) :=
  fun r hr e => h (Proc.devRef_injective _ e ▸ hr)

theorem stretch0_keeps : (stretch0 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch1_keeps : (stretch1 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch2_keeps : (stretch2 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch3_keeps : (stretch3 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch4_keeps : (stretch4 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch5_keeps : (stretch5 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch6_keeps : (stretch6 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch7_keeps : (stretch7 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch8_keeps : (stretch8 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch9_keeps : (stretch9 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch10_keeps : (stretch10 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch11_keeps : (stretch11 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch12_keeps : (stretch12 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch13_keeps : (stretch13 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch14_keeps : (stretch14 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch15_keeps : (stretch15 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch16_keeps : (stretch16 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch17_keeps : (stretch17 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch18_keeps : (stretch18 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch19_keeps : (stretch19 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch20_keeps : (stretch20 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch21_keeps : (stretch21 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch22_keeps : (stretch22 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch23_keeps : (stretch23 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)
theorem stretch24_keeps : (stretch24 : List (HloOp τ sig (Elt F))).Forall fun op =>
    ∀ r ∈ argRefs, Proc.devRef (τ := τ) .tc r ∉ op.writes := by
  simp only [List.Forall, StableHlo.nullary_writes, StableHlo.unary_writes, StableHlo.binary_writes,
    StableHlo.ternary_writes, StableHlo.reshape_writes, Finset.mem_singleton]
  repeat' apply And.intro
  all_goals exact arg_ne_of_not_mem (by decide)

/-- No operation of @main writes an argument's buffer. -/
theorem refOps_keeps : (refOps : List (HloOp τ sig (Elt F))).Forall fun op =>
    ∀ r ∈ argRefs, Proc.devRef (τ := τ) .tc r ∉ op.writes :=
  forall_flatten stretches
    ⟨stretch0_keeps, stretch1_keeps, stretch2_keeps, stretch3_keeps, stretch4_keeps, stretch5_keeps, stretch6_keeps, stretch7_keeps, stretch8_keeps, stretch9_keeps, stretch10_keeps, stretch11_keeps, stretch12_keeps, stretch13_keeps, stretch14_keeps, stretch15_keeps, stretch16_keeps, stretch17_keeps, stretch18_keeps, stretch19_keeps, stretch20_keeps, stretch21_keeps, stretch22_keeps, stretch23_keeps, stretch24_keeps⟩

/-- After @main's operations, from any contents, an argument's buffer holds what it held. -/
theorem arg_kept (V : Valuation τ sig (Elt F)) {r : Ref sig .tc} (hr : r ∈ argRefs) :
    StableHlo.after refOps V (Proc.devRef .tc r) = V (Proc.devRef .tc r) :=
  StableHlo.after_of_forall_not_mem refOps V fun op hop => List.forall_iff_forall_mem.mp refOps_keeps op hop r hr

theorem arg0_kept (V : Valuation τ sig (Elt F)) :
    StableHlo.after refOps V (Proc.devRef .tc main_arg0) = V (Proc.devRef .tc main_arg0) :=
  arg_kept V (by decide)
theorem arg1_kept (V : Valuation τ sig (Elt F)) :
    StableHlo.after refOps V (Proc.devRef .tc main_arg1) = V (Proc.devRef .tc main_arg1) :=
  arg_kept V (by decide)
theorem arg2_kept (V : Valuation τ sig (Elt F)) :
    StableHlo.after refOps V (Proc.devRef .tc main_arg2) = V (Proc.devRef .tc main_arg2) :=
  arg_kept V (by decide)
theorem arg3_kept (V : Valuation τ sig (Elt F)) :
    StableHlo.after refOps V (Proc.devRef .tc main_arg3) = V (Proc.devRef .tc main_arg3) :=
  arg_kept V (by decide)
theorem arg4_kept (V : Valuation τ sig (Elt F)) :
    StableHlo.after refOps V (Proc.devRef .tc main_arg4) = V (Proc.devRef .tc main_arg4) :=
  arg_kept V (by decide)

end Cert.ReferenceIdeal.HostRun

end
-- ==== Proof.RefValue.lean ====
/-
  The reference's result, as its host operations leave it.

  The reference runs the six groups of the weight construction, then its last stretch: the weight `w` is finished, the
  activations argument is contracted with it over the input features, and the bias argument, broadcast over batches and
  tokens, is added. No operation writes an argument.
-/
import proofs.«150455_j40097814676033_1_alg».proof.Proof.Weight
import proofs.«150455_j40097814676033_1_alg».proof.Proof.RefKept

noncomputable section

namespace Cert.ReferenceIdeal.RValue

open Idealize.ShloMosaic Idealize.ShloMosaic.TcCoe Idealize.SL.Sem
open Cert.ReferenceIdeal Cert.ReferenceIdeal.Gen Cert.ReferenceIdeal.HostRun Cert.HostAgree

variable {F : FTy → Type} [FloatOps F]
variable (V : Valuation τ sig (Elt F))

/-- The weight `w` as the reference builds it from the contents `V`. -/
def weight : S2048x2048.Idx → F .f32 :=
  StableHlo.after stretch24 (prefR V) (Proc.devRef .tc main_v292)

/-- The reference's final contents: the last stretch run from the contents after the six groups. -/
theorem refOps_after : StableHlo.after refOps V = StableHlo.after stretch24 (prefR V) := afterR V

/-- The six groups leave the activations argument as it was. -/
theorem pref_arg0 : prefR V (Proc.devRef .tc main_arg0) = V (Proc.devRef .tc main_arg0) :=
  ((tailR_kept (prefR V)).1.symm.trans (congrFun (refOps_after V).symm _)).trans (arg0_kept V)

/-- The six groups leave the bias argument as it was. -/
theorem pref_arg2 : prefR V (Proc.devRef .tc main_arg2) = V (Proc.devRef .tc main_arg2) :=
  ((tailR_kept (prefR V)).2.symm.trans (congrFun (refOps_after V).symm _)).trans (arg2_kept V)

/-- The reference's result: the activations contracted with the weight, plus the broadcast bias. -/
theorem result : (StableHlo.after refOps V (Proc.devRef .tc main_v296) : S16x1024x2048.Idx → F .f32)
    = addf (Host.dotGeneral dot_S16x1024x2048_S2048x2048_S16x1024x2048_2_1_01_0_n_n none
          (V (Proc.devRef .tc main_arg0) : S16x1024x2048.Idx → F .f32) (weight V))
        (broadcastInDim S16x1024x2048 ![0, 1, 2] bcast_S1x1x2048_S16x1024x2048_0_1_2
          (broadcastInDim S1x1x2048 ![2] bcast_S2048_S1x1x2048_2 (V (Proc.devRef .tc main_arg2) : S2048.Idx → F .f32))) :=
  (congrFun (refOps_after V) _).trans ((tailR_v296 _).trans (by rw [pref_arg0, pref_arg2]; rfl))

end Cert.ReferenceIdeal.RValue

end
-- ==== Proof.BridgeKernel.lean ====
/-
  The kernel's host wrapping of the linear layer, read index by index.

  The kernel's program lays the activations out as a matrix of 16 · 1024 rows, transposes the weight and narrows it to
  bf16 (the identity on the extended reals), lays the bias out as a one-row matrix, applies the layer on matrices
  (`Cert.Spec.linear2`), and lays the result out again as 16 batches of 1024 tokens. Read at (batch `p`, token `q`,
  output feature `o`) this is the layer on the rank-3 activations (`Cert.Spec.linear3`):

  * an element of a reshaped array is the element of the operand at the same row-major position, and position
    `(p · 1024 + q) · 2048 + k` is that of `(p, q, k)` in the rank-3 array and of `(p · 1024 + q, k)` in the matrix,
    so row `p · 1024 + q` of the matrix is (batch `p`, token `q`);
  * the transposed weight at `(k, o)` is the weight at `(o, k)`;
  * the one-row bias at `(0, o)` is the bias at `o`.

  Both sides are then the same sum, over the input features `k` in the same order, of the same products, plus the same
  bias entry: no law of arithmetic is used, hence no finiteness either.
-/
import proofs.«150455_j40097814676033_1_alg».proof.Proof.Gen.KernelIdeal
import proofs.«150455_j40097814676033_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-- Row `p · 1024 + q` of the 16384-row matrix: where (batch `p`, token `q`) sits. -/
abbrev rowOf (p : Fin 16) (q : Fin 1024) : Fin 16384 := ⟨p.val * 1024 + q.val, by omega⟩

/-- The activations as a matrix, at (row `p · 1024 + q`, column `k`), are the activations at `(p, q, k)`. -/
theorem flatten_apply {α : Type} (x : Cert.KernelIdeal.S16x1024x2048.Idx → α)
    (h : Cert.KernelIdeal.S16x1024x2048.ShapeCasts Cert.KernelIdeal.S16384x2048) (p : Fin 16) (q : Fin 1024) (k : Fin 2048) :
    shapeCast Cert.KernelIdeal.S16384x2048 x h (ix2 (rowOf p q) k) = x (ix3 p q k) :=
  shapeCast_apply x h _ _ (by rw [Shape.rowMajor_val_three, Shape.rowMajor_val_two]; rfl)

/-- A matrix of 16384 rows as 16 batches of 1024 tokens, at `(p, q, o)`, is the matrix at (row `p · 1024 + q`, column `o`). -/
theorem unflatten_apply {α : Type} (y : Cert.KernelIdeal.S16384x2048.Idx → α)
    (h : Cert.KernelIdeal.S16384x2048.ShapeCasts Cert.KernelIdeal.S16x1024x2048) (p : Fin 16) (q : Fin 1024) (o : Fin 2048) :
    shapeCast Cert.KernelIdeal.S16x1024x2048 y h (ix3 p q o) = y (ix2 (rowOf p q) o) :=
  shapeCast_apply y h _ _ (by rw [Shape.rowMajor_val_three, Shape.rowMajor_val_two]; rfl)

/-- The kernel's program around its matrix product — flatten, transpose and narrow the weight, one-row bias, the layer
    on matrices, unflatten — is the layer on the rank-3 activations. -/
theorem kernel_form (x : FVec Ideal Cert.KernelIdeal.S16x1024x2048 .f32) (W : FVec Ideal Cert.KernelIdeal.S2048x2048 .f32)
    (b : FVec Ideal Cert.KernelIdeal.S2048 .f32)
    (h1 : Cert.KernelIdeal.S16x1024x2048.ShapeCasts Cert.KernelIdeal.S16384x2048)
    (h2 : Cert.KernelIdeal.S2048x2048.Transposes [1, 0] Cert.KernelIdeal.S2048x2048)
    (h3 : (FTy.bf16).bits < (FTy.f32).bits)
    (h4 : Cert.KernelIdeal.S2048.ShapeCasts Cert.KernelIdeal.S1x2048)
    (h5 : Cert.KernelIdeal.S16384x2048.ShapeCasts Cert.KernelIdeal.S16x1024x2048) :
    shapeCast Cert.KernelIdeal.S16x1024x2048
        (Cert.Spec.linear2 (shapeCast Cert.KernelIdeal.S16384x2048 x h1)
          (truncf .bf16 (transpose Cert.KernelIdeal.S2048x2048 [1, 0] W h2) h3)
          (shapeCast Cert.KernelIdeal.S1x2048 b h4)) h5
      = Cert.Spec.linear3 x W b := by
  funext i
  obtain ⟨p, q, o, rfl⟩ : ∃ (p : Fin 16) (q : Fin 1024) (o : Fin 2048), i = ix3 p q o := ⟨i 0, i 1, i 2, eq_ix3 i⟩
  refine (unflatten_apply _ h5 p q o).trans ?_
  show (∑ k : Fin 2048, shapeCast Cert.KernelIdeal.S16384x2048 x h1 (ix2 (rowOf p q) k)
        * truncf .bf16 (transpose Cert.KernelIdeal.S2048x2048 [1, 0] W h2) h3 (ix2 k o))
      + shapeCast Cert.KernelIdeal.S1x2048 b h4 (ix2 (0 : Fin 1) o)
    = (∑ k : Fin 2048, x (ix3 p q k) * W (ix2 o k)) + b (ix1 o)
  refine congrArg₂ (· + ·) (Finset.sum_congr rfl fun k _ => ?_) (shapeCast_a_1a_apply b h4 0 o)
  exact congrArg₂ (· * ·) (flatten_apply x h1 p q k)
    ((truncf_apply _ h3 _).trans (transpose_ix2_apply W h2 k o))

end Cert.Bridge

end
-- ==== Proof.BridgeReference.lean ====
/-
  The reference's linear layer, read index by index.

  The reference contracts the activations' last axis with the weight's last axis (a `dot_general` with no batch axis:
  the result's axes are the activations' batch and token axes, then the weight's output-feature axis), broadcasts the
  bias along the batch and token axes, and adds. Read at (batch `p`, token `q`, output feature `o`):

  * the product is the sum, over the one contracted coordinate `k`, of `x(p, q, k) · W(o, k)`: the contraction's index
    set has one axis, of extent 2048, so its sum is re-indexed by that axis' coordinate, and the operands' indices at
    (`(p, q, o)`, `k`) are `(p, q, k)` and `(o, k)`;
  * the bias broadcast first to [1, 1, 2048] along axis 2 and then to [16, 1024, 2048] reads `b(o)`: a unit axis of the
    operand reads coordinate 0, the other axis the result's coordinate.

  This is `Cert.Spec.linear3` term by term; no law of arithmetic is used, hence no finiteness either.
-/
import proofs.«150455_j40097814676033_1_alg».proof.Proof.Gen.ReferenceIdeal
import proofs.«150455_j40097814676033_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-- The reference's contraction: the activations' axis 2 against the weight's axis 1. -/
abbrev refDot : DotDims Cert.ReferenceIdeal.S16x1024x2048 Cert.ReferenceIdeal.S2048x2048 Cert.ReferenceIdeal.S16x1024x2048 :=
  Cert.ReferenceIdeal.dot_S16x1024x2048_S2048x2048_S16x1024x2048_2_1_01_0_n_n

/-- The activations' index the product reads at result index `(p, q, o)` and contracted coordinate `k` is `(p, q, k)`. -/
theorem refDot_lhsIdx (p : Fin 16) (q : Fin 1024) (o k : Fin 2048) :
    refDot.lhsIdx (ix3 p q o) ((contrEquiv1 refDot 2048 rfl rfl).symm k) = ix3 p q k := by
  have c := contrEquiv1_symm_val refDot 2048 rfl rfl k
  funext ax; apply Fin.ext
  match ax with
  | ⟨0, _⟩ => simp [DotDims.lhsIdx, refDot, Cert.ReferenceIdeal.dot_S16x1024x2048_S2048x2048_S16x1024x2048_2_1_01_0_n_n]; rfl
  | ⟨1, _⟩ => simp [DotDims.lhsIdx, refDot, Cert.ReferenceIdeal.dot_S16x1024x2048_S2048x2048_S16x1024x2048_2_1_01_0_n_n]; rfl
  | ⟨2, _⟩ => exact (refDot.lhsIdx_val_of_single (cl := ⟨2, by decide⟩) rfl _ _).trans c

/-- The weight's index the product reads at result index `(p, q, o)` and contracted coordinate `k` is `(o, k)`. -/
theorem refDot_rhsIdx (p : Fin 16) (q : Fin 1024) (o k : Fin 2048) :
    refDot.rhsIdx (ix3 p q o) ((contrEquiv1 refDot 2048 rfl rfl).symm k) = ix2 o k := by
  have c := contrEquiv1_symm_val refDot 2048 rfl rfl k
  funext ax; apply Fin.ext
  match ax with
  | ⟨0, _⟩ => simp [DotDims.rhsIdx, refDot, Cert.ReferenceIdeal.dot_S16x1024x2048_S2048x2048_S16x1024x2048_2_1_01_0_n_n]; rfl
  | ⟨1, _⟩ => exact (refDot.rhsIdx_val_of_single (cr := ⟨1, by decide⟩) rfl _ _).trans c

/-- The reference's product at `(p, q, o)`: the sum over the input features `k` of `x(p, q, k) · W(o, k)`. -/
theorem refDot_apply (x : FVec Ideal Cert.ReferenceIdeal.S16x1024x2048 .f32) (W : FVec Ideal Cert.ReferenceIdeal.S2048x2048 .f32)
    (p : Fin 16) (q : Fin 1024) (o : Fin 2048) :
    Host.dotGeneral (F := Ideal) refDot none x W (ix3 p q o) = ∑ k : Fin 2048, x (ix3 p q k) * W (ix2 o k) := by
  show FloatOps.dotGeneral refDot none _ x W (ix3 p q o) = _
  rw [Ideal.dotGeneral_apply, ← Equiv.sum_comp (contrEquiv1 refDot 2048 rfl rfl).symm]
  refine Finset.sum_congr rfl fun k _ => ?_
  rw [refDot_lhsIdx, refDot_rhsIdx]

/-- The bias broadcast to [1, 1, 2048] and then to [16, 1024, 2048], at `(p, q, o)`, is the bias at `o`. -/
theorem bias_apply {α : Type} (b : Cert.ReferenceIdeal.S2048.Idx → α)
    (g1 : Cert.ReferenceIdeal.S2048.BroadcastsInDim Cert.ReferenceIdeal.S1x1x2048 (![2] : Fin 1 → Fin Cert.ReferenceIdeal.S1x1x2048.rank))
    (g2 : Cert.ReferenceIdeal.S1x1x2048.BroadcastsInDim Cert.ReferenceIdeal.S16x1024x2048
      (![0, 1, 2] : Fin 3 → Fin Cert.ReferenceIdeal.S16x1024x2048.rank))
    (p : Fin 16) (q : Fin 1024) (o : Fin 2048) :
    broadcastInDim Cert.ReferenceIdeal.S16x1024x2048 ![0, 1, 2] g2 (broadcastInDim Cert.ReferenceIdeal.S1x1x2048 ![2] g1 b) (ix3 p q o)
      = b (ix1 o) :=
  (broadcastInDim_apply _ g2 _ (ix3 p q o) (ix3 (0 : Fin 1) (0 : Fin 1) o)
      (fun a => match a with | ⟨0, _⟩ => rfl | ⟨1, _⟩ => rfl | ⟨2, _⟩ => rfl)).trans
    (broadcastInDim_apply _ g1 b (ix3 (0 : Fin 1) (0 : Fin 1) o) (ix1 o) (fun a => match a with | ⟨0, _⟩ => rfl))

/-- The reference — contract, broadcast the bias, add — is the layer on the rank-3 activations. -/
theorem reference_form (x : FVec Ideal Cert.ReferenceIdeal.S16x1024x2048 .f32) (W : FVec Ideal Cert.ReferenceIdeal.S2048x2048 .f32)
    (b : FVec Ideal Cert.ReferenceIdeal.S2048 .f32)
    (g1 : Cert.ReferenceIdeal.S2048.BroadcastsInDim Cert.ReferenceIdeal.S1x1x2048 (![2] : Fin 1 → Fin Cert.ReferenceIdeal.S1x1x2048.rank))
    (g2 : Cert.ReferenceIdeal.S1x1x2048.BroadcastsInDim Cert.ReferenceIdeal.S16x1024x2048
      (![0, 1, 2] : Fin 3 → Fin Cert.ReferenceIdeal.S16x1024x2048.rank)) :
    addf (Host.dotGeneral (F := Ideal) Cert.ReferenceIdeal.dot_S16x1024x2048_S2048x2048_S16x1024x2048_2_1_01_0_n_n none x W)
        (broadcastInDim Cert.ReferenceIdeal.S16x1024x2048 ![0, 1, 2] g2 (broadcastInDim Cert.ReferenceIdeal.S1x1x2048 ![2] g1 b))
      = Cert.Spec.linear3 x W b := by
  funext i
  obtain ⟨p, q, o, rfl⟩ : ∃ (p : Fin 16) (q : Fin 1024) (o : Fin 2048), i = ix3 p q o := ⟨i 0, i 1, i 2, eq_ix3 i⟩
  show Host.dotGeneral (F := Ideal) refDot none x W (ix3 p q o)
      + broadcastInDim Cert.ReferenceIdeal.S16x1024x2048 ![0, 1, 2] g2 (broadcastInDim Cert.ReferenceIdeal.S1x1x2048 ![2] g1 b) (ix3 p q o)
    = (∑ k : Fin 2048, x (ix3 p q k) * W (ix2 o k)) + b (ix1 o)
  rw [refDot_apply, bias_apply]

end Cert.Bridge

end
-- ==== Proof.lean ====
/-
  The kernel — a linear layer `y = x · wᵀ + bias` whose weight `w` is a softmax-weighted sum of the weight matrix and of
  its block-circulant averages for block sizes 2 to 64, the matrix product computed block by block over 32 blocks of 512
  rows with the weight narrowed to bf16 — against its reference, `einsum('bti,oi->bto', x, w) + bias` with the same `w`.

  On the extended reals the two are one function. Both programs build `w` by the same host operations on the same
  arguments, so `w` is the same array (Proof/Weight.lean, group by group). The kernel's program lays the activations out
  as a matrix of 16 · 1024 rows, transposes and narrows `w` (the identity on the extended reals) and lays the bias out
  as one row; grid point `t` of its kernel writes rows `512 t … 512 t + 511` of the product plus the bias, and the 32
  blocks cover the output (Proof/KernelValue.lean); laid out again as 16 batches of 1024 tokens this is, at (batch `p`,
  token `q`, feature `o`), the sum over `k` of `x(p, q, k) · w(o, k)` plus `bias(o)` (Proof/BridgeKernel.lean). The
  reference's contraction over the input features and its broadcast bias read the same (Proof/BridgeReference.lean):
  the same products summed in the same order, so no law of arithmetic and no finiteness of the inputs is used.
  The reference's own run, its operations in order with the remainder functions it calls inlined, is Proof/RefRun.lean.
-/
import proofs.«150455_j40097814676033_1_alg».proof.Defs
import proofs.«150455_j40097814676033_1_alg».proof.Proof.Gen.Kernel
import proofs.«150455_j40097814676033_1_alg».proof.Proof.Gen.Kernel.Frame
import proofs.«150455_j40097814676033_1_alg».proof.Proof.Gen.KernelIdeal
import proofs.«150455_j40097814676033_1_alg».proof.Proof.Gen.KernelIdeal.Frame
import proofs.«150455_j40097814676033_1_alg».proof.Proof.Gen.ReferenceIdeal
import proofs.«150455_j40097814676033_1_alg».proof.Proof.Gen.Pre_finite_inputs
import proofs.«150455_j40097814676033_1_alg».proof.Proof.KernelValue
import proofs.«150455_j40097814676033_1_alg».proof.Proof.KernelArrays
import proofs.«150455_j40097814676033_1_alg».proof.Proof.RefValue
import proofs.«150455_j40097814676033_1_alg».proof.Proof.BridgeKernel
import proofs.«150455_j40097814676033_1_alg».proof.Proof.BridgeReference
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs, and none of its operations writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.HostRun.arg0_kept _), (h c Cert.ReferenceIdeal.main_arg1).trans (Cert.ReferenceIdeal.HostRun.arg1_kept _),
      (h c Cert.ReferenceIdeal.main_arg2).trans (Cert.ReferenceIdeal.HostRun.arg2_kept _), (h c Cert.ReferenceIdeal.main_arg3).trans (Cert.ReferenceIdeal.HostRun.arg3_kept _),
      (h c Cert.ReferenceIdeal.main_arg4).trans (Cert.ReferenceIdeal.HostRun.arg4_kept _)⟩)
    (Cert.ReferenceIdeal.HostRun.run (F := Ideal) m ρ)

/-- The weight is the same array in both programs, from launch contents that agree on the arguments. -/
theorem weight_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.RValue.weight (StableHlo.launchContents m' c) = Cert.KernelIdeal.KArrays.weight m c :=
  Cert.HostAgree.weight_agree (Cert.KernelIdeal.KArrays.launch m c) (StableHlo.launchContents m' c) h1 h3 h4

/-- On the extended reals, from memories agreeing on the arguments, both programs end with the layer
    `(p, q, o) ↦ ∑ k, x(p, q, k) · w(o, k) + bias(o)` in their result arrays. -/
theorem algebraic : Cert.algebraic_KernelIdeal_ReferenceIdeal := by
  intro m ρ m' ρ' _ hagree
  refine ⟨fun c => Cert.Spec.linear3 (m ((c.tc : Thread Cert.KernelIdeal.nD Cert.KernelIdeal.τ).loc Cert.KernelIdeal.main_arg0)) (Cert.KernelIdeal.KArrays.weight m c)
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.KValue.run m ρ)
    rw [Cert.KernelIdeal.KArrays.V_v296, Cert.KernelIdeal.KArrays.V_v295, Cert.KernelIdeal.KArrays.V_v294]
    exact Cert.Bridge.kernel_form _ _ _ _ _ _ _ _
  · refine (θ_run Cert.ReferenceIdeal.defs _ _).mono (fun _ h c =>
      ⟨(h c Cert.ReferenceIdeal.main_v296).trans ?_, (h c Cert.ReferenceIdeal.main_arg0).trans (Cert.ReferenceIdeal.HostRun.arg0_kept _),
        (h c Cert.ReferenceIdeal.main_arg1).trans (Cert.ReferenceIdeal.HostRun.arg1_kept _), (h c Cert.ReferenceIdeal.main_arg2).trans (Cert.ReferenceIdeal.HostRun.arg2_kept _),
        (h c Cert.ReferenceIdeal.main_arg3).trans (Cert.ReferenceIdeal.HostRun.arg3_kept _), (h c Cert.ReferenceIdeal.main_arg4).trans (Cert.ReferenceIdeal.HostRun.arg4_kept _)⟩)
      (Cert.ReferenceIdeal.HostRun.run (F := Ideal) m' ρ')
    refine (Cert.ReferenceIdeal.RValue.result _).trans ?_
    rw [weight_eq m m' c (hagree c).2.1 (hagree c).2.2.2.1 (hagree c).2.2.2.2]
    refine (Cert.Bridge.reference_form _ _ _ _ _).trans ?_
    show Cert.Spec.linear3 (m' ((c.tc : Thread Cert.ReferenceIdeal.nD Cert.ReferenceIdeal.τ).loc Cert.ReferenceIdeal.main_arg0)) _ (m' ((c.tc : Thread Cert.ReferenceIdeal.nD Cert.ReferenceIdeal.τ).loc Cert.ReferenceIdeal.main_arg2)) = _
    rw [(hagree c).1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
